-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x100 : Shape := ⟨2, ![128, 100]⟩
abbrev S100 : Shape := ⟨1, ![100]⟩
abbrev S100x100 : Shape := ⟨2, ![100, 100]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x100 : S_.BroadcastsInDim S128x100 (![] : Fin 0 → Fin S128x100.rank)
  reducesTo_S128x100_S_d0_1 : S128x100.ReducesTo [0, 1] S_
  bcast_S_S100 : S_.BroadcastsInDim S100 (![] : Fin 0 → Fin S100.rank)
  reducesTo_S100_S_d0 : S100.ReducesTo [0] S_
  bcast_S_S100x100 : S_.BroadcastsInDim S100x100 (![] : Fin 0 → Fin S100x100.rank)
  reducesTo_S100x100_S_d0_1 : S100x100.ReducesTo [0, 1] S_

variable [Facts]

def fn_part3 {F : FTy → Type} [FloatOps F] (main_arg12 : FVec F S100x100 .f32) (main_arg13 : FVec F S100 .f32) (main_v48 : IVec S_ 1) (main_v49 : FVec F S100 .f32) (main_v50 : FVec F S100 .f32) : IVec S_ 1 :=
  let main_v51 : IVec S100 1 := cmpf .olt main_v49 main_v50
  let main_c_19 : IVec S_ 1 := constantI S_ 1 1#1
  let main_v52 : IVec S_ 1 := (fun x v => Host.reduce IntOp.andi x v reducesTo_S100_S_d0 h_S_) main_v51 main_c_19
  let main_v53 : IVec S_ 1 := andi main_v48 main_v52
  let main_v54 : FVec F S100x100 .f32 := Host.absf main_arg12
  let main_cst_20 : FVec F S_ .f32 := constant S_ .f32 0x7F800000#32
  let main_v55 : FVec F S100x100 .f32 := broadcastInDim S100x100 ![] bcast_S_S100x100 main_cst_20
  let main_v56 : IVec S100x100 1 := cmpf .olt main_v54 main_v55
  let main_c_21 : IVec S_ 1 := constantI S_ 1 1#1
  let main_v57 : IVec S_ 1 := (fun x v => Host.reduce IntOp.andi x v reducesTo_S100x100_S_d0_1 h_S_) main_v56 main_c_21
  let main_v58 : IVec S_ 1 := andi main_v53 main_v57
  let main_v59 : FVec F S100 .f32 := Host.absf main_arg13
  let main_cst_22 : FVec F S_ .f32 := constant S_ .f32 0x7F800000#32
  let main_v60 : FVec F S100 .f32 := broadcastInDim S100 ![] bcast_S_S100 main_cst_22
  let main_v61 : IVec S100 1 := cmpf .olt main_v59 main_v60
  let main_c_23 : IVec S_ 1 := constantI S_ 1 1#1
  let main_v62 : IVec S_ 1 := (fun x v => Host.reduce IntOp.andi x v reducesTo_S100_S_d0 h_S_) main_v61 main_c_23
  let main_v63 : IVec S_ 1 := andi main_v58 main_v62
  main_v63

def fn_part2 {F : FTy → Type} [FloatOps F] (main_arg8 : FVec F S128x128 .f32) (main_arg9 : FVec F S128 .f32) (main_arg10 : FVec F S128x100 .f32) (main_arg11 : FVec F S100 .f32) (main_arg12 : FVec F S100x100 .f32) (main_arg13 : FVec F S100 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x100 .f32 := Host.absf main_arg10
  let main_cst_16 : FVec F S_ .f32 := constant S_ .f32 0x7F800000#32
  let main_v45 : FVec F S128x100 .f32 := broadcastInDim S128x100 ![] bcast_S_S128x100 main_cst_16
  let main_v46 : IVec S128x100 1 := cmpf .olt main_v44 main_v45
  let main_c_17 : IVec S_ 1 := constantI S_ 1 1#1
  let main_v47 : IVec S_ 1 := (fun x v => Host.reduce IntOp.andi x v reducesTo_S128x100_S_d0_1 h_S_) main_v46 main_c_17
  let main_v48 : IVec S_ 1 := andi main_v43 main_v47
  let main_v49 : FVec F S100 .f32 := Host.absf main_arg11
  let main_cst_18 : FVec F S_ .f32 := constant S_ .f32 0x7F800000#32
  let main_v50 : FVec F S100 .f32 := broadcastInDim S100 ![] bcast_S_S100 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x100 .f32) (main_arg11 : FVec F S100 .f32) (main_arg12 : FVec F S100x100 .f32) (main_arg13 : FVec F S100 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x100 .f32) (main_arg11 : FVec F S100 .f32) (main_arg12 : FVec F S100x100 .f32) (main_arg13 : FVec F S100 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x100 : Shape := ⟨2, ![128, 100]⟩
abbrev S100 : Shape := ⟨1, ![100]⟩
abbrev S100x100 : Shape := ⟨2, ![100, 100]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S2000x128 : Shape := ⟨2, ![2000, 128]⟩
abbrev S2000x1 : Shape := ⟨2, ![2000, 1]⟩
abbrev S1600000x128 : Shape := ⟨2, ![1600000, 128]⟩
abbrev S1x128 : Shape := ⟨2, ![1, 128]⟩
abbrev S100000x100 : Shape := ⟨2, ![100000, 100]⟩

abbrev nBuf : Space → Nat
  | .hbm => 134
  | .vmem => 96
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x100, .f32⟩
  | 11 => ⟨S100, .f32⟩
  | 12 => ⟨S100x100, .f32⟩
  | 13 => ⟨S100, .f32⟩
  | 14 => ⟨S1x1600000, .i32⟩
  | 15 => ⟨S1600000, .i32⟩
  | 16 => ⟨S1x1600000, .i32⟩
  | 17 => ⟨S1600000, .i32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S100000x1, .f32⟩
  | 29 => ⟨S100000x128, .f32⟩
  | 30 => ⟨S100000x128, .bf16⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x128, .bf16⟩
  | 40 => ⟨S1600000x128, .f32⟩
  | 41 => ⟨S_, .f32⟩
  | 42 => ⟨S100000x128, .f32⟩
  | 43 => ⟨S1600000x1, .i32⟩
  | 44 => ⟨S100000x128, .f32⟩
  | 45 => ⟨S1x128, .f32⟩
  | 46 => ⟨S100000x128, .f32⟩
  | 47 => ⟨S100000x128, .f32⟩
  | 48 => ⟨S100000x128, .bf16⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x128, .bf16⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S1x128, .f32⟩
  | 64 => ⟨S100000x128, .f32⟩
  | 65 => ⟨S100000x128, .f32⟩
  | 66 => ⟨S100000x128, .bf16⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x128, .bf16⟩
  | 76 => ⟨S1600000x128, .f32⟩
  | 77 => ⟨S_, .f32⟩
  | 78 => ⟨S100000x128, .f32⟩
  | 79 => ⟨S1600000x1, .i32⟩
  | 80 => ⟨S100000x128, .f32⟩
  | 81 => ⟨S1x128, .f32⟩
  | 82 => ⟨S100000x128, .f32⟩
  | 83 => ⟨S100000x128, .f32⟩
  | 84 => ⟨S100000x128, .bf16⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x128, .bf16⟩
  | 94 => ⟨S1600000x128, .f32⟩
  | 95 => ⟨S_, .f32⟩
  | 96 => ⟨S100000x128, .f32⟩
  | 97 => ⟨S1600000x1, .i32⟩
  | 98 => ⟨S100000x128, .f32⟩
  | 99 => ⟨S1x128, .f32⟩
  | 100 => ⟨S100000x128, .f32⟩
  | 101 => ⟨S_, .i32⟩
  | 102 => ⟨S_, .f32⟩
  | 103 => ⟨S128x128, .f32⟩
  | 104 => ⟨S_, .i32⟩
  | 105 => ⟨S_, .f32⟩
  | 106 => ⟨S128, .f32⟩
  | 107 => ⟨S_, .i32⟩
  | 108 => ⟨S_, .f32⟩
  | 109 => ⟨S128x128, .f32⟩
  | 110 => ⟨S_, .i32⟩
  | 111 => ⟨S_, .f32⟩
  | 112 => ⟨S128, .f32⟩
  | 113 => ⟨S100000x128, .f32⟩
  | 114 => ⟨S100000x128, .bf16⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x128, .bf16⟩
  | 124 => ⟨S1600000x128, .f32⟩
  | 125 => ⟨S_, .f32⟩
  | 126 => ⟨S100000x128, .f32⟩
  | 127 => ⟨S1600000x1, .i32⟩
  | _ => ⟨S100000x128, .f32⟩

abbrev hbmTy0_1 (i : Nat) : BufTy := match i % 128 with
  | 0 => ⟨S100000x128, .f32⟩
  | 1 => ⟨S1x128, .f32⟩
  | 2 => ⟨S100000x128, .f32⟩
  | 3 => ⟨S1x128, .f32⟩
  | 4 => ⟨S100000x128, .f32⟩
  | 5 => ⟨S100000x100, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .bf16⟩
  | .local _ .vmem, ⟨8, _⟩ => ⟨S2000x128, .bf16⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S2000x1, .f32⟩
  | .local _ .vmem, ⟨22, _⟩ => ⟨S2000x1, .f32⟩
  | .local _ .vmem, ⟨23, _⟩ => ⟨S2000x128, .f32⟩
  | .local _ .vmem, ⟨24, _⟩ => ⟨S2000x128, .f32⟩
  | .local _ .vmem, ⟨25, _⟩ => ⟨S2000x128, .bf16⟩
  | .local _ .vmem, ⟨26, _⟩ => ⟨S2000x128, .bf16⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x1, .f32⟩
  | .local _ .vmem, ⟨32, _⟩ => ⟨S2000x1, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x128, .f32⟩
  | .local _ .vmem, ⟨39, _⟩ => ⟨S2000x1, .f32⟩
  | .local _ .vmem, ⟨40, _⟩ => ⟨S2000x1, .f32⟩
  | .local _ .vmem, ⟨41, _⟩ => ⟨S2000x128, .f32⟩
  | .local _ .vmem, ⟨42, _⟩ => ⟨S2000x128, .f32⟩
  | .local _ .vmem, ⟨43, _⟩ => ⟨S2000x128, .bf16⟩
  | .local _ .vmem, ⟨44, _⟩ => ⟨S2000x128, .bf16⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x1, .f32⟩
  | .local _ .vmem, ⟨50, _⟩ => ⟨S2000x1, .f32⟩
  | .local _ .vmem, ⟨51, _⟩ => ⟨S1x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S128x128, .f32⟩
  | .local _ .vmem, ⟨57, _⟩ => ⟨S2000x1, .f32⟩
  | .local _ .vmem, ⟨58, _⟩ => ⟨S2000x1, .f32⟩
  | .local _ .vmem, ⟨59, _⟩ => ⟨S2000x128, .f32⟩
  | .local _ .vmem, ⟨60, _⟩ => ⟨S2000x128, .f32⟩
  | .local _ .vmem, ⟨61, _⟩ => ⟨S2000x128, .bf16⟩
  | .local _ .vmem, ⟨62, _⟩ => ⟨S2000x128, .bf16⟩
  | .local _ .vmem, ⟨63, _⟩ => ⟨S2000x128, .f32⟩
  | .local _ .vmem, ⟨64, _⟩ => ⟨S2000x128, .f32⟩
  | .local _ .vmem, ⟨65, _⟩ => ⟨S2000x128, .f32⟩
  | .local _ .vmem, ⟨66, _⟩ => ⟨S2000x128, .f32⟩
  | .local _ .vmem, ⟨67, _⟩ => ⟨S2000x1, .f32⟩
  | .local _ .vmem, ⟨68, _⟩ => ⟨S2000x1, .f32⟩
  | .local _ .vmem, ⟨69, _⟩ => ⟨S1x128, .f32⟩
  | .local _ .vmem, ⟨70, _⟩ => ⟨S2000x128, .f32⟩
  | .local _ .vmem, ⟨71, _⟩ => ⟨S2000x128, .f32⟩
  | .local _ .vmem, ⟨72, _⟩ => ⟨S2000x128, .f32⟩
  | .local _ .vmem, ⟨73, _⟩ => ⟨S2000x128, .f32⟩
  | .local _ .vmem, ⟨74, _⟩ => ⟨S128x128, .f32⟩
  | .local _ .vmem, ⟨75, _⟩ => ⟨S2000x1, .f32⟩
  | .local _ .vmem, ⟨76, _⟩ => ⟨S2000x1, .f32⟩
  | .local _ .vmem, ⟨77, _⟩ => ⟨S2000x128, .f32⟩
  | .local _ .vmem, ⟨78, _⟩ => ⟨S2000x128, .f32⟩
  | .local _ .vmem, ⟨79, _⟩ => ⟨S2000x128, .bf16⟩
  | .local _ .vmem, ⟨80, _⟩ => ⟨S2000x128, .bf16⟩
  | .local _ .vmem, ⟨81, _⟩ => ⟨S2000x128, .f32⟩
  | .local _ .vmem, ⟨82, _⟩ => ⟨S2000x128, .f32⟩
  | .local _ .vmem, ⟨83, _⟩ => ⟨S2000x128, .f32⟩
  | .local _ .vmem, ⟨84, _⟩ => ⟨S2000x128, .f32⟩
  | .local _ .vmem, ⟨85, _⟩ => ⟨S2000x1, .f32⟩
  | .local _ .vmem, ⟨86, _⟩ => ⟨S2000x1, .f32⟩
  | .local _ .vmem, ⟨87, _⟩ => ⟨S1x128, .f32⟩
  | .local _ .vmem, ⟨88, _⟩ => ⟨S2000x128, .f32⟩
  | .local _ .vmem, ⟨89, _⟩ => ⟨S2000x128, .f32⟩
  | .local _ .vmem, ⟨90, _⟩ => ⟨S2000x128, .f32⟩
  | .local _ .vmem, ⟨91, _⟩ => ⟨S2000x128, .f32⟩
  | .local _ .vmem, ⟨92, _⟩ => ⟨S128x128, .f32⟩
  | .local _ .vmem, ⟨93, _⟩ => ⟨S1x128, .f32⟩
  | .local _ .vmem, ⟨94, _⟩ => ⟨S2000x128, .f32⟩
  | .local _ .vmem, ⟨95, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | _, _ => false

abbrev semScoped : Fin 0 → Bool
  | ⟨_, h⟩ => absurd h (Nat.not_lt_zero _)

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  ofTc nBuf bufTy 0 96 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12_0 : Ref sig .tc := ⟨.hbm, 29, rfl⟩
abbrev main_v12_1 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26_0 : Ref sig .tc := ⟨.hbm, 47, rfl⟩
abbrev main_v26_1 : Ref sig .tc := ⟨.hbm, 48, rfl⟩
abbrev main_c_4 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40_0 : Ref sig .tc := ⟨.hbm, 65, rfl⟩
abbrev main_v40_1 : Ref sig .tc := ⟨.hbm, 66, rfl⟩
abbrev main_c_7 : Ref sig .tc := ⟨.hbm, 67, rfl⟩
abbrev main_v41 : Ref sig .tc := ⟨.hbm, 68, rfl⟩
abbrev main_v42 : Ref sig .tc := ⟨.hbm, 69, rfl⟩
abbrev main_c_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54_0 : Ref sig .tc := ⟨.hbm, 83, rfl⟩
abbrev main_v54_1 : Ref sig .tc := ⟨.hbm, 84, rfl⟩
abbrev main_c_10 : Ref sig .tc := ⟨.hbm, 85, rfl⟩
abbrev main_v55 : Ref sig .tc := ⟨.hbm, 86, rfl⟩
abbrev main_v56 : Ref sig .tc := ⟨.hbm, 87, rfl⟩
abbrev main_c_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_13 : Ref sig .tc := ⟨.hbm, 101, rfl⟩
abbrev main_call0_v0 : Ref sig .tc := ⟨.hbm, 102, rfl⟩
abbrev main_v68 : Ref sig .tc := ⟨.hbm, 103, rfl⟩
abbrev main_c_14 : Ref sig .tc := ⟨.hbm, 104, rfl⟩
abbrev main_call1_v0 : Ref sig .tc := ⟨.hbm, 105, rfl⟩
abbrev main_v69 : Ref sig .tc := ⟨.hbm, 106, rfl⟩
abbrev main_c_15 : Ref sig .tc := ⟨.hbm, 107, rfl⟩
abbrev main_call2_v0 : Ref sig .tc := ⟨.hbm, 108, rfl⟩
abbrev main_v70 : Ref sig .tc := ⟨.hbm, 109, rfl⟩
abbrev main_c_16 : Ref sig .tc := ⟨.hbm, 110, rfl⟩
abbrev main_call3_v0 : Ref sig .tc := ⟨.hbm, 111, rfl⟩
abbrev main_v71 : Ref sig .tc := ⟨.hbm, 112, rfl⟩
abbrev main_v72_0 : Ref sig .tc := ⟨.hbm, 113, rfl⟩
abbrev main_v72_1 : Ref sig .tc := ⟨.hbm, 114, rfl⟩
abbrev main_c_17 : Ref sig .tc := ⟨.hbm, 115, rfl⟩
abbrev main_v73 : Ref sig .tc := ⟨.hbm, 116, rfl⟩
abbrev main_v74 : Ref sig .tc := ⟨.hbm, 117, rfl⟩
abbrev main_c_18 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_19 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg3_1 : Ref sig .tc := ⟨.vmem, 42, rfl⟩
abbrev cc4_stg4_0 : Ref sig .tc := ⟨.vmem, 43, rfl⟩
abbrev cc4_stg4_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg4_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg2_1 : Ref sig .tc := ⟨.vmem, 58, rfl⟩
abbrev cc6_stg3_0 : Ref sig .tc := ⟨.vmem, 59, rfl⟩
abbrev cc6_stg3_1 : Ref sig .tc := ⟨.vmem, 60, rfl⟩
abbrev cc6_stg4_0 : Ref sig .tc := ⟨.vmem, 61, rfl⟩
abbrev cc6_stg4_1 : Ref sig .tc := ⟨.vmem, 62, rfl⟩
abbrev cc7_stg0_0 : Ref sig .tc := ⟨.vmem, 63, rfl⟩
abbrev cc7_stg0_1 : Ref sig .tc := ⟨.vmem, 64, rfl⟩
abbrev cc7_stg1_0 : Ref sig .tc := ⟨.vmem, 65, rfl⟩
abbrev cc7_stg1_1 : Ref sig .tc := ⟨.vmem, 66, rfl⟩
abbrev cc7_stg2_0 : Ref sig .tc := ⟨.vmem, 67, rfl⟩
abbrev cc7_stg2_1 : Ref sig .tc := ⟨.vmem, 68, rfl⟩
abbrev cc7_stg3_0 : Ref sig .tc := ⟨.vmem, 69, rfl⟩
abbrev cc7_stg4_0 : Ref sig .tc := ⟨.vmem, 70, rfl⟩
abbrev cc7_stg4_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg2_0 : Ref sig .tc := ⟨.vmem, 75, rfl⟩
abbrev cc8_stg2_1 : Ref sig .tc := ⟨.vmem, 76, rfl⟩
abbrev cc8_stg3_0 : Ref sig .tc := ⟨.vmem, 77, rfl⟩
abbrev cc8_stg3_1 : Ref sig .tc := ⟨.vmem, 78, rfl⟩
abbrev cc8_stg4_0 : Ref sig .tc := ⟨.vmem, 79, rfl⟩
abbrev cc8_stg4_1 : Ref sig .tc := ⟨.vmem, 80, rfl⟩
abbrev cc9_stg0_0 : Ref sig .tc := ⟨.vmem, 81, rfl⟩
abbrev cc9_stg0_1 : Ref sig .tc := ⟨.vmem, 82, rfl⟩
abbrev cc9_stg1_0 : Ref sig .tc := ⟨.vmem, 83, rfl⟩
abbrev cc9_stg1_1 : Ref sig .tc := ⟨.vmem, 84, rfl⟩
abbrev cc9_stg2_0 : Ref sig .tc := ⟨.vmem, 85, rfl⟩
abbrev cc9_stg2_1 : Ref sig .tc := ⟨.vmem, 86, rfl⟩
abbrev cc9_stg3_0 : Ref sig .tc := ⟨.vmem, 87, rfl⟩
abbrev cc9_stg4_0 : Ref sig .tc := ⟨.vmem, 88, rfl⟩
abbrev cc9_stg4_1 : Ref sig .tc := ⟨.vmem, 89, rfl⟩
abbrev cc10_stg0_0 : Ref sig .tc := ⟨.vmem, 90, rfl⟩
abbrev cc10_stg0_1 : Ref sig .tc := ⟨.vmem, 91, rfl⟩
abbrev cc10_stg1_0 : Ref sig .tc := ⟨.vmem, 92, rfl⟩
abbrev cc10_stg2_0 : Ref sig .tc := ⟨.vmem, 93, rfl⟩
abbrev cc10_stg3_0 : Ref sig .tc := ⟨.vmem, 94, rfl⟩
abbrev cc10_stg3_1 : Ref sig .tc := ⟨.vmem, 95, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc4_sem3_0 : DmaSem sig := 41
abbrev cc4_sem3_1 : DmaSem sig := 42
abbrev cc4_sem4_0 : DmaSem sig := 43
abbrev cc4_sem4_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50
abbrev cc5_sem3_0 : DmaSem sig := 51
abbrev cc5_sem4_0 : DmaSem sig := 52
abbrev cc5_sem4_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem2_1 : DmaSem sig := 58
abbrev cc6_sem3_0 : DmaSem sig := 59
abbrev cc6_sem3_1 : DmaSem sig := 60
abbrev cc6_sem4_0 : DmaSem sig := 61
abbrev cc6_sem4_1 : DmaSem sig := 62
abbrev cc7_sem0_0 : DmaSem sig := 63
abbrev cc7_sem0_1 : DmaSem sig := 64
abbrev cc7_sem1_0 : DmaSem sig := 65
abbrev cc7_sem1_1 : DmaSem sig := 66
abbrev cc7_sem2_0 : DmaSem sig := 67
abbrev cc7_sem2_1 : DmaSem sig := 68
abbrev cc7_sem3_0 : DmaSem sig := 69
abbrev cc7_sem4_0 : DmaSem sig := 70
abbrev cc7_sem4_1 : DmaSem sig := 71
abbrev cc8_sem0_0 : DmaSem sig := 72
abbrev cc8_sem0_1 : DmaSem sig := 73
abbrev cc8_sem1_0 : DmaSem sig := 74
abbrev cc8_sem2_0 : DmaSem sig := 75
abbrev cc8_sem2_1 : DmaSem sig := 76
abbrev cc8_sem3_0 : DmaSem sig := 77
abbrev cc8_sem3_1 : DmaSem sig := 78
abbrev cc8_sem4_0 : DmaSem sig := 79
abbrev cc8_sem4_1 : DmaSem sig := 80
abbrev cc9_sem0_0 : DmaSem sig := 81
abbrev cc9_sem0_1 : DmaSem sig := 82
abbrev cc9_sem1_0 : DmaSem sig := 83
abbrev cc9_sem1_1 : DmaSem sig := 84
abbrev cc9_sem2_0 : DmaSem sig := 85
abbrev cc9_sem2_1 : DmaSem sig := 86
abbrev cc9_sem3_0 : DmaSem sig := 87
abbrev cc9_sem4_0 : DmaSem sig := 88
abbrev cc9_sem4_1 : DmaSem sig := 89
abbrev cc10_sem0_0 : DmaSem sig := 90
abbrev cc10_sem0_1 : DmaSem sig := 91
abbrev cc10_sem1_0 : DmaSem sig := 92
abbrev cc10_sem2_0 : DmaSem sig := 93
abbrev cc10_sem3_0 : DmaSem sig := 94
abbrev cc10_sem3_1 : DmaSem sig := 95

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x128 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S2000x128 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S2000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S2000x128 .bf16 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S2000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S2000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![50], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S2000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  pads_S128x100_S128x128_000_0280 : S128x100.Pads (![0, 0] : Fin 2 → Nat) ![0, 28] ![0, 0] S128x128
  h_S_ : 0 < S_.numel
  pads_S100_S128_0280 : S100.Pads (![0] : Fin 1 → Nat) ![28] ![0] S128
  pads_S100x100_S128x128_0280_0280 : S100x100.Pads (![0, 0] : Fin 2 → Nat) ![28, 28] ![0, 0] S128x128
  shapeCasts_S128x128_S128x128 : S128x128.ShapeCasts S128x128
  slices_S100000x128_S100000x100_0_0 : S100000x128.Slices ![0, 0] S100000x100
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .bf16 = 32 ∨ (Rect.block (s := S100000x128) S2000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S100000x128.size a
  hwx2_4 : ∀ i : grid2.Coords, EltTy.bits .bf16 = 32 ∨ (Rect.block (s := S100000x128) S2000x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S100000x1.size a
  hwx4_2 : ∀ i : grid4.Coords, EltTy.bits .f32 = 32 ∨ (Rect.block (s := S100000x1) S2000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S100000x128.size a
  hwx4_3 : ∀ i : grid4.Coords, EltTy.bits .f32 = 32 ∨ (Rect.block (s := S100000x128) S2000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S100000x128.size a
  hwx4_4 : ∀ i : grid4.Coords, EltTy.bits .bf16 = 32 ∨ (Rect.block (s := S100000x128) S2000x128.size (cc4_transform_4 i) (hinb4_4 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S100000x128.size a
  hwx5_1 : ∀ i : grid5.Coords, EltTy.bits .f32 = 32 ∨ (Rect.block (s := S100000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S100000x1.size a
  hwx5_2 : ∀ i : grid5.Coords, EltTy.bits .f32 = 32 ∨ (Rect.block (s := S100000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S100000x128.size a
  hwx5_4 : ∀ i : grid5.Coords, EltTy.bits .f32 = 32 ∨ (Rect.block (s := S100000x128) S2000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S100000x1.size a
  hwx6_2 : ∀ i : grid6.Coords, EltTy.bits .f32 = 32 ∨ (Rect.block (s := S100000x1) S2000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S100000x128.size a
  hwx6_3 : ∀ i : grid6.Coords, EltTy.bits .f32 = 32 ∨ (Rect.block (s := S100000x128) S2000x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x128.size a ≤ S100000x128.size a
  hwx6_4 : ∀ i : grid6.Coords, EltTy.bits .bf16 = 32 ∨ (Rect.block (s := S100000x128) S2000x128.size (cc6_transform_4 i) (hinb6_4 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S100000x128.size a
  hwx7_0 : ∀ i : grid7.Coords, EltTy.bits .f32 = 32 ∨ (Rect.block (s := S100000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S100000x128.size a
  hwx7_1 : ∀ i : grid7.Coords, EltTy.bits .f32 = 32 ∨ (Rect.block (s := S100000x128) S2000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S100000x1.size a
  hwx7_2 : ∀ i : grid7.Coords, EltTy.bits .f32 = 32 ∨ (Rect.block (s := S100000x1) S2000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x128.size a ≤ S100000x128.size a
  hwx7_4 : ∀ i : grid7.Coords, EltTy.bits .f32 = 32 ∨ (Rect.block (s := S100000x128) S2000x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S100000x128.size a
  hwx8_0 : ∀ i : grid8.Coords, EltTy.bits .f32 = 32 ∨ (Rect.block (s := S100000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x1.size a ≤ S100000x1.size a
  hwx8_2 : ∀ i : grid8.Coords, EltTy.bits .f32 = 32 ∨ (Rect.block (s := S100000x1) S2000x1.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x128.size a ≤ S100000x128.size a
  hwx8_3 : ∀ i : grid8.Coords, EltTy.bits .f32 = 32 ∨ (Rect.block (s := S100000x128) S2000x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S2000x128.size a ≤ S100000x128.size a
  hwx8_4 : ∀ i : grid8.Coords, EltTy.bits .bf16 = 32 ∨ (Rect.block (s := S100000x128) S2000x128.size (cc8_transform_4 i) (hinb8_4 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S100000x128.size a
  hwx9_0 : ∀ i : grid9.Coords, EltTy.bits .f32 = 32 ∨ (Rect.block (s := S100000x128) S2000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x128.size a ≤ S100000x128.size a
  hwx9_1 : ∀ i : grid9.Coords, EltTy.bits .f32 = 32 ∨ (Rect.block (s := S100000x128) S2000x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x1.size a ≤ S100000x1.size a
  hwx9_2 : ∀ i : grid9.Coords, EltTy.bits .f32 = 32 ∨ (Rect.block (s := S100000x1) S2000x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S2000x128.size a ≤ S100000x128.size a
  hwx9_4 : ∀ i : grid9.Coords, EltTy.bits .f32 = 32 ∨ (Rect.block (s := S100000x128) S2000x128.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S100000x128.size a
  hwx10_0 : ∀ i : grid10.Coords, EltTy.bits .f32 = 32 ∨ (Rect.block (s := S100000x128) S2000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2000x128.size a ≤ S100000x128.size a
  hwx10_3 : ∀ i : grid10.Coords, EltTy.bits .f32 = 32 ∨ (Rect.block (s := S100000x128) S2000x128.size (cc10_transform_3 i) (hinb10_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v23) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v25) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v26_0) S2000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v26_1) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v37) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26_0) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v38) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v39) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v39) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v11) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v40_0) S2000x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v40_1) S2000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v51) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v40_0) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v11) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v52) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v53) S2000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v53) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v11) S2000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v54_0) S2000x128.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v54_1) S2000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v65) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v54_0) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v11) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v66) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v67) S2000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v67) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v68) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v11) S2000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v72_0) S2000x128.size cc8_transform_3 reads8_3 true false 2 stage8_3 sem8_3
    hrank8 hreads8_3 hinb8_3 nbuf8_3 (Memref.isWhole_whole _) hwx8_3 hstage8_3

abbrev win8_4 : Pipeline.Window sig grid8 :=
  Pipeline.Window.ofSpec (Memref.whole main_v72_1) S2000x128.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v83) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v72_0) S2000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v11) S2000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v84) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v85) S2000x128.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v85) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v70) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v86) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v87) S2000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x100 : Shape := ⟨2, ![128, 100]⟩
abbrev S100 : Shape := ⟨1, ![100]⟩
abbrev S100x100 : Shape := ⟨2, ![100, 100]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x100 : Shape := ⟨2, ![100000, 100]⟩
abbrev S1600000x100 : Shape := ⟨2, ![1600000, 100]⟩
abbrev S1x100 : Shape := ⟨2, ![1, 100]⟩

abbrev nBuf : Space → Nat
  | .hbm => 255
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x100, .f32⟩
  | 11 => ⟨S100, .f32⟩
  | 12 => ⟨S100x100, .f32⟩
  | 13 => ⟨S100, .f32⟩
  | 14 => ⟨S1x1600000, .i32⟩
  | 15 => ⟨S1600000, .i32⟩
  | 16 => ⟨S1x1600000, .i32⟩
  | 17 => ⟨S1600000, .i32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S100000x128, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000, .f32⟩
  | 56 => ⟨S1600000, .f32⟩
  | 57 => ⟨S1600000x1, .f32⟩
  | 58 => ⟨S1600000x128, .f32⟩
  | 59 => ⟨S1600000x128, .f32⟩
  | 60 => ⟨S_, .f32⟩
  | 61 => ⟨S100000x128, .f32⟩
  | 62 => ⟨S1600000x1, .i32⟩
  | 63 => ⟨S100000x128, .f32⟩
  | 64 => ⟨S100000, .f32⟩
  | 65 => ⟨S100000x1, .f32⟩
  | 66 => ⟨S100000x128, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x128, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x128, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000, .f32⟩
  | 103 => ⟨S1600000, .f32⟩
  | 104 => ⟨S1600000x1, .f32⟩
  | 105 => ⟨S1600000x128, .f32⟩
  | 106 => ⟨S1600000x128, .f32⟩
  | 107 => ⟨S_, .f32⟩
  | 108 => ⟨S100000x128, .f32⟩
  | 109 => ⟨S1600000x1, .i32⟩
  | 110 => ⟨S100000x128, .f32⟩
  | 111 => ⟨S100000, .f32⟩
  | 112 => ⟨S100000x1, .f32⟩
  | 113 => ⟨S100000x128, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S100000x128, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x128, .f32⟩

abbrev hbmTy0_1 (i : Nat) : BufTy := match i % 128 with
  | 0 => ⟨S1600000x128, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000, .f32⟩
  | 19 => ⟨S1600000, .f32⟩
  | 20 => ⟨S1600000x1, .f32⟩
  | 21 => ⟨S1600000x128, .f32⟩
  | 22 => ⟨S1600000x128, .f32⟩
  | 23 => ⟨S_, .f32⟩
  | 24 => ⟨S100000x128, .f32⟩
  | 25 => ⟨S1600000x1, .i32⟩
  | 26 => ⟨S100000x128, .f32⟩
  | 27 => ⟨S100000, .f32⟩
  | 28 => ⟨S100000x1, .f32⟩
  | 29 => ⟨S100000x128, .f32⟩
  | 30 => ⟨S100000x128, .f32⟩
  | 31 => ⟨S100000x128, .f32⟩
  | 32 => ⟨S1x128, .f32⟩
  | 33 => ⟨S100000x128, .f32⟩
  | 34 => ⟨S100000x128, .f32⟩
  | 35 => ⟨S100000x128, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x128, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000, .f32⟩
  | 63 => ⟨S1600000, .f32⟩
  | 64 => ⟨S1600000x1, .f32⟩
  | 65 => ⟨S1600000x128, .f32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S100000, .f32⟩
  | 72 => ⟨S100000x1, .f32⟩
  | 73 => ⟨S100000x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S100000x100, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x100, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000, .f32⟩
  | 107 => ⟨S1600000, .f32⟩
  | 108 => ⟨S1600000x1, .f32⟩
  | 109 => ⟨S1600000x100, .f32⟩
  | 110 => ⟨S1600000x100, .f32⟩
  | 111 => ⟨S_, .f32⟩
  | 112 => ⟨S100000x100, .f32⟩
  | 113 => ⟨S1600000x1, .i32⟩
  | 114 => ⟨S100000x100, .f32⟩
  | 115 => ⟨S100000, .f32⟩
  | 116 => ⟨S100000x1, .f32⟩
  | 117 => ⟨S100000x100, .f32⟩
  | 118 => ⟨S100000x100, .f32⟩
  | 119 => ⟨S100000x100, .f32⟩
  | 120 => ⟨S1x100, .f32⟩
  | 121 => ⟨S100000x100, .f32⟩
  | 122 => ⟨S100000x100, .f32⟩
  | 123 => ⟨S100000x100, .f32⟩
  | 124 => ⟨S1x100, .f32⟩
  | 125 => ⟨S100000x100, .f32⟩
  | 126 => ⟨S100000x100, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call0_cst : Ref sig .tc := ⟨.hbm, 72, rfl⟩
abbrev main_call0_v0 : Ref sig .tc := ⟨.hbm, 73, rfl⟩
abbrev main_v48 : Ref sig .tc := ⟨.hbm, 74, rfl⟩
abbrev main_v49 : Ref sig .tc := ⟨.hbm, 75, rfl⟩
abbrev main_c_8 : Ref sig .tc := ⟨.hbm, 76, rfl⟩
abbrev main_v50 : Ref sig .tc := ⟨.hbm, 77, rfl⟩
abbrev main_v51 : Ref sig .tc := ⟨.hbm, 78, rfl⟩
abbrev main_c_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_10 : Ref sig .tc := ⟨.hbm, 85, rfl⟩
abbrev main_v57 : Ref sig .tc := ⟨.hbm, 86, rfl⟩
abbrev main_v58 : Ref sig .tc := ⟨.hbm, 87, rfl⟩
abbrev main_c_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_12 : Ref sig .tc := ⟨.hbm, 94, rfl⟩
abbrev main_v64 : Ref sig .tc := ⟨.hbm, 95, rfl⟩
abbrev main_v65 : Ref sig .tc := ⟨.hbm, 96, rfl⟩
abbrev main_c_13 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_14 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_c_15 : Ref sig .tc := ⟨.hbm, 120, rfl⟩
abbrev main_v87 : Ref sig .tc := ⟨.hbm, 121, rfl⟩
abbrev main_v88 : Ref sig .tc := ⟨.hbm, 122, rfl⟩
abbrev main_c_16 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_c_17 : Ref sig .tc := ⟨.hbm, 129, rfl⟩
abbrev main_v94 : Ref sig .tc := ⟨.hbm, 130, rfl⟩
abbrev main_v95 : Ref sig .tc := ⟨.hbm, 131, rfl⟩
abbrev main_c_18 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_c_19 : Ref sig .tc := ⟨.hbm, 138, rfl⟩
abbrev main_v101 : Ref sig .tc := ⟨.hbm, 139, rfl⟩
abbrev main_v102 : Ref sig .tc := ⟨.hbm, 140, rfl⟩
abbrev main_c_20 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_21 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_c_22 : Ref sig .tc := ⟨.hbm, 164, rfl⟩
abbrev main_v124 : Ref sig .tc := ⟨.hbm, 165, rfl⟩
abbrev main_v125 : Ref sig .tc := ⟨.hbm, 166, rfl⟩
abbrev main_c_23 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_c_24 : Ref sig .tc := ⟨.hbm, 173, rfl⟩
abbrev main_v131 : Ref sig .tc := ⟨.hbm, 174, rfl⟩
abbrev main_v132 : Ref sig .tc := ⟨.hbm, 175, rfl⟩
abbrev main_c_25 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_c_26 : Ref sig .tc := ⟨.hbm, 182, rfl⟩
abbrev main_v138 : Ref sig .tc := ⟨.hbm, 183, rfl⟩
abbrev main_v139 : Ref sig .tc := ⟨.hbm, 184, rfl⟩
abbrev main_c_27 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_cst_28 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_c_29 : Ref sig .tc := ⟨.hbm, 208, rfl⟩
abbrev main_v161 : Ref sig .tc := ⟨.hbm, 209, rfl⟩
abbrev main_v162 : Ref sig .tc := ⟨.hbm, 210, rfl⟩
abbrev main_c_30 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_c_31 : Ref sig .tc := ⟨.hbm, 217, rfl⟩
abbrev main_v168 : Ref sig .tc := ⟨.hbm, 218, rfl⟩
abbrev main_v169 : Ref sig .tc := ⟨.hbm, 219, rfl⟩
abbrev main_c_32 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_c_33 : Ref sig .tc := ⟨.hbm, 226, rfl⟩
abbrev main_v175 : Ref sig .tc := ⟨.hbm, 227, rfl⟩
abbrev main_v176 : Ref sig .tc := ⟨.hbm, 228, rfl⟩
abbrev main_c_34 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_cst_35 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x100_0_1 : S1600000x1.BroadcastsInDim S1600000x100 (![0, 1] : Fin 2 → Fin S1600000x100.rank)
  bcast_S_S100000x100 : S_.BroadcastsInDim S100000x100 (![] : Fin 0 → Fin S100000x100.rank)
  bcast_S100000x1_S100000x100_0_1 : S100000x1.BroadcastsInDim S100000x100 (![0, 1] : Fin 2 → Fin S100000x100.rank)
  bcast_S100_S1x100_1 : S100.BroadcastsInDim S1x100 (![1] : Fin 1 → Fin S1x100.rank)
  bcast_S1x100_S100000x100_0_1 : S1x100.BroadcastsInDim S100000x100 (![0, 1] : Fin 2 → Fin S100000x100.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  gather_S100000_S1600000x1_S1600000_n_0_n_n_0_1_1_wf : GatherDims.WF S100000 S1600000x1 S1600000 [] [0] [] [0] [] 1 ![1]
  scatter_S100000x128_S1600000x1_S1600000x128_1_0_0_1_wf : ScatterDims.WF S100000x128 S1600000x1 S1600000x128 [1] [0] [0] 1
  dot_S100000x128_S128x100_S100000x100_1_0_0_1_n_n_wf : DotDims.WF S100000x128 S128x100 S100000x100 [1] [0] [0] [1] [] []
  gather_S100000x100_S1600000x1_S1600000x100_1_0_n_n_0_1_1100_wf : GatherDims.WF S100000x100 S1600000x1 S1600000x100 [1] [0] [] [0] [] 1 ![1, 100]
  scatter_S100000x100_S1600000x1_S1600000x100_1_0_0_1_wf : ScatterDims.WF S100000x100 S1600000x1 S1600000x100 [1] [0] [0] 1
  dot_S100000x100_S100x100_S100000x100_1_0_0_1_n_n_wf : DotDims.WF S100000x100 S100x100 S100000x100 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x100_S100000x100_1_0_0_1_n_n : DotDims S100000x128 S128x100 S100000x100 where
  lhsContracting := [1]
  rhsContracting := [0]
  lhsNonContracting := [0]
  rhsNonContracting := [1]
  lhsBatch := []
  rhsBatch := []
  wf := dot_S100000x128_S128x100_S100000x100_1_0_0_1_n_n_wf
def gather_S100000x100_S1600000x1_S1600000x100_1_0_n_n_0_1_1100 : GatherDims S100000x100 S1600000x1 S1600000x100 where
  offsetDims := [1]
  collapsedSliceDims := [0]
  operandBatchingDims := []
  startIndicesBatchingDims := []
  startIndexMap := [0]
  indexVectorDim := 1
  sliceSizes := ![1, 100]
  wf := gather_S100000x100_S1600000x1_S1600000x100_1_0_n_n_0_1_1100_wf
def scatter_S100000x100_S1600000x1_S1600000x100_1_0_0_1 : ScatterDims S100000x100 S1600000x1 S1600000x100 where
  updateWindowDims := [1]
  insertedWindowDims := [0]
  scatterDimsToOperandDims := [0]
  indexVectorDim := 1
  wf := scatter_S100000x100_S1600000x1_S1600000x100_1_0_0_1_wf
def dot_S100000x100_S100x100_S100000x100_1_0_0_1_n_n : DotDims S100000x100 S100x100 S100000x100 where
  lhsContracting := [1]
  rhsContracting := [0]
  lhsNonContracting := [0]
  rhsNonContracting := [1]
  lhsBatch := []
  rhsBatch := []
  wf := dot_S100000x100_S100x100_S100000x100_1_0_0_1_n_n_wf

class Facts : Prop extends Facts₀ where

variable [Facts]
-- ==== Proof.KRun.lean ====
/-
  The idealized kernel's run with its result named: every weakly fair execution of @main ends with the result array at
  the contents the chain of segments leaves there (host stretches applied in order, each kernel region replacing its
  output arrays by what its grid points wrote back), and with every argument array as launched.
-/
import proofs.«108103_j9363028705695_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last boundary's
    contents and the argument arrays end as launched. -/
theorem run_main : θ_run defs (onTc (τ := τ) (main (F := F))) ⟨m, fun _ => 0, ρ⟩ (fun r => ∀ c : Dev nD,
      r.2.mem ((c.tc : Thread nD τ).loc main_v88) = W27 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m ρ c b)
    (hfin := fun c s' => by
      iintro ⟨⟨Hh, -⟩, HSI⟩
      unfold StableHlo.held
      imodintro
      iapply (pointsTo_read_all (Pipeline.ucRefs τ sig) (fun b => (((c : Thread nD τ)).1, b)) (W27 m ρ c) s')
      isplitl [Hh] <;> iassumption)
    (hQ := fun s h c =>
      ⟨h c _ (mem_uc main_v88 (by decide)),
       (h c _ (mem_uc main_arg0 (by decide))).trans (W27_main_arg0 m ρ c),
       (h c _ (mem_uc main_arg1 (by decide))).trans (W27_main_arg1 m ρ c),
       (h c _ (mem_uc main_arg2 (by decide))).trans (W27_main_arg2 m ρ c),
       (h c _ (mem_uc main_arg3 (by decide))).trans (W27_main_arg3 m ρ c),
       (h c _ (mem_uc main_arg4 (by decide))).trans (W27_main_arg4 m ρ c),
       (h c _ (mem_uc main_arg5 (by decide))).trans (W27_main_arg5 m ρ c),
       (h c _ (mem_uc main_arg6 (by decide))).trans (W27_main_arg6 m ρ c),
       (h c _ (mem_uc main_arg7 (by decide))).trans (W27_main_arg7 m ρ c),
       (h c _ (mem_uc main_arg8 (by decide))).trans (W27_main_arg8 m ρ c),
       (h c _ (mem_uc main_arg9 (by decide))).trans (W27_main_arg9 m ρ c),
       (h c _ (mem_uc main_arg10 (by decide))).trans (W27_main_arg10 m ρ c),
       (h c _ (mem_uc main_arg11 (by decide))).trans (W27_main_arg11 m ρ c),
       (h c _ (mem_uc main_arg12 (by decide))).trans (W27_main_arg12 m ρ c),
       (h c _ (mem_uc main_arg13 (by decide))).trans (W27_main_arg13 m ρ c)⟩)

end Cert.KernelIdeal.ValueRun

end
-- ==== Proof.KWalk.lean ====
/-
  Buffers carried across the segments of @main.

  A buffer that a stretch of host operations does not write holds after the stretch what it held before; a buffer that
  is not one of a kernel region's arrays, or is one of its INPUT arrays, holds after the region what it held before.
  Each lemma below walks one buffer back over the segments between the boundary where it is read and the boundary where
  it was written (or the launch), one such step per segment.
-/
import proofs.«108103_j9363028705695_2_alg».proof.Proof.Gen.KernelIdeal.Frame

set_option maxRecDepth 16384

noncomputable section

namespace Cert.KernelIdeal.Carried

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- A buffer none of a stretch's operations writes is unchanged by the stretch. -/
macro "keeps_host " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem keep_main_v1_2_1 (c : Dev nD) : W2 m ρ c (Proc.devRef .tc main_v1) = W1 m ρ c (Proc.devRef .tc main_v1) :=
  calc W2 m ρ c (Proc.devRef .tc main_v1)
    _ = W1 m ρ c (Proc.devRef .tc main_v1) := by exact W2_of_ne m ρ c main_v1 (by decide)

theorem keep_main_v1_5_2 (c : Dev nD) : W5 m ρ c (Proc.devRef .tc main_v1) = W2 m ρ c (Proc.devRef .tc main_v1) :=
  calc W5 m ρ c (Proc.devRef .tc main_v1)
    _ = W4 m ρ c (Proc.devRef .tc main_v1) := by exact W5_of_ne m ρ c main_v1 (by decide)
    _ = W3 m ρ c (Proc.devRef .tc main_v1) := by exact W4_of_ne m ρ c main_v1 (by decide)
    _ = W2 m ρ c (Proc.devRef .tc main_v1) := by keeps_host hostOps1

theorem keep_main_v1_8_5 (c : Dev nD) : W8 m ρ c (Proc.devRef .tc main_v1) = W5 m ρ c (Proc.devRef .tc main_v1) :=
  calc W8 m ρ c (Proc.devRef .tc main_v1)
    _ = W7 m ρ c (Proc.devRef .tc main_v1) := by exact W8_of_ne m ρ c main_v1 (by decide)
    _ = W6 m ρ c (Proc.devRef .tc main_v1) := by exact W7_of_ne m ρ c main_v1 (by decide)
    _ = W5 m ρ c (Proc.devRef .tc main_v1) := by keeps_host hostOps3

theorem keep_main_v1_11_8 (c : Dev nD) : W11 m ρ c (Proc.devRef .tc main_v1) = W8 m ρ c (Proc.devRef .tc main_v1) :=
  calc W11 m ρ c (Proc.devRef .tc main_v1)
    _ = W10 m ρ c (Proc.devRef .tc main_v1) := by exact W11_of_ne m ρ c main_v1 (by decide)
    _ = W9 m ρ c (Proc.devRef .tc main_v1) := by exact W10_of_ne m ρ c main_v1 (by decide)
    _ = W8 m ρ c (Proc.devRef .tc main_v1) := by keeps_host hostOps5

theorem keep_main_v1_22_11 (c : Dev nD) : W22 m ρ c (Proc.devRef .tc main_v1) = W11 m ρ c (Proc.devRef .tc main_v1) :=
  calc W22 m ρ c (Proc.devRef .tc main_v1)
    _ = W21 m ρ c (Proc.devRef .tc main_v1) := by exact W22_of_ne m ρ c main_v1 (by decide)
    _ = W20 m ρ c (Proc.devRef .tc main_v1) := by keeps_host hostOps8_7
    _ = W19 m ρ c (Proc.devRef .tc main_v1) := by keeps_host hostOps8_6
    _ = W18 m ρ c (Proc.devRef .tc main_v1) := by keeps_host hostOps8_5
    _ = W17 m ρ c (Proc.devRef .tc main_v1) := by keeps_host hostOps8_4
    _ = W16 m ρ c (Proc.devRef .tc main_v1) := by keeps_host hostOps8_3
    _ = W15 m ρ c (Proc.devRef .tc main_v1) := by keeps_host hostOps8_2
    _ = W14 m ρ c (Proc.devRef .tc main_v1) := by keeps_host hostOps8_1
    _ = W13 m ρ c (Proc.devRef .tc main_v1) := by keeps_host hostOps8
    _ = W12 m ρ c (Proc.devRef .tc main_v1) := by exact W13_of_ne m ρ c main_v1 (by decide)
    _ = W11 m ρ c (Proc.devRef .tc main_v1) := by keeps_host hostOps7

theorem keep_main_v3_2_1 (c : Dev nD) : W2 m ρ c (Proc.devRef .tc main_v3) = W1 m ρ c (Proc.devRef .tc main_v3) :=
  calc W2 m ρ c (Proc.devRef .tc main_v3)
    _ = W1 m ρ c (Proc.devRef .tc main_v3) := by exact W2_of_ne m ρ c main_v3 (by decide)

theorem keep_main_v3_5_2 (c : Dev nD) : W5 m ρ c (Proc.devRef .tc main_v3) = W2 m ρ c (Proc.devRef .tc main_v3) :=
  calc W5 m ρ c (Proc.devRef .tc main_v3)
    _ = W4 m ρ c (Proc.devRef .tc main_v3) := by exact W5_of_ne m ρ c main_v3 (by decide)
    _ = W3 m ρ c (Proc.devRef .tc main_v3) := by exact W4_of_ne m ρ c main_v3 (by decide)
    _ = W2 m ρ c (Proc.devRef .tc main_v3) := by keeps_host hostOps1

theorem keep_main_v3_8_5 (c : Dev nD) : W8 m ρ c (Proc.devRef .tc main_v3) = W5 m ρ c (Proc.devRef .tc main_v3) :=
  calc W8 m ρ c (Proc.devRef .tc main_v3)
    _ = W7 m ρ c (Proc.devRef .tc main_v3) := by exact W8_of_ne m ρ c main_v3 (by decide)
    _ = W6 m ρ c (Proc.devRef .tc main_v3) := by exact W7_of_ne m ρ c main_v3 (by decide)
    _ = W5 m ρ c (Proc.devRef .tc main_v3) := by keeps_host hostOps3

theorem keep_main_v3_11_8 (c : Dev nD) : W11 m ρ c (Proc.devRef .tc main_v3) = W8 m ρ c (Proc.devRef .tc main_v3) :=
  calc W11 m ρ c (Proc.devRef .tc main_v3)
    _ = W10 m ρ c (Proc.devRef .tc main_v3) := by exact W11_of_ne m ρ c main_v3 (by decide)
    _ = W9 m ρ c (Proc.devRef .tc main_v3) := by exact W10_of_ne m ρ c main_v3 (by decide)
    _ = W8 m ρ c (Proc.devRef .tc main_v3) := by keeps_host hostOps5

theorem keep_main_v3_22_11 (c : Dev nD) : W22 m ρ c (Proc.devRef .tc main_v3) = W11 m ρ c (Proc.devRef .tc main_v3) :=
  calc W22 m ρ c (Proc.devRef .tc main_v3)
    _ = W21 m ρ c (Proc.devRef .tc main_v3) := by exact W22_of_ne m ρ c main_v3 (by decide)
    _ = W20 m ρ c (Proc.devRef .tc main_v3) := by keeps_host hostOps8_7
    _ = W19 m ρ c (Proc.devRef .tc main_v3) := by keeps_host hostOps8_6
    _ = W18 m ρ c (Proc.devRef .tc main_v3) := by keeps_host hostOps8_5
    _ = W17 m ρ c (Proc.devRef .tc main_v3) := by keeps_host hostOps8_4
    _ = W16 m ρ c (Proc.devRef .tc main_v3) := by keeps_host hostOps8_3
    _ = W15 m ρ c (Proc.devRef .tc main_v3) := by keeps_host hostOps8_2
    _ = W14 m ρ c (Proc.devRef .tc main_v3) := by keeps_host hostOps8_1
    _ = W13 m ρ c (Proc.devRef .tc main_v3) := by keeps_host hostOps8
    _ = W12 m ρ c (Proc.devRef .tc main_v3) := by exact W13_of_ne m ρ c main_v3 (by decide)
    _ = W11 m ρ c (Proc.devRef .tc main_v3) := by keeps_host hostOps7

theorem keep_main_v11_3_1 (c : Dev nD) : W3 m ρ c (Proc.devRef .tc main_v11) = W1 m ρ c (Proc.devRef .tc main_v11) :=
  calc W3 m ρ c (Proc.devRef .tc main_v11)
    _ = W2 m ρ c (Proc.devRef .tc main_v11) := by keeps_host hostOps1
    _ = W1 m ρ c (Proc.devRef .tc main_v11) := by exact (W2_arr m ρ c 2).trans (((dat0 (V1 m ρ) c).arrAt_in 2 rfl _).trans (A_eq0 (V1 m ρ) c 2))

theorem keep_main_v11_4_3 (c : Dev nD) : W4 m ρ c (Proc.devRef .tc main_v11) = W3 m ρ c (Proc.devRef .tc main_v11) :=
  calc W4 m ρ c (Proc.devRef .tc main_v11)
    _ = W3 m ρ c (Proc.devRef .tc main_v11) := by exact (W4_arr m ρ c 2).trans (((dat1 (V3 m ρ) c).arrAt_in 2 rfl _).trans (A_eq1 (V3 m ρ) c 2))

theorem keep_main_v11_6_4 (c : Dev nD) : W6 m ρ c (Proc.devRef .tc main_v11) = W4 m ρ c (Proc.devRef .tc main_v11) :=
  calc W6 m ρ c (Proc.devRef .tc main_v11)
    _ = W5 m ρ c (Proc.devRef .tc main_v11) := by keeps_host hostOps3
    _ = W4 m ρ c (Proc.devRef .tc main_v11) := by exact (W5_arr m ρ c 2).trans (((dat2 (V4 m ρ) c).arrAt_in 2 rfl _).trans (A_eq2 (V4 m ρ) c 2))

theorem keep_main_v11_7_6 (c : Dev nD) : W7 m ρ c (Proc.devRef .tc main_v11) = W6 m ρ c (Proc.devRef .tc main_v11) :=
  calc W7 m ρ c (Proc.devRef .tc main_v11)
    _ = W6 m ρ c (Proc.devRef .tc main_v11) := by exact (W7_arr m ρ c 2).trans (((dat3 (V6 m ρ) c).arrAt_in 2 rfl _).trans (A_eq3 (V6 m ρ) c 2))

theorem keep_main_v11_9_7 (c : Dev nD) : W9 m ρ c (Proc.devRef .tc main_v11) = W7 m ρ c (Proc.devRef .tc main_v11) :=
  calc W9 m ρ c (Proc.devRef .tc main_v11)
    _ = W8 m ρ c (Proc.devRef .tc main_v11) := by keeps_host hostOps5
    _ = W7 m ρ c (Proc.devRef .tc main_v11) := by exact (W8_arr m ρ c 2).trans (((dat4 (V7 m ρ) c).arrAt_in 2 rfl _).trans (A_eq4 (V7 m ρ) c 2))

theorem keep_main_v11_10_9 (c : Dev nD) : W10 m ρ c (Proc.devRef .tc main_v11) = W9 m ρ c (Proc.devRef .tc main_v11) :=
  calc W10 m ρ c (Proc.devRef .tc main_v11)
    _ = W9 m ρ c (Proc.devRef .tc main_v11) := by exact (W10_arr m ρ c 2).trans (((dat5 (V9 m ρ) c).arrAt_in 2 rfl _).trans (A_eq5 (V9 m ρ) c 2))

theorem keep_main_v11_12_10 (c : Dev nD) : W12 m ρ c (Proc.devRef .tc main_v11) = W10 m ρ c (Proc.devRef .tc main_v11) :=
  calc W12 m ρ c (Proc.devRef .tc main_v11)
    _ = W11 m ρ c (Proc.devRef .tc main_v11) := by keeps_host hostOps7
    _ = W10 m ρ c (Proc.devRef .tc main_v11) := by exact (W11_arr m ρ c 2).trans (((dat6 (V10 m ρ) c).arrAt_in 2 rfl _).trans (A_eq6 (V10 m ρ) c 2))

theorem keep_main_v11_21_12 (c : Dev nD) : W21 m ρ c (Proc.devRef .tc main_v11) = W12 m ρ c (Proc.devRef .tc main_v11) :=
  calc W21 m ρ c (Proc.devRef .tc main_v11)
    _ = W20 m ρ c (Proc.devRef .tc main_v11) := by keeps_host hostOps8_7
    _ = W19 m ρ c (Proc.devRef .tc main_v11) := by keeps_host hostOps8_6
    _ = W18 m ρ c (Proc.devRef .tc main_v11) := by keeps_host hostOps8_5
    _ = W17 m ρ c (Proc.devRef .tc main_v11) := by keeps_host hostOps8_4
    _ = W16 m ρ c (Proc.devRef .tc main_v11) := by keeps_host hostOps8_3
    _ = W15 m ρ c (Proc.devRef .tc main_v11) := by keeps_host hostOps8_2
    _ = W14 m ρ c (Proc.devRef .tc main_v11) := by keeps_host hostOps8_1
    _ = W13 m ρ c (Proc.devRef .tc main_v11) := by keeps_host hostOps8
    _ = W12 m ρ c (Proc.devRef .tc main_v11) := by exact (W13_arr m ρ c 2).trans (((dat7 (V12 m ρ) c).arrAt_in 2 rfl _).trans (A_eq7 (V12 m ρ) c 2))

theorem keep_main_v11_23_21 (c : Dev nD) : W23 m ρ c (Proc.devRef .tc main_v11) = W21 m ρ c (Proc.devRef .tc main_v11) :=
  calc W23 m ρ c (Proc.devRef .tc main_v11)
    _ = W22 m ρ c (Proc.devRef .tc main_v11) := by keeps_host hostOps9
    _ = W21 m ρ c (Proc.devRef .tc main_v11) := by exact (W22_arr m ρ c 2).trans (((dat8 (V21 m ρ) c).arrAt_in 2 rfl _).trans (A_eq8 (V21 m ρ) c 2))

theorem keep_main_arg0_1_0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := by keeps_host hostOps0

theorem keep_main_arg2_1_0 (c : Dev nD) : W1 m ρ c (Proc.devRef .tc main_arg2) = W0 m ρ c (Proc.devRef .tc main_arg2) :=
  calc W1 m ρ c (Proc.devRef .tc main_arg2)
    _ = W0 m ρ c (Proc.devRef .tc main_arg2) := by keeps_host hostOps0

theorem keep_main_arg3_2_0 (c : Dev nD) : W2 m ρ c (Proc.devRef .tc main_arg3) = W0 m ρ c (Proc.devRef .tc main_arg3) :=
  calc W2 m ρ c (Proc.devRef .tc main_arg3)
    _ = W1 m ρ c (Proc.devRef .tc main_arg3) := by exact W2_of_ne m ρ c main_arg3 (by decide)
    _ = W0 m ρ c (Proc.devRef .tc main_arg3) := by keeps_host hostOps0

theorem keep_main_arg4_4_0 (c : Dev nD) : W4 m ρ c (Proc.devRef .tc main_arg4) = W0 m ρ c (Proc.devRef .tc main_arg4) :=
  calc W4 m ρ c (Proc.devRef .tc main_arg4)
    _ = W3 m ρ c (Proc.devRef .tc main_arg4) := by exact W4_of_ne m ρ c main_arg4 (by decide)
    _ = W2 m ρ c (Proc.devRef .tc main_arg4) := by keeps_host hostOps1
    _ = W1 m ρ c (Proc.devRef .tc main_arg4) := by exact W2_of_ne m ρ c main_arg4 (by decide)
    _ = W0 m ρ c (Proc.devRef .tc main_arg4) := by keeps_host hostOps0

theorem keep_main_arg5_5_0 (c : Dev nD) : W5 m ρ c (Proc.devRef .tc main_arg5) = W0 m ρ c (Proc.devRef .tc main_arg5) :=
  calc W5 m ρ c (Proc.devRef .tc main_arg5)
    _ = W4 m ρ c (Proc.devRef .tc main_arg5) := by exact W5_of_ne m ρ c main_arg5 (by decide)
    _ = W3 m ρ c (Proc.devRef .tc main_arg5) := by exact W4_of_ne m ρ c main_arg5 (by decide)
    _ = W2 m ρ c (Proc.devRef .tc main_arg5) := by keeps_host hostOps1
    _ = W1 m ρ c (Proc.devRef .tc main_arg5) := by exact W2_of_ne m ρ c main_arg5 (by decide)
    _ = W0 m ρ c (Proc.devRef .tc main_arg5) := by keeps_host hostOps0

theorem keep_main_arg6_7_0 (c : Dev nD) : W7 m ρ c (Proc.devRef .tc main_arg6) = W0 m ρ c (Proc.devRef .tc main_arg6) :=
  calc W7 m ρ c (Proc.devRef .tc main_arg6)
    _ = W6 m ρ c (Proc.devRef .tc main_arg6) := by exact W7_of_ne m ρ c main_arg6 (by decide)
    _ = W5 m ρ c (Proc.devRef .tc main_arg6) := by keeps_host hostOps3
    _ = W4 m ρ c (Proc.devRef .tc main_arg6) := by exact W5_of_ne m ρ c main_arg6 (by decide)
    _ = W3 m ρ c (Proc.devRef .tc main_arg6) := by exact W4_of_ne m ρ c main_arg6 (by decide)
    _ = W2 m ρ c (Proc.devRef .tc main_arg6) := by keeps_host hostOps1
    _ = W1 m ρ c (Proc.devRef .tc main_arg6) := by exact W2_of_ne m ρ c main_arg6 (by decide)
    _ = W0 m ρ c (Proc.devRef .tc main_arg6) := by keeps_host hostOps0

theorem keep_main_arg7_8_0 (c : Dev nD) : W8 m ρ c (Proc.devRef .tc main_arg7) = W0 m ρ c (Proc.devRef .tc main_arg7) :=
  calc W8 m ρ c (Proc.devRef .tc main_arg7)
    _ = W7 m ρ c (Proc.devRef .tc main_arg7) := by exact W8_of_ne m ρ c main_arg7 (by decide)
    _ = W6 m ρ c (Proc.devRef .tc main_arg7) := by exact W7_of_ne m ρ c main_arg7 (by decide)
    _ = W5 m ρ c (Proc.devRef .tc main_arg7) := by keeps_host hostOps3
    _ = W4 m ρ c (Proc.devRef .tc main_arg7) := by exact W5_of_ne m ρ c main_arg7 (by decide)
    _ = W3 m ρ c (Proc.devRef .tc main_arg7) := by exact W4_of_ne m ρ c main_arg7 (by decide)
    _ = W2 m ρ c (Proc.devRef .tc main_arg7) := by keeps_host hostOps1
    _ = W1 m ρ c (Proc.devRef .tc main_arg7) := by exact W2_of_ne m ρ c main_arg7 (by decide)
    _ = W0 m ρ c (Proc.devRef .tc main_arg7) := by keeps_host hostOps0

theorem keep_main_arg8_10_0 (c : Dev nD) : W10 m ρ c (Proc.devRef .tc main_arg8) = W0 m ρ c (Proc.devRef .tc main_arg8) :=
  calc W10 m ρ c (Proc.devRef .tc main_arg8)
    _ = W9 m ρ c (Proc.devRef .tc main_arg8) := by exact W10_of_ne m ρ c main_arg8 (by decide)
    _ = W8 m ρ c (Proc.devRef .tc main_arg8) := by keeps_host hostOps5
    _ = W7 m ρ c (Proc.devRef .tc main_arg8) := by exact W8_of_ne m ρ c main_arg8 (by decide)
    _ = W6 m ρ c (Proc.devRef .tc main_arg8) := by exact W7_of_ne m ρ c main_arg8 (by decide)
    _ = W5 m ρ c (Proc.devRef .tc main_arg8) := by keeps_host hostOps3
    _ = W4 m ρ c (Proc.devRef .tc main_arg8) := by exact W5_of_ne m ρ c main_arg8 (by decide)
    _ = W3 m ρ c (Proc.devRef .tc main_arg8) := by exact W4_of_ne m ρ c main_arg8 (by decide)
    _ = W2 m ρ c (Proc.devRef .tc main_arg8) := by keeps_host hostOps1
    _ = W1 m ρ c (Proc.devRef .tc main_arg8) := by exact W2_of_ne m ρ c main_arg8 (by decide)
    _ = W0 m ρ c (Proc.devRef .tc main_arg8) := by keeps_host hostOps0

theorem keep_main_arg9_11_0 (c : Dev nD) : W11 m ρ c (Proc.devRef .tc main_arg9) = W0 m ρ c (Proc.devRef .tc main_arg9) :=
  calc W11 m ρ c (Proc.devRef .tc main_arg9)
    _ = W10 m ρ c (Proc.devRef .tc main_arg9) := by exact W11_of_ne m ρ c main_arg9 (by decide)
    _ = W9 m ρ c (Proc.devRef .tc main_arg9) := by exact W10_of_ne m ρ c main_arg9 (by decide)
    _ = W8 m ρ c (Proc.devRef .tc main_arg9) := by keeps_host hostOps5
    _ = W7 m ρ c (Proc.devRef .tc main_arg9) := by exact W8_of_ne m ρ c main_arg9 (by decide)
    _ = W6 m ρ c (Proc.devRef .tc main_arg9) := by exact W7_of_ne m ρ c main_arg9 (by decide)
    _ = W5 m ρ c (Proc.devRef .tc main_arg9) := by keeps_host hostOps3
    _ = W4 m ρ c (Proc.devRef .tc main_arg9) := by exact W5_of_ne m ρ c main_arg9 (by decide)
    _ = W3 m ρ c (Proc.devRef .tc main_arg9) := by exact W4_of_ne m ρ c main_arg9 (by decide)
    _ = W2 m ρ c (Proc.devRef .tc main_arg9) := by keeps_host hostOps1
    _ = W1 m ρ c (Proc.devRef .tc main_arg9) := by exact W2_of_ne m ρ c main_arg9 (by decide)
    _ = W0 m ρ c (Proc.devRef .tc main_arg9) := by keeps_host hostOps0

theorem keep_main_arg10_14_0 (c : Dev nD) : W14 m ρ c (Proc.devRef .tc main_arg10) = W0 m ρ c (Proc.devRef .tc main_arg10) :=
  calc W14 m ρ c (Proc.devRef .tc main_arg10)
    _ = W13 m ρ c (Proc.devRef .tc main_arg10) := by keeps_host hostOps8
    _ = W12 m ρ c (Proc.devRef .tc main_arg10) := by exact W13_of_ne m ρ c main_arg10 (by decide)
    _ = W11 m ρ c (Proc.devRef .tc main_arg10) := by keeps_host hostOps7
    _ = W10 m ρ c (Proc.devRef .tc main_arg10) := by exact W11_of_ne m ρ c main_arg10 (by decide)
    _ = W9 m ρ c (Proc.devRef .tc main_arg10) := by exact W10_of_ne m ρ c main_arg10 (by decide)
    _ = W8 m ρ c (Proc.devRef .tc main_arg10) := by keeps_host hostOps5
    _ = W7 m ρ c (Proc.devRef .tc main_arg10) := by exact W8_of_ne m ρ c main_arg10 (by decide)
    _ = W6 m ρ c (Proc.devRef .tc main_arg10) := by exact W7_of_ne m ρ c main_arg10 (by decide)
    _ = W5 m ρ c (Proc.devRef .tc main_arg10) := by keeps_host hostOps3
    _ = W4 m ρ c (Proc.devRef .tc main_arg10) := by exact W5_of_ne m ρ c main_arg10 (by decide)
    _ = W3 m ρ c (Proc.devRef .tc main_arg10) := by exact W4_of_ne m ρ c main_arg10 (by decide)
    _ = W2 m ρ c (Proc.devRef .tc main_arg10) := by keeps_host hostOps1
    _ = W1 m ρ c (Proc.devRef .tc main_arg10) := by exact W2_of_ne m ρ c main_arg10 (by decide)
    _ = W0 m ρ c (Proc.devRef .tc main_arg10) := by keeps_host hostOps0

theorem keep_main_arg11_16_0 (c : Dev nD) : W16 m ρ c (Proc.devRef .tc main_arg11) = W0 m ρ c (Proc.devRef .tc main_arg11) :=
  calc W16 m ρ c (Proc.devRef .tc main_arg11)
    _ = W15 m ρ c (Proc.devRef .tc main_arg11) := by keeps_host hostOps8_2
    _ = W14 m ρ c (Proc.devRef .tc main_arg11) := by keeps_host hostOps8_1
    _ = W13 m ρ c (Proc.devRef .tc main_arg11) := by keeps_host hostOps8
    _ = W12 m ρ c (Proc.devRef .tc main_arg11) := by exact W13_of_ne m ρ c main_arg11 (by decide)
    _ = W11 m ρ c (Proc.devRef .tc main_arg11) := by keeps_host hostOps7
    _ = W10 m ρ c (Proc.devRef .tc main_arg11) := by exact W11_of_ne m ρ c main_arg11 (by decide)
    _ = W9 m ρ c (Proc.devRef .tc main_arg11) := by exact W10_of_ne m ρ c main_arg11 (by decide)
    _ = W8 m ρ c (Proc.devRef .tc main_arg11) := by keeps_host hostOps5
    _ = W7 m ρ c (Proc.devRef .tc main_arg11) := by exact W8_of_ne m ρ c main_arg11 (by decide)
    _ = W6 m ρ c (Proc.devRef .tc main_arg11) := by exact W7_of_ne m ρ c main_arg11 (by decide)
    _ = W5 m ρ c (Proc.devRef .tc main_arg11) := by keeps_host hostOps3
    _ = W4 m ρ c (Proc.devRef .tc main_arg11) := by exact W5_of_ne m ρ c main_arg11 (by decide)
    _ = W3 m ρ c (Proc.devRef .tc main_arg11) := by exact W4_of_ne m ρ c main_arg11 (by decide)
    _ = W2 m ρ c (Proc.devRef .tc main_arg11) := by keeps_host hostOps1
    _ = W1 m ρ c (Proc.devRef .tc main_arg11) := by exact W2_of_ne m ρ c main_arg11 (by decide)
    _ = W0 m ρ c (Proc.devRef .tc main_arg11) := by keeps_host hostOps0

theorem keep_main_arg12_18_0 (c : Dev nD) : W18 m ρ c (Proc.devRef .tc main_arg12) = W0 m ρ c (Proc.devRef .tc main_arg12) :=
  calc W18 m ρ c (Proc.devRef .tc main_arg12)
    _ = W17 m ρ c (Proc.devRef .tc main_arg12) := by keeps_host hostOps8_4
    _ = W16 m ρ c (Proc.devRef .tc main_arg12) := by keeps_host hostOps8_3
    _ = W15 m ρ c (Proc.devRef .tc main_arg12) := by keeps_host hostOps8_2
    _ = W14 m ρ c (Proc.devRef .tc main_arg12) := by keeps_host hostOps8_1
    _ = W13 m ρ c (Proc.devRef .tc main_arg12) := by keeps_host hostOps8
    _ = W12 m ρ c (Proc.devRef .tc main_arg12) := by exact W13_of_ne m ρ c main_arg12 (by decide)
    _ = W11 m ρ c (Proc.devRef .tc main_arg12) := by keeps_host hostOps7
    _ = W10 m ρ c (Proc.devRef .tc main_arg12) := by exact W11_of_ne m ρ c main_arg12 (by decide)
    _ = W9 m ρ c (Proc.devRef .tc main_arg12) := by exact W10_of_ne m ρ c main_arg12 (by decide)
    _ = W8 m ρ c (Proc.devRef .tc main_arg12) := by keeps_host hostOps5
    _ = W7 m ρ c (Proc.devRef .tc main_arg12) := by exact W8_of_ne m ρ c main_arg12 (by decide)
    _ = W6 m ρ c (Proc.devRef .tc main_arg12) := by exact W7_of_ne m ρ c main_arg12 (by decide)
    _ = W5 m ρ c (Proc.devRef .tc main_arg12) := by keeps_host hostOps3
    _ = W4 m ρ c (Proc.devRef .tc main_arg12) := by exact W5_of_ne m ρ c main_arg12 (by decide)
    _ = W3 m ρ c (Proc.devRef .tc main_arg12) := by exact W4_of_ne m ρ c main_arg12 (by decide)
    _ = W2 m ρ c (Proc.devRef .tc main_arg12) := by keeps_host hostOps1
    _ = W1 m ρ c (Proc.devRef .tc main_arg12) := by exact W2_of_ne m ρ c main_arg12 (by decide)
    _ = W0 m ρ c (Proc.devRef .tc main_arg12) := by keeps_host hostOps0

theorem keep_main_arg13_20_0 (c : Dev nD) : W20 m ρ c (Proc.devRef .tc main_arg13) = W0 m ρ c (Proc.devRef .tc main_arg13) :=
  calc W20 m ρ c (Proc.devRef .tc main_arg13)
    _ = W19 m ρ c (Proc.devRef .tc main_arg13) := by keeps_host hostOps8_6
    _ = W18 m ρ c (Proc.devRef .tc main_arg13) := by keeps_host hostOps8_5
    _ = W17 m ρ c (Proc.devRef .tc main_arg13) := by keeps_host hostOps8_4
    _ = W16 m ρ c (Proc.devRef .tc main_arg13) := by keeps_host hostOps8_3
    _ = W15 m ρ c (Proc.devRef .tc main_arg13) := by keeps_host hostOps8_2
    _ = W14 m ρ c (Proc.devRef .tc main_arg13) := by keeps_host hostOps8_1
    _ = W13 m ρ c (Proc.devRef .tc main_arg13) := by keeps_host hostOps8
    _ = W12 m ρ c (Proc.devRef .tc main_arg13) := by exact W13_of_ne m ρ c main_arg13 (by decide)
    _ = W11 m ρ c (Proc.devRef .tc main_arg13) := by keeps_host hostOps7
    _ = W10 m ρ c (Proc.devRef .tc main_arg13) := by exact W11_of_ne m ρ c main_arg13 (by decide)
    _ = W9 m ρ c (Proc.devRef .tc main_arg13) := by exact W10_of_ne m ρ c main_arg13 (by decide)
    _ = W8 m ρ c (Proc.devRef .tc main_arg13) := by keeps_host hostOps5
    _ = W7 m ρ c (Proc.devRef .tc main_arg13) := by exact W8_of_ne m ρ c main_arg13 (by decide)
    _ = W6 m ρ c (Proc.devRef .tc main_arg13) := by exact W7_of_ne m ρ c main_arg13 (by decide)
    _ = W5 m ρ c (Proc.devRef .tc main_arg13) := by keeps_host hostOps3
    _ = W4 m ρ c (Proc.devRef .tc main_arg13) := by exact W5_of_ne m ρ c main_arg13 (by decide)
    _ = W3 m ρ c (Proc.devRef .tc main_arg13) := by exact W4_of_ne m ρ c main_arg13 (by decide)
    _ = W2 m ρ c (Proc.devRef .tc main_arg13) := by keeps_host hostOps1
    _ = W1 m ρ c (Proc.devRef .tc main_arg13) := by exact W2_of_ne m ρ c main_arg13 (by decide)
    _ = W0 m ρ c (Proc.devRef .tc main_arg13) := by keeps_host hostOps0

theorem keep_main_v12_0_3_2 (c : Dev nD) : W3 m ρ c (Proc.devRef .tc main_v12_0) = W2 m ρ c (Proc.devRef .tc main_v12_0) :=
  calc W3 m ρ c (Proc.devRef .tc main_v12_0)
    _ = W2 m ρ c (Proc.devRef .tc main_v12_0) := by keeps_host hostOps1

theorem keep_main_v26_0_6_5 (c : Dev nD) : W6 m ρ c (Proc.devRef .tc main_v26_0) = W5 m ρ c (Proc.devRef .tc main_v26_0) :=
  calc W6 m ρ c (Proc.devRef .tc main_v26_0)
    _ = W5 m ρ c (Proc.devRef .tc main_v26_0) := by keeps_host hostOps3

theorem keep_main_v40_0_9_8 (c : Dev nD) : W9 m ρ c (Proc.devRef .tc main_v40_0) = W8 m ρ c (Proc.devRef .tc main_v40_0) :=
  calc W9 m ρ c (Proc.devRef .tc main_v40_0)
    _ = W8 m ρ c (Proc.devRef .tc main_v40_0) := by keeps_host hostOps5

theorem keep_main_v54_0_12_11 (c : Dev nD) : W12 m ρ c (Proc.devRef .tc main_v54_0) = W11 m ρ c (Proc.devRef .tc main_v54_0) :=
  calc W12 m ρ c (Proc.devRef .tc main_v54_0)
    _ = W11 m ρ c (Proc.devRef .tc main_v54_0) := by keeps_host hostOps7

theorem keep_main_v72_0_23_22 (c : Dev nD) : W23 m ρ c (Proc.devRef .tc main_v72_0) = W22 m ρ c (Proc.devRef .tc main_v72_0) :=
  calc W23 m ρ c (Proc.devRef .tc main_v72_0)
    _ = W22 m ρ c (Proc.devRef .tc main_v72_0) := by keeps_host hostOps9

theorem keep_main_v67_21_13 (c : Dev nD) : W21 m ρ c (Proc.devRef .tc main_v67) = W13 m ρ c (Proc.devRef .tc main_v67) :=
  calc W21 m ρ c (Proc.devRef .tc main_v67)
    _ = W20 m ρ c (Proc.devRef .tc main_v67) := by keeps_host hostOps8_7
    _ = W19 m ρ c (Proc.devRef .tc main_v67) := by keeps_host hostOps8_6
    _ = W18 m ρ c (Proc.devRef .tc main_v67) := by keeps_host hostOps8_5
    _ = W17 m ρ c (Proc.devRef .tc main_v67) := by keeps_host hostOps8_4
    _ = W16 m ρ c (Proc.devRef .tc main_v67) := by keeps_host hostOps8_3
    _ = W15 m ρ c (Proc.devRef .tc main_v67) := by keeps_host hostOps8_2
    _ = W14 m ρ c (Proc.devRef .tc main_v67) := by keeps_host hostOps8_1
    _ = W13 m ρ c (Proc.devRef .tc main_v67) := by keeps_host hostOps8

theorem keep_main_v68_21_15 (c : Dev nD) : W21 m ρ c (Proc.devRef .tc main_v68) = W15 m ρ c (Proc.devRef .tc main_v68) :=
  calc W21 m ρ c (Proc.devRef .tc main_v68)
    _ = W20 m ρ c (Proc.devRef .tc main_v68) := by keeps_host hostOps8_7
    _ = W19 m ρ c (Proc.devRef .tc main_v68) := by keeps_host hostOps8_6
    _ = W18 m ρ c (Proc.devRef .tc main_v68) := by keeps_host hostOps8_5
    _ = W17 m ρ c (Proc.devRef .tc main_v68) := by keeps_host hostOps8_4
    _ = W16 m ρ c (Proc.devRef .tc main_v68) := by keeps_host hostOps8_3
    _ = W15 m ρ c (Proc.devRef .tc main_v68) := by keeps_host hostOps8_2

theorem keep_main_v69_22_17 (c : Dev nD) : W22 m ρ c (Proc.devRef .tc main_v69) = W17 m ρ c (Proc.devRef .tc main_v69) :=
  calc W22 m ρ c (Proc.devRef .tc main_v69)
    _ = W21 m ρ c (Proc.devRef .tc main_v69) := by exact W22_of_ne m ρ c main_v69 (by decide)
    _ = W20 m ρ c (Proc.devRef .tc main_v69) := by keeps_host hostOps8_7
    _ = W19 m ρ c (Proc.devRef .tc main_v69) := by keeps_host hostOps8_6
    _ = W18 m ρ c (Proc.devRef .tc main_v69) := by keeps_host hostOps8_5
    _ = W17 m ρ c (Proc.devRef .tc main_v69) := by keeps_host hostOps8_4

theorem keep_main_v70_25_19 (c : Dev nD) : W25 m ρ c (Proc.devRef .tc main_v70) = W19 m ρ c (Proc.devRef .tc main_v70) :=
  calc W25 m ρ c (Proc.devRef .tc main_v70)
    _ = W24 m ρ c (Proc.devRef .tc main_v70) := by keeps_host hostOps10
    _ = W23 m ρ c (Proc.devRef .tc main_v70) := by exact W24_of_ne m ρ c main_v70 (by decide)
    _ = W22 m ρ c (Proc.devRef .tc main_v70) := by keeps_host hostOps9
    _ = W21 m ρ c (Proc.devRef .tc main_v70) := by exact W22_of_ne m ρ c main_v70 (by decide)
    _ = W20 m ρ c (Proc.devRef .tc main_v70) := by keeps_host hostOps8_7
    _ = W19 m ρ c (Proc.devRef .tc main_v70) := by keeps_host hostOps8_6

theorem keep_main_v71_24_21 (c : Dev nD) : W24 m ρ c (Proc.devRef .tc main_v71) = W21 m ρ c (Proc.devRef .tc main_v71) :=
  calc W24 m ρ c (Proc.devRef .tc main_v71)
    _ = W23 m ρ c (Proc.devRef .tc main_v71) := by exact W24_of_ne m ρ c main_v71 (by decide)
    _ = W22 m ρ c (Proc.devRef .tc main_v71) := by keeps_host hostOps9
    _ = W21 m ρ c (Proc.devRef .tc main_v71) := by exact W22_of_ne m ρ c main_v71 (by decide)

theorem keep_main_v85_25_24 (c : Dev nD) : W25 m ρ c (Proc.devRef .tc main_v85) = W24 m ρ c (Proc.devRef .tc main_v85) :=
  calc W25 m ρ c (Proc.devRef .tc main_v85)
    _ = W24 m ρ c (Proc.devRef .tc main_v85) := by keeps_host hostOps10

/-- The first boundary's contents are the launch memory. -/
theorem W0_eq (c : Dev nD) (b : Ref sig .tc) : W0 m ρ c (Proc.devRef .tc b) = m ((c : Thread nD τ).loc b) := rfl

end Cert.KernelIdeal.Carried

end
-- ==== Proof.LibNonnegScale.lean ====
/-
  Scaling a finite sum of extended reals by a nonnegative finite factor.

  On the extended reals `(y + z) * d = y * d + z * d` fails in general (take `y = ⊤`, `z = ⊥` and `d < 0`, or `d = ⊤`
  with `y + z = 0`), but it holds for EVERY `y`, `z` once `0 ≤ d` and `d ≠ ⊤`. So a factor of that kind moves across a
  finite sum whatever the terms are — no finiteness of the terms is needed. The factor met here is the inverse square root
  of a node's degree, guarded by `degree > 0`: `rsqrt ⊤ = 0` and `rsqrt r = (√r)⁻¹` for a real `r > 0`, so the guarded
  value is nonnegative and finite for every extended-real degree.
-/
import Idealize.ShloMosaic.PureOps.Ideal
import Idealize.ShloMosaic.PureOps.Ideal.Laws

noncomputable section

open scoped BigOperators

namespace Cert.NonnegScale

open Idealize.ShloMosaic

/-- A factor that is nonnegative and not `⊤` distributes over a finite sum of arbitrary extended reals. -/
theorem sum_mul {ι : Type*} (s : Finset ι) (f : ι → EReal) {d : EReal} (h0 : 0 ≤ d) (htop : d ≠ ⊤) :
    (∑ j ∈ s, f j) * d = ∑ j ∈ s, f j * d := by
  classical
  induction s using Finset.induction_on with
  | empty => simp
  | insert a s ha ih =>
    rw [Finset.sum_insert ha, Finset.sum_insert ha, EReal.right_distrib_of_nonneg_of_ne_top h0 htop, ih]

/-- The same with a zero in front of each sum, the form a scatter-add into a zero array takes. -/
theorem zero_add_sum_mul {ι : Type*} (s : Finset ι) (f : ι → EReal) {d : EReal} (h0 : 0 ≤ d) (htop : d ≠ ⊤) :
    (0 + ∑ j ∈ s, f j) * d = 0 + ∑ j ∈ s, f j * d := by
  rw [zero_add, zero_add, sum_mul s f h0 htop]

/-- The inverse square root of a positive extended real is nonnegative and finite (`rsqrt ⊤ = 0`). -/
theorem rsqrt_of_pos {y : EReal} (hy : 0 < y) : 0 ≤ Ideal.rsqrt y ∧ Ideal.rsqrt y ≠ ⊤ := by
  induction y using EReal.rec with
  | bot => exact absurd hy (not_lt_bot)
  | top => rw [Ideal.rsqrt_top]; exact ⟨le_refl _, EReal.zero_ne_top⟩
  | coe r =>
    have hr : 0 < r := by exact_mod_cast hy
    have h1 : ¬ r < 0 := not_lt.mpr hr.le
    have h2 : ¬ r = 0 := hr.ne'
    have e : Ideal.rsqrt (r : EReal) = (((Real.sqrt r)⁻¹ : ℝ) : EReal) := by
      rw [Ideal.rsqrt_coe, if_neg h1, if_neg h2]
    rw [e]
    exact ⟨by exact_mod_cast inv_nonneg.mpr (Real.sqrt_nonneg r), EReal.coe_ne_top _⟩

/-- `where(y > 0, rsqrt y, 0)` is nonnegative and finite at every extended real `y`. -/
theorem guarded_rsqrt (y : EReal) :
    0 ≤ Scalar.select (Ideal.cmp .ogt y 0) (Ideal.rsqrt y) 0 ∧ Scalar.select (Ideal.cmp .ogt y 0) (Ideal.rsqrt y) 0 ≠ ⊤ := by
  by_cases hy : 0 < y
  · have hc : Ideal.cmp .ogt y 0 = 1#1 := by simp [Ideal.cmp, hy]
    rw [hc]
    simpa [Scalar.select] using rsqrt_of_pos hy
  · have hc : Ideal.cmp .ogt y 0 = 0#1 := by simp [Ideal.cmp, hy]
    rw [hc]
    simp [Scalar.select]

end Cert.NonnegScale

end
-- ==== Proof.Spec.lean ====
/-
  A five-layer graph convolution followed by a linear map, written once the way each of the two programs computes it.

  The graph is read through four pieces of data: for every edge `e` the row `srcRow e` its source selects, the row
  `dstRow e` its destination selects when used to READ a per-node value, the signed integer `dstI e` under which its
  message is ACCUMULATED (an edge is summed into node `n` exactly when `dstI e = n`), and for every node `n` the factor
  `dinv n`, the inverse square root of one plus its number of incoming edges. Whenever an edge is accumulated into `n`,
  reading through its destination gives `n` (`dst_row`); and `dinv n` is nonnegative and finite.

  With `h = X·W`, one program forms per node `dinv n · (Σ_{e → n} (h·dinv)(src e) + (h·dinv)(n)) + b`, the other
  `Σ_{e → n} h(src e)·(dinv(src e)·dinv(dst e)) + h(n)·(dinv n·dinv n) + b`. They agree on the extended reals for
  ARBITRARY entries of `X`, `W`, `b`: products commute and associate, and the one factor moved across a sum, `dinv n`,
  is nonnegative and finite, which is exactly when `d·(y + z) = d·y + d·z` holds for every `y`, `z`.

  The last layer and the final linear map are computed by one program with the class axis widened from 100 to 128 by
  zero columns. A widened column contributes `x · 0 = 0` to every sum, whatever `x` is, so the first 100 columns of the
  result are the unwidened computation.
-/
import Idealize.ShloMosaic.PureOps.Ideal
import Idealize.ShloMosaic.PureOps.Ideal.Laws
import proofs.«108103_j9363028705695_2_alg».proof.Proof.LibNonnegScale

set_option maxRecDepth 16384

noncomputable section

open scoped BigOperators

namespace Cert.Gcn

/-- The graph as the two programs read it. -/
structure Graph where
  srcRow : Fin 1600000 → Fin 100000
  dstRow : Fin 1600000 → Fin 100000
  dstI : Fin 1600000 → ℤ
  dst_row : ∀ (e : Fin 1600000) (n : Fin 100000), dstI e = (n.val : ℤ) → dstRow e = n
  dinv : Fin 100000 → EReal
  dinv_nonneg : ∀ n, 0 ≤ dinv n
  dinv_ne_top : ∀ n, dinv n ≠ ⊤

variable (g : Graph)

/-- The edges accumulated into node `n`. -/
def Graph.inEdges (n : Fin 100000) : Finset (Fin 1600000) :=
  Finset.univ.filter fun e : Fin 1600000 => g.dstI e = (n.val : ℤ)

variable {K C : ℕ}

/-- Entry `(n, j)` of the matrix product `X·W`. -/
def lin (X : Fin 100000 → Fin K → EReal) (W : Fin K → Fin C → EReal) (n : Fin 100000) (j : Fin C) : EReal :=
  ∑ k : Fin K, X n k * W k j

/-- The product scaled row by row: `(X·W)(n, j) · dinv n`. -/
def scaled (X : Fin 100000 → Fin K → EReal) (W : Fin K → Fin C → EReal) (n : Fin 100000) (j : Fin C) : EReal :=
  lin X W n j * g.dinv n

/-- The sum of the scaled rows over the edges into `n`, started from zero. -/
def gathered (X : Fin 100000 → Fin K → EReal) (W : Fin K → Fin C → EReal) (n : Fin 100000) (j : Fin C) : EReal :=
  0 + ∑ e ∈ g.inEdges n, scaled g X W (g.srcRow e) j

/-- One layer with the scaling done before the edge sum and once more after it. -/
def preScaledLayer (act : EReal → EReal) (X : Fin 100000 → Fin K → EReal) (W : Fin K → Fin C → EReal) (b : Fin C → EReal)
    (n : Fin 100000) (j : Fin C) : EReal :=
  act (g.dinv n * (gathered g X W n j + scaled g X W n j) + b j)

/-- One layer with a weight `dinv(src)·dinv(dst)` on every edge and `dinv·dinv` on the node itself. -/
def edgeWeightedLayer (act : EReal → EReal) (X : Fin 100000 → Fin K → EReal) (W : Fin K → Fin C → EReal) (b : Fin C → EReal)
    (n : Fin 100000) (j : Fin C) : EReal :=
  act (((0 + ∑ e ∈ g.inEdges n, lin X W (g.srcRow e) j * (g.dinv (g.srcRow e) * g.dinv (g.dstRow e)))
      + lin X W n j * (g.dinv n * g.dinv n)) + b j)

/-- The two forms of a layer are one function, for arbitrary extended-real entries. -/
theorem preScaledLayer_eq (act : EReal → EReal) (X : Fin 100000 → Fin K → EReal) (W : Fin K → Fin C → EReal) (b : Fin C → EReal) :
    preScaledLayer g act X W b = edgeWeightedLayer g act X W b := by
  funext n j
  show act (g.dinv n * ((0 + ∑ e ∈ g.inEdges n, lin X W (g.srcRow e) j * g.dinv (g.srcRow e)) + lin X W n j * g.dinv n) + b j)
    = act (((0 + ∑ e ∈ g.inEdges n, lin X W (g.srcRow e) j * (g.dinv (g.srcRow e) * g.dinv (g.dstRow e)))
      + lin X W n j * (g.dinv n * g.dinv n)) + b j)
  have h0 := g.dinv_nonneg n
  have ht := g.dinv_ne_top n
  refine congrArg act (congrArg (· + b j) ?_)
  rw [EReal.left_distrib_of_nonneg_of_ne_top h0 ht, mul_comm (g.dinv n) (0 + _),
    Cert.NonnegScale.zero_add_sum_mul _ _ h0 ht]
  refine congrArg₂ (· + ·) (congrArg (0 + ·) ?_) ?_
  · refine Finset.sum_congr rfl fun e he => ?_
    have hd : g.dstRow e = n := g.dst_row e n (Finset.mem_filter.mp he).2
    rw [hd, mul_assoc]
  · rw [mul_comm (g.dinv n) (lin X W n j * g.dinv n), mul_assoc]

/-- A layer's entry `(n, j)` depends on the weights and the bias through column `j` only. -/
theorem preScaledLayer_congr_col {C' : ℕ} (act : EReal → EReal) (X : Fin 100000 → Fin K → EReal)
    (W : Fin K → Fin C → EReal) (b : Fin C → EReal) (W' : Fin K → Fin C' → EReal) (b' : Fin C' → EReal)
    (n : Fin 100000) (j : Fin C) (j' : Fin C') (hW : ∀ k, W k j = W' k j') (hb : b j = b' j') :
    preScaledLayer g act X W b n j = preScaledLayer g act X W' b' n j' := by
  have hl : ∀ p, lin X W p j = lin X W' p j' := fun p => by
    unfold lin; exact Finset.sum_congr rfl fun k _ => by rw [hW k]
  show act (g.dinv n * ((0 + ∑ e ∈ g.inEdges n, lin X W (g.srcRow e) j * g.dinv (g.srcRow e)) + lin X W n j * g.dinv n) + b j)
    = act (g.dinv n * ((0 + ∑ e ∈ g.inEdges n, lin X W' (g.srcRow e) j' * g.dinv (g.srcRow e)) + lin X W' n j' * g.dinv n) + b' j')
  simp only [hl, hb]

/-! ## The class axis widened from 100 to 128 by zeros -/

/-- A matrix with 100 columns widened to 128 by zero columns. -/
def padCols (W : Fin K → Fin 100 → EReal) (k : Fin K) (j : Fin 128) : EReal :=
  if h : j.val < 100 then W k ⟨j.val, h⟩ else 0

/-- A vector of 100 entries widened to 128 by zeros. -/
def padVec (b : Fin 100 → EReal) (j : Fin 128) : EReal :=
  if h : j.val < 100 then b ⟨j.val, h⟩ else 0

/-- A 100 × 100 matrix widened to 128 × 128 by zero rows and zero columns. -/
def padBoth (W : Fin 100 → Fin 100 → EReal) (k : Fin 128) (j : Fin 128) : EReal :=
  if h : k.val < 100 ∧ j.val < 100 then W ⟨k.val, h.1⟩ ⟨j.val, h.2⟩ else 0

/-- The final linear map on the widened class axis. -/
def wideFinal (H : Fin 100000 → Fin 128 → EReal) (Wl : Fin 100 → Fin 100 → EReal) (bl : Fin 100 → EReal)
    (n : Fin 100000) (j : Fin 128) : EReal :=
  (∑ k : Fin 128, H n k * padBoth Wl k j) + padVec bl j

/-- The final linear map. -/
def final (H : Fin 100000 → Fin 100 → EReal) (Wl : Fin 100 → Fin 100 → EReal) (bl : Fin 100 → EReal)
    (n : Fin 100000) (j : Fin 100) : EReal :=
  (∑ k : Fin 100, H n k * Wl k j) + bl j

/-- A sum over 128 terms whose last 28 vanish is the sum of the first 100. -/
theorem sum_128_eq_sum_100 (f : Fin 128 → EReal) (hz : ∀ k : Fin 128, 100 ≤ k.val → f k = 0) :
    ∑ k : Fin 128, f k = ∑ k : Fin 100, f ⟨k.val, by omega⟩ := by
  have e := Fin.sum_univ_add (a := 100) (b := 28) (f : Fin (100 + 28) → EReal)
  rw [show (∑ k : Fin 128, f k) = ∑ k : Fin (100 + 28), (f : Fin (100 + 28) → EReal) k from rfl, e]
  have hz' : ∑ i : Fin 28, f (Fin.natAdd 100 i) = 0 :=
    Finset.sum_eq_zero fun i _ => hz _ (by simp [Fin.natAdd])
  rw [hz', add_zero]
  exact Finset.sum_congr rfl fun k _ => congrArg f (Fin.ext rfl)

/-- The first 100 columns of the widened last layer followed by the widened final map are the unwidened last layer
    (in its edge-weighted form) followed by the final map. -/
theorem wideFinal_eq (X : Fin 100000 → Fin K → EReal) (W5 : Fin K → Fin 100 → EReal) (b5 : Fin 100 → EReal)
    (Wl : Fin 100 → Fin 100 → EReal) (bl : Fin 100 → EReal) (n : Fin 100000) (j : Fin 100) (j' : Fin 128) (hj : j'.val = j.val) :
    wideFinal (preScaledLayer g id X (padCols W5) (padVec b5)) Wl bl n j'
      = final (edgeWeightedLayer g id X W5 b5) Wl bl n j := by
  have hj100 : j'.val < 100 := by rw [hj]; exact j.isLt
  unfold wideFinal final
  have hb : padVec bl j' = bl j := by
    unfold padVec; rw [dif_pos hj100]; exact congrArg bl (Fin.ext hj)
  rw [hb]
  refine congrArg (· + bl j) ?_
  rw [sum_128_eq_sum_100 _ (fun k hk => by
    have : padBoth Wl k j' = 0 := by unfold padBoth; rw [dif_neg (fun h => by omega)]
    rw [this, mul_zero])]
  refine Finset.sum_congr rfl fun k _ => ?_
  have hk : ((⟨k.val, by omega⟩ : Fin 128)).val < 100 := k.isLt
  have hW : padBoth Wl ⟨k.val, by omega⟩ j' = Wl k j := by
    unfold padBoth; rw [dif_pos ⟨hk, hj100⟩]; exact congrArg₂ Wl (Fin.ext rfl) (Fin.ext hj)
  rw [hW, ← preScaledLayer_eq]
  refine congrArg (· * Wl k j) ?_
  refine preScaledLayer_congr_col g id X (padCols W5) (padVec b5) W5 b5 n ⟨k.val, by omega⟩ k (fun i => ?_) ?_
  · unfold padCols; rw [dif_pos hk]
  · unfold padVec; rw [dif_pos hk]

end Cert.Gcn

end
-- ==== Proof.LibRowGatherScatter.lean ====
/-
  Gathering rows and scatter-adding rows, read at an index.

  `x[idx]` for a matrix `x : [N, C]` and an index column `idx : [E, 1]` is a gather with one collapsed axis: result row `e` is
  row `clampRow (idx[e, 0])` of `x`, the start index read as a signed integer and clamped into `[0, N − 1]`. The same for a
  vector `x : [N]`. A scatter-add of rows `upd : [E, C]` into `x : [N, C]` at an index column adds, to element `(p, q)`, the
  elements `upd[e, q]` of exactly those rows `e` whose index, read signed and NOT clamped, is `p`; a row whose index falls
  outside `[0, N)` is dropped. So a segment sum is a sum over the filter `{e | idx[e, 0] = p}` of one column.
-/
import Idealize.ShloMosaic.PureOps.Ideal
import Idealize.ShloMosaic.Lib.ValueIdx

noncomputable section

open scoped BigOperators

namespace Cert.RowGatherScatter

open Idealize.ShloMosaic Idealize.ShloMosaic.ValueIdx

/-- The row a start index selects: the word read as a signed integer, clamped into `[0, N − 1]`. -/
def clampRow (N : Nat) (hN : 0 < N) {w : Nat} (v : BitVec w) : Fin N := ⟨min v.toInt.toNat (N - 1), by omega⟩

/-- A word whose signed value is the row `p` selects that row. -/
theorem clampRow_of_toInt {N : Nat} (hN : 0 < N) {w : Nat} (v : BitVec w) (p : Fin N) (h : v.toInt = (p.val : Int)) :
    clampRow N hN v = p := by
  apply Fin.ext
  show min v.toInt.toNat (N - 1) = p.val
  have hp := p.isLt
  rw [h]; simp only [Int.toNat_natCast]; omega

/-! ## Rows of a matrix gathered at an index column -/

section RowGather
variable {α : Type}

/-- The dimension numbers of `x[idx]` for `x : [N, C]`, `idx : [E, 1]`: rows are collapsed, columns are the offset axis. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Element `(e, q)` of the gathered rows is element `q` of the row the index `idx[e, 0]` selects. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (clampRow N hN (idx (ix2 e (0 : Fin 1)))) q) := by
  unfold Host.gather
  congr 1
  funext a
  refine Fin.ext ?_
  match a with
  | ⟨0, _⟩ =>
    show (rowGatherDims N E C wf).start (ix2 e q) idx 0 + (rowGatherDims N E C wf).batchCoord (ix2 e q) 0
        + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
        + (rowGatherDims N E C wf).offCoord (ix2 e q) 1 = q.val
    rw [GatherDims.batchCoord_eq_zero _ _ _ List.not_mem_nil]
    have hs : (rowGatherDims N E C wf).start (ix2 e q) idx 1 = 0 := by
      unfold GatherDims.start
      rw [dif_neg (show ¬ (1 : Fin 2) ∈ ([0] : List (Fin 2)) by decide)]
    rw [hs]
    simp only [Nat.add_zero, Nat.zero_add]
    have hk : (1 : Fin 2) ∈ (rowGatherDims N E C wf).sKept :=
      (GatherDims.mem_sKept _ _).mpr ⟨(show ¬ (1 : Fin 2) ∈ ([0] : List (Fin 2)) by decide), List.not_mem_nil⟩
    unfold GatherDims.offCoord
    rw [dif_pos hk]
    rfl

end RowGather

/-! ## Elements of a vector gathered at an index column -/

section VecGather
variable {α : Type}

/-- The dimension numbers of `x[idx]` for `x : [N]`, `idx : [E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Element `e` of the gathered vector is the element the index `idx[e, 0]` selects. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end VecGather

/-! ## Rows scatter-added into a matrix at an index column -/

section RowScatter

/-- The dimension numbers of `x.at[idx].add(upd)` for `x : [N, C]`, `idx : [E, 1]`, `upd : [E, C]`: the update's columns are
    its window axis, the operand's rows are the inserted axis the index names. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

/-- On the row axis the window of update element `(e, q)` starts at the index `idx[e, 0]`, read signed. -/
theorem rowScatter_start0 : (rowScatterDims N E C wf).start (ix2 e q) idx 0 = (idx (ix2 e (0 : Fin 1))).toInt := by
  unfold ScatterDims.start
  rw [dif_pos (show (0 : Fin 2) ∈ ([0] : List (Fin 2)) from List.mem_singleton.mpr rfl)]
  have hsi : (rowScatterDims N E C wf).siIdx (ix2 e q) ⟨List.idxOf (0 : Fin 2) ([0] : List (Fin 2)),
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
/-- On the column axis it starts at `0`: the index names no column. -/
theorem rowScatter_start1 : (rowScatterDims N E C wf).start (ix2 e q) idx 1 = 0 := by
  unfold ScatterDims.start
  rw [dif_neg (show ¬ (1 : Fin 2) ∈ ([0] : List (Fin 2)) by decide)]
/-- The row axis is inserted: no window coordinate. -/
theorem rowScatter_window0 : (rowScatterDims N E C wf).window (ix2 e q) 0 = 0 := by
  have h : ¬ (0 : Fin 2) ∈ (rowScatterDims N E C wf).sKept :=
    (show ¬ (0 : Fin 2) ∈ (List.finRange 2).filter (· ∉ ([0] : List (Fin 2))) by decide)
  unfold ScatterDims.window
  rw [dif_neg h]
/-- The column axis takes the update's column. -/
theorem rowScatter_window1 : (rowScatterDims N E C wf).window (ix2 e q) 1 = q.val := by
  have h : (1 : Fin 2) ∈ (rowScatterDims N E C wf).sKept :=
    (show (1 : Fin 2) ∈ (List.finRange 2).filter (· ∉ ([0] : List (Fin 2))) by decide)
  unfold ScatterDims.window
  rw [dif_pos h]
  rfl

/-- UPDATE ELEMENT `(e, q)` LANDS ON `(p, r)` exactly when its index, read signed, is the row `p` and its column is `r`. -/
theorem rowScatter_resultIdx?_iff (p : Fin N) (r : Fin C) :
    (rowScatterDims N E C wf).resultIdx? (ix2 e q) idx = some (ix2 p r)
      ↔ (idx (ix2 e (0 : Fin 1))).toInt = (p.val : Int) ∧ q = r := by
  have s0 := rowScatter_start0 wf idx e q
  have s1 := rowScatter_start1 wf idx e q
  have w0 := rowScatter_window0 wf e q
  have w1 := rowScatter_window1 wf e q
  have hp := p.isLt
  have hq := q.isLt
  unfold ScatterDims.resultIdx?
  constructor
  · intro h
    split at h
    · rename_i hin
      have hf := Option.some.inj h
      have h0 := congrArg (fun f => (f 0).val) hf
      have h1 := congrArg (fun f => (f 1).val) hf
      simp only at h0 h1
      have hin0 := hin 0
      rw [s0, w0] at h0 hin0
      rw [s1, w1] at h1
      refine ⟨?_, Fin.ext ?_⟩
      · have h0' : ((idx (ix2 e (0 : Fin 1))).toInt + ((0 : Nat) : Int)).toNat = p.val := h0
        have hin0' : 0 ≤ (idx (ix2 e (0 : Fin 1))).toInt + ((0 : Nat) : Int) := hin0.1
        omega
      · have h1' : ((0 : Int) + ((q.val : Nat) : Int)).toNat = r.val := h1
        omega
    · exact absurd h (by simp)
  · rintro ⟨h0, rfl⟩
    have hin : ∀ a : Fin 2, 0 ≤ (rowScatterDims N E C wf).start (ix2 e q) idx a + ((rowScatterDims N E C wf).window (ix2 e q) a : Int)
        ∧ (rowScatterDims N E C wf).start (ix2 e q) idx a + ((rowScatterDims N E C wf).window (ix2 e q) a : Int)
          < ((⟨2, ![N, C]⟩ : Shape).size a : Int) := by
      intro a
      match a with
      | ⟨0, _⟩ =>
        show 0 ≤ (rowScatterDims N E C wf).start (ix2 e q) idx 0 + ((rowScatterDims N E C wf).window (ix2 e q) 0 : Int)
          ∧ (rowScatterDims N E C wf).start (ix2 e q) idx 0 + ((rowScatterDims N E C wf).window (ix2 e q) 0 : Int) < (N : Int)
        rw [s0, w0, h0]; omega
      | ⟨1, _⟩ =>
        show 0 ≤ (rowScatterDims N E C wf).start (ix2 e q) idx 1 + ((rowScatterDims N E C wf).window (ix2 e q) 1 : Int)
          ∧ (rowScatterDims N E C wf).start (ix2 e q) idx 1 + ((rowScatterDims N E C wf).window (ix2 e q) 1 : Int) < (C : Int)
        rw [s1, w1]; omega
    rw [dif_pos hin]
    congr 1
    funext a
    refine Fin.ext ?_
    match a with
    | ⟨0, _⟩ =>
      show ((rowScatterDims N E C wf).start (ix2 e q) idx 0 + ((rowScatterDims N E C wf).window (ix2 e q) 0 : Int)).toNat = p.val
      rw [s0, w0, h0]; omega
    | ⟨1, _⟩ =>
      show ((rowScatterDims N E C wf).start (ix2 e q) idx 1 + ((rowScatterDims N E C wf).window (ix2 e q) 1 : Int)).toNat = q.val
      rw [s1, w1]; omega

/-- THE SCATTER-ADD READ AT `(p, r)`: the operand's element plus the sum, over the rows `e` whose index is `p`, of
    the update's element `(e, r)`. -/
theorem rowScatterAdd_apply (x : (⟨2, ![N, C]⟩ : Shape).Idx → EReal) (upd : (⟨2, ![E, C]⟩ : Shape).Idx → EReal)
    (p : Fin N) (r : Fin C) :
    Ideal.hostScatterAdd (rowScatterDims N E C wf) x idx upd (ix2 p r)
      = x (ix2 p r) + ∑ e ∈ Finset.univ.filter (fun e : Fin E => (idx (ix2 e (0 : Fin 1))).toInt = (p.val : Int)), upd (ix2 e r) := by
  unfold Ideal.hostScatterAdd
  congr 1
  rw [Finset.sum_filter, Finset.sum_filter, sum_idx2]
  refine Finset.sum_congr rfl fun e _ => ?_
  have hiff : ∀ q : Fin C, ((rowScatterDims N E C wf).resultIdx? (ix2 e q) idx = some (ix2 p r))
      ↔ ((idx (ix2 e (0 : Fin 1))).toInt = (p.val : Int) ∧ q = r) := fun q => rowScatter_resultIdx?_iff wf idx e q p r
  simp only [hiff]
  by_cases h0 : (idx (ix2 e (0 : Fin 1))).toInt = (p.val : Int)
  · simp only [h0, true_and, if_true]
    rw [Finset.sum_ite_eq' Finset.univ r (fun q => upd (ix2 e q))]
    simp
  · simp only [h0, false_and, if_false, Finset.sum_const_zero]

end RowScatter

end Cert.RowGatherScatter

end
-- ==== Proof.GraphOf.lean ====
/-
  The graph read off the edge array.

  Row 0 of the edge array `ei : [2, 1600000]` holds each edge's source word, row 1 its destination word. A word `w` that
  is used to READ a row of a per-node array is first wrapped (`w + 100000` when `w` is negative as a signed integer),
  then read signed and clamped into `[0, 99999]`. A word under which a row is ACCUMULATED is read signed and not clamped:
  an edge whose destination, read signed, is no node is accumulated nowhere. When the destination word read signed IS
  the node `n`, it is nonnegative, so wrapping leaves it alone and clamping returns `n`.

  A node's degree is `(0 + Σ_{e → n} 1) + 1` with `1` the f32 word `0x3F800000`; it is positive, so its inverse square
  root is nonnegative and finite.
-/
import Idealize.ShloMosaic.PureOps.Ideal
import Idealize.ShloMosaic.Lib.ValueIdx
import proofs.«108103_j9363028705695_2_alg».proof.Proof.Spec
import proofs.«108103_j9363028705695_2_alg».proof.Proof.LibRowGatherScatter
import proofs.«108103_j9363028705695_2_alg».proof.Proof.LibNonnegScale

set_option maxRecDepth 16384

noncomputable section

open scoped BigOperators

namespace Cert.Gcn

open Idealize.ShloMosaic Idealize.ShloMosaic.ValueIdx Cert.RowGatherScatter

/-- A word wrapped for reading: `w + 100000` when `w` is negative as a signed integer, else `w`. -/
def wrapWord (w : BitVec 32) : BitVec 32 :=
  Scalar.select (IntOp.cmpi .slt w 0#32) (IntOp.addi w 100000#32) w

/-- The row a word reads: wrapped, read signed, clamped. -/
def readRow (w : BitVec 32) : Fin 100000 := clampRow 100000 (by norm_num) (wrapWord w)

/-- The f32 word `0x3F800000` is the real number one. -/
theorem ofBits_one_f32 : Ideal.ofBits .f32 0x3F800000#32 = ((1 : ℝ) : EReal) := by
  simp [Ideal.ofBits, Ideal.ieee]
  exact_mod_cast (by norm_num : (8388608 : ℝ) * ((2 : ℝ) ^ 23)⁻¹ = 1)

/-- A word whose signed value is the node `n` reads row `n`. -/
theorem readRow_of_toInt (w : BitVec 32) (n : Fin 100000) (h : w.toInt = (n.val : ℤ)) : readRow w = n := by
  unfold readRow
  refine clampRow_of_toInt _ _ n ?_
  have hnn : ¬ w.slt 0#32 = true := by
    rw [BitVec.slt]; simp only [decide_eq_true_eq, not_lt]
    rw [h]; simp
  have : wrapWord w = w := by
    unfold wrapWord IntOp.cmpi Scalar.select
    simp only [hnn]
    simp
  rw [this, h]

/-- The degree of a node given the edges accumulated into it. -/
def degree (s : Finset (Fin 1600000)) : EReal :=
  (0 + ∑ _e ∈ s, Ideal.ofBits .f32 0x3F800000#32) + Ideal.ofBits .f32 0x3F800000#32

theorem degree_pos (s : Finset (Fin 1600000)) : 0 < degree s := by
  unfold degree
  rw [ofBits_one_f32, zero_add]
  have h1 : (0 : EReal) ≤ ∑ _e ∈ s, ((1 : ℝ) : EReal) := Finset.sum_nonneg fun _ _ => by exact_mod_cast zero_le_one
  have h2 : (0 : EReal) < ((1 : ℝ) : EReal) := by exact_mod_cast zero_lt_one
  exact Right.add_pos_of_nonneg_of_pos h1 h2

/-- The edges whose destination word, read signed, is the node `n`. -/
def edgesInto (ei : (⟨2, ![2, 1600000]⟩ : Shape).Idx → BitVec 32) (n : Fin 100000) : Finset (Fin 1600000) :=
  Finset.univ.filter fun e : Fin 1600000 => (ei (ix2 (1 : Fin 2) e)).toInt = (n.val : ℤ)

/-- The degree factor of a node. -/
def dinvOf (ei : (⟨2, ![2, 1600000]⟩ : Shape).Idx → BitVec 32) (n : Fin 100000) : EReal :=
  Ideal.rsqrt (degree (edgesInto ei n))

theorem dinvOf_nonneg (ei : (⟨2, ![2, 1600000]⟩ : Shape).Idx → BitVec 32) (n : Fin 100000) : 0 ≤ dinvOf ei n :=
  (Cert.NonnegScale.rsqrt_of_pos (degree_pos (edgesInto ei n))).1

theorem dinvOf_ne_top (ei : (⟨2, ![2, 1600000]⟩ : Shape).Idx → BitVec 32) (n : Fin 100000) : dinvOf ei n ≠ ⊤ :=
  (Cert.NonnegScale.rsqrt_of_pos (degree_pos (edgesInto ei n))).2

/-- An edge accumulated into `n` reads row `n` through its destination word. -/
theorem readRow_dst (ei : (⟨2, ![2, 1600000]⟩ : Shape).Idx → BitVec 32) :
    ∀ (e : Fin 1600000) (n : Fin 100000), (ei (ix2 (1 : Fin 2) e)).toInt = (n.val : ℤ) → readRow (ei (ix2 (1 : Fin 2) e)) = n :=
  fun e n h => readRow_of_toInt (ei (ix2 (1 : Fin 2) e)) n h

/-- The graph of an edge array. -/
noncomputable def graphOf (ei : (⟨2, ![2, 1600000]⟩ : Shape).Idx → BitVec 32) : Graph :=
  { srcRow := fun e => readRow (ei (ix2 (0 : Fin 2) e))
    dstRow := fun e => readRow (ei (ix2 (1 : Fin 2) e))
    dstI := fun e => (ei (ix2 (1 : Fin 2) e)).toInt
    dst_row := readRow_dst ei
    dinv := dinvOf ei
    dinv_nonneg := dinvOf_nonneg ei
    dinv_ne_top := dinvOf_ne_top ei }

theorem graphOf_inEdges (ei : (⟨2, ![2, 1600000]⟩ : Shape).Idx → BitVec 32) (n : Fin 100000) :
    (graphOf ei).inEdges n = Finset.univ.filter fun e : Fin 1600000 => (ei (ix2 (1 : Fin 2) e)).toInt = (n.val : ℤ) := rfl

theorem graphOf_dinv_filter (ei : (⟨2, ![2, 1600000]⟩ : Shape).Idx → BitVec 32) (n : Fin 100000) :
    (graphOf ei).dinv n
      = Ideal.rsqrt (degree (Finset.univ.filter fun e : Fin 1600000 => (ei (ix2 (1 : Fin 2) e)).toInt = (n.val : ℤ))) := by
  simp only [graphOf, dinvOf, edgesInto]

theorem graphOf_srcRow (ei : (⟨2, ![2, 1600000]⟩ : Shape).Idx → BitVec 32) (e : Fin 1600000) :
    (graphOf ei).srcRow e = readRow (ei (ix2 (0 : Fin 2) e)) := by
  simp only [graphOf]

theorem graphOf_dstRow (ei : (⟨2, ![2, 1600000]⟩ : Shape).Idx → BitVec 32) (e : Fin 1600000) :
    (graphOf ei).dstRow e = readRow (ei (ix2 (1 : Fin 2) e)) := by
  simp only [graphOf]

theorem graphOf_dinv (ei : (⟨2, ![2, 1600000]⟩ : Shape).Idx → BitVec 32) (n : Fin 100000) :
    (graphOf ei).dinv n = Ideal.rsqrt (degree ((graphOf ei).inEdges n)) := by
  rw [graphOf_inEdges]
  exact graphOf_dinv_filter ei n

/-- The activation after the first layer: the larger of the value and zero. -/
def relu (v : EReal) : EReal := max v 0

end Cert.Gcn

end
-- ==== Proof.Net.lean ====
/-
  The whole network as one function of the fourteen argument arrays, in the form each program computes, and the
  equality of the two forms.

  Arrays are functions on a rank-1 or rank-2 index type; `mat` and `vec` read them entry by entry and `arr2` builds
  one from its entries. The hidden layers are four graph-convolution layers (the first followed by `max · 0`); the
  network is a fifth layer with 100 output columns followed by a 100 × 100 linear map. The pre-scaled form runs the
  fifth layer and the final map on 128 columns, the extra ones zero.
-/
import proofs.«108103_j9363028705695_2_alg».proof.Proof.GraphOf

noncomputable section

namespace Cert.Gcn

open Idealize.ShloMosaic Idealize.ShloMosaic.ValueIdx

variable {α : Type} {a b : ℕ}

/-- The entries of a rank-2 array. -/
def mat (A : (⟨2, ![a, b]⟩ : Shape).Idx → α) : Fin a → Fin b → α := fun p q => A (ix2 p q)
/-- The entries of a rank-1 array. -/
def vec (v : (⟨1, ![a]⟩ : Shape).Idx → α) : Fin a → α := fun p => v (ix1 p)
/-- The rank-2 array with given entries. -/
def arr2 (f : Fin a → Fin b → α) : (⟨2, ![a, b]⟩ : Shape).Idx → α := fun i => f (i 0) (i 1)

theorem arr2_ix2 (f : Fin a → Fin b → α) (p : Fin a) (q : Fin b) : arr2 f (ix2 p q) = f p q := rfl

/-- An array is determined by its entries. -/
theorem eq_arr2 (A : (⟨2, ![a, b]⟩ : Shape).Idx → α) (f : Fin a → Fin b → α) (h : ∀ p q, A (ix2 p q) = f p q) :
    A = arr2 f :=
  funext fun i => (congrArg A (eq_ix2 i)).trans (h (i 0) (i 1))

section Network

variable (a0 : (⟨2, ![100000, 128]⟩ : Shape).Idx → EReal) (a1 : (⟨2, ![2, 1600000]⟩ : Shape).Idx → BitVec 32)
  (a2 : (⟨2, ![128, 128]⟩ : Shape).Idx → EReal) (a3 : (⟨1, ![128]⟩ : Shape).Idx → EReal)
  (a4 : (⟨2, ![128, 128]⟩ : Shape).Idx → EReal) (a5 : (⟨1, ![128]⟩ : Shape).Idx → EReal)
  (a6 : (⟨2, ![128, 128]⟩ : Shape).Idx → EReal) (a7 : (⟨1, ![128]⟩ : Shape).Idx → EReal)
  (a8 : (⟨2, ![128, 128]⟩ : Shape).Idx → EReal) (a9 : (⟨1, ![128]⟩ : Shape).Idx → EReal)
  (a10 : (⟨2, ![128, 100]⟩ : Shape).Idx → EReal) (a11 : (⟨1, ![100]⟩ : Shape).Idx → EReal)
  (a12 : (⟨2, ![100, 100]⟩ : Shape).Idx → EReal) (a13 : (⟨1, ![100]⟩ : Shape).Idx → EReal)

/-- The four hidden layers with a weight on every edge. -/
def refHidden : Fin 100000 → Fin 128 → EReal :=
  edgeWeightedLayer (graphOf a1) id (edgeWeightedLayer (graphOf a1) id (edgeWeightedLayer (graphOf a1) id
    (edgeWeightedLayer (graphOf a1) relu (mat a0) (mat a2) (vec a3)) (mat a4) (vec a5)) (mat a6) (vec a7)) (mat a8) (vec a9)

/-- The network with a weight on every edge: the result array. -/
def refNet : (⟨2, ![100000, 100]⟩ : Shape).Idx → EReal :=
  arr2 (final (edgeWeightedLayer (graphOf a1) id (refHidden a0 a1 a2 a3 a4 a5 a6 a7 a8 a9) (mat a10) (vec a11)) (mat a12) (vec a13))

/-- The four hidden layers with the scaling done before and after the edge sum. -/
def kerHidden : Fin 100000 → Fin 128 → EReal :=
  preScaledLayer (graphOf a1) id (preScaledLayer (graphOf a1) id (preScaledLayer (graphOf a1) id
    (preScaledLayer (graphOf a1) relu (mat a0) (mat a2) (vec a3)) (mat a4) (vec a5)) (mat a6) (vec a7)) (mat a8) (vec a9)

/-- The fifth layer on 128 columns, the last 28 zero. -/
def kerWideLayer : Fin 100000 → Fin 128 → EReal :=
  preScaledLayer (graphOf a1) id (kerHidden a0 a1 a2 a3 a4 a5 a6 a7 a8 a9) (padCols (mat a10)) (padVec (vec a11))

/-- The final map on 128 columns. -/
def kerWide : Fin 100000 → Fin 128 → EReal :=
  wideFinal (kerWideLayer a0 a1 a2 a3 a4 a5 a6 a7 a8 a9 a10 a11) (mat a12) (vec a13)

theorem kerHidden_eq : kerHidden a0 a1 a2 a3 a4 a5 a6 a7 a8 a9 = refHidden a0 a1 a2 a3 a4 a5 a6 a7 a8 a9 := by
  unfold kerHidden refHidden
  simp only [preScaledLayer_eq]

/-- The first 100 columns of the wide form are the network. -/
theorem kerWide_eq (n : Fin 100000) (j : Fin 100) (j' : Fin 128) (hj : j'.val = j.val) :
    kerWide a0 a1 a2 a3 a4 a5 a6 a7 a8 a9 a10 a11 a12 a13 n j'
      = refNet a0 a1 a2 a3 a4 a5 a6 a7 a8 a9 a10 a11 a12 a13 (ix2 n j) := by
  unfold kerWide kerWideLayer refNet
  rw [arr2_ix2, wideFinal_eq (graphOf a1) _ _ _ _ _ n j j' hj, kerHidden_eq]

end Network

end Cert.Gcn

end
-- ==== Proof.PadLemmas.lean ====
/-
  Zero padding and the final cut, read at an index.

  A matrix with 100 columns padded on the right to 128 columns reads its own entry where the column is below 100 and
  the padding value elsewhere; the same for a vector of 100 entries padded to 128 and for a 100 × 100 matrix padded on
  the right and below to 128 × 128. The padding value here is the integer zero converted to a float, the real number
  zero. The first 100 columns cut out of a 128-column matrix read the matrix there.
-/
import Idealize.ShloMosaic.Lib.Pipeline.Value
import Idealize.ShloMosaic.Lib.ValueIdx
import Idealize.ShloMosaic.Lib.ValueLayout
import Idealize.ShloMosaic.Lib.KernelVsHost
import proofs.«108103_j9363028705695_2_alg».proof.Proof.Net

set_option maxRecDepth 16384

noncomputable section

namespace Cert.Gcn.PadRead

open Idealize.ShloMosaic Idealize.ShloMosaic.ValueIdx Cert.Gcn

/-- The integer zero converted to a float is zero. -/
theorem sitofp_zero (i : (⟨0, ![]⟩ : Shape).Idx) :
    sitofp (F := Ideal) .f32 (constantI ⟨0, ![]⟩ 32 0#32) i = 0 := by
  show (((0#32 : BitVec 32).toInt : ℝ) : EReal) = 0
  simp

/-- Columns padded from 100 to 128. -/
theorem padCols_apply {K : ℕ} (x : (⟨2, ![K, 100]⟩ : Shape).Idx → EReal) (v : (⟨0, ![]⟩ : Shape).Idx → EReal)
    (h : (⟨2, ![K, 100]⟩ : Shape).Pads (![0, 0] : Fin 2 → Nat) ![0, 28] ![0, 0] ⟨2, ![K, 128]⟩)
    (hu : 0 < (⟨0, ![]⟩ : Shape).numel) (hv : ∀ i, v i = 0) (k : Fin K) (j : Fin 128) :
    pad ⟨2, ![K, 128]⟩ ![0, 0] ![0, 28] ![0, 0] x v h hu (ix2 k j) = padCols (mat x) k j := by
  unfold padCols mat
  by_cases hj : j.val < 100
  · rw [dif_pos hj]
    refine pad_apply_of_inside _ _ _ x v h hu _ (ix2 k ⟨j.val, hj⟩) (fun a => ?_)
    match a with
    | ⟨0, _⟩ => show k.val = 0 + k.val * (0 + 1); omega
    | ⟨1, _⟩ => show j.val = 0 + j.val * (0 + 1); omega
  · rw [dif_neg hj, ← hv (Shape.Idx.first hu)]
    refine pad_apply_of_not_inside _ _ _ x v h hu _ (⟨1, by decide⟩ : Fin 2) (fun hc => hj ?_)
    have h3 := hc.2.2
    have : (j.val - 0) / (0 + 1) < 100 := h3
    omega

/-- A vector padded from 100 to 128. -/
theorem padVec_apply (x : (⟨1, ![100]⟩ : Shape).Idx → EReal) (v : (⟨0, ![]⟩ : Shape).Idx → EReal)
    (h : (⟨1, ![100]⟩ : Shape).Pads (![0] : Fin 1 → Nat) ![28] ![0] ⟨1, ![128]⟩)
    (hu : 0 < (⟨0, ![]⟩ : Shape).numel) (hv : ∀ i, v i = 0) (j : Fin 128) :
    pad ⟨1, ![128]⟩ ![0] ![28] ![0] x v h hu (ix1 j) = padVec (vec x) j := by
  unfold padVec vec
  by_cases hj : j.val < 100
  · rw [dif_pos hj]
    refine pad_apply_of_inside _ _ _ x v h hu _ (ix1 ⟨j.val, hj⟩) (fun a => ?_)
    match a with
    | ⟨0, _⟩ => show j.val = 0 + j.val * (0 + 1); omega
  · rw [dif_neg hj, ← hv (Shape.Idx.first hu)]
    refine pad_apply_of_not_inside _ _ _ x v h hu _ (⟨0, by decide⟩ : Fin 1) (fun hc => hj ?_)
    have h3 := hc.2.2
    have : (j.val - 0) / (0 + 1) < 100 := h3
    omega

/-- Rows and columns padded from 100 to 128. -/
theorem padBoth_apply (x : (⟨2, ![100, 100]⟩ : Shape).Idx → EReal) (v : (⟨0, ![]⟩ : Shape).Idx → EReal)
    (h : (⟨2, ![100, 100]⟩ : Shape).Pads (![0, 0] : Fin 2 → Nat) ![28, 28] ![0, 0] ⟨2, ![128, 128]⟩)
    (hu : 0 < (⟨0, ![]⟩ : Shape).numel) (hv : ∀ i, v i = 0) (k : Fin 128) (j : Fin 128) :
    pad ⟨2, ![128, 128]⟩ ![0, 0] ![28, 28] ![0, 0] x v h hu (ix2 k j) = padBoth (mat x) k j := by
  unfold padBoth mat
  by_cases hkj : k.val < 100 ∧ j.val < 100
  · rw [dif_pos hkj]
    refine pad_apply_of_inside _ _ _ x v h hu _ (ix2 ⟨k.val, hkj.1⟩ ⟨j.val, hkj.2⟩) (fun a => ?_)
    match a with
    | ⟨0, _⟩ => show k.val = 0 + k.val * (0 + 1); omega
    | ⟨1, _⟩ => show j.val = 0 + j.val * (0 + 1); omega
  · rw [dif_neg hkj, ← hv (Shape.Idx.first hu)]
    by_cases hk : k.val < 100
    · have hj : ¬ j.val < 100 := fun hj => hkj ⟨hk, hj⟩
      refine pad_apply_of_not_inside _ _ _ x v h hu _ (⟨1, by decide⟩ : Fin 2) (fun hc => hj ?_)
      have h3 := hc.2.2
      have : (j.val - 0) / (0 + 1) < 100 := h3
      omega
    · refine pad_apply_of_not_inside _ _ _ x v h hu _ (⟨0, by decide⟩ : Fin 2) (fun hc => hk ?_)
      have h3 := hc.2.2
      have : (k.val - 0) / (0 + 1) < 100 := h3
      omega

/-- The first 100 columns of a 128-column matrix. -/
theorem firstCols_apply (X : (⟨2, ![100000, 128]⟩ : Shape).Idx → EReal)
    (h : (⟨2, ![100000, 128]⟩ : Shape).Slices ![0, 0] ⟨2, ![100000, 100]⟩) (n : Fin 100000) (j : Fin 100) :
    extractStridedSlice ⟨2, ![100000, 100]⟩ ![0, 0] X h (ix2 n j) = X (ix2 n ⟨j.val, by omega⟩) :=
  slice2_axis1_apply 0 X h n j ⟨j.val, by omega⟩ (by simp)

end Cert.Gcn.PadRead

end
-- ==== Proof.KPads.lean ====
/-
  The four padding stretches: the last layer's weights and bias and the final map's weights and bias, each widened from
  100 to 128 by the integer zero converted to a float. Read at an index each is the spec's zero-widened array.
-/
import proofs.«108103_j9363028705695_2_alg».proof.Proof.Gen.KernelIdeal.Frame
import proofs.«108103_j9363028705695_2_alg».proof.Proof.KWalk
import proofs.«108103_j9363028705695_2_alg».proof.Proof.PadLemmas

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx Cert.Gcn Cert.KernelIdeal.Carried

variable (m : (ℓ : Loc nD τ sig) → Buf (Elt Ideal) ℓ) (ρ : Dev nD → PrngReg) (c : Dev nD)

/-- The padding value of the stretch: the integer constant zero. -/
theorem zero_v68 : ((W14 m ρ c (Proc.devRef .tc main_c_13)) : S_.Idx → BitVec 32) = constantI S_ 32 0#32 := by
  show StableHlo.after hostOps8 (W13 m ρ c) (Proc.devRef .tc main_c_13) = _
  after_results

/-- The widened array right after its stretch. -/
theorem pad_v68 (k : Fin 128) (j : Fin 128) :
    ((W15 m ρ c (Proc.devRef .tc main_v68)) : S128x128.Idx → EReal) (ix2 k j) = padCols (mat (m ((c : Thread nD τ).loc main_arg10))) k j := by
  have h : ((W15 m ρ c (Proc.devRef .tc main_v68)) : S128x128.Idx → EReal)
      = pad S128x128 ![0, 0] ![0, 28] ![0, 0] ((W14 m ρ c (Proc.devRef .tc main_arg10)) : S128x100.Idx → EReal) (sitofp (F := Ideal) .f32 ((W14 m ρ c (Proc.devRef .tc main_c_13)) : S_.Idx → BitVec 32)) Facts₀.pads_S128x100_S128x128_000_0280 Facts₀.h_S_ := by
    show StableHlo.after hostOps8_1 (W14 m ρ c) (Proc.devRef .tc main_v68) = _
    after_results
    rfl
  rw [h, zero_v68 m ρ c, keep_main_arg10_14_0 m ρ c]
  exact PadRead.padCols_apply _ _ _ _ PadRead.sitofp_zero k j

/-- The padding value of the stretch: the integer constant zero. -/
theorem zero_v69 : ((W16 m ρ c (Proc.devRef .tc main_c_14)) : S_.Idx → BitVec 32) = constantI S_ 32 0#32 := by
  show StableHlo.after hostOps8_2 (W15 m ρ c) (Proc.devRef .tc main_c_14) = _
  after_results

/-- The widened array right after its stretch. -/
theorem pad_v69 (j : Fin 128) :
    ((W17 m ρ c (Proc.devRef .tc main_v69)) : S128.Idx → EReal) (ix1 j) = padVec (vec (m ((c : Thread nD τ).loc main_arg11))) j := by
  have h : ((W17 m ρ c (Proc.devRef .tc main_v69)) : S128.Idx → EReal)
      = pad S128 ![0] ![28] ![0] ((W16 m ρ c (Proc.devRef .tc main_arg11)) : S100.Idx → EReal) (sitofp (F := Ideal) .f32 ((W16 m ρ c (Proc.devRef .tc main_c_14)) : S_.Idx → BitVec 32)) Facts₀.pads_S100_S128_0280 Facts₀.h_S_ := by
    show StableHlo.after hostOps8_3 (W16 m ρ c) (Proc.devRef .tc main_v69) = _
    after_results
    rfl
  rw [h, zero_v69 m ρ c, keep_main_arg11_16_0 m ρ c]
  exact PadRead.padVec_apply _ _ _ _ PadRead.sitofp_zero j

/-- The padding value of the stretch: the integer constant zero. -/
theorem zero_v70 : ((W18 m ρ c (Proc.devRef .tc main_c_15)) : S_.Idx → BitVec 32) = constantI S_ 32 0#32 := by
  show StableHlo.after hostOps8_4 (W17 m ρ c) (Proc.devRef .tc main_c_15) = _
  after_results

/-- The widened array right after its stretch. -/
theorem pad_v70 (k : Fin 128) (j : Fin 128) :
    ((W19 m ρ c (Proc.devRef .tc main_v70)) : S128x128.Idx → EReal) (ix2 k j) = padBoth (mat (m ((c : Thread nD τ).loc main_arg12))) k j := by
  have h : ((W19 m ρ c (Proc.devRef .tc main_v70)) : S128x128.Idx → EReal)
      = pad S128x128 ![0, 0] ![28, 28] ![0, 0] ((W18 m ρ c (Proc.devRef .tc main_arg12)) : S100x100.Idx → EReal) (sitofp (F := Ideal) .f32 ((W18 m ρ c (Proc.devRef .tc main_c_15)) : S_.Idx → BitVec 32)) Facts₀.pads_S100x100_S128x128_0280_0280 Facts₀.h_S_ := by
    show StableHlo.after hostOps8_5 (W18 m ρ c) (Proc.devRef .tc main_v70) = _
    after_results
    rfl
  rw [h, zero_v70 m ρ c, keep_main_arg12_18_0 m ρ c]
  exact PadRead.padBoth_apply _ _ _ _ PadRead.sitofp_zero k j

/-- The padding value of the stretch: the integer constant zero. -/
theorem zero_v71 : ((W20 m ρ c (Proc.devRef .tc main_c_16)) : S_.Idx → BitVec 32) = constantI S_ 32 0#32 := by
  show StableHlo.after hostOps8_6 (W19 m ρ c) (Proc.devRef .tc main_c_16) = _
  after_results

/-- The widened array right after its stretch. -/
theorem pad_v71 (j : Fin 128) :
    ((W21 m ρ c (Proc.devRef .tc main_v71)) : S128.Idx → EReal) (ix1 j) = padVec (vec (m ((c : Thread nD τ).loc main_arg13))) j := by
  have h : ((W21 m ρ c (Proc.devRef .tc main_v71)) : S128.Idx → EReal)
      = pad S128 ![0] ![28] ![0] ((W20 m ρ c (Proc.devRef .tc main_arg13)) : S100.Idx → EReal) (sitofp (F := Ideal) .f32 ((W20 m ρ c (Proc.devRef .tc main_c_16)) : S_.Idx → BitVec 32)) Facts₀.pads_S100_S128_0280 Facts₀.h_S_ := by
    show StableHlo.after hostOps8_7 (W20 m ρ c) (Proc.devRef .tc main_v71) = _
    after_results
    rfl
  rw [h, zero_v71 m ρ c, keep_main_arg13_20_0 m ρ c]
  exact PadRead.padVec_apply _ _ _ _ PadRead.sitofp_zero j

end Cert.KernelIdeal.Chain

end
-- ==== Proof.LibVecScatter.lean ====
/-
  Scatter-adding the elements of a vector into a vector at an index column, read at an index.

  A scatter-add of `upd : [E]` into `x : [N]` at an index column `idx : [E, 1]` adds, to element `p`, the elements
  `upd[e]` of exactly those positions `e` whose index, read as a signed integer and NOT clamped, is `p`; a position
  whose index falls outside `[0, N)` is dropped. So a segment sum of a vector is a sum over the filter
  `{e | idx[e, 0] = p}`. Also: a sum over the indices of a rank-1 shape is the sum over its one coordinate.
-/
import Idealize.ShloMosaic.PureOps.Ideal
import Idealize.ShloMosaic.Lib.ValueIdx

noncomputable section

open scoped BigOperators

namespace Cert.VecScatter

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of `x.at[idx].add(upd)` for `x : [N]`, `idx : [E, 1]`, `upd : [E]`: the update has no window
    axis, the operand's one axis is the inserted axis the index names. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- The window of update element `e` starts at the index `idx[e, 0]`, read signed. -/
theorem vecScatter_start0 : (vecScatterDims N E wf).start (ix1 e) idx 0 = (idx (ix2 e (0 : Fin 1))).toInt := by
  unfold ScatterDims.start
  rw [dif_pos (show (0 : Fin 1) ∈ ([0] : List (Fin 1)) from List.mem_singleton.mpr rfl)]
  have hsi : (vecScatterDims N E wf).siIdx (ix1 e) ⟨List.idxOf (0 : Fin 1) ([0] : List (Fin 1)),
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's axis is inserted: no window coordinate. -/
theorem vecScatter_window0 : (vecScatterDims N E wf).window (ix1 e) 0 = 0 := by
  have h : ¬ (0 : Fin 1) ∈ (vecScatterDims N E wf).sKept :=
    (show ¬ (0 : Fin 1) ∈ (List.finRange 1).filter (· ∉ ([0] : List (Fin 1))) by decide)
  unfold ScatterDims.window
  rw [dif_neg h]

/-- UPDATE ELEMENT `e` LANDS ON `p` exactly when its index, read signed, is `p`. -/
theorem vecScatter_resultIdx?_iff (p : Fin N) :
    (vecScatterDims N E wf).resultIdx? (ix1 e) idx = some (ix1 p) ↔ (idx (ix2 e (0 : Fin 1))).toInt = (p.val : Int) := by
  have s0 := vecScatter_start0 wf idx e
  have w0 := vecScatter_window0 wf e
  have hp := p.isLt
  unfold ScatterDims.resultIdx?
  constructor
  · intro h
    split at h
    · rename_i hin
      have hf := Option.some.inj h
      have h0 := congrArg (fun f => (f 0).val) hf
      simp only at h0
      have hin0 := hin 0
      rw [s0, w0] at h0 hin0
      have h0' : ((idx (ix2 e (0 : Fin 1))).toInt + ((0 : Nat) : Int)).toNat = p.val := h0
      have hin0' : 0 ≤ (idx (ix2 e (0 : Fin 1))).toInt + ((0 : Nat) : Int) := hin0.1
      omega
    · exact absurd h (by simp)
  · intro h0
    have hin : ∀ a : Fin 1, 0 ≤ (vecScatterDims N E wf).start (ix1 e) idx a + ((vecScatterDims N E wf).window (ix1 e) a : Int)
        ∧ (vecScatterDims N E wf).start (ix1 e) idx a + ((vecScatterDims N E wf).window (ix1 e) a : Int)
          < ((⟨1, ![N]⟩ : Shape).size a : Int) := by
      intro a
      match a with
      | ⟨0, _⟩ =>
        show 0 ≤ (vecScatterDims N E wf).start (ix1 e) idx 0 + ((vecScatterDims N E wf).window (ix1 e) 0 : Int)
          ∧ (vecScatterDims N E wf).start (ix1 e) idx 0 + ((vecScatterDims N E wf).window (ix1 e) 0 : Int) < (N : Int)
        rw [s0, w0, h0]; omega
    rw [dif_pos hin]
    congr 1
    funext a
    refine Fin.ext ?_
    match a with
    | ⟨0, _⟩ =>
      show ((vecScatterDims N E wf).start (ix1 e) idx 0 + ((vecScatterDims N E wf).window (ix1 e) 0 : Int)).toNat = p.val
      rw [s0, w0, h0]; omega

/-- THE SCATTER-ADD READ AT `p`: the operand's element plus the sum, over the positions `e` whose index is `p`, of
    the update's element `e`. -/
theorem vecScatterAdd_apply (x : (⟨1, ![N]⟩ : Shape).Idx → EReal) (upd : (⟨1, ![E]⟩ : Shape).Idx → EReal) (p : Fin N) :
    Ideal.hostScatterAdd (vecScatterDims N E wf) x idx upd (ix1 p)
      = x (ix1 p) + ∑ e ∈ Finset.univ.filter (fun e : Fin E => (idx (ix2 e (0 : Fin 1))).toInt = (p.val : Int)), upd (ix1 e) := by
  unfold Ideal.hostScatterAdd
  congr 1
  rw [Finset.sum_filter, Finset.sum_filter, sum_idx1]
  refine Finset.sum_congr rfl fun e _ => ?_
  simp only [vecScatter_resultIdx?_iff wf idx e p]

end Cert.VecScatter

end
-- ==== Proof.LibColumnCast.lean ====
import Idealize.ShloMosaic.Lib.ValueLayout

/-!
# A vector read as a one-column matrix

A shape cast from `[a]` to `[a, 1]` keeps the row-major order, so entry `(i, 0)` of the column is entry `i` of
the vector.  (The companion of the library's lemmas for a leading unit axis, for a TRAILING one.)
-/

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.HostLemmas.lean ====
/-
  The host operations between the kernel regions, read at an index.

  * A vector broadcast to a column reads, at `(e, 0)`, the vector at `e`.
  * Row `r` of the edge array, cut out and flattened, reads at `e` the edge array at `(r, e)`.
  * THE EDGE SUM. Rows of `hs` are gathered at the wrapped source words and scatter-added into a zero array at the
    destination words: entry `(n, j)` is `0 + Σ hs(readRow(src e), j)` over the edges `e` whose destination word, read
    signed, is `n`.
  * THE DEGREE FACTOR. Ones scatter-added into a zero vector at the destination words, plus one, under the inverse square
    root, recast as a column: entry `(n, 0)` is `rsqrt(degree n)`.
-/
import Idealize.ShloMosaic.Lib.Pipeline.Value
import Idealize.ShloMosaic.Lib.ValueIdx
import Idealize.ShloMosaic.Lib.ValueLayout
import Idealize.ShloMosaic.Lib.KernelVsHost
import proofs.«108103_j9363028705695_2_alg».proof.Proof.Net
import proofs.«108103_j9363028705695_2_alg».proof.Proof.LibRowGatherScatter
import proofs.«108103_j9363028705695_2_alg».proof.Proof.LibVecScatter
import proofs.«108103_j9363028705695_2_alg».proof.Proof.LibColumnCast

set_option maxRecDepth 16384

noncomputable section

open scoped BigOperators

namespace Cert.Gcn.HostRead

open Idealize.ShloMosaic Idealize.ShloMosaic.ValueIdx Cert.RowGatherScatter Cert.VecScatter Cert.Gcn

variable {α : Type}

/-- A vector broadcast to a column reads, at `(e, z)`, the vector at `e`. -/
theorem bcastCol_apply {a : ℕ} (ha : a ≠ 1) (h : (⟨1, ![a]⟩ : Shape).BroadcastsInDim ⟨2, ![a, 1]⟩ ![0])
    (x : (⟨1, ![a]⟩ : Shape).Idx → α) (e : Fin a) (z : Fin 1) :
    broadcastInDim ⟨2, ![a, 1]⟩ ![0] h x (ix2 e z) = x (ix1 e) :=
  broadcastInDim_apply _ h x _ _ (fun d => by
    match d with
    | ⟨0, _⟩ =>
      show e.val = if a = 1 then 0 else e.val
      rw [if_neg ha])

/-- Row 0 of the edge array, flattened. -/
theorem edgeRow0_apply (ei : (⟨2, ![2, 1600000]⟩ : Shape).Idx → α)
    (hs : (⟨2, ![2, 1600000]⟩ : Shape).Slices ![0, 0] ⟨2, ![1, 1600000]⟩)
    (hc : (⟨2, ![1, 1600000]⟩ : Shape).ShapeCasts ⟨1, ![1600000]⟩) (e : Fin 1600000) :
    shapeCast ⟨1, ![1600000]⟩ (extractStridedSlice ⟨2, ![1, 1600000]⟩ ![0, 0] ei hs) hc (ix1 e) = ei (ix2 (0 : Fin 2) e) := by
  rw [shapeCast_1a_a_apply]
  exact slice2_axis0_apply 0 ei hs (0 : Fin 1) e (0 : Fin 2) rfl

/-- Row 1 of the edge array, flattened. -/
theorem edgeRow1_apply (ei : (⟨2, ![2, 1600000]⟩ : Shape).Idx → α)
    (hs : (⟨2, ![2, 1600000]⟩ : Shape).Slices ![1, 0] ⟨2, ![1, 1600000]⟩)
    (hc : (⟨2, ![1, 1600000]⟩ : Shape).ShapeCasts ⟨1, ![1600000]⟩) (e : Fin 1600000) :
    shapeCast ⟨1, ![1600000]⟩ (extractStridedSlice ⟨2, ![1, 1600000]⟩ ![1, 0] ei hs) hc (ix1 e) = ei (ix2 (1 : Fin 2) e) := by
  rw [shapeCast_1a_a_apply]
  exact slice2_axis0_apply 1 ei hs (0 : Fin 1) e (1 : Fin 2) rfl

/-- The wrapped word of an index vector, as the host computes it. -/
theorem wrapped_apply (src : IVec ⟨1, ![1600000]⟩ 32)
    (hb0 : (⟨0, ![]⟩ : Shape).BroadcastsInDim ⟨1, ![1600000]⟩ ![]) (i : (⟨1, ![1600000]⟩ : Shape).Idx) :
    select (cmpi .slt src (broadcastInDim ⟨1, ![1600000]⟩ ![] hb0 (constantI ⟨0, ![]⟩ 32 0#32)))
      (addi src (broadcastInDim ⟨1, ![1600000]⟩ ![] hb0 (constantI ⟨0, ![]⟩ 32 100000#32))) src i = wrapWord (src i) := rfl

/-- A scalar f32 constant broadcast to any shape reads, at every index, the value its word denotes. -/
theorem splat_apply {t : Shape} (hb : (⟨0, ![]⟩ : Shape).BroadcastsInDim t ![]) (b : BitVec 32) (i : t.Idx) :
    broadcastInDim t ![] hb (constant (F := Ideal) ⟨0, ![]⟩ .f32 b) i = Ideal.ofBits .f32 b := rfl

/-- The host's inverse square root of a vector reads, at an index, the inverse square root of the entry. -/
theorem hostRsqrt_apply {s : Shape} {φ : FTy} (x : FVec Ideal s φ) (i : s.Idx) :
    Host.rsqrt (F := Ideal) x i = Ideal.rsqrt (x i) := rfl

/-- The host's accumulating scatter at the extended reals is the exact sum, as a function. -/
theorem hostScatterAdd_eq {s si u : Shape} {w : Nat} {φ : FTy} (d : ScatterDims s si u) (x : FVec Ideal s φ) (idx : IVec si w)
    (upd : FVec Ideal u φ) : Host.scatterAdd (F := Ideal) d x idx upd = Ideal.hostScatterAdd d x idx upd := rfl

/-- THE EDGE SUM read at `(n, j)`. -/
theorem edgeSum_apply {φ : FTy} (hφ : φ.bits < FTy.f32.bits)
    (wfG : GatherDims.WF ⟨2, ![100000, 128]⟩ ⟨2, ![1600000, 1]⟩ ⟨2, ![1600000, 128]⟩ [1] [0] [] [0] [] 1 ![1, 128])
    (wfS : ScatterDims.WF ⟨2, ![100000, 128]⟩ ⟨2, ![1600000, 1]⟩ ⟨2, ![1600000, 128]⟩ [1] [0] [0] 1)
    (hbE : (⟨1, ![1600000]⟩ : Shape).BroadcastsInDim ⟨2, ![1600000, 1]⟩ ![0])
    (hbZ : (⟨0, ![]⟩ : Shape).BroadcastsInDim ⟨2, ![100000, 128]⟩ ![])
    (hb0 : (⟨0, ![]⟩ : Shape).BroadcastsInDim ⟨1, ![1600000]⟩ ![])
    (hs : FVec Ideal ⟨2, ![100000, 128]⟩ φ) (src dst : IVec ⟨1, ![1600000]⟩ 32) (n : Fin 100000) (j : Fin 128) :
    Host.scatterAdd (F := Ideal) (rowScatterDims 100000 1600000 128 wfS)
        (broadcastInDim ⟨2, ![100000, 128]⟩ ![] hbZ (constant (F := Ideal) ⟨0, ![]⟩ .f32 0x00000000#32))
        (broadcastInDim ⟨2, ![1600000, 1]⟩ ![0] hbE dst)
        (extf (F := Ideal) .f32 (Host.gather (rowGatherDims 100000 1600000 128 wfG) hs
          (broadcastInDim ⟨2, ![1600000, 1]⟩ ![0] hbE
            (select (cmpi .slt src (broadcastInDim ⟨1, ![1600000]⟩ ![] hb0 (constantI ⟨0, ![]⟩ 32 0#32)))
              (addi src (broadcastInDim ⟨1, ![1600000]⟩ ![] hb0 (constantI ⟨0, ![]⟩ 32 100000#32))) src))) hφ) (ix2 n j)
      = 0 + ∑ e ∈ Finset.univ.filter (fun e : Fin 1600000 => (dst (ix1 e)).toInt = (n.val : ℤ)), hs (ix2 (readRow (src (ix1 e))) j) := by
  rw [hostScatterAdd_eq, rowScatterAdd_apply, splat_apply, Ideal.ofBits_zero_f32]
  refine congrArg (fun v : EReal => 0 + v) (Finset.sum_congr (Finset.filter_congr fun e _ => ?_) fun e _ => ?_)
  · rw [bcastCol_apply (by norm_num) hbE dst e 0]
  · rw [extf_apply, rowGather_apply (by norm_num : 0 < 100000), bcastCol_apply (by norm_num) hbE _ e 0, wrapped_apply]
    rfl

/-- THE DEGREE FACTOR read at `(n, 0)`, given that the destination vector is row 1 of the edge array. -/
theorem dinvCol_apply
    (wfV : ScatterDims.WF ⟨1, ![100000]⟩ ⟨2, ![1600000, 1]⟩ ⟨1, ![1600000]⟩ [] [0] [0] 1)
    (hbE : (⟨1, ![1600000]⟩ : Shape).BroadcastsInDim ⟨2, ![1600000, 1]⟩ ![0])
    (hbN : (⟨0, ![]⟩ : Shape).BroadcastsInDim ⟨1, ![100000]⟩ ![])
    (hb0 : (⟨0, ![]⟩ : Shape).BroadcastsInDim ⟨1, ![1600000]⟩ ![])
    (hc : (⟨1, ![100000]⟩ : Shape).ShapeCasts ⟨2, ![100000, 1]⟩)
    (ei : (⟨2, ![2, 1600000]⟩ : Shape).Idx → BitVec 32) (dst : IVec ⟨1, ![1600000]⟩ 32)
    (hdst : ∀ e : Fin 1600000, dst (ix1 e) = ei (ix2 (1 : Fin 2) e)) (n : Fin 100000) (z : Fin 1) :
    shapeCast ⟨2, ![100000, 1]⟩ (Host.rsqrt (F := Ideal) (addf (F := Ideal) (φ := .f32)
        (Host.scatterAdd (F := Ideal) (vecScatterDims 100000 1600000 wfV)
          (broadcastInDim ⟨1, ![100000]⟩ ![] hbN (constant (F := Ideal) ⟨0, ![]⟩ .f32 0x00000000#32))
          (broadcastInDim ⟨2, ![1600000, 1]⟩ ![0] hbE dst)
          (broadcastInDim ⟨1, ![1600000]⟩ ![] hb0 (constant (F := Ideal) ⟨0, ![]⟩ .f32 0x3F800000#32)))
        (broadcastInDim ⟨1, ![100000]⟩ ![] hbN (constant (F := Ideal) ⟨0, ![]⟩ .f32 0x3F800000#32)))) hc (ix2 n z)
      = (graphOf ei).dinv n := by
  rw [ValueIdx.shapeCast_a_a1_apply, hostRsqrt_apply, addf_apply, hostScatterAdd_eq, vecScatterAdd_apply, splat_apply,
    splat_apply, Ideal.ofBits_zero_f32, graphOf_dinv_filter]
  unfold degree
  refine congrArg Ideal.rsqrt (congrArg (fun v : EReal => v + Ideal.ofBits .f32 0x3F800000#32)
    (congrArg (fun v : EReal => 0 + v) (Finset.sum_congr (Finset.filter_congr fun e _ => ?_) fun e _ => ?_)))
  · rw [bcastCol_apply (by norm_num) hbE dst e 0, hdst e]
  · exact splat_apply hb0 _ (ix1 e)

end Cert.Gcn.HostRead

end
-- ==== Proof.KGraph.lean ====
/-
  What the first stretch of host operations leaves: the source and destination words of the edges, and the column of
  degree factors. Each is the edge array (row 0, row 1) or the graph's `dinv` read at an index.
-/
import proofs.«108103_j9363028705695_2_alg».proof.Proof.Gen.KernelIdeal.Frame
import proofs.«108103_j9363028705695_2_alg».proof.Proof.KWalk
import proofs.«108103_j9363028705695_2_alg».proof.Proof.HostLemmas

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx Cert.Gcn Cert.KernelIdeal.Carried

variable (m : (ℓ : Loc nD τ sig) → Buf (Elt Ideal) ℓ) (ρ : Dev nD → PrngReg) (c : Dev nD)

/-- The source words after the first stretch: row 0 of the edge array. -/
theorem src_W1 (e : Fin 1600000) :
    ((W1 m ρ c (Proc.devRef .tc main_v1)) : S1600000.Idx → BitVec 32) (ix1 e) = (m ((c : Thread nD τ).loc main_arg1)) (ix2 (0 : Fin 2) e) := by
  have h : ((W1 m ρ c (Proc.devRef .tc main_v1)) : S1600000.Idx → BitVec 32)
      = shapeCast S1600000 (extractStridedSlice S1x1600000 ![0, 0] (m ((c : Thread nD τ).loc main_arg1)) Facts₀.slices_S2x1600000_S1x1600000_0_0) Facts₀.shapeCasts_S1x1600000_S1600000 := by
    show StableHlo.after hostOps0 (W0 m ρ c) (Proc.devRef .tc main_v1) = _
    after_results
    rfl
  rw [h]
  exact HostRead.edgeRow0_apply _ _ _ e

/-- The destination words after the first stretch: row 1 of the edge array. -/
theorem dst_W1 (e : Fin 1600000) :
    ((W1 m ρ c (Proc.devRef .tc main_v3)) : S1600000.Idx → BitVec 32) (ix1 e) = (m ((c : Thread nD τ).loc main_arg1)) (ix2 (1 : Fin 2) e) := by
  have h : ((W1 m ρ c (Proc.devRef .tc main_v3)) : S1600000.Idx → BitVec 32)
      = shapeCast S1600000 (extractStridedSlice S1x1600000 ![1, 0] (m ((c : Thread nD τ).loc main_arg1)) Facts₀.slices_S2x1600000_S1x1600000_1_0) Facts₀.shapeCasts_S1x1600000_S1600000 := by
    show StableHlo.after hostOps0 (W0 m ρ c) (Proc.devRef .tc main_v3) = _
    after_results
    rfl
  rw [h]
  exact HostRead.edgeRow1_apply _ _ _ e

/-- The column of degree factors after the first stretch. -/
theorem dinv_W1 (n : Fin 100000) (z : Fin 1) :
    ((W1 m ρ c (Proc.devRef .tc main_v11)) : S100000x1.Idx → EReal) (ix2 n z) = (graphOf (m ((c : Thread nD τ).loc main_arg1))).dinv n := by
  have h : ((W1 m ρ c (Proc.devRef .tc main_v11)) : S100000x1.Idx → EReal)
      = shapeCast S100000x1 (Host.rsqrt (F := Ideal) (addf (F := Ideal) (φ := .f32)
          (Host.scatterAdd (F := Ideal) scatter_S100000_S1600000x1_S1600000_n_0_0_1
            (broadcastInDim S100000 ![] Facts₀.bcast_S_S100000 (constant (F := Ideal) S_ .f32 0x00000000#32))
            (broadcastInDim S1600000x1 ![0] Facts₀.bcast_S1600000_S1600000x1_0 ((W1 m ρ c (Proc.devRef .tc main_v3)) : S1600000.Idx → BitVec 32))
            (broadcastInDim S1600000 ![] Facts₀.bcast_S_S1600000 (constant (F := Ideal) S_ .f32 0x3F800000#32)))
          (broadcastInDim S100000 ![] Facts₀.bcast_S_S100000 (constant (F := Ideal) S_ .f32 0x3F800000#32)))) Facts₀.shapeCasts_S100000_S100000x1 := by
    show StableHlo.after hostOps0 (W0 m ρ c) (Proc.devRef .tc main_v11) = _
    after_results
    rfl
  rw [h]
  exact HostRead.dinvCol_apply Facts₀.scatter_S100000_S1600000x1_S1600000_n_0_0_1_wf _ _ _ _ (m ((c : Thread nD τ).loc main_arg1)) _ (dst_W1 m ρ c) n z

end Cert.KernelIdeal.Chain

end
-- ==== Proof.LayerRead.lean ====
/-
  From entrywise readings of arrays to the layer of the specification.

  If the arrays a region or a host stretch reads hold, entry by entry, the previous activations, the weights, the degree
  factors, then what it computes is, entry by entry, the scaled product, the edge sum, or the whole layer.
-/
import proofs.«108103_j9363028705695_2_alg».proof.Proof.Net

set_option maxRecDepth 16384

noncomputable section

open scoped BigOperators

namespace Cert.Gcn.LayerRead

open Idealize.ShloMosaic Idealize.ShloMosaic.ValueIdx Cert.Gcn

variable (g : Graph) {K C : ℕ}

/-- The product scaled by the degree-factor column. -/
theorem scaled_of (X : (⟨2, ![100000, K]⟩ : Shape).Idx → EReal) (Wt : (⟨2, ![K, C]⟩ : Shape).Idx → EReal)
    (D : (⟨2, ![100000, 1]⟩ : Shape).Idx → EReal)
    (Hp : Fin 100000 → Fin K → EReal) (Wm : Fin K → Fin C → EReal)
    (hX : ∀ n k, X (ix2 n k) = Hp n k) (hW : ∀ k j, Wt (ix2 k j) = Wm k j) (hD : ∀ n, D (ix2 n (0 : Fin 1)) = g.dinv n)
    (n : Fin 100000) (j : Fin C) :
    (∑ k : Fin K, X (ix2 n k) * Wt (ix2 k j)) * D (ix2 n (0 : Fin 1)) = scaled g Hp Wm n j := by
  show _ = (∑ k : Fin K, Hp n k * Wm k j) * g.dinv n
  rw [hD n]
  exact congrArg (· * g.dinv n) (Finset.sum_congr rfl fun k _ => by rw [hX n k, hW k j])

/-- The edge sum, for the graph of an edge array whose rows the source and destination vectors hold. -/
theorem gathered_of (ei : (⟨2, ![2, 1600000]⟩ : Shape).Idx → BitVec 32)
    (src dst : IVec ⟨1, ![1600000]⟩ 32) (hs : (⟨2, ![100000, C]⟩ : Shape).Idx → EReal)
    (Hp : Fin 100000 → Fin K → EReal) (Wm : Fin K → Fin C → EReal)
    (hsrc : ∀ e : Fin 1600000, src (ix1 e) = ei (ix2 (0 : Fin 2) e))
    (hdst : ∀ e : Fin 1600000, dst (ix1 e) = ei (ix2 (1 : Fin 2) e))
    (hhs : ∀ p j, hs (ix2 p j) = scaled (graphOf ei) Hp Wm p j) (n : Fin 100000) (j : Fin C) :
    (0 + ∑ e ∈ Finset.univ.filter (fun e : Fin 1600000 => (dst (ix1 e)).toInt = (n.val : ℤ)), hs (ix2 (readRow (src (ix1 e))) j))
      = gathered (graphOf ei) Hp Wm n j := by
  show _ = 0 + ∑ e ∈ (graphOf ei).inEdges n, scaled (graphOf ei) Hp Wm ((graphOf ei).srcRow e) j
  rw [graphOf_inEdges]
  refine congrArg (0 + ·) (Finset.sum_congr (Finset.filter_congr fun e _ => by rw [hdst e]) fun e _ => ?_)
  rw [hsrc e, hhs, graphOf_srcRow]

/-- The whole layer from its three ingredients. -/
theorem layer_of (act : EReal → EReal) (A H : (⟨2, ![100000, C]⟩ : Shape).Idx → EReal)
    (D : (⟨2, ![100000, 1]⟩ : Shape).Idx → EReal) (B : (⟨2, ![1, C]⟩ : Shape).Idx → EReal)
    (Hp : Fin 100000 → Fin K → EReal) (Wm : Fin K → Fin C → EReal) (b : Fin C → EReal)
    (hA : ∀ n j, A (ix2 n j) = gathered g Hp Wm n j) (hH : ∀ n j, H (ix2 n j) = scaled g Hp Wm n j)
    (hD : ∀ n, D (ix2 n (0 : Fin 1)) = g.dinv n) (hB : ∀ j, B (ix2 (0 : Fin 1) j) = b j) (n : Fin 100000) (j : Fin C) :
    act (D (ix2 n (0 : Fin 1)) * (A (ix2 n j) + H (ix2 n j)) + B (ix2 (0 : Fin 1) j)) = preScaledLayer g act Hp Wm b n j := by
  show _ = act (g.dinv n * (gathered g Hp Wm n j + scaled g Hp Wm n j) + b j)
  rw [hD n, hA n j, hH n j, hB j]

/-- The final linear map on 128 columns from its ingredients. -/
theorem wideFinal_of (X : (⟨2, ![100000, 128]⟩ : Shape).Idx → EReal) (Wt : (⟨2, ![128, 128]⟩ : Shape).Idx → EReal)
    (B : (⟨2, ![1, 128]⟩ : Shape).Idx → EReal)
    (Hp : Fin 100000 → Fin 128 → EReal) (Wl : Fin 100 → Fin 100 → EReal) (bl : Fin 100 → EReal)
    (hX : ∀ n k, X (ix2 n k) = Hp n k) (hW : ∀ k j, Wt (ix2 k j) = padBoth Wl k j) (hB : ∀ j, B (ix2 (0 : Fin 1) j) = padVec bl j)
    (n : Fin 100000) (j : Fin 128) :
    (∑ k : Fin 128, X (ix2 n k) * Wt (ix2 k j)) + B (ix2 (0 : Fin 1) j) = wideFinal Hp Wl bl n j := by
  show _ = (∑ k : Fin 128, Hp n k * padBoth Wl k j) + padVec bl j
  rw [hB j]
  exact congrArg (· + padVec bl j) (Finset.sum_congr rfl fun k _ => by rw [hX n k, hW k j])

end Cert.Gcn.LayerRead

end
-- ==== Proof.RegionBody.lean ====
import proofs.«108103_j9363028705695_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-!
# The block bodies, read at one element

Every region works on blocks of 2000 rows, and its body is one of three kinds. Written for row `p` of
the block and lane `q`, over the extended reals:

* linear, then scale by a column: `(∑ k, x p k * w k q) * d p`;
* combine: `d p * (a p q + h p q) + b q`, in one region followed by a maximum with zero;
* linear plus a row: `(∑ k, x p k * w k q) + b q`.

A change of float format is the identity on the extended reals, so the roundings to bf16 in front of
the matrix product and behind the scaled result leave no trace; a shape cast to the same shape is the
identity. The order of the factors and of the summands is the printed one.
-/

noncomputable section

namespace Cert.KernelIdeal.RegionValue

open Cert.KernelIdeal Cert.KernelIdeal.Gen Idealize.ShloMosaic Idealize.ShloMosaic.ValueIdx

/-- The zero offsets of a whole-block access, however they are spelt. -/
theorem hz : (![0, 0] : Fin 2 → Nat) = fun _ => 0 := funext fun a => by fin_cases a <;> rfl

/-! ## The matrix product at an element -/

/-- The left operand's row is the output's row. -/
theorem lhs_row (i : S2000x128.Idx) (u : dot_S2000x128_S128x128_S2000x128_1_0_0_1_n_n.contr.Idx) :
    (dot_S2000x128_S128x128_S2000x128_1_0_0_1_n_n.lhsIdx i u 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column is the inner position. -/
theorem lhs_col (i : S2000x128.Idx) (u : dot_S2000x128_S128x128_S2000x128_1_0_0_1_n_n.contr.Idx) :
    (dot_S2000x128_S128x128_S2000x128_1_0_0_1_n_n.lhsIdx i u 1).val = (u ⟨0, by decide⟩).val :=
  dot_S2000x128_S128x128_S2000x128_1_0_0_1_n_n.lhsIdx_val_of_single rfl i u
/-- The right operand's row is the inner position. -/
theorem rhs_row (i : S2000x128.Idx) (u : dot_S2000x128_S128x128_S2000x128_1_0_0_1_n_n.contr.Idx) :
    (dot_S2000x128_S128x128_S2000x128_1_0_0_1_n_n.rhsIdx i u 0).val = (u ⟨0, by decide⟩).val :=
  dot_S2000x128_S128x128_S2000x128_1_0_0_1_n_n.rhsIdx_val_of_single rfl i u
/-- The right operand's column is the output's lane. -/
theorem rhs_col (i : S2000x128.Idx) (u : dot_S2000x128_S128x128_S2000x128_1_0_0_1_n_n.contr.Idx) :
    (dot_S2000x128_S128x128_S2000x128_1_0_0_1_n_n.rhsIdx i u 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000,128] × [128,128] product accumulated into zero, at `(p, q)`: the sum over the 128 inner
    positions of the left operand's row `p` times the right operand's column `q`. -/
theorem matmul_at {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## A column and a row laid over the block -/

/-- A [2000,1] column laid along the 128 lanes reads, at `(p, q)`, the column's entry `p`. -/
theorem colBroadcast_at {α : Type} (d : S2000x1.Idx → α) (h : S2000x1.Broadcasts S2000x128) (p : Fin 2000) (q : Fin 128) :
    broadcastTo S2000x128 d h (ix2 p q) = d (ix2 p (0 : Fin 1)) := by
  refine broadcastTo_apply d h (ix2 p q) (ix2 p (0 : Fin 1)) fun ax => ?_
  match ax with
  | ⟨0, _⟩ => rfl
  | ⟨1, _⟩ => rfl

/-- A [1,128] row laid over the 2000 rows reads, at `(p, q)`, the row's entry `q`. -/
theorem rowBroadcast_at {α : Type} (b : S1x128.Idx → α) (h : S1x128.Broadcasts S2000x128) (p : Fin 2000) (q : Fin 128) :
    broadcastTo S2000x128 b h (ix2 p q) = b (ix2 (0 : Fin 1) q) :=
  broadcastTo_1b_ab_apply b h p q

/-! ## The three kinds of body -/

/-- Linear, then scale by a column. -/
theorem linScale_body (hlt : FTy.bits .bf16 < FTy.bits .f32) (hd : S2000x1.Broadcasts S2000x128)
    (x : FVec Ideal S2000x128 .f32) (w : FVec Ideal S128x128 .f32) (d : FVec Ideal S2000x1 .f32) (p : Fin 2000) (q : Fin 128) :
    mulf (matmul dot_S2000x128_S128x128_S2000x128_1_0_0_1_n_n none (truncf .bf16 x hlt) (truncf .bf16 w hlt) (constant (F := Ideal) S2000x128 .f32 0x00000000#32))
        (broadcastTo S2000x128 d hd) (ix2 p q)
      = (∑ k : Fin 128, x (ix2 p k) * w (ix2 k q)) * d (ix2 p (0 : Fin 1)) := by
  rw [mulf_apply, matmul_at, colBroadcast_at]
  rfl

/-- Combine: the column's entry times the sum of the two blocks, plus the row's entry. -/
theorem combine_body (hd : S2000x1.Broadcasts S2000x128) (hb : S1x128.Broadcasts S2000x128)
    (d : FVec Ideal S2000x1 .f32) (a h : FVec Ideal S2000x128 .f32) (b : FVec Ideal S1x128 .f32) (p : Fin 2000) (q : Fin 128) :
    addf (mulf (broadcastTo S2000x128 d hd) (addf a h)) (broadcastTo S2000x128 b hb) (ix2 p q)
      = d (ix2 p (0 : Fin 1)) * (a (ix2 p q) + h (ix2 p q)) + b (ix2 (0 : Fin 1) q) := by
  rw [addf_apply, mulf_apply, addf_apply, colBroadcast_at, rowBroadcast_at]

/-- Combine, then the maximum with a splat of zero. -/
theorem combine_relu_body (hd : S2000x1.Broadcasts S2000x128) (hb : S1x128.Broadcasts S2000x128)
    (d : FVec Ideal S2000x1 .f32) (a h : FVec Ideal S2000x128 .f32) (b : FVec Ideal S1x128 .f32) (z : Ideal .f32) (hz0 : z = 0)
    (p : Fin 2000) (q : Fin 128) :
    maximumf (addf (mulf (broadcastTo S2000x128 d hd) (addf a h)) (broadcastTo S2000x128 b hb)) (broadcast S2000x128 z) (ix2 p q)
      = max (d (ix2 p (0 : Fin 1)) * (a (ix2 p q) + h (ix2 p q)) + b (ix2 (0 : Fin 1) q)) 0 := by
  rw [maximumf_apply, broadcast_apply, combine_body, hz0]

/-- Linear plus a row. -/
theorem linBias_body (hlt : FTy.bits .bf16 < FTy.bits .f32) (hb : S1x128.Broadcasts S2000x128)
    (x : FVec Ideal S2000x128 .f32) (w : FVec Ideal S128x128 .f32) (b : FVec Ideal S1x128 .f32) (p : Fin 2000) (q : Fin 128) :
    addf (matmul dot_S2000x128_S128x128_S2000x128_1_0_0_1_n_n none (truncf .bf16 x hlt) (truncf .bf16 w hlt) (constant (F := Ideal) S2000x128 .f32 0x00000000#32))
        (broadcastTo S2000x128 b hb) (ix2 p q)
      = (∑ k : Fin 128, x (ix2 p k) * w (ix2 k q)) + b (ix2 (0 : Fin 1) q) := by
  rw [addf_apply, matmul_at, rowBroadcast_at]
  rfl

/-! ## The printed payloads are these bodies -/

/-- Region 0's f32 payload. -/
theorem k0_pay1_at (x : Vec Ideal S2000x128 .f32) (w : Vec Ideal S128x128 .f32) (d : Vec Ideal S2000x1 .f32) (p : Fin 2000) (q : Fin 128) :
    k0_pay1 x w d (ix2 p q) = (∑ k : Fin 128, x (ix2 p k) * w (ix2 k q)) * d (ix2 p (0 : Fin 1)) := by
  unfold k0_pay1
  simp only [shapeCast_self]
  exact linScale_body _ _ x w d p q
/-- Region 0's bf16 payload is the same extended real. -/
theorem k0_pay2_at (x : Vec Ideal S2000x128 .f32) (w : Vec Ideal S128x128 .f32) (d : Vec Ideal S2000x1 .f32) (p : Fin 2000) (q : Fin 128) :
    k0_pay2 x w d (ix2 p q) = (∑ k : Fin 128, x (ix2 p k) * w (ix2 k q)) * d (ix2 p (0 : Fin 1)) := by
  unfold k0_pay2
  exact k0_pay1_at x w d p q

/-- Region 2's f32 payload. -/
theorem k2_pay1_at (x : Vec Ideal S2000x128 .f32) (w : Vec Ideal S128x128 .f32) (d : Vec Ideal S2000x1 .f32) (p : Fin 2000) (q : Fin 128) :
    k2_pay1 x w d (ix2 p q) = (∑ k : Fin 128, x (ix2 p k) * w (ix2 k q)) * d (ix2 p (0 : Fin 1)) := by
  unfold k2_pay1
  simp only [shapeCast_self]
  exact linScale_body _ _ x w d p q
/-- Region 2's bf16 payload is the same extended real. -/
theorem k2_pay2_at (x : Vec Ideal S2000x128 .f32) (w : Vec Ideal S128x128 .f32) (d : Vec Ideal S2000x1 .f32) (p : Fin 2000) (q : Fin 128) :
    k2_pay2 x w d (ix2 p q) = (∑ k : Fin 128, x (ix2 p k) * w (ix2 k q)) * d (ix2 p (0 : Fin 1)) := by
  unfold k2_pay2
  exact k2_pay1_at x w d p q

/-- Region 4's f32 payload. -/
theorem k4_pay1_at (x : Vec Ideal S2000x128 .f32) (w : Vec Ideal S128x128 .f32) (d : Vec Ideal S2000x1 .f32) (p : Fin 2000) (q : Fin 128) :
    k4_pay1 x w d (ix2 p q) = (∑ k : Fin 128, x (ix2 p k) * w (ix2 k q)) * d (ix2 p (0 : Fin 1)) := by
  unfold k4_pay1
  simp only [shapeCast_self]
  exact linScale_body _ _ x w d p q
/-- Region 4's bf16 payload is the same extended real. -/
theorem k4_pay2_at (x : Vec Ideal S2000x128 .f32) (w : Vec Ideal S128x128 .f32) (d : Vec Ideal S2000x1 .f32) (p : Fin 2000) (q : Fin 128) :
    k4_pay2 x w d (ix2 p q) = (∑ k : Fin 128, x (ix2 p k) * w (ix2 k q)) * d (ix2 p (0 : Fin 1)) := by
  unfold k4_pay2
  exact k4_pay1_at x w d p q

/-- Region 6's f32 payload. -/
theorem k6_pay1_at (x : Vec Ideal S2000x128 .f32) (w : Vec Ideal S128x128 .f32) (d : Vec Ideal S2000x1 .f32) (p : Fin 2000) (q : Fin 128) :
    k6_pay1 x w d (ix2 p q) = (∑ k : Fin 128, x (ix2 p k) * w (ix2 k q)) * d (ix2 p (0 : Fin 1)) := by
  unfold k6_pay1
  simp only [shapeCast_self]
  exact linScale_body _ _ x w d p q
/-- Region 6's bf16 payload is the same extended real. -/
theorem k6_pay2_at (x : Vec Ideal S2000x128 .f32) (w : Vec Ideal S128x128 .f32) (d : Vec Ideal S2000x1 .f32) (p : Fin 2000) (q : Fin 128) :
    k6_pay2 x w d (ix2 p q) = (∑ k : Fin 128, x (ix2 p k) * w (ix2 k q)) * d (ix2 p (0 : Fin 1)) := by
  unfold k6_pay2
  exact k6_pay1_at x w d p q

/-- Region 8's f32 payload. -/
theorem k8_pay1_at (x : Vec Ideal S2000x128 .f32) (w : Vec Ideal S128x128 .f32) (d : Vec Ideal S2000x1 .f32) (p : Fin 2000) (q : Fin 128) :
    k8_pay1 x w d (ix2 p q) = (∑ k : Fin 128, x (ix2 p k) * w (ix2 k q)) * d (ix2 p (0 : Fin 1)) := by
  unfold k8_pay1
  simp only [shapeCast_self]
  exact linScale_body _ _ x w d p q
/-- Region 8's bf16 payload is the same extended real. -/
theorem k8_pay2_at (x : Vec Ideal S2000x128 .f32) (w : Vec Ideal S128x128 .f32) (d : Vec Ideal S2000x1 .f32) (p : Fin 2000) (q : Fin 128) :
    k8_pay2 x w d (ix2 p q) = (∑ k : Fin 128, x (ix2 p k) * w (ix2 k q)) * d (ix2 p (0 : Fin 1)) := by
  unfold k8_pay2
  exact k8_pay1_at x w d p q

/-- Region 1's payload: combine, then the maximum with zero. -/
theorem k1_pay1_at (d : Vec Ideal S2000x1 .f32) (a h : Vec Ideal S2000x128 .f32) (b : Vec Ideal S1x128 .f32) (p : Fin 2000) (q : Fin 128) :
    k1_pay1 d a h b (ix2 p q) = max (d (ix2 p (0 : Fin 1)) * (a (ix2 p q) + h (ix2 p q)) + b (ix2 (0 : Fin 1) q)) 0 := by
  unfold k1_pay1
  simp only [shapeCast_self]
  exact combine_relu_body _ _ d a h b _ Ideal.ofBits_zero_f32 p q

/-- Region 3's payload: combine. -/
theorem k3_pay1_at (d : Vec Ideal S2000x1 .f32) (a h : Vec Ideal S2000x128 .f32) (b : Vec Ideal S1x128 .f32) (p : Fin 2000) (q : Fin 128) :
    k3_pay1 d a h b (ix2 p q) = d (ix2 p (0 : Fin 1)) * (a (ix2 p q) + h (ix2 p q)) + b (ix2 (0 : Fin 1) q) := by
  unfold k3_pay1
  simp only [shapeCast_self]
  exact combine_body _ _ d a h b p q

/-- Region 5's payload: combine. -/
theorem k5_pay1_at (d : Vec Ideal S2000x1 .f32) (a h : Vec Ideal S2000x128 .f32) (b : Vec Ideal S1x128 .f32) (p : Fin 2000) (q : Fin 128) :
    k5_pay1 d a h b (ix2 p q) = d (ix2 p (0 : Fin 1)) * (a (ix2 p q) + h (ix2 p q)) + b (ix2 (0 : Fin 1) q) := by
  unfold k5_pay1
  simp only [shapeCast_self]
  exact combine_body _ _ d a h b p q

/-- Region 7's payload: combine. -/
theorem k7_pay1_at (d : Vec Ideal S2000x1 .f32) (a h : Vec Ideal S2000x128 .f32) (b : Vec Ideal S1x128 .f32) (p : Fin 2000) (q : Fin 128) :
    k7_pay1 d a h b (ix2 p q) = d (ix2 p (0 : Fin 1)) * (a (ix2 p q) + h (ix2 p q)) + b (ix2 (0 : Fin 1) q) := by
  unfold k7_pay1
  simp only [shapeCast_self]
  exact combine_body _ _ d a h b p q

/-- Region 9's payload: combine. -/
theorem k9_pay1_at (d : Vec Ideal S2000x1 .f32) (a h : Vec Ideal S2000x128 .f32) (b : Vec Ideal S1x128 .f32) (p : Fin 2000) (q : Fin 128) :
    k9_pay1 d a h b (ix2 p q) = d (ix2 p (0 : Fin 1)) * (a (ix2 p q) + h (ix2 p q)) + b (ix2 (0 : Fin 1) q) := by
  unfold k9_pay1
  simp only [shapeCast_self]
  exact combine_body _ _ d a h b p q

/-- Region 10's payload: linear plus a row. -/
theorem k10_pay1_at (x : Vec Ideal S2000x128 .f32) (w : Vec Ideal S128x128 .f32) (b : Vec Ideal S1x128 .f32) (p : Fin 2000) (q : Fin 128) :
    k10_pay1 x w b (ix2 p q) = (∑ k : Fin 128, x (ix2 p k) * w (ix2 k q)) + b (ix2 (0 : Fin 1) q) := by
  unfold k10_pay1
  simp only [shapeCast_self]
  exact linBias_body _ _ x w b p q

/-! ## The arrays the regions leave, as functions of the arrays they find

The rows are the 100000 nodes and the lanes the 128 features; each is written once with the row and the
lane taken from the index, and read at given coordinates by the lemma after it. -/

/-- Rows times a square matrix, each row then scaled by its entry of a column. -/
def linScaleArr (X : S100000x128.Idx → EReal) (W : S128x128.Idx → EReal) (D : S100000x1.Idx → EReal) : S100000x128.Idx → EReal :=
  fun i => (∑ k : Fin 128, X (ix2 (i 0 : Fin 100000) k) * W (ix2 k (i 1 : Fin 128))) * D (ix2 (i 0 : Fin 100000) (0 : Fin 1))

theorem linScaleArr_at (X : S100000x128.Idx → EReal) (W : S128x128.Idx → EReal) (D : S100000x1.Idx → EReal)
    (i : S100000x128.Idx) (n : Fin 100000) (j : Fin 128) (hn : (i 0).val = n.val) (hj : (i 1).val = j.val) :
    linScaleArr X W D i = (∑ k : Fin 128, X (ix2 n k) * W (ix2 k j)) * D (ix2 n (0 : Fin 1)) := by
  obtain rfl : i = ix2 n j := funext fun a => Fin.ext (by match a with | ⟨0, _⟩ => exact hn | ⟨1, _⟩ => exact hj)
  rfl

/-- A column's entry times the sum of two arrays, plus a row's entry. -/
def combineArr (A H : S100000x128.Idx → EReal) (D : S100000x1.Idx → EReal) (B : S1x128.Idx → EReal) : S100000x128.Idx → EReal :=
  fun i => D (ix2 (i 0 : Fin 100000) (0 : Fin 1)) * (A (ix2 (i 0 : Fin 100000) (i 1 : Fin 128)) + H (ix2 (i 0 : Fin 100000) (i 1 : Fin 128)))
    + B (ix2 (0 : Fin 1) (i 1 : Fin 128))

theorem combineArr_at (A H : S100000x128.Idx → EReal) (D : S100000x1.Idx → EReal) (B : S1x128.Idx → EReal)
    (i : S100000x128.Idx) (n : Fin 100000) (j : Fin 128) (hn : (i 0).val = n.val) (hj : (i 1).val = j.val) :
    combineArr A H D B i = D (ix2 n (0 : Fin 1)) * (A (ix2 n j) + H (ix2 n j)) + B (ix2 (0 : Fin 1) j) := by
  obtain rfl : i = ix2 n j := funext fun a => Fin.ext (by match a with | ⟨0, _⟩ => exact hn | ⟨1, _⟩ => exact hj)
  rfl

/-- The same, then the maximum with zero. -/
def combineReluArr (A H : S100000x128.Idx → EReal) (D : S100000x1.Idx → EReal) (B : S1x128.Idx → EReal) : S100000x128.Idx → EReal :=
  fun i => max (combineArr A H D B i) 0

theorem combineReluArr_at (A H : S100000x128.Idx → EReal) (D : S100000x1.Idx → EReal) (B : S1x128.Idx → EReal)
    (i : S100000x128.Idx) (n : Fin 100000) (j : Fin 128) (hn : (i 0).val = n.val) (hj : (i 1).val = j.val) :
    combineReluArr A H D B i = max (D (ix2 n (0 : Fin 1)) * (A (ix2 n j) + H (ix2 n j)) + B (ix2 (0 : Fin 1) j)) 0 := by
  unfold combineReluArr
  rw [combineArr_at A H D B i n j hn hj]

/-- Rows times a square matrix, plus a row's entry. -/
def linBiasArr (X : S100000x128.Idx → EReal) (W : S128x128.Idx → EReal) (B : S1x128.Idx → EReal) : S100000x128.Idx → EReal :=
  fun i => (∑ k : Fin 128, X (ix2 (i 0 : Fin 100000) k) * W (ix2 k (i 1 : Fin 128))) + B (ix2 (0 : Fin 1) (i 1 : Fin 128))

theorem linBiasArr_at (X : S100000x128.Idx → EReal) (W : S128x128.Idx → EReal) (B : S1x128.Idx → EReal)
    (i : S100000x128.Idx) (n : Fin 100000) (j : Fin 128) (hn : (i 0).val = n.val) (hj : (i 1).val = j.val) :
    linBiasArr X W B i = (∑ k : Fin 128, X (ix2 n k) * W (ix2 k j)) + B (ix2 (0 : Fin 1) j) := by
  obtain rfl : i = ix2 n j := funext fun a => Fin.ext (by match a with | ⟨0, _⟩ => exact hn | ⟨1, _⟩ => exact hj)
  rfl

end Cert.KernelIdeal.RegionValue

end
-- ==== Proof.RegionValue0.lean ====
import proofs.«108103_j9363028705695_2_alg».proof.Proof.Gen.KernelIdeal.Frame
import proofs.«108103_j9363028705695_2_alg».proof.Proof.RegionBody
import Idealize.ShloMosaic.Lib.Pipeline.Value
import Idealize.ShloMosaic.Lib.ValueIdx

/-!
# Region 0: linear, then scale by a column

The region runs over 50 row blocks of 2000 rows. At point `t` it reads rows `2000 t … 2000 t + 1999` of
the [100000,128] array `X` and of the [100000,1] column `D`, and the whole [128,128] matrix `W`, and
writes the same rows of its two outputs: `(X · W)` with each row scaled by its entry of `D`, once as
f32 and once rounded to bf16, which on the extended reals is the same value. Every row lies in exactly
the block of point `row / 2000`, so after the region each output array is that function of the arrays
the region found at entry, entry by entry.
-/

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The three arrays the region reads, as it finds them. -/
abbrev arrX0 (c : Dev nD) : S100000x128.Idx → EReal := V c (Pipeline.arrRef spec0 0)
abbrev arrW0 (c : Dev nD) : S128x128.Idx → EReal := V c (Pipeline.arrRef spec0 1)
abbrev arrD0 (c : Dev nD) : S100000x1.Idx → EReal := V c (Pipeline.arrRef spec0 2)

/-- The printed index maps, decided over the 50 points: the row-tiled windows are at block `(t, 0)`, the
    matrix at block `(0, 0)`. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The input blocks are rows of the arrays -/

/-- Window 0's block at point `t`: row `p` of the block is row `2000 t + p` of `X`. -/
theorem iblk0_0_at (c : Dev nD) (t : Fin cfg0.N) (p : Fin 2000) (k : Fin 128) (n : Fin 100000) (hn : n.val = t.val * 2000 + p.val) :
    (iblk0 V c 0 t : S2000x128.Idx → EReal) (ix2 p k) = arrX0 V c (ix2 n k) := by
  obtain ⟨e0, e1, -⟩ := idx0 t
  unfold iblk0
  rw [View.read_apply]
  show V c (Pipeline.arrRef spec0 0) _ = V c (Pipeline.arrRef spec0 0) _
  refine congrArg (V c (Pipeline.arrRef spec0 0)) (funext fun a => Fin.ext ?_)
  match a with
  | ⟨0, _⟩ => show win0_0.index t (0 : Fin 2) * 2000 + 1 * p.val = n.val; rw [e0, hn]; omega
  | ⟨1, _⟩ => show win0_0.index t (1 : Fin 2) * 128 + 1 * k.val = k.val; rw [e1]; omega

/-- Window 1's block at every point is the whole matrix `W`. -/
theorem iblk0_1_at (c : Dev nD) (t : Fin cfg0.N) (k q : Fin 128) :
    (iblk0 V c 1 t : S128x128.Idx → EReal) (ix2 k q) = arrW0 V c (ix2 k q) := by
  obtain ⟨_, _, e0, e1, -⟩ := idx0 t
  unfold iblk0
  rw [View.read_apply]
  show V c (Pipeline.arrRef spec0 1) _ = V c (Pipeline.arrRef spec0 1) _
  refine congrArg (V c (Pipeline.arrRef spec0 1)) (funext fun a => Fin.ext ?_)
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- Window 2's block at point `t`: entry `p` of the block is entry `2000 t + p` of the column `D`. -/
theorem iblk0_2_at (c : Dev nD) (t : Fin cfg0.N) (p : Fin 2000) (n : Fin 100000) (hn : n.val = t.val * 2000 + p.val) :
    (iblk0 V c 2 t : S2000x1.Idx → EReal) (ix2 p (0 : Fin 1)) = arrD0 V c (ix2 n (0 : Fin 1)) := by
  obtain ⟨_, _, _, _, e0, e1, -⟩ := idx0 t
  unfold iblk0
  rw [View.read_apply]
  show V c (Pipeline.arrRef spec0 2) _ = V c (Pipeline.arrRef spec0 2) _
  refine congrArg (V c (Pipeline.arrRef spec0 2)) (funext fun a => Fin.ext ?_)
  match a with
  | ⟨0, _⟩ => show win0_2.index t (0 : Fin 2) * 2000 + 1 * p.val = n.val; rw [e0, hn]; omega
  | ⟨1, _⟩ => show win0_2.index t (1 : Fin 2) * 1 + 1 * 0 = 0; rw [e1]

/-! ## Output window 3 -/

/-- Point `t`'s block of window 3, element `(p, q)`, sits in the array at row `2000 t + p`, lane `q`. -/
theorem emb0_3 (t : Fin cfg0.N) (p : Fin 2000) (q : Fin 128) :
    ((((cfg0.win 3).blk t).view.emb (ix2 p q)) 0).val = t.val * 2000 + p.val
      ∧ ((((cfg0.win 3).blk t).view.emb (ix2 p q)) 1).val = q.val := by
  obtain ⟨_, _, _, _, _, _, e30, e31, e40, e41⟩ := idx0 t
  constructor
  · show win0_3.index t (0 : Fin 2) * 2000 + 1 * p.val = _
    rw [e30]; omega
  · show win0_3.index t (1 : Fin 2) * 128 + 1 * q.val = _
    rw [e31]; omega

/-- What point `t` writes back to window 3 is its block of the region's array. -/
theorem flushed0_3_eq (c : Dev nD) (t : Fin cfg0.N) :
    (dat0 (F := Ideal) V c).flushed 3 t
      = ((cfg0.win 3).blk t).view.read (Elt Ideal) (linScaleArr (arrX0 V c) (arrW0 V c) (arrD0 V c)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz, View.ld_unit_zero (S := S2000x1) hz]
  refine funext fun (y : S2000x128.Idx) => ?_
  obtain ⟨p, q, rfl⟩ : ∃ (p : Fin 2000) (q : Fin 128), y = ix2 p q := ⟨y 0, y 1, eq_ix2 y⟩
  have hN : grid0.N = 50 := N_0
  have ht : t.val < 50 := by have h : t.val < grid0.N := t.isLt; omega
  obtain ⟨n, hn⟩ : ∃ n : Fin 100000, n.val = t.val * 2000 + p.val :=
    ⟨⟨t.val * 2000 + p.val, by have := p.isLt; omega⟩, rfl⟩
  obtain ⟨he0, he1⟩ := emb0_3 t p q
  show k0_pay1 (iblk0 V c 0 t) (iblk0 V c 1 t) (iblk0 V c 2 t) (ix2 p q)
    = linScaleArr (arrX0 V c) (arrW0 V c) (arrD0 V c) (((cfg0.win 3).blk t).view.emb (ix2 p q))
  rw [linScaleArr_at (arrX0 V c) (arrW0 V c) (arrD0 V c) _ n q (he0.trans hn.symm) he1]
  refine (k0_pay1_at (iblk0 V c 0 t) (iblk0 V c 1 t) (iblk0 V c 2 t) p q).trans ?_
  rw [iblk0_2_at V c t p n hn]
  refine congrArg (· * arrD0 V c (ix2 n (0 : Fin 1))) (Finset.sum_congr rfl fun k _ => ?_)
  rw [iblk0_0_at V c t p k n hn, iblk0_1_at V c t k q]

/-- An index of the array is in point `t`'s block iff each coordinate is in the block's range on its axis. -/
theorem mem_blk0_3 (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v12_0).slice (win0_3.rect t)).set ↔ _
  rw [View.set_slice_whole, Rect.mem_set_unit]
  exact Iff.rfl

/-- Row `r` of the array lies in the block of point `r / 2000`, which is written back. -/
theorem covered0_3 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 50 := N_0
  obtain ⟨t, ht⟩ : ∃ t : Fin cfg0.N, t.val = (i 0).val / 2000 := ⟨⟨(i 0).val / 2000, by show _ < grid0.N; omega⟩, rfl⟩
  obtain ⟨_, _, _, _, _, _, e30, e31, e40, e41⟩ := idx0 t
  refine ⟨t, flush0_3 t, ?_⟩
  rw [mem_blk0_3]
  intro a
  match a with
  | ⟨0, _⟩ =>
    show win0_3.index t (0 : Fin 2) * 2000 ≤ (i 0).val ∧ (i 0).val < win0_3.index t (0 : Fin 2) * 2000 + 2000
    rw [e30, ht]; omega
  | ⟨1, _⟩ =>
    show win0_3.index t (1 : Fin 2) * 128 ≤ (i 1).val ∧ (i 1).val < win0_3.index t (1 : Fin 2) * 128 + 128
    rw [e31]; omega

/-- So after the region window 3's array is the region's function of the arrays it found. -/
theorem final0_3 (c : Dev nD) :
    (dat0 (F := Ideal) V c).arrAt 3 cfg0.N = linScaleArr (arrX0 V c) (arrW0 V c) (arrD0 V c) :=
  (dat0 (F := Ideal) V c).arrAt_eq_of_cover 3 (linScaleArr (arrX0 V c) (arrW0 V c) (arrD0 V c))
    (fun t _ => flushed0_3_eq V c t) covered0_3

/-- Entry `(n, j)` of window 3's array after the region. -/
theorem out0_3_apply (c : Dev nD) (n : Fin 100000) (j : Fin 128) :
    ((dat0 (F := Ideal) V c).arrAt 3 cfg0.N : S100000x128.Idx → EReal) (ix2 n j)
      = (∑ k : Fin 128, arrX0 V c (ix2 n k) * arrW0 V c (ix2 k j)) * arrD0 V c (ix2 n (0 : Fin 1)) := by
  rw [final0_3 V c]
  exact linScaleArr_at (arrX0 V c) (arrW0 V c) (arrD0 V c) (ix2 n j) n j rfl rfl

/-! ## Output window 4 -/

/-- Point `t`'s block of window 4, element `(p, q)`, sits in the array at row `2000 t + p`, lane `q`. -/
theorem emb0_4 (t : Fin cfg0.N) (p : Fin 2000) (q : Fin 128) :
    ((((cfg0.win 4).blk t).view.emb (ix2 p q)) 0).val = t.val * 2000 + p.val
      ∧ ((((cfg0.win 4).blk t).view.emb (ix2 p q)) 1).val = q.val := by
  obtain ⟨_, _, _, _, _, _, e30, e31, e40, e41⟩ := idx0 t
  constructor
  · show win0_4.index t (0 : Fin 2) * 2000 + 1 * p.val = _
    rw [e40]; omega
  · show win0_4.index t (1 : Fin 2) * 128 + 1 * q.val = _
    rw [e41]; omega

/-- What point `t` writes back to window 4 is its block of the region's array. -/
theorem flushed0_4_eq (c : Dev nD) (t : Fin cfg0.N) :
    (dat0 (F := Ideal) V c).flushed 4 t
      = ((cfg0.win 4).blk t).view.read (Elt Ideal) (linScaleArr (arrX0 V c) (arrW0 V c) (arrD0 V c)) := by
  show (cfg0.win 4).cut (grid0.coords t) ((dat0 V c).after 4 t) = _
  rw [after0_4]
  unfold out0_4
  rw [View.canon_unit_zero hz]
  simp only [View.ld_unit_zero (S := S2000x128) hz, View.ld_unit_zero (S := S128x128) hz, View.ld_unit_zero (S := S2000x1) hz]
  refine funext fun (y : S2000x128.Idx) => ?_
  obtain ⟨p, q, rfl⟩ : ∃ (p : Fin 2000) (q : Fin 128), y = ix2 p q := ⟨y 0, y 1, eq_ix2 y⟩
  have hN : grid0.N = 50 := N_0
  have ht : t.val < 50 := by have h : t.val < grid0.N := t.isLt; omega
  obtain ⟨n, hn⟩ : ∃ n : Fin 100000, n.val = t.val * 2000 + p.val :=
    ⟨⟨t.val * 2000 + p.val, by have := p.isLt; omega⟩, rfl⟩
  obtain ⟨he0, he1⟩ := emb0_4 t p q
  show k0_pay2 (iblk0 V c 0 t) (iblk0 V c 1 t) (iblk0 V c 2 t) (ix2 p q)
    = linScaleArr (arrX0 V c) (arrW0 V c) (arrD0 V c) (((cfg0.win 4).blk t).view.emb (ix2 p q))
  rw [linScaleArr_at (arrX0 V c) (arrW0 V c) (arrD0 V c) _ n q (he0.trans hn.symm) he1]
  refine (k0_pay2_at (iblk0 V c 0 t) (iblk0 V c 1 t) (iblk0 V c 2 t) p q).trans ?_
  rw [iblk0_2_at V c t p n hn]
  refine congrArg (· * arrD0 V c (ix2 n (0 : Fin 1))) (Finset.sum_congr rfl fun k _ => ?_)
  rw [iblk0_0_at V c t p k n hn, iblk0_1_at V c t k q]

/-- An index of the array is in point `t`'s block iff each coordinate is in the block's range on its axis. -/
theorem mem_blk0_4 (t : Fin cfg0.N) (i : S100000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v12_1).slice (win0_4.rect t)).set ↔ _
  rw [View.set_slice_whole, Rect.mem_set_unit]
  exact Iff.rfl

/-- Row `r` of the array lies in the block of point `r / 2000`, which is written back. -/
theorem covered0_4 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : grid0.N = 50 := N_0
  obtain ⟨t, ht⟩ : ∃ t : Fin cfg0.N, t.val = (i 0).val / 2000 := ⟨⟨(i 0).val / 2000, by show _ < grid0.N; omega⟩, rfl⟩
  obtain ⟨_, _, _, _, _, _, e30, e31, e40, e41⟩ := idx0 t
  refine ⟨t, flush0_4 t, ?_⟩
  rw [mem_blk0_4]
  intro a
  match a with
  | ⟨0, _⟩ =>
    show win0_4.index t (0 : Fin 2) * 2000 ≤ (i 0).val ∧ (i 0).val < win0_4.index t (0 : Fin 2) * 2000 + 2000
    rw [e40, ht]; omega
  | ⟨1, _⟩ =>
    show win0_4.index t (1 : Fin 2) * 128 ≤ (i 1).val ∧ (i 1).val < win0_4.index t (1 : Fin 2) * 128 + 128
    rw [e41]; omega

/-- So after the region window 4's array is the region's function of the arrays it found. -/
theorem final0_4 (c : Dev nD) :
    (dat0 (F := Ideal) V c).arrAt 4 cfg0.N = linScaleArr (arrX0 V c) (arrW0 V c) (arrD0 V c) :=
  (dat0 (F := Ideal) V c).arrAt_eq_of_cover 4 (linScaleArr (arrX0 V c) (arrW0 V c) (arrD0 V c))
    (fun t _ => flushed0_4_eq V c t) covered0_4

/-- Entry `(n, j)` of window 4's array after the region. -/
theorem out0_4_apply (c : Dev nD) (n : Fin 100000) (j : Fin 128) :
    ((dat0 (F := Ideal) V c).arrAt 4 cfg0.N : S100000x128.Idx → EReal) (ix2 n j)
      = (∑ k : Fin 128, arrX0 V c (ix2 n k) * arrW0 V c (ix2 k j)) * arrD0 V c (ix2 n (0 : Fin 1)) := by
  rw [final0_4 V c]
  exact linScaleArr_at (arrX0 V c) (arrW0 V c) (arrD0 V c) (ix2 n j) n j rfl rfl

end Cert.KernelIdeal.RegionValue

end
-- ==== Proof.RegionValue1.lean ====
import proofs.«108103_j9363028705695_2_alg».proof.Proof.Gen.KernelIdeal.Frame
import proofs.«108103_j9363028705695_2_alg».proof.Proof.RegionBody
import Idealize.ShloMosaic.Lib.Pipeline.Value
import Idealize.ShloMosaic.Lib.ValueIdx

/-!
# Region 1: combine, then the maximum with zero

The region runs over 50 row blocks of 2000 rows. At point `t` it reads rows `2000 t … 2000 t + 1999` of
two [100000,128] arrays `A` and `H` and of the [100000,1] column `D`, and the whole [1,128] row `B`, and
writes the same rows of its output: `D · (A + H) + B`, the column scaling each row and the row added to
every row, then the maximum with zero. Every row lies in exactly the block of point `row / 2000`, so after the region
the output array is that function of the arrays the region found at entry, entry by entry.
-/

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The four arrays the region reads, as it finds them. -/
abbrev arrA1 (c : Dev nD) : S100000x128.Idx → EReal := V c (Pipeline.arrRef spec1 0)
abbrev arrH1 (c : Dev nD) : S100000x128.Idx → EReal := V c (Pipeline.arrRef spec1 1)
abbrev arrD1 (c : Dev nD) : S100000x1.Idx → EReal := V c (Pipeline.arrRef spec1 2)
abbrev arrB1 (c : Dev nD) : S1x128.Idx → EReal := V c (Pipeline.arrRef spec1 3)

/-- The printed index maps, decided over the 50 points: the row-tiled windows are at block `(t, 0)`, the
    row `B` at block `(0, 0)`. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-! ## The input blocks are rows of the arrays -/

/-- Window 0's block at point `t`: row `p` of the block is row `2000 t + p` of `A`. -/
theorem iblk1_0_at (c : Dev nD) (t : Fin cfg1.N) (p : Fin 2000) (k : Fin 128) (n : Fin 100000) (hn : n.val = t.val * 2000 + p.val) :
    (iblk1 V c 0 t : S2000x128.Idx → EReal) (ix2 p k) = arrA1 V c (ix2 n k) := by
  obtain ⟨e0, e1, -⟩ := idx1 t
  unfold iblk1
  rw [View.read_apply]
  show V c (Pipeline.arrRef spec1 0) _ = V c (Pipeline.arrRef spec1 0) _
  refine congrArg (V c (Pipeline.arrRef spec1 0)) (funext fun a => Fin.ext ?_)
  match a with
  | ⟨0, _⟩ => show win1_0.index t (0 : Fin 2) * 2000 + 1 * p.val = n.val; rw [e0, hn]; omega
  | ⟨1, _⟩ => show win1_0.index t (1 : Fin 2) * 128 + 1 * k.val = k.val; rw [e1]; omega

/-- Window 1's block at point `t`: row `p` of the block is row `2000 t + p` of `H`. -/
theorem iblk1_1_at (c : Dev nD) (t : Fin cfg1.N) (p : Fin 2000) (k : Fin 128) (n : Fin 100000) (hn : n.val = t.val * 2000 + p.val) :
    (iblk1 V c 1 t : S2000x128.Idx → EReal) (ix2 p k) = arrH1 V c (ix2 n k) := by
  obtain ⟨_, _, e0, e1, -⟩ := idx1 t
  unfold iblk1
  rw [View.read_apply]
  show V c (Pipeline.arrRef spec1 1) _ = V c (Pipeline.arrRef spec1 1) _
  refine congrArg (V c (Pipeline.arrRef spec1 1)) (funext fun a => Fin.ext ?_)
  match a with
  | ⟨0, _⟩ => show win1_1.index t (0 : Fin 2) * 2000 + 1 * p.val = n.val; rw [e0, hn]; omega
  | ⟨1, _⟩ => show win1_1.index t (1 : Fin 2) * 128 + 1 * k.val = k.val; rw [e1]; omega

/-- Window 2's block at point `t`: entry `p` of the block is entry `2000 t + p` of the column `D`. -/
theorem iblk1_2_at (c : Dev nD) (t : Fin cfg1.N) (p : Fin 2000) (n : Fin 100000) (hn : n.val = t.val * 2000 + p.val) :
    (iblk1 V c 2 t : S2000x1.Idx → EReal) (ix2 p (0 : Fin 1)) = arrD1 V c (ix2 n (0 : Fin 1)) := by
  obtain ⟨_, _, _, _, e0, e1, -⟩ := idx1 t
  unfold iblk1
  rw [View.read_apply]
  show V c (Pipeline.arrRef spec1 2) _ = V c (Pipeline.arrRef spec1 2) _
  refine congrArg (V c (Pipeline.arrRef spec1 2)) (funext fun a => Fin.ext ?_)
  match a with
  | ⟨0, _⟩ => show win1_2.index t (0 : Fin 2) * 2000 + 1 * p.val = n.val; rw [e0, hn]; omega
  | ⟨1, _⟩ => show win1_2.index t (1 : Fin 2) * 1 + 1 * 0 = 0; rw [e1]

/-- Window 3's block at every point is the whole row `B`. -/
theorem iblk1_3_at (c : Dev nD) (t : Fin cfg1.N) (q : Fin 128) :
    (iblk1 V c 3 t : S1x128.Idx → EReal) (ix2 (0 : Fin 1) q) = arrB1 V c (ix2 (0 : Fin 1) q) := by
  obtain ⟨_, _, _, _, _, _, e0, e1, -⟩ := idx1 t
  unfold iblk1
  rw [View.read_apply]
  show V c (Pipeline.arrRef spec1 3) _ = V c (Pipeline.arrRef spec1 3) _
  refine congrArg (V c (Pipeline.arrRef spec1 3)) (funext fun a => Fin.ext ?_)
  match a with
  | ⟨0, _⟩ => show win1_3.index t (0 : Fin 2) * 1 + 1 * 0 = 0; rw [e0]
  | ⟨1, _⟩ => show win1_3.index t (1 : Fin 2) * 128 + 1 * q.val = q.val; rw [e1]; omega

/-! ## Output window 4 -/

/-- Point `t`'s block of window 4, element `(p, q)`, sits in the array at row `2000 t + p`, lane `q`. -/
theorem emb1_4 (t : Fin cfg1.N) (p : Fin 2000) (q : Fin 128) :
    ((((cfg1.win 4).blk t).view.emb (ix2 p q)) 0).val = t.val * 2000 + p.val
      ∧ ((((cfg1.win 4).blk t).view.emb (ix2 p q)) 1).val = q.val := by
  obtain ⟨_, _, _, _, _, _, _, _, e40, e41⟩ := idx1 t
  constructor
  · show win1_4.index t (0 : Fin 2) * 2000 + 1 * p.val = _
    rw [e40]; omega
  · show win1_4.index t (1 : Fin 2) * 128 + 1 * q.val = _
    rw [e41]; omega

/-- What point `t` writes back to window 4 is its block of the region's array. -/
theorem flushed1_4_eq (c : Dev nD) (t : Fin cfg1.N) :
    (dat1 (F := Ideal) V c).flushed 4 t
      = ((cfg1.win 4).blk t).view.read (Elt Ideal) (combineReluArr (arrA1 V c) (arrH1 V c) (arrD1 V c) (arrB1 V c)) := by
  show (cfg1.win 4).cut (grid1.coords t) ((dat1 V c).after 4 t) = _
  rw [after1_4]
  unfold out1_4
  rw [View.canon_unit_zero hz]
  simp only [View.ld_unit_zero (S := S2000x128) hz, View.ld_unit_zero (S := S2000x1) hz, View.ld_unit_zero (S := S1x128) hz]
  refine funext fun (y : S2000x128.Idx) => ?_
  obtain ⟨p, q, rfl⟩ : ∃ (p : Fin 2000) (q : Fin 128), y = ix2 p q := ⟨y 0, y 1, eq_ix2 y⟩
  have hN : grid1.N = 50 := N_1
  have ht : t.val < 50 := by have h : t.val < grid1.N := t.isLt; omega
  obtain ⟨n, hn⟩ : ∃ n : Fin 100000, n.val = t.val * 2000 + p.val :=
    ⟨⟨t.val * 2000 + p.val, by have := p.isLt; omega⟩, rfl⟩
  obtain ⟨he0, he1⟩ := emb1_4 t p q
  show k1_pay1 (iblk1 V c 2 t) (iblk1 V c 0 t) (iblk1 V c 1 t) (iblk1 V c 3 t) (ix2 p q)
    = combineReluArr (arrA1 V c) (arrH1 V c) (arrD1 V c) (arrB1 V c) (((cfg1.win 4).blk t).view.emb (ix2 p q))
  rw [combineReluArr_at (arrA1 V c) (arrH1 V c) (arrD1 V c) (arrB1 V c) _ n q (he0.trans hn.symm) he1]
  refine (k1_pay1_at (iblk1 V c 2 t) (iblk1 V c 0 t) (iblk1 V c 1 t) (iblk1 V c 3 t) p q).trans ?_
  rw [iblk1_2_at V c t p n hn, iblk1_0_at V c t p q n hn, iblk1_1_at V c t p q n hn, iblk1_3_at V c t q]

/-- An index of the array is in point `t`'s block iff each coordinate is in the block's range on its axis. -/
theorem mem_blk1_4 (t : Fin cfg1.N) (i : S100000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v25).slice (win1_4.rect t)).set ↔ _
  rw [View.set_slice_whole, Rect.mem_set_unit]
  exact Iff.rfl

/-- Row `r` of the array lies in the block of point `r / 2000`, which is written back. -/
theorem covered1_4 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 50 := N_1
  obtain ⟨t, ht⟩ : ∃ t : Fin cfg1.N, t.val = (i 0).val / 2000 := ⟨⟨(i 0).val / 2000, by show _ < grid1.N; omega⟩, rfl⟩
  obtain ⟨_, _, _, _, _, _, _, _, e40, e41⟩ := idx1 t
  refine ⟨t, flush1_4 t, ?_⟩
  rw [mem_blk1_4]
  intro a
  match a with
  | ⟨0, _⟩ =>
    show win1_4.index t (0 : Fin 2) * 2000 ≤ (i 0).val ∧ (i 0).val < win1_4.index t (0 : Fin 2) * 2000 + 2000
    rw [e40, ht]; omega
  | ⟨1, _⟩ =>
    show win1_4.index t (1 : Fin 2) * 128 ≤ (i 1).val ∧ (i 1).val < win1_4.index t (1 : Fin 2) * 128 + 128
    rw [e41]; omega

/-- So after the region window 4's array is the region's function of the arrays it found. -/
theorem final1_4 (c : Dev nD) :
    (dat1 (F := Ideal) V c).arrAt 4 cfg1.N = combineReluArr (arrA1 V c) (arrH1 V c) (arrD1 V c) (arrB1 V c) :=
  (dat1 (F := Ideal) V c).arrAt_eq_of_cover 4 (combineReluArr (arrA1 V c) (arrH1 V c) (arrD1 V c) (arrB1 V c))
    (fun t _ => flushed1_4_eq V c t) covered1_4

/-- Entry `(n, j)` of window 4's array after the region. -/
theorem out1_4_apply (c : Dev nD) (n : Fin 100000) (j : Fin 128) :
    ((dat1 (F := Ideal) V c).arrAt 4 cfg1.N : S100000x128.Idx → EReal) (ix2 n j)
      = max (arrD1 V c (ix2 n (0 : Fin 1)) * (arrA1 V c (ix2 n j) + arrH1 V c (ix2 n j)) + arrB1 V c (ix2 (0 : Fin 1) j)) 0 := by
  rw [final1_4 V c]
  exact combineReluArr_at (arrA1 V c) (arrH1 V c) (arrD1 V c) (arrB1 V c) (ix2 n j) n j rfl rfl

end Cert.KernelIdeal.RegionValue

end
-- ==== Proof.KLayer1.lean ====
/-
  Layer 1 of the idealized kernel, read entry by entry.

  Given the activations the layer's first region finds, the region leaves the product with the weights scaled row by
  row by the degree factor (twice: in two formats, the same extended reals); the host stretch gathers those rows at
  the wrapped source words and sums them per destination node; the second region forms `dinv · (sum + own row) + bias` and takes the larger of it and zero.
  Together: the layer of the specification with the scaling done before and after the edge sum.
-/
import proofs.«108103_j9363028705695_2_alg».proof.Proof.Gen.KernelIdeal.Frame
import proofs.«108103_j9363028705695_2_alg».proof.Proof.KWalk
import proofs.«108103_j9363028705695_2_alg».proof.Proof.KGraph
import proofs.«108103_j9363028705695_2_alg».proof.Proof.HostLemmas
import proofs.«108103_j9363028705695_2_alg».proof.Proof.LayerRead
import proofs.«108103_j9363028705695_2_alg».proof.Proof.RegionValue0
import proofs.«108103_j9363028705695_2_alg».proof.Proof.RegionValue1

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx Cert.Gcn Cert.KernelIdeal.Carried

variable (m : (ℓ : Loc nD τ sig) → Buf (Elt Ideal) ℓ) (ρ : Dev nD → PrngReg) (c : Dev nD)

set_option maxHeartbeats 2000000 in
/-- Layer 1: the linear-scale region, the edge sum on the host, the combine region. -/
theorem layer1 (Hp : Fin 100000 → Fin 128 → EReal)
    (hX : ∀ n k, ((W1 m ρ c (Proc.devRef .tc main_arg0)) : S100000x128.Idx → EReal) (ix2 n k) = Hp n k)
    (n : Fin 100000) (j : Fin 128) :
    ((W4 m ρ c (Proc.devRef .tc main_v25)) : S100000x128.Idx → EReal) (ix2 n j) = preScaledLayer (graphOf (m ((c : Thread nD τ).loc main_arg1))) relu Hp (mat (m ((c : Thread nD τ).loc main_arg2))) (vec (m ((c : Thread nD τ).loc main_arg3))) n j := by
  have hW : ∀ k j, ((W1 m ρ c (Proc.devRef .tc main_arg2)) : S128x128.Idx → EReal) (ix2 k j) = (mat (m ((c : Thread nD τ).loc main_arg2))) k j := fun k j => by
    rw [keep_main_arg2_1_0 m ρ c]; rfl
  have hBsrc : ∀ j, ((W2 m ρ c (Proc.devRef .tc main_arg3)) : S128.Idx → EReal) (ix1 j) = (vec (m ((c : Thread nD τ).loc main_arg3))) j := fun j => by
    rw [keep_main_arg3_2_0 m ρ c]; rfl
  have hD : ∀ p, ((W1 m ρ c (Proc.devRef .tc main_v11)) : S100000x1.Idx → EReal) (ix2 p (0 : Fin 1)) = (graphOf (m ((c : Thread nD τ).loc main_arg1))).dinv p := fun p => by
    skip
    exact dinv_W1 m ρ c p 0
  have hD2 : ∀ p, ((W3 m ρ c (Proc.devRef .tc main_v11)) : S100000x1.Idx → EReal) (ix2 p (0 : Fin 1)) = (graphOf (m ((c : Thread nD τ).loc main_arg1))).dinv p := fun p => by
    rw [keep_main_v11_3_1 m ρ c]
    exact dinv_W1 m ρ c p 0
  have hsrc : ∀ e : Fin 1600000, ((W2 m ρ c (Proc.devRef .tc main_v1)) : S1600000.Idx → BitVec 32) (ix1 e) = (m ((c : Thread nD τ).loc main_arg1)) (ix2 (0 : Fin 2) e) := fun e => by
    rw [keep_main_v1_2_1 m ρ c]
    exact src_W1 m ρ c e
  have hdst : ∀ e : Fin 1600000, ((W2 m ρ c (Proc.devRef .tc main_v3)) : S1600000.Idx → BitVec 32) (ix1 e) = (m ((c : Thread nD τ).loc main_arg1)) (ix2 (1 : Fin 2) e) := fun e => by
    rw [keep_main_v3_2_1 m ρ c]
    exact dst_W1 m ρ c e
  -- the linear-scale region's two outputs
  have e32 : ((W2 m ρ c (Proc.devRef .tc main_v12_0)) : S100000x128.Idx → EReal) = ((dat0 (F := Ideal) (V1 m ρ) c).arrAt 3 cfg0.N : S100000x128.Idx → EReal) := W2_arr m ρ c 3
  have e16 : ((W2 m ρ c (Proc.devRef .tc main_v12_1)) : S100000x128.Idx → EReal) = ((dat0 (F := Ideal) (V1 m ρ) c).arrAt 4 cfg0.N : S100000x128.Idx → EReal) := W2_arr m ρ c 4
  have hs32 : ∀ p q, ((W2 m ρ c (Proc.devRef .tc main_v12_0)) : S100000x128.Idx → EReal) (ix2 p q) = scaled (graphOf (m ((c : Thread nD τ).loc main_arg1))) Hp (mat (m ((c : Thread nD τ).loc main_arg2))) p q := fun p q => by
    rw [e32]
    exact (RegionValue.out0_3_apply (V1 m ρ) c p q).trans (LayerRead.scaled_of (graphOf (m ((c : Thread nD τ).loc main_arg1))) _ _ _ Hp (mat (m ((c : Thread nD τ).loc main_arg2))) hX hW hD p q)
  have hs16 : ∀ p q, ((W2 m ρ c (Proc.devRef .tc main_v12_1)) : S100000x128.Idx → EReal) (ix2 p q) = scaled (graphOf (m ((c : Thread nD τ).loc main_arg1))) Hp (mat (m ((c : Thread nD τ).loc main_arg2))) p q := fun p q => by
    rw [e16]
    exact (RegionValue.out0_4_apply (V1 m ρ) c p q).trans (LayerRead.scaled_of (graphOf (m ((c : Thread nD τ).loc main_arg1))) _ _ _ Hp (mat (m ((c : Thread nD τ).loc main_arg2))) hX hW hD p q)
  have hs32' : ∀ p q, ((W3 m ρ c (Proc.devRef .tc main_v12_0)) : S100000x128.Idx → EReal) (ix2 p q) = scaled (graphOf (m ((c : Thread nD τ).loc main_arg1))) Hp (mat (m ((c : Thread nD τ).loc main_arg2))) p q := fun p q => by
    rw [keep_main_v12_0_3_2 m ρ c]; exact hs32 p q
  -- the edge sum
  have hagg : ∀ p q, ((W3 m ρ c (Proc.devRef .tc main_v23)) : S100000x128.Idx → EReal) (ix2 p q) = gathered (graphOf (m ((c : Thread nD τ).loc main_arg1))) Hp (mat (m ((c : Thread nD τ).loc main_arg2))) p q := fun p q => by
    have h : ((W3 m ρ c (Proc.devRef .tc main_v23)) : S100000x128.Idx → EReal)
        = Host.scatterAdd (F := Ideal) scatter_S100000x128_S1600000x1_S1600000x128_1_0_0_1
            (broadcastInDim S100000x128 ![] Facts₀.bcast_S_S100000x128 (constant (F := Ideal) S_ .f32 0x00000000#32))
            (broadcastInDim S1600000x1 ![0] Facts₀.bcast_S1600000_S1600000x1_0 ((W2 m ρ c (Proc.devRef .tc main_v3)) : S1600000.Idx → BitVec 32))
            (extf (F := Ideal) .f32 (Host.gather gather_S100000x128_S1600000x1_S1600000x128_1_0_n_n_0_1_1128
              ((W2 m ρ c (Proc.devRef .tc main_v12_1)) : FVec Ideal S100000x128 .bf16)
              (broadcastInDim S1600000x1 ![0] Facts₀.bcast_S1600000_S1600000x1_0
                (select (cmpi .slt ((W2 m ρ c (Proc.devRef .tc main_v1)) : S1600000.Idx → BitVec 32) (broadcastInDim S1600000 ![] Facts₀.bcast_S_S1600000 (constantI S_ 32 0#32)))
                  (addi ((W2 m ρ c (Proc.devRef .tc main_v1)) : S1600000.Idx → BitVec 32) (broadcastInDim S1600000 ![] Facts₀.bcast_S_S1600000 (constantI S_ 32 100000#32)))
                  ((W2 m ρ c (Proc.devRef .tc main_v1)) : S1600000.Idx → BitVec 32)))) Facts₀.bitsLt_bf16_f32) := by
      show StableHlo.after hostOps1 (W2 m ρ c) (Proc.devRef .tc main_v23) = _
      after_results
      try rfl
    rw [h]
    exact (HostRead.edgeSum_apply Facts₀.bitsLt_bf16_f32 Facts₀.gather_S100000x128_S1600000x1_S1600000x128_1_0_n_n_0_1_1128_wf
        Facts₀.scatter_S100000x128_S1600000x1_S1600000x128_1_0_0_1_wf Facts₀.bcast_S1600000_S1600000x1_0 Facts₀.bcast_S_S100000x128 Facts₀.bcast_S_S1600000
        _ _ _ p q).trans
      (LayerRead.gathered_of (m ((c : Thread nD τ).loc main_arg1)) _ _ _ Hp (mat (m ((c : Thread nD τ).loc main_arg2))) hsrc hdst hs16 p q)
  -- the bias row
  have hB : ∀ q, ((W3 m ρ c (Proc.devRef .tc main_v24)) : S1x128.Idx → EReal) (ix2 (0 : Fin 1) q) = (vec (m ((c : Thread nD τ).loc main_arg3))) q := fun q => by
    have h : ((W3 m ρ c (Proc.devRef .tc main_v24)) : S1x128.Idx → EReal) = shapeCast S1x128 ((W2 m ρ c (Proc.devRef .tc main_arg3)) : S128.Idx → EReal) Facts₀.shapeCasts_S128_S1x128 := by
      show StableHlo.after hostOps1 (W2 m ρ c) (Proc.devRef .tc main_v24) = _
      after_results
      try rfl
    rw [h, shapeCast_a_1a_apply]
    exact hBsrc q
  -- the combine region
  have eo : ((W4 m ρ c (Proc.devRef .tc main_v25)) : S100000x128.Idx → EReal) = ((dat1 (F := Ideal) (V3 m ρ) c).arrAt 4 cfg1.N : S100000x128.Idx → EReal) := W4_arr m ρ c 4
  rw [eo]
  exact (RegionValue.out1_4_apply (V3 m ρ) c n j).trans
    (LayerRead.layer_of (graphOf (m ((c : Thread nD τ).loc main_arg1))) relu _ _ _ _ Hp (mat (m ((c : Thread nD τ).loc main_arg2))) (vec (m ((c : Thread nD τ).loc main_arg3))) hagg hs32' hD2 hB n j)

end Cert.KernelIdeal.Chain

end
-- ==== Proof.RegionValue2.lean ====
import proofs.«108103_j9363028705695_2_alg».proof.Proof.Gen.KernelIdeal.Frame
import proofs.«108103_j9363028705695_2_alg».proof.Proof.RegionBody
import Idealize.ShloMosaic.Lib.Pipeline.Value
import Idealize.ShloMosaic.Lib.ValueIdx

/-!
# Region 2: linear, then scale by a column

The region runs over 50 row blocks of 2000 rows. At point `t` it reads rows `2000 t … 2000 t + 1999` of
the [100000,128] array `X` and of the [100000,1] column `D`, and the whole [128,128] matrix `W`, and
writes the same rows of its two outputs: `(X · W)` with each row scaled by its entry of `D`, once as
f32 and once rounded to bf16, which on the extended reals is the same value. Every row lies in exactly
the block of point `row / 2000`, so after the region each output array is that function of the arrays
the region found at entry, entry by entry.
-/

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The three arrays the region reads, as it finds them. -/
abbrev arrX2 (c : Dev nD) : S100000x128.Idx → EReal := V c (Pipeline.arrRef spec2 0)
abbrev arrW2 (c : Dev nD) : S128x128.Idx → EReal := V c (Pipeline.arrRef spec2 1)
abbrev arrD2 (c : Dev nD) : S100000x1.Idx → EReal := V c (Pipeline.arrRef spec2 2)

/-- The printed index maps, decided over the 50 points: the row-tiled windows are at block `(t, 0)`, the
    matrix at block `(0, 0)`. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-! ## The input blocks are rows of the arrays -/

/-- Window 0's block at point `t`: row `p` of the block is row `2000 t + p` of `X`. -/
theorem iblk2_0_at (c : Dev nD) (t : Fin cfg2.N) (p : Fin 2000) (k : Fin 128) (n : Fin 100000) (hn : n.val = t.val * 2000 + p.val) :
    (iblk2 V c 0 t : S2000x128.Idx → EReal) (ix2 p k) = arrX2 V c (ix2 n k) := by
  obtain ⟨e0, e1, -⟩ := idx2 t
  unfold iblk2
  rw [View.read_apply]
  show V c (Pipeline.arrRef spec2 0) _ = V c (Pipeline.arrRef spec2 0) _
  refine congrArg (V c (Pipeline.arrRef spec2 0)) (funext fun a => Fin.ext ?_)
  match a with
  | ⟨0, _⟩ => show win2_0.index t (0 : Fin 2) * 2000 + 1 * p.val = n.val; rw [e0, hn]; omega
  | ⟨1, _⟩ => show win2_0.index t (1 : Fin 2) * 128 + 1 * k.val = k.val; rw [e1]; omega

/-- Window 1's block at every point is the whole matrix `W`. -/
theorem iblk2_1_at (c : Dev nD) (t : Fin cfg2.N) (k q : Fin 128) :
    (iblk2 V c 1 t : S128x128.Idx → EReal) (ix2 k q) = arrW2 V c (ix2 k q) := by
  obtain ⟨_, _, e0, e1, -⟩ := idx2 t
  unfold iblk2
  rw [View.read_apply]
  show V c (Pipeline.arrRef spec2 1) _ = V c (Pipeline.arrRef spec2 1) _
  refine congrArg (V c (Pipeline.arrRef spec2 1)) (funext fun a => Fin.ext ?_)
  match a with
  | ⟨0, _⟩ => show win2_1.index t (0 : Fin 2) * 128 + 1 * k.val = k.val; rw [e0]; omega
  | ⟨1, _⟩ => show win2_1.index t (1 : Fin 2) * 128 + 1 * q.val = q.val; rw [e1]; omega

/-- Window 2's block at point `t`: entry `p` of the block is entry `2000 t + p` of the column `D`. -/
theorem iblk2_2_at (c : Dev nD) (t : Fin cfg2.N) (p : Fin 2000) (n : Fin 100000) (hn : n.val = t.val * 2000 + p.val) :
    (iblk2 V c 2 t : S2000x1.Idx → EReal) (ix2 p (0 : Fin 1)) = arrD2 V c (ix2 n (0 : Fin 1)) := by
  obtain ⟨_, _, _, _, e0, e1, -⟩ := idx2 t
  unfold iblk2
  rw [View.read_apply]
  show V c (Pipeline.arrRef spec2 2) _ = V c (Pipeline.arrRef spec2 2) _
  refine congrArg (V c (Pipeline.arrRef spec2 2)) (funext fun a => Fin.ext ?_)
  match a with
  | ⟨0, _⟩ => show win2_2.index t (0 : Fin 2) * 2000 + 1 * p.val = n.val; rw [e0, hn]; omega
  | ⟨1, _⟩ => show win2_2.index t (1 : Fin 2) * 1 + 1 * 0 = 0; rw [e1]

/-! ## Output window 3 -/

/-- Point `t`'s block of window 3, element `(p, q)`, sits in the array at row `2000 t + p`, lane `q`. -/
theorem emb2_3 (t : Fin cfg2.N) (p : Fin 2000) (q : Fin 128) :
    ((((cfg2.win 3).blk t).view.emb (ix2 p q)) 0).val = t.val * 2000 + p.val
      ∧ ((((cfg2.win 3).blk t).view.emb (ix2 p q)) 1).val = q.val := by
  obtain ⟨_, _, _, _, _, _, e30, e31, e40, e41⟩ := idx2 t
  constructor
  · show win2_3.index t (0 : Fin 2) * 2000 + 1 * p.val = _
    rw [e30]; omega
  · show win2_3.index t (1 : Fin 2) * 128 + 1 * q.val = _
    rw [e31]; omega

/-- What point `t` writes back to window 3 is its block of the region's array. -/
theorem flushed2_3_eq (c : Dev nD) (t : Fin cfg2.N) :
    (dat2 (F := Ideal) V c).flushed 3 t
      = ((cfg2.win 3).blk t).view.read (Elt Ideal) (linScaleArr (arrX2 V c) (arrW2 V c) (arrD2 V c)) := by
  show (cfg2.win 3).cut (grid2.coords t) ((dat2 V c).after 3 t) = _
  rw [after2_3]
  unfold out2_3
  rw [View.canon_unit_zero hz]
  simp only [View.ld_unit_zero (S := S2000x128) hz, View.ld_unit_zero (S := S128x128) hz, View.ld_unit_zero (S := S2000x1) hz]
  refine funext fun (y : S2000x128.Idx) => ?_
  obtain ⟨p, q, rfl⟩ : ∃ (p : Fin 2000) (q : Fin 128), y = ix2 p q := ⟨y 0, y 1, eq_ix2 y⟩
  have hN : grid2.N = 50 := N_2
  have ht : t.val < 50 := by have h : t.val < grid2.N := t.isLt; omega
  obtain ⟨n, hn⟩ : ∃ n : Fin 100000, n.val = t.val * 2000 + p.val :=
    ⟨⟨t.val * 2000 + p.val, by have := p.isLt; omega⟩, rfl⟩
  obtain ⟨he0, he1⟩ := emb2_3 t p q
  show k2_pay1 (iblk2 V c 0 t) (iblk2 V c 1 t) (iblk2 V c 2 t) (ix2 p q)
    = linScaleArr (arrX2 V c) (arrW2 V c) (arrD2 V c) (((cfg2.win 3).blk t).view.emb (ix2 p q))
  rw [linScaleArr_at (arrX2 V c) (arrW2 V c) (arrD2 V c) _ n q (he0.trans hn.symm) he1]
  refine (k2_pay1_at (iblk2 V c 0 t) (iblk2 V c 1 t) (iblk2 V c 2 t) p q).trans ?_
  rw [iblk2_2_at V c t p n hn]
  refine congrArg (· * arrD2 V c (ix2 n (0 : Fin 1))) (Finset.sum_congr rfl fun k _ => ?_)
  rw [iblk2_0_at V c t p k n hn, iblk2_1_at V c t k q]

/-- An index of the array is in point `t`'s block iff each coordinate is in the block's range on its axis. -/
theorem mem_blk2_3 (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v26_0).slice (win2_3.rect t)).set ↔ _
  rw [View.set_slice_whole, Rect.mem_set_unit]
  exact Iff.rfl

/-- Row `r` of the array lies in the block of point `r / 2000`, which is written back. -/
theorem covered2_3 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : grid2.N = 50 := N_2
  obtain ⟨t, ht⟩ : ∃ t : Fin cfg2.N, t.val = (i 0).val / 2000 := ⟨⟨(i 0).val / 2000, by show _ < grid2.N; omega⟩, rfl⟩
  obtain ⟨_, _, _, _, _, _, e30, e31, e40, e41⟩ := idx2 t
  refine ⟨t, flush2_3 t, ?_⟩
  rw [mem_blk2_3]
  intro a
  match a with
  | ⟨0, _⟩ =>
    show win2_3.index t (0 : Fin 2) * 2000 ≤ (i 0).val ∧ (i 0).val < win2_3.index t (0 : Fin 2) * 2000 + 2000
    rw [e30, ht]; omega
  | ⟨1, _⟩ =>
    show win2_3.index t (1 : Fin 2) * 128 ≤ (i 1).val ∧ (i 1).val < win2_3.index t (1 : Fin 2) * 128 + 128
    rw [e31]; omega

/-- So after the region window 3's array is the region's function of the arrays it found. -/
theorem final2_3 (c : Dev nD) :
    (dat2 (F := Ideal) V c).arrAt 3 cfg2.N = linScaleArr (arrX2 V c) (arrW2 V c) (arrD2 V c) :=
  (dat2 (F := Ideal) V c).arrAt_eq_of_cover 3 (linScaleArr (arrX2 V c) (arrW2 V c) (arrD2 V c))
    (fun t _ => flushed2_3_eq V c t) covered2_3

/-- Entry `(n, j)` of window 3's array after the region. -/
theorem out2_3_apply (c : Dev nD) (n : Fin 100000) (j : Fin 128) :
    ((dat2 (F := Ideal) V c).arrAt 3 cfg2.N : S100000x128.Idx → EReal) (ix2 n j)
      = (∑ k : Fin 128, arrX2 V c (ix2 n k) * arrW2 V c (ix2 k j)) * arrD2 V c (ix2 n (0 : Fin 1)) := by
  rw [final2_3 V c]
  exact linScaleArr_at (arrX2 V c) (arrW2 V c) (arrD2 V c) (ix2 n j) n j rfl rfl

/-! ## Output window 4 -/

/-- Point `t`'s block of window 4, element `(p, q)`, sits in the array at row `2000 t + p`, lane `q`. -/
theorem emb2_4 (t : Fin cfg2.N) (p : Fin 2000) (q : Fin 128) :
    ((((cfg2.win 4).blk t).view.emb (ix2 p q)) 0).val = t.val * 2000 + p.val
      ∧ ((((cfg2.win 4).blk t).view.emb (ix2 p q)) 1).val = q.val := by
  obtain ⟨_, _, _, _, _, _, e30, e31, e40, e41⟩ := idx2 t
  constructor
  · show win2_4.index t (0 : Fin 2) * 2000 + 1 * p.val = _
    rw [e40]; omega
  · show win2_4.index t (1 : Fin 2) * 128 + 1 * q.val = _
    rw [e41]; omega

/-- What point `t` writes back to window 4 is its block of the region's array. -/
theorem flushed2_4_eq (c : Dev nD) (t : Fin cfg2.N) :
    (dat2 (F := Ideal) V c).flushed 4 t
      = ((cfg2.win 4).blk t).view.read (Elt Ideal) (linScaleArr (arrX2 V c) (arrW2 V c) (arrD2 V c)) := by
  show (cfg2.win 4).cut (grid2.coords t) ((dat2 V c).after 4 t) = _
  rw [after2_4]
  unfold out2_4
  rw [View.canon_unit_zero hz]
  simp only [View.ld_unit_zero (S := S2000x128) hz, View.ld_unit_zero (S := S128x128) hz, View.ld_unit_zero (S := S2000x1) hz]
  refine funext fun (y : S2000x128.Idx) => ?_
  obtain ⟨p, q, rfl⟩ : ∃ (p : Fin 2000) (q : Fin 128), y = ix2 p q := ⟨y 0, y 1, eq_ix2 y⟩
  have hN : grid2.N = 50 := N_2
  have ht : t.val < 50 := by have h : t.val < grid2.N := t.isLt; omega
  obtain ⟨n, hn⟩ : ∃ n : Fin 100000, n.val = t.val * 2000 + p.val :=
    ⟨⟨t.val * 2000 + p.val, by have := p.isLt; omega⟩, rfl⟩
  obtain ⟨he0, he1⟩ := emb2_4 t p q
  show k2_pay2 (iblk2 V c 0 t) (iblk2 V c 1 t) (iblk2 V c 2 t) (ix2 p q)
    = linScaleArr (arrX2 V c) (arrW2 V c) (arrD2 V c) (((cfg2.win 4).blk t).view.emb (ix2 p q))
  rw [linScaleArr_at (arrX2 V c) (arrW2 V c) (arrD2 V c) _ n q (he0.trans hn.symm) he1]
  refine (k2_pay2_at (iblk2 V c 0 t) (iblk2 V c 1 t) (iblk2 V c 2 t) p q).trans ?_
  rw [iblk2_2_at V c t p n hn]
  refine congrArg (· * arrD2 V c (ix2 n (0 : Fin 1))) (Finset.sum_congr rfl fun k _ => ?_)
  rw [iblk2_0_at V c t p k n hn, iblk2_1_at V c t k q]

/-- An index of the array is in point `t`'s block iff each coordinate is in the block's range on its axis. -/
theorem mem_blk2_4 (t : Fin cfg2.N) (i : S100000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v26_1).slice (win2_4.rect t)).set ↔ _
  rw [View.set_slice_whole, Rect.mem_set_unit]
  exact Iff.rfl

/-- Row `r` of the array lies in the block of point `r / 2000`, which is written back. -/
theorem covered2_4 (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : grid2.N = 50 := N_2
  obtain ⟨t, ht⟩ : ∃ t : Fin cfg2.N, t.val = (i 0).val / 2000 := ⟨⟨(i 0).val / 2000, by show _ < grid2.N; omega⟩, rfl⟩
  obtain ⟨_, _, _, _, _, _, e30, e31, e40, e41⟩ := idx2 t
  refine ⟨t, flush2_4 t, ?_⟩
  rw [mem_blk2_4]
  intro a
  match a with
  | ⟨0, _⟩ =>
    show win2_4.index t (0 : Fin 2) * 2000 ≤ (i 0).val ∧ (i 0).val < win2_4.index t (0 : Fin 2) * 2000 + 2000
    rw [e40, ht]; omega
  | ⟨1, _⟩ =>
    show win2_4.index t (1 : Fin 2) * 128 ≤ (i 1).val ∧ (i 1).val < win2_4.index t (1 : Fin 2) * 128 + 128
    rw [e41]; omega

/-- So after the region window 4's array is the region's function of the arrays it found. -/
theorem final2_4 (c : Dev nD) :
    (dat2 (F := Ideal) V c).arrAt 4 cfg2.N = linScaleArr (arrX2 V c) (arrW2 V c) (arrD2 V c) :=
  (dat2 (F := Ideal) V c).arrAt_eq_of_cover 4 (linScaleArr (arrX2 V c) (arrW2 V c) (arrD2 V c))
    (fun t _ => flushed2_4_eq V c t) covered2_4

/-- Entry `(n, j)` of window 4's array after the region. -/
theorem out2_4_apply (c : Dev nD) (n : Fin 100000) (j : Fin 128) :
    ((dat2 (F := Ideal) V c).arrAt 4 cfg2.N : S100000x128.Idx → EReal) (ix2 n j)
      = (∑ k : Fin 128, arrX2 V c (ix2 n k) * arrW2 V c (ix2 k j)) * arrD2 V c (ix2 n (0 : Fin 1)) := by
  rw [final2_4 V c]
  exact linScaleArr_at (arrX2 V c) (arrW2 V c) (arrD2 V c) (ix2 n j) n j rfl rfl

end Cert.KernelIdeal.RegionValue

end
-- ==== Proof.RegionValue3.lean ====
import proofs.«108103_j9363028705695_2_alg».proof.Proof.Gen.KernelIdeal.Frame
import proofs.«108103_j9363028705695_2_alg».proof.Proof.RegionBody
import Idealize.ShloMosaic.Lib.Pipeline.Value
import Idealize.ShloMosaic.Lib.ValueIdx

/-!
# Region 3: combine

The region runs over 50 row blocks of 2000 rows. At point `t` it reads rows `2000 t … 2000 t + 1999` of
two [100000,128] arrays `A` and `H` and of the [100000,1] column `D`, and the whole [1,128] row `B`, and
writes the same rows of its output: `D · (A + H) + B`, the column scaling each row and the row added to
every row. Every row lies in exactly the block of point `row / 2000`, so after the region
the output array is that function of the arrays the region found at entry, entry by entry.
-/

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The four arrays the region reads, as it finds them. -/
abbrev arrA3 (c : Dev nD) : S100000x128.Idx → EReal := V c (Pipeline.arrRef spec3 0)
abbrev arrH3 (c : Dev nD) : S100000x128.Idx → EReal := V c (Pipeline.arrRef spec3 1)
abbrev arrD3 (c : Dev nD) : S100000x1.Idx → EReal := V c (Pipeline.arrRef spec3 2)
abbrev arrB3 (c : Dev nD) : S1x128.Idx → EReal := V c (Pipeline.arrRef spec3 3)

/-- The printed index maps, decided over the 50 points: the row-tiled windows are at block `(t, 0)`, the
    row `B` at block `(0, 0)`. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-! ## The input blocks are rows of the arrays -/

/-- Window 0's block at point `t`: row `p` of the block is row `2000 t + p` of `A`. -/
theorem iblk3_0_at (c : Dev nD) (t : Fin cfg3.N) (p : Fin 2000) (k : Fin 128) (n : Fin 100000) (hn : n.val = t.val * 2000 + p.val) :
    (iblk3 V c 0 t : S2000x128.Idx → EReal) (ix2 p k) = arrA3 V c (ix2 n k) := by
  obtain ⟨e0, e1, -⟩ := idx3 t
  unfold iblk3
  rw [View.read_apply]
  show V c (Pipeline.arrRef spec3 0) _ = V c (Pipeline.arrRef spec3 0) _
  refine congrArg (V c (Pipeline.arrRef spec3 0)) (funext fun a => Fin.ext ?_)
  match a with
  | ⟨0, _⟩ => show win3_0.index t (0 : Fin 2) * 2000 + 1 * p.val = n.val; rw [e0, hn]; omega
  | ⟨1, _⟩ => show win3_0.index t (1 : Fin 2) * 128 + 1 * k.val = k.val; rw [e1]; omega

/-- Window 1's block at point `t`: row `p` of the block is row `2000 t + p` of `H`. -/
theorem iblk3_1_at (c : Dev nD) (t : Fin cfg3.N) (p : Fin 2000) (k : Fin 128) (n : Fin 100000) (hn : n.val = t.val * 2000 + p.val) :
    (iblk3 V c 1 t : S2000x128.Idx → EReal) (ix2 p k) = arrH3 V c (ix2 n k) := by
  obtain ⟨_, _, e0, e1, -⟩ := idx3 t
  unfold iblk3
  rw [View.read_apply]
  show V c (Pipeline.arrRef spec3 1) _ = V c (Pipeline.arrRef spec3 1) _
  refine congrArg (V c (Pipeline.arrRef spec3 1)) (funext fun a => Fin.ext ?_)
  match a with
  | ⟨0, _⟩ => show win3_1.index t (0 : Fin 2) * 2000 + 1 * p.val = n.val; rw [e0, hn]; omega
  | ⟨1, _⟩ => show win3_1.index t (1 : Fin 2) * 128 + 1 * k.val = k.val; rw [e1]; omega

/-- Window 2's block at point `t`: entry `p` of the block is entry `2000 t + p` of the column `D`. -/
theorem iblk3_2_at (c : Dev nD) (t : Fin cfg3.N) (p : Fin 2000) (n : Fin 100000) (hn : n.val = t.val * 2000 + p.val) :
    (iblk3 V c 2 t : S2000x1.Idx → EReal) (ix2 p (0 : Fin 1)) = arrD3 V c (ix2 n (0 : Fin 1)) := by
  obtain ⟨_, _, _, _, e0, e1, -⟩ := idx3 t
  unfold iblk3
  rw [View.read_apply]
  show V c (Pipeline.arrRef spec3 2) _ = V c (Pipeline.arrRef spec3 2) _
  refine congrArg (V c (Pipeline.arrRef spec3 2)) (funext fun a => Fin.ext ?_)
  match a with
  | ⟨0, _⟩ => show win3_2.index t (0 : Fin 2) * 2000 + 1 * p.val = n.val; rw [e0, hn]; omega
  | ⟨1, _⟩ => show win3_2.index t (1 : Fin 2) * 1 + 1 * 0 = 0; rw [e1]

/-- Window 3's block at every point is the whole row `B`. -/
theorem iblk3_3_at (c : Dev nD) (t : Fin cfg3.N) (q : Fin 128) :
    (iblk3 V c 3 t : S1x128.Idx → EReal) (ix2 (0 : Fin 1) q) = arrB3 V c (ix2 (0 : Fin 1) q) := by
  obtain ⟨_, _, _, _, _, _, e0, e1, -⟩ := idx3 t
  unfold iblk3
  rw [View.read_apply]
  show V c (Pipeline.arrRef spec3 3) _ = V c (Pipeline.arrRef spec3 3) _
  refine congrArg (V c (Pipeline.arrRef spec3 3)) (funext fun a => Fin.ext ?_)
  match a with
  | ⟨0, _⟩ => show win3_3.index t (0 : Fin 2) * 1 + 1 * 0 = 0; rw [e0]
  | ⟨1, _⟩ => show win3_3.index t (1 : Fin 2) * 128 + 1 * q.val = q.val; rw [e1]; omega

/-! ## Output window 4 -/

/-- Point `t`'s block of window 4, element `(p, q)`, sits in the array at row `2000 t + p`, lane `q`. -/
theorem emb3_4 (t : Fin cfg3.N) (p : Fin 2000) (q : Fin 128) :
    ((((cfg3.win 4).blk t).view.emb (ix2 p q)) 0).val = t.val * 2000 + p.val
      ∧ ((((cfg3.win 4).blk t).view.emb (ix2 p q)) 1).val = q.val := by
  obtain ⟨_, _, _, _, _, _, _, _, e40, e41⟩ := idx3 t
  constructor
  · show win3_4.index t (0 : Fin 2) * 2000 + 1 * p.val = _
    rw [e40]; omega
  · show win3_4.index t (1 : Fin 2) * 128 + 1 * q.val = _
    rw [e41]; omega

/-- What point `t` writes back to window 4 is its block of the region's array. -/
theorem flushed3_4_eq (c : Dev nD) (t : Fin cfg3.N) :
    (dat3 (F := Ideal) V c).flushed 4 t
      = ((cfg3.win 4).blk t).view.read (Elt Ideal) (combineArr (arrA3 V c) (arrH3 V c) (arrD3 V c) (arrB3 V c)) := by
  show (cfg3.win 4).cut (grid3.coords t) ((dat3 V c).after 4 t) = _
  rw [after3_4]
  unfold out3_4
  rw [View.canon_unit_zero hz]
  simp only [View.ld_unit_zero (S := S2000x128) hz, View.ld_unit_zero (S := S2000x1) hz, View.ld_unit_zero (S := S1x128) hz]
  refine funext fun (y : S2000x128.Idx) => ?_
  obtain ⟨p, q, rfl⟩ : ∃ (p : Fin 2000) (q : Fin 128), y = ix2 p q := ⟨y 0, y 1, eq_ix2 y⟩
  have hN : grid3.N = 50 := N_3
  have ht : t.val < 50 := by have h : t.val < grid3.N := t.isLt; omega
  obtain ⟨n, hn⟩ : ∃ n : Fin 100000, n.val = t.val * 2000 + p.val :=
    ⟨⟨t.val * 2000 + p.val, by have := p.isLt; omega⟩, rfl⟩
  obtain ⟨he0, he1⟩ := emb3_4 t p q
  show k3_pay1 (iblk3 V c 2 t) (iblk3 V c 0 t) (iblk3 V c 1 t) (iblk3 V c 3 t) (ix2 p q)
    = combineArr (arrA3 V c) (arrH3 V c) (arrD3 V c) (arrB3 V c) (((cfg3.win 4).blk t).view.emb (ix2 p q))
  rw [combineArr_at (arrA3 V c) (arrH3 V c) (arrD3 V c) (arrB3 V c) _ n q (he0.trans hn.symm) he1]
  refine (k3_pay1_at (iblk3 V c 2 t) (iblk3 V c 0 t) (iblk3 V c 1 t) (iblk3 V c 3 t) p q).trans ?_
  rw [iblk3_2_at V c t p n hn, iblk3_0_at V c t p q n hn, iblk3_1_at V c t p q n hn, iblk3_3_at V c t q]

/-- An index of the array is in point `t`'s block iff each coordinate is in the block's range on its axis. -/
theorem mem_blk3_4 (t : Fin cfg3.N) (i : S100000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v39).slice (win3_4.rect t)).set ↔ _
  rw [View.set_slice_whole, Rect.mem_set_unit]
  exact Iff.rfl

/-- Row `r` of the array lies in the block of point `r / 2000`, which is written back. -/
theorem covered3_4 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : grid3.N = 50 := N_3
  obtain ⟨t, ht⟩ : ∃ t : Fin cfg3.N, t.val = (i 0).val / 2000 := ⟨⟨(i 0).val / 2000, by show _ < grid3.N; omega⟩, rfl⟩
  obtain ⟨_, _, _, _, _, _, _, _, e40, e41⟩ := idx3 t
  refine ⟨t, flush3_4 t, ?_⟩
  rw [mem_blk3_4]
  intro a
  match a with
  | ⟨0, _⟩ =>
    show win3_4.index t (0 : Fin 2) * 2000 ≤ (i 0).val ∧ (i 0).val < win3_4.index t (0 : Fin 2) * 2000 + 2000
    rw [e40, ht]; omega
  | ⟨1, _⟩ =>
    show win3_4.index t (1 : Fin 2) * 128 ≤ (i 1).val ∧ (i 1).val < win3_4.index t (1 : Fin 2) * 128 + 128
    rw [e41]; omega

/-- So after the region window 4's array is the region's function of the arrays it found. -/
theorem final3_4 (c : Dev nD) :
    (dat3 (F := Ideal) V c).arrAt 4 cfg3.N = combineArr (arrA3 V c) (arrH3 V c) (arrD3 V c) (arrB3 V c) :=
  (dat3 (F := Ideal) V c).arrAt_eq_of_cover 4 (combineArr (arrA3 V c) (arrH3 V c) (arrD3 V c) (arrB3 V c))
    (fun t _ => flushed3_4_eq V c t) covered3_4

/-- Entry `(n, j)` of window 4's array after the region. -/
theorem out3_4_apply (c : Dev nD) (n : Fin 100000) (j : Fin 128) :
    ((dat3 (F := Ideal) V c).arrAt 4 cfg3.N : S100000x128.Idx → EReal) (ix2 n j)
      = arrD3 V c (ix2 n (0 : Fin 1)) * (arrA3 V c (ix2 n j) + arrH3 V c (ix2 n j)) + arrB3 V c (ix2 (0 : Fin 1) j) := by
  rw [final3_4 V c]
  exact combineArr_at (arrA3 V c) (arrH3 V c) (arrD3 V c) (arrB3 V c) (ix2 n j) n j rfl rfl

end Cert.KernelIdeal.RegionValue

end
-- ==== Proof.KLayer2.lean ====
/-
  Layer 2 of the idealized kernel, read entry by entry.

  Given the activations the layer's first region finds, the region leaves the product with the weights scaled row by
  row by the degree factor (twice: in two formats, the same extended reals); the host stretch gathers those rows at
  the wrapped source words and sums them per destination node; the second region forms `dinv · (sum + own row) + bias`.
  Together: the layer of the specification with the scaling done before and after the edge sum.
-/
import proofs.«108103_j9363028705695_2_alg».proof.Proof.Gen.KernelIdeal.Frame
import proofs.«108103_j9363028705695_2_alg».proof.Proof.KWalk
import proofs.«108103_j9363028705695_2_alg».proof.Proof.KGraph
import proofs.«108103_j9363028705695_2_alg».proof.Proof.HostLemmas
import proofs.«108103_j9363028705695_2_alg».proof.Proof.LayerRead
import proofs.«108103_j9363028705695_2_alg».proof.Proof.RegionValue2
import proofs.«108103_j9363028705695_2_alg».proof.Proof.RegionValue3

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx Cert.Gcn Cert.KernelIdeal.Carried

variable (m : (ℓ : Loc nD τ sig) → Buf (Elt Ideal) ℓ) (ρ : Dev nD → PrngReg) (c : Dev nD)

set_option maxHeartbeats 2000000 in
/-- Layer 2: the linear-scale region, the edge sum on the host, the combine region. -/
theorem layer2 (Hp : Fin 100000 → Fin 128 → EReal)
    (hX : ∀ n k, ((W4 m ρ c (Proc.devRef .tc main_v25)) : S100000x128.Idx → EReal) (ix2 n k) = Hp n k)
    (n : Fin 100000) (j : Fin 128) :
    ((W7 m ρ c (Proc.devRef .tc main_v39)) : S100000x128.Idx → EReal) (ix2 n j) = preScaledLayer (graphOf (m ((c : Thread nD τ).loc main_arg1))) id Hp (mat (m ((c : Thread nD τ).loc main_arg4))) (vec (m ((c : Thread nD τ).loc main_arg5))) n j := by
  have hW : ∀ k j, ((W4 m ρ c (Proc.devRef .tc main_arg4)) : S128x128.Idx → EReal) (ix2 k j) = (mat (m ((c : Thread nD τ).loc main_arg4))) k j := fun k j => by
    rw [keep_main_arg4_4_0 m ρ c]; rfl
  have hBsrc : ∀ j, ((W5 m ρ c (Proc.devRef .tc main_arg5)) : S128.Idx → EReal) (ix1 j) = (vec (m ((c : Thread nD τ).loc main_arg5))) j := fun j => by
    rw [keep_main_arg5_5_0 m ρ c]; rfl
  have hD : ∀ p, ((W4 m ρ c (Proc.devRef .tc main_v11)) : S100000x1.Idx → EReal) (ix2 p (0 : Fin 1)) = (graphOf (m ((c : Thread nD τ).loc main_arg1))).dinv p := fun p => by
    rw [keep_main_v11_4_3 m ρ c, keep_main_v11_3_1 m ρ c]
    exact dinv_W1 m ρ c p 0
  have hD2 : ∀ p, ((W6 m ρ c (Proc.devRef .tc main_v11)) : S100000x1.Idx → EReal) (ix2 p (0 : Fin 1)) = (graphOf (m ((c : Thread nD τ).loc main_arg1))).dinv p := fun p => by
    rw [keep_main_v11_6_4 m ρ c, keep_main_v11_4_3 m ρ c, keep_main_v11_3_1 m ρ c]
    exact dinv_W1 m ρ c p 0
  have hsrc : ∀ e : Fin 1600000, ((W5 m ρ c (Proc.devRef .tc main_v1)) : S1600000.Idx → BitVec 32) (ix1 e) = (m ((c : Thread nD τ).loc main_arg1)) (ix2 (0 : Fin 2) e) := fun e => by
    rw [keep_main_v1_5_2 m ρ c, keep_main_v1_2_1 m ρ c]
    exact src_W1 m ρ c e
  have hdst : ∀ e : Fin 1600000, ((W5 m ρ c (Proc.devRef .tc main_v3)) : S1600000.Idx → BitVec 32) (ix1 e) = (m ((c : Thread nD τ).loc main_arg1)) (ix2 (1 : Fin 2) e) := fun e => by
    rw [keep_main_v3_5_2 m ρ c, keep_main_v3_2_1 m ρ c]
    exact dst_W1 m ρ c e
  -- the linear-scale region's two outputs
  have e32 : ((W5 m ρ c (Proc.devRef .tc main_v26_0)) : S100000x128.Idx → EReal) = ((dat2 (F := Ideal) (V4 m ρ) c).arrAt 3 cfg2.N : S100000x128.Idx → EReal) := W5_arr m ρ c 3
  have e16 : ((W5 m ρ c (Proc.devRef .tc main_v26_1)) : S100000x128.Idx → EReal) = ((dat2 (F := Ideal) (V4 m ρ) c).arrAt 4 cfg2.N : S100000x128.Idx → EReal) := W5_arr m ρ c 4
  have hs32 : ∀ p q, ((W5 m ρ c (Proc.devRef .tc main_v26_0)) : S100000x128.Idx → EReal) (ix2 p q) = scaled (graphOf (m ((c : Thread nD τ).loc main_arg1))) Hp (mat (m ((c : Thread nD τ).loc main_arg4))) p q := fun p q => by
    rw [e32]
    exact (RegionValue.out2_3_apply (V4 m ρ) c p q).trans (LayerRead.scaled_of (graphOf (m ((c : Thread nD τ).loc main_arg1))) _ _ _ Hp (mat (m ((c : Thread nD τ).loc main_arg4))) hX hW hD p q)
  have hs16 : ∀ p q, ((W5 m ρ c (Proc.devRef .tc main_v26_1)) : S100000x128.Idx → EReal) (ix2 p q) = scaled (graphOf (m ((c : Thread nD τ).loc main_arg1))) Hp (mat (m ((c : Thread nD τ).loc main_arg4))) p q := fun p q => by
    rw [e16]
    exact (RegionValue.out2_4_apply (V4 m ρ) c p q).trans (LayerRead.scaled_of (graphOf (m ((c : Thread nD τ).loc main_arg1))) _ _ _ Hp (mat (m ((c : Thread nD τ).loc main_arg4))) hX hW hD p q)
  have hs32' : ∀ p q, ((W6 m ρ c (Proc.devRef .tc main_v26_0)) : S100000x128.Idx → EReal) (ix2 p q) = scaled (graphOf (m ((c : Thread nD τ).loc main_arg1))) Hp (mat (m ((c : Thread nD τ).loc main_arg4))) p q := fun p q => by
    rw [keep_main_v26_0_6_5 m ρ c]; exact hs32 p q
  -- the edge sum
  have hagg : ∀ p q, ((W6 m ρ c (Proc.devRef .tc main_v37)) : S100000x128.Idx → EReal) (ix2 p q) = gathered (graphOf (m ((c : Thread nD τ).loc main_arg1))) Hp (mat (m ((c : Thread nD τ).loc main_arg4))) p q := fun p q => by
    have h : ((W6 m ρ c (Proc.devRef .tc main_v37)) : S100000x128.Idx → EReal)
        = Host.scatterAdd (F := Ideal) scatter_S100000x128_S1600000x1_S1600000x128_1_0_0_1
            (broadcastInDim S100000x128 ![] Facts₀.bcast_S_S100000x128 (constant (F := Ideal) S_ .f32 0x00000000#32))
            (broadcastInDim S1600000x1 ![0] Facts₀.bcast_S1600000_S1600000x1_0 ((W5 m ρ c (Proc.devRef .tc main_v3)) : S1600000.Idx → BitVec 32))
            (extf (F := Ideal) .f32 (Host.gather gather_S100000x128_S1600000x1_S1600000x128_1_0_n_n_0_1_1128
              ((W5 m ρ c (Proc.devRef .tc main_v26_1)) : FVec Ideal S100000x128 .bf16)
              (broadcastInDim S1600000x1 ![0] Facts₀.bcast_S1600000_S1600000x1_0
                (select (cmpi .slt ((W5 m ρ c (Proc.devRef .tc main_v1)) : S1600000.Idx → BitVec 32) (broadcastInDim S1600000 ![] Facts₀.bcast_S_S1600000 (constantI S_ 32 0#32)))
                  (addi ((W5 m ρ c (Proc.devRef .tc main_v1)) : S1600000.Idx → BitVec 32) (broadcastInDim S1600000 ![] Facts₀.bcast_S_S1600000 (constantI S_ 32 100000#32)))
                  ((W5 m ρ c (Proc.devRef .tc main_v1)) : S1600000.Idx → BitVec 32)))) Facts₀.bitsLt_bf16_f32) := by
      show StableHlo.after hostOps3 (W5 m ρ c) (Proc.devRef .tc main_v37) = _
      after_results
      try rfl
    rw [h]
    exact (HostRead.edgeSum_apply Facts₀.bitsLt_bf16_f32 Facts₀.gather_S100000x128_S1600000x1_S1600000x128_1_0_n_n_0_1_1128_wf
        Facts₀.scatter_S100000x128_S1600000x1_S1600000x128_1_0_0_1_wf Facts₀.bcast_S1600000_S1600000x1_0 Facts₀.bcast_S_S100000x128 Facts₀.bcast_S_S1600000
        _ _ _ p q).trans
      (LayerRead.gathered_of (m ((c : Thread nD τ).loc main_arg1)) _ _ _ Hp (mat (m ((c : Thread nD τ).loc main_arg4))) hsrc hdst hs16 p q)
  -- the bias row
  have hB : ∀ q, ((W6 m ρ c (Proc.devRef .tc main_v38)) : S1x128.Idx → EReal) (ix2 (0 : Fin 1) q) = (vec (m ((c : Thread nD τ).loc main_arg5))) q := fun q => by
    have h : ((W6 m ρ c (Proc.devRef .tc main_v38)) : S1x128.Idx → EReal) = shapeCast S1x128 ((W5 m ρ c (Proc.devRef .tc main_arg5)) : S128.Idx → EReal) Facts₀.shapeCasts_S128_S1x128 := by
      show StableHlo.after hostOps3 (W5 m ρ c) (Proc.devRef .tc main_v38) = _
      after_results
      try rfl
    rw [h, shapeCast_a_1a_apply]
    exact hBsrc q
  -- the combine region
  have eo : ((W7 m ρ c (Proc.devRef .tc main_v39)) : S100000x128.Idx → EReal) = ((dat3 (F := Ideal) (V6 m ρ) c).arrAt 4 cfg3.N : S100000x128.Idx → EReal) := W7_arr m ρ c 4
  rw [eo]
  exact (RegionValue.out3_4_apply (V6 m ρ) c n j).trans
    (LayerRead.layer_of (graphOf (m ((c : Thread nD τ).loc main_arg1))) id _ _ _ _ Hp (mat (m ((c : Thread nD τ).loc main_arg4))) (vec (m ((c : Thread nD τ).loc main_arg5))) hagg hs32' hD2 hB n j)

end Cert.KernelIdeal.Chain

end
-- ==== Proof.RegionValue4.lean ====
import proofs.«108103_j9363028705695_2_alg».proof.Proof.Gen.KernelIdeal.Frame
import proofs.«108103_j9363028705695_2_alg».proof.Proof.RegionBody
import Idealize.ShloMosaic.Lib.Pipeline.Value
import Idealize.ShloMosaic.Lib.ValueIdx

/-!
# Region 4: linear, then scale by a column

The region runs over 50 row blocks of 2000 rows. At point `t` it reads rows `2000 t … 2000 t + 1999` of
the [100000,128] array `X` and of the [100000,1] column `D`, and the whole [128,128] matrix `W`, and
writes the same rows of its two outputs: `(X · W)` with each row scaled by its entry of `D`, once as
f32 and once rounded to bf16, which on the extended reals is the same value. Every row lies in exactly
the block of point `row / 2000`, so after the region each output array is that function of the arrays
the region found at entry, entry by entry.
-/

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The three arrays the region reads, as it finds them. -/
abbrev arrX4 (c : Dev nD) : S100000x128.Idx → EReal := V c (Pipeline.arrRef spec4 0)
abbrev arrW4 (c : Dev nD) : S128x128.Idx → EReal := V c (Pipeline.arrRef spec4 1)
abbrev arrD4 (c : Dev nD) : S100000x1.Idx → EReal := V c (Pipeline.arrRef spec4 2)

/-- The printed index maps, decided over the 50 points: the row-tiled windows are at block `(t, 0)`, the
    matrix at block `(0, 0)`. -/
theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-! ## The input blocks are rows of the arrays -/

/-- Window 0's block at point `t`: row `p` of the block is row `2000 t + p` of `X`. -/
theorem iblk4_0_at (c : Dev nD) (t : Fin cfg4.N) (p : Fin 2000) (k : Fin 128) (n : Fin 100000) (hn : n.val = t.val * 2000 + p.val) :
    (iblk4 V c 0 t : S2000x128.Idx → EReal) (ix2 p k) = arrX4 V c (ix2 n k) := by
  obtain ⟨e0, e1, -⟩ := idx4 t
  unfold iblk4
  rw [View.read_apply]
  show V c (Pipeline.arrRef spec4 0) _ = V c (Pipeline.arrRef spec4 0) _
  refine congrArg (V c (Pipeline.arrRef spec4 0)) (funext fun a => Fin.ext ?_)
  match a with
  | ⟨0, _⟩ => show win4_0.index t (0 : Fin 2) * 2000 + 1 * p.val = n.val; rw [e0, hn]; omega
  | ⟨1, _⟩ => show win4_0.index t (1 : Fin 2) * 128 + 1 * k.val = k.val; rw [e1]; omega

/-- Window 1's block at every point is the whole matrix `W`. -/
theorem iblk4_1_at (c : Dev nD) (t : Fin cfg4.N) (k q : Fin 128) :
    (iblk4 V c 1 t : S128x128.Idx → EReal) (ix2 k q) = arrW4 V c (ix2 k q) := by
  obtain ⟨_, _, e0, e1, -⟩ := idx4 t
  unfold iblk4
  rw [View.read_apply]
  show V c (Pipeline.arrRef spec4 1) _ = V c (Pipeline.arrRef spec4 1) _
  refine congrArg (V c (Pipeline.arrRef spec4 1)) (funext fun a => Fin.ext ?_)
  match a with
  | ⟨0, _⟩ => show win4_1.index t (0 : Fin 2) * 128 + 1 * k.val = k.val; rw [e0]; omega
  | ⟨1, _⟩ => show win4_1.index t (1 : Fin 2) * 128 + 1 * q.val = q.val; rw [e1]; omega

/-- Window 2's block at point `t`: entry `p` of the block is entry `2000 t + p` of the column `D`. -/
theorem iblk4_2_at (c : Dev nD) (t : Fin cfg4.N) (p : Fin 2000) (n : Fin 100000) (hn : n.val = t.val * 2000 + p.val) :
    (iblk4 V c 2 t : S2000x1.Idx → EReal) (ix2 p (0 : Fin 1)) = arrD4 V c (ix2 n (0 : Fin 1)) := by
  obtain ⟨_, _, _, _, e0, e1, -⟩ := idx4 t
  unfold iblk4
  rw [View.read_apply]
  show V c (Pipeline.arrRef spec4 2) _ = V c (Pipeline.arrRef spec4 2) _
  refine congrArg (V c (Pipeline.arrRef spec4 2)) (funext fun a => Fin.ext ?_)
  match a with
  | ⟨0, _⟩ => show win4_2.index t (0 : Fin 2) * 2000 + 1 * p.val = n.val; rw [e0, hn]; omega
  | ⟨1, _⟩ => show win4_2.index t (1 : Fin 2) * 1 + 1 * 0 = 0; rw [e1]

/-! ## Output window 3 -/

/-- Point `t`'s block of window 3, element `(p, q)`, sits in the array at row `2000 t + p`, lane `q`. -/
theorem emb4_3 (t : Fin cfg4.N) (p : Fin 2000) (q : Fin 128) :
    ((((cfg4.win 3).blk t).view.emb (ix2 p q)) 0).val = t.val * 2000 + p.val
      ∧ ((((cfg4.win 3).blk t).view.emb (ix2 p q)) 1).val = q.val := by
  obtain ⟨_, _, _, _, _, _, e30, e31, e40, e41⟩ := idx4 t
  constructor
  · show win4_3.index t (0 : Fin 2) * 2000 + 1 * p.val = _
    rw [e30]; omega
  · show win4_3.index t (1 : Fin 2) * 128 + 1 * q.val = _
    rw [e31]; omega

/-- What point `t` writes back to window 3 is its block of the region's array. -/
theorem flushed4_3_eq (c : Dev nD) (t : Fin cfg4.N) :
    (dat4 (F := Ideal) V c).flushed 3 t
      = ((cfg4.win 3).blk t).view.read (Elt Ideal) (linScaleArr (arrX4 V c) (arrW4 V c) (arrD4 V c)) := by
  show (cfg4.win 3).cut (grid4.coords t) ((dat4 V c).after 3 t) = _
  rw [after4_3]
  unfold out4_3
  rw [View.canon_unit_zero hz]
  simp only [View.ld_unit_zero (S := S2000x128) hz, View.ld_unit_zero (S := S128x128) hz, View.ld_unit_zero (S := S2000x1) hz]
  refine funext fun (y : S2000x128.Idx) => ?_
  obtain ⟨p, q, rfl⟩ : ∃ (p : Fin 2000) (q : Fin 128), y = ix2 p q := ⟨y 0, y 1, eq_ix2 y⟩
  have hN : grid4.N = 50 := N_4
  have ht : t.val < 50 := by have h : t.val < grid4.N := t.isLt; omega
  obtain ⟨n, hn⟩ : ∃ n : Fin 100000, n.val = t.val * 2000 + p.val :=
    ⟨⟨t.val * 2000 + p.val, by have := p.isLt; omega⟩, rfl⟩
  obtain ⟨he0, he1⟩ := emb4_3 t p q
  show k4_pay1 (iblk4 V c 0 t) (iblk4 V c 1 t) (iblk4 V c 2 t) (ix2 p q)
    = linScaleArr (arrX4 V c) (arrW4 V c) (arrD4 V c) (((cfg4.win 3).blk t).view.emb (ix2 p q))
  rw [linScaleArr_at (arrX4 V c) (arrW4 V c) (arrD4 V c) _ n q (he0.trans hn.symm) he1]
  refine (k4_pay1_at (iblk4 V c 0 t) (iblk4 V c 1 t) (iblk4 V c 2 t) p q).trans ?_
  rw [iblk4_2_at V c t p n hn]
  refine congrArg (· * arrD4 V c (ix2 n (0 : Fin 1))) (Finset.sum_congr rfl fun k _ => ?_)
  rw [iblk4_0_at V c t p k n hn, iblk4_1_at V c t k q]

/-- An index of the array is in point `t`'s block iff each coordinate is in the block's range on its axis. -/
theorem mem_blk4_3 (t : Fin cfg4.N) (i : S100000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole main_v40_0).slice (win4_3.rect t)).set ↔ _
  rw [View.set_slice_whole, Rect.mem_set_unit]
  exact Iff.rfl

/-- Row `r` of the array lies in the block of point `r / 2000`, which is written back. -/
theorem covered4_3 (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  have hN : grid4.N = 50 := N_4
  obtain ⟨t, ht⟩ : ∃ t : Fin cfg4.N, t.val = (i 0).val / 2000 := ⟨⟨(i 0).val / 2000, by show _ < grid4.N; omega⟩, rfl⟩
  obtain ⟨_, _, _, _, _, _, e30, e31, e40, e41⟩ := idx4 t
  refine ⟨t, flush4_3 t, ?_⟩
  rw [mem_blk4_3]
  intro a
  match a with
  | ⟨0, _⟩ =>
    show win4_3.index t (0 : Fin 2) * 2000 ≤ (i 0).val ∧ (i 0).val < win4_3.index t (0 : Fin 2) * 2000 + 2000
    rw [e30, ht]; omega
  | ⟨1, _⟩ =>
    show win4_3.index t (1 : Fin 2) * 128 ≤ (i 1).val ∧ (i 1).val < win4_3.index t (1 : Fin 2) * 128 + 128
    rw [e31]; omega

/-- So after the region window 3's array is the region's function of the arrays it found. -/
theorem final4_3 (c : Dev nD) :
    (dat4 (F := Ideal) V c).arrAt 3 cfg4.N = linScaleArr (arrX4 V c) (arrW4 V c) (arrD4 V c) :=
  (dat4 (F := Ideal) V c).arrAt_eq_of_cover 3 (linScaleArr (arrX4 V c) (arrW4 V c) (arrD4 V c))
    (fun t _ => flushed4_3_eq V c t) covered4_3

/-- Entry `(n, j)` of window 3's array after the region. -/
theorem out4_3_apply (c : Dev nD) (n : Fin 100000) (j : Fin 128) :
    ((dat4 (F := Ideal) V c).arrAt 3 cfg4.N : S100000x128.Idx → EReal) (ix2 n j)
      = (∑ k : Fin 128, arrX4 V c (ix2 n k) * arrW4 V c (ix2 k j)) * arrD4 V c (ix2 n (0 : Fin 1)) := by
  rw [final4_3 V c]
  exact linScaleArr_at (arrX4 V c) (arrW4 V c) (arrD4 V c) (ix2 n j) n j rfl rfl

/-! ## Output window 4 -/

/-- Point `t`'s block of window 4, element `(p, q)`, sits in the array at row `2000 t + p`, lane `q`. -/
theorem emb4_4 (t : Fin cfg4.N) (p : Fin 2000) (q : Fin 128) :
    ((((cfg4.win 4).blk t).view.emb (ix2 p q)) 0).val = t.val * 2000 + p.val
      ∧ ((((cfg4.win 4).blk t).view.emb (ix2 p q)) 1).val = q.val := by
  obtain ⟨_, _, _, _, _, _, e30, e31, e40, e41⟩ := idx4 t
  constructor
  · show win4_4.index t (0 : Fin 2) * 2000 + 1 * p.val = _
    rw [e40]; omega
  · show win4_4.index t (1 : Fin 2) * 128 + 1 * q.val = _
    rw [e41]; omega

/-- What point `t` writes back to window 4 is its block of the region's array. -/
theorem flushed4_4_eq (c : Dev nD) (t : Fin cfg4.N) :
    (dat4 (F := Ideal) V c).flushed 4 t
      = ((cfg4.win 4).blk t).view.read (Elt Ideal) (linScaleArr (arrX4 V c) (arrW4 V c) (arrD4 V c)) := by
  show (cfg4.win 4).cut (grid4.coords t) ((dat4 V c).after 4 t) = _
  rw [after4_4]
  unfold out4_4
  rw [View.canon_unit_zero hz]
  simp only [View.ld_unit_zero (S := S2000x128) hz, View.ld_unit_zero (S := S128x128) hz, View.ld_unit_zero (S := S2000x1) hz]
  refine funext fun (y : S2000x128.Idx) => ?_
  obtain ⟨p, q, rfl⟩ : ∃ (p : Fin 2000) (q : Fin 128), y = ix2 p q := ⟨y 0, y 1, eq_ix2 y⟩
  have hN : grid4.N = 50 := N_4
  have ht : t.val < 50 := by have h : t.val < grid4.N := t.isLt; omega
  obtain ⟨n, hn⟩ : ∃ n : Fin 100000, n.val = t.val * 2000 + p.val :=
    ⟨⟨t.val * 2000 + p.val, by have := p.isLt; omega⟩, rfl⟩
  obtain ⟨he0, he1⟩ := emb4_4 t p q
  show k4_pay2 (iblk4 V c 0 t) (iblk4 V c 1 t) (iblk4 V c 2 t) (ix2 p q)
    = linScaleArr (arrX4 V c) (arrW4 V c) (arrD4 V c) (((cfg4.win 4).blk t).view.emb (ix2 p q))
  rw [linScaleArr_at (arrX4 V c) (arrW4 V c) (arrD4 V c) _ n q (he0.trans hn.symm) he1]
  refine (k4_pay2_at (iblk4 V c 0 t) (iblk4 V c 1 t) (iblk4 V c 2 t) p q).trans ?_
  rw [iblk4_2_at V c t p n hn]
  refine congrArg (· * arrD4 V c (ix2 n (0 : Fin 1))) (Finset.sum_congr rfl fun k _ => ?_)
  rw [iblk4_0_at V c t p k n hn, iblk4_1_at V c t k q]

/-- An index of the array is in point `t`'s block iff each coordinate is in the block's range on its axis. -/
theorem mem_blk4_4 (t : Fin cfg4.N) (i : S100000x128.Idx) :
    i ∈ ((cfg4.win 4).blk t).view.set ↔ ∀ a : Fin 2, win4_4.index t a * S2000x128.size a ≤ (i a).val ∧ (i a).val < win4_4.index t a * S2000x128.size a + S2000x128.size a := by
  show i ∈ ((View.whole main_v40_1).slice (win4_4.rect t)).set ↔ _
  rw [View.set_slice_whole, Rect.mem_set_unit]
  exact Iff.rfl

/-- Row `r` of the array lies in the block of point `r / 2000`, which is written back. -/
theorem covered4_4 (i : S100000x128.Idx) :
    ∃ t : Fin cfg4.N, (cfg4.win 4).flush t = true ∧ i ∈ ((cfg4.win 4).blk t).view.set := by
  have hi0 : (i 0).val < 100000 := (i 0).isLt
  have hi1 : (i 1).val < 128 := (i 1).isLt
  have hN : grid4.N = 50 := N_4
  obtain ⟨t, ht⟩ : ∃ t : Fin cfg4.N, t.val = (i 0).val / 2000 := ⟨⟨(i 0).val / 2000, by show _ < grid4.N; omega⟩, rfl⟩
  obtain ⟨_, _, _, _, _, _, e30, e31, e40, e41⟩ := idx4 t
  refine ⟨t, flush4_4 t, ?_⟩
  rw [mem_blk4_4]
  intro a
  match a with
  | ⟨0, _⟩ =>
    show win4_4.index t (0 : Fin 2) * 2000 ≤ (i 0).val ∧ (i 0).val < win4_4.index t (0 : Fin 2) * 2000 + 2000
    rw [e40, ht]; omega
  | ⟨1, _⟩ =>
    show win4_4.index t (1 : Fin 2) * 128 ≤ (i 1).val ∧ (i 1).val < win4_4.index t (1 : Fin 2) * 128 + 128
    rw [e41]; omega

/-- So after the region window 4's array is the region's function of the arrays it found. -/
theorem final4_4 (c : Dev nD) :
    (dat4 (F := Ideal) V c).arrAt 4 cfg4.N = linScaleArr (arrX4 V c) (arrW4 V c) (arrD4 V c) :=
  (dat4 (F := Ideal) V c).arrAt_eq_of_cover 4 (linScaleArr (arrX4 V c) (arrW4 V c) (arrD4 V c))
    (fun t _ => flushed4_4_eq V c t) covered4_4

/-- Entry `(n, j)` of window 4's array after the region. -/
theorem out4_4_apply (c : Dev nD) (n : Fin 100000) (j : Fin 128) :
    ((dat4 (F := Ideal) V c).arrAt 4 cfg4.N : S100000x128.Idx → EReal) (ix2 n j)
      = (∑ k : Fin 128, arrX4 V c (ix2 n k) * arrW4 V c (ix2 k j)) * arrD4 V c (ix2 n (0 : Fin 1)) := by
  rw [final4_4 V c]
  exact linScaleArr_at (arrX4 V c) (arrW4 V c) (arrD4 V c) (ix2 n j) n j rfl rfl

end Cert.KernelIdeal.RegionValue

end
-- ==== Proof.RegionValue5.lean ====
import proofs.«108103_j9363028705695_2_alg».proof.Proof.Gen.KernelIdeal.Frame
import proofs.«108103_j9363028705695_2_alg».proof.Proof.RegionBody
import Idealize.ShloMosaic.Lib.Pipeline.Value
import Idealize.ShloMosaic.Lib.ValueIdx

/-!
# Region 5: combine

The region runs over 50 row blocks of 2000 rows. At point `t` it reads rows `2000 t … 2000 t + 1999` of
two [100000,128] arrays `A` and `H` and of the [100000,1] column `D`, and the whole [1,128] row `B`, and
writes the same rows of its output: `D · (A + H) + B`, the column scaling each row and the row added to
every row. Every row lies in exactly the block of point `row / 2000`, so after the region
the output array is that function of the arrays the region found at entry, entry by entry.
-/

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The four arrays the region reads, as it finds them. -/
abbrev arrA5 (c : Dev nD) : S100000x128.Idx → EReal := V c (Pipeline.arrRef spec5 0)
abbrev arrH5 (c : Dev nD) : S100000x128.Idx → EReal := V c (Pipeline.arrRef spec5 1)
abbrev arrD5 (c : Dev nD) : S100000x1.Idx → EReal := V c (Pipeline.arrRef spec5 2)
abbrev arrB5 (c : Dev nD) : S1x128.Idx → EReal := V c (Pipeline.arrRef spec5 3)

/-- The printed index maps, decided over the 50 points: the row-tiled windows are at block `(t, 0)`, the
    row `B` at block `(0, 0)`. -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-! ## The input blocks are rows of the arrays -/

/-- Window 0's block at point `t`: row `p` of the block is row `2000 t + p` of `A`. -/
theorem iblk5_0_at (c : Dev nD) (t : Fin cfg5.N) (p : Fin 2000) (k : Fin 128) (n : Fin 100000) (hn : n.val = t.val * 2000 + p.val) :
    (iblk5 V c 0 t : S2000x128.Idx → EReal) (ix2 p k) = arrA5 V c (ix2 n k) := by
  obtain ⟨e0, e1, -⟩ := idx5 t
  unfold iblk5
  rw [View.read_apply]
  show V c (Pipeline.arrRef spec5 0) _ = V c (Pipeline.arrRef spec5 0) _
  refine congrArg (V c (Pipeline.arrRef spec5 0)) (funext fun a => Fin.ext ?_)
  match a with
  | ⟨0, _⟩ => show win5_0.index t (0 : Fin 2) * 2000 + 1 * p.val = n.val; rw [e0, hn]; omega
  | ⟨1, _⟩ => show win5_0.index t (1 : Fin 2) * 128 + 1 * k.val = k.val; rw [e1]; omega

/-- Window 1's block at point `t`: row `p` of the block is row `2000 t + p` of `H`. -/
theorem iblk5_1_at (c : Dev nD) (t : Fin cfg5.N) (p : Fin 2000) (k : Fin 128) (n : Fin 100000) (hn : n.val = t.val * 2000 + p.val) :
    (iblk5 V c 1 t : S2000x128.Idx → EReal) (ix2 p k) = arrH5 V c (ix2 n k) := by
  obtain ⟨_, _, e0, e1, -⟩ := idx5 t
  unfold iblk5
  rw [View.read_apply]
  show V c (Pipeline.arrRef spec5 1) _ = V c (Pipeline.arrRef spec5 1) _
  refine congrArg (V c (Pipeline.arrRef spec5 1)) (funext fun a => Fin.ext ?_)
  match a with
  | ⟨0, _⟩ => show win5_1.index t (0 : Fin 2) * 2000 + 1 * p.val = n.val; rw [e0, hn]; omega
  | ⟨1, _⟩ => show win5_1.index t (1 : Fin 2) * 128 + 1 * k.val = k.val; rw [e1]; omega

/-- Window 2's block at point `t`: entry `p` of the block is entry `2000 t + p` of the column `D`. -/
theorem iblk5_2_at (c : Dev nD) (t : Fin cfg5.N) (p : Fin 2000) (n : Fin 100000) (hn : n.val = t.val * 2000 + p.val) :
    (iblk5 V c 2 t : S2000x1.Idx → EReal) (ix2 p (0 : Fin 1)) = arrD5 V c (ix2 n (0 : Fin 1)) := by
  obtain ⟨_, _, _, _, e0, e1, -⟩ := idx5 t
  unfold iblk5
  rw [View.read_apply]
  show V c (Pipeline.arrRef spec5 2) _ = V c (Pipeline.arrRef spec5 2) _
  refine congrArg (V c (Pipeline.arrRef spec5 2)) (funext fun a => Fin.ext ?_)
  match a with
  | ⟨0, _⟩ => show win5_2.index t (0 : Fin 2) * 2000 + 1 * p.val = n.val; rw [e0, hn]; omega
  | ⟨1, _⟩ => show win5_2.index t (1 : Fin 2) * 1 + 1 * 0 = 0; rw [e1]

/-- Window 3's block at every point is the whole row `B`. -/
theorem iblk5_3_at (c : Dev nD) (t : Fin cfg5.N) (q : Fin 128) :
    (iblk5 V c 3 t : S1x128.Idx → EReal) (ix2 (0 : Fin 1) q) = arrB5 V c (ix2 (0 : Fin 1) q) := by
  obtain ⟨_, _, _, _, _, _, e0, e1, -⟩ := idx5 t
  unfold iblk5
  rw [View.read_apply]
  show V c (Pipeline.arrRef spec5 3) _ = V c (Pipeline.arrRef spec5 3) _
  refine congrArg (V c (Pipeline.arrRef spec5 3)) (funext fun a => Fin.ext ?_)
  match a with
  | ⟨0, _⟩ => show win5_3.index t (0 : Fin 2) * 1 + 1 * 0 = 0; rw [e0]
  | ⟨1, _⟩ => show win5_3.index t (1 : Fin 2) * 128 + 1 * q.val = q.val; rw [e1]; omega

/-! ## Output window 4 -/

/-- Point `t`'s block of window 4, element `(p, q)`, sits in the array at row `2000 t + p`, lane `q`. -/
theorem emb5_4 (t : Fin cfg5.N) (p : Fin 2000) (q : Fin 128) :
    ((((cfg5.win 4).blk t).view.emb (ix2 p q)) 0).val = t.val * 2000 + p.val
      ∧ ((((cfg5.win 4).blk t).view.emb (ix2 p q)) 1).val = q.val := by
  obtain ⟨_, _, _, _, _, _, _, _, e40, e41⟩ := idx5 t
  constructor
  · show win5_4.index t (0 : Fin 2) * 2000 + 1 * p.val = _
    rw [e40]; omega
  · show win5_4.index t (1 : Fin 2) * 128 + 1 * q.val = _
    rw [e41]; omega

/-- What point `t` writes back to window 4 is its block of the region's array. -/
theorem flushed5_4_eq (c : Dev nD) (t : Fin cfg5.N) :
    (dat5 (F := Ideal) V c).flushed 4 t
      = ((cfg5.win 4).blk t).view.read (Elt Ideal) (combineArr (arrA5 V c) (arrH5 V c) (arrD5 V c) (arrB5 V c)) := by
  show (cfg5.win 4).cut (grid5.coords t) ((dat5 V c).after 4 t) = _
  rw [after5_4]
  unfold out5_4
  rw [View.canon_unit_zero hz]
  simp only [View.ld_unit_zero (S := S2000x128) hz, View.ld_unit_zero (S := S2000x1) hz, View.ld_unit_zero (S := S1x128) hz]
  refine funext fun (y : S2000x128.Idx) => ?_
  obtain ⟨p, q, rfl⟩ : ∃ (p : Fin 2000) (q : Fin 128), y = ix2 p q := ⟨y 0, y 1, eq_ix2 y⟩
  have hN : grid5.N = 50 := N_5
  have ht : t.val < 50 := by have h : t.val < grid5.N := t.isLt; omega
  obtain ⟨n, hn⟩ : ∃ n : Fin 100000, n.val = t.val * 2000 + p.val :=
    ⟨⟨t.val * 2000 + p.val, by have := p.isLt; omega⟩, rfl⟩
  obtain ⟨he0, he1⟩ := emb5_4 t p q
  show k5_pay1 (iblk5 V c 2 t) (iblk5 V c 0 t) (iblk5 V c 1 t) (iblk5 V c 3 t) (ix2 p q)
    = combineArr (arrA5 V c) (arrH5 V c) (arrD5 V c) (arrB5 V c) (((cfg5.win 4).blk t).view.emb (ix2 p q))
  rw [combineArr_at (arrA5 V c) (arrH5 V c) (arrD5 V c) (arrB5 V c) _ n q (he0.trans hn.symm) he1]
  refine (k5_pay1_at (iblk5 V c 2 t) (iblk5 V c 0 t) (iblk5 V c 1 t) (iblk5 V c 3 t) p q).trans ?_
  rw [iblk5_2_at V c t p n hn, iblk5_0_at V c t p q n hn, iblk5_1_at V c t p q n hn, iblk5_3_at V c t q]

/-- An index of the array is in point `t`'s block iff each coordinate is in the block's range on its axis. -/
theorem mem_blk5_4 (t : Fin cfg5.N) (i : S100000x128.Idx) :
    i ∈ ((cfg5.win 4).blk t).view.set ↔ ∀ a : Fin 2, win5_4.index t a * S2000x128.size a ≤ (i a).val ∧ (i a).val < win5_4.index t a * S2000x128.size a + S2000x128.size a := by
  show i ∈ ((View.whole main_v53).slice (win5_4.rect t)).set ↔ _
  rw [View.set_slice_whole, Rect.mem_set_unit]
  exact Iff.rfl

/-- Row `r` of the array lies in the block of point `r / 2000`, which is written back. -/
theorem covered5_4 (i : S100000x128.Idx) :
    ∃ t : Fin cfg5.N, (cfg5.win 4).flush t = true ∧ i ∈ ((cfg5.win 4).blk t).view.set := by
  have hi0 : (i 0).val < 100000 := (i 0).isLt
  have hi1 : (i 1).val < 128 := (i 1).isLt
  have hN : grid5.N = 50 := N_5
  obtain ⟨t, ht⟩ : ∃ t : Fin cfg5.N, t.val = (i 0).val / 2000 := ⟨⟨(i 0).val / 2000, by show _ < grid5.N; omega⟩, rfl⟩
  obtain ⟨_, _, _, _, _, _, _, _, e40, e41⟩ := idx5 t
  refine ⟨t, flush5_4 t, ?_⟩
  rw [mem_blk5_4]
  intro a
  match a with
  | ⟨0, _⟩ =>
    show win5_4.index t (0 : Fin 2) * 2000 ≤ (i 0).val ∧ (i 0).val < win5_4.index t (0 : Fin 2) * 2000 + 2000
    rw [e40, ht]; omega
  | ⟨1, _⟩ =>
    show win5_4.index t (1 : Fin 2) * 128 ≤ (i 1).val ∧ (i 1).val < win5_4.index t (1 : Fin 2) * 128 + 128
    rw [e41]; omega

/-- So after the region window 4's array is the region's function of the arrays it found. -/
theorem final5_4 (c : Dev nD) :
    (dat5 (F := Ideal) V c).arrAt 4 cfg5.N = combineArr (arrA5 V c) (arrH5 V c) (arrD5 V c) (arrB5 V c) :=
  (dat5 (F := Ideal) V c).arrAt_eq_of_cover 4 (combineArr (arrA5 V c) (arrH5 V c) (arrD5 V c) (arrB5 V c))
    (fun t _ => flushed5_4_eq V c t) covered5_4

/-- Entry `(n, j)` of window 4's array after the region. -/
theorem out5_4_apply (c : Dev nD) (n : Fin 100000) (j : Fin 128) :
    ((dat5 (F := Ideal) V c).arrAt 4 cfg5.N : S100000x128.Idx → EReal) (ix2 n j)
      = arrD5 V c (ix2 n (0 : Fin 1)) * (arrA5 V c (ix2 n j) + arrH5 V c (ix2 n j)) + arrB5 V c (ix2 (0 : Fin 1) j) := by
  rw [final5_4 V c]
  exact combineArr_at (arrA5 V c) (arrH5 V c) (arrD5 V c) (arrB5 V c) (ix2 n j) n j rfl rfl

end Cert.KernelIdeal.RegionValue

end
-- ==== Proof.KLayer3.lean ====
/-
  Layer 3 of the idealized kernel, read entry by entry.

  Given the activations the layer's first region finds, the region leaves the product with the weights scaled row by
  row by the degree factor (twice: in two formats, the same extended reals); the host stretch gathers those rows at
  the wrapped source words and sums them per destination node; the second region forms `dinv · (sum + own row) + bias`.
  Together: the layer of the specification with the scaling done before and after the edge sum.
-/
import proofs.«108103_j9363028705695_2_alg».proof.Proof.Gen.KernelIdeal.Frame
import proofs.«108103_j9363028705695_2_alg».proof.Proof.KWalk
import proofs.«108103_j9363028705695_2_alg».proof.Proof.KGraph
import proofs.«108103_j9363028705695_2_alg».proof.Proof.HostLemmas
import proofs.«108103_j9363028705695_2_alg».proof.Proof.LayerRead
import proofs.«108103_j9363028705695_2_alg».proof.Proof.RegionValue4
import proofs.«108103_j9363028705695_2_alg».proof.Proof.RegionValue5

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx Cert.Gcn Cert.KernelIdeal.Carried

variable (m : (ℓ : Loc nD τ sig) → Buf (Elt Ideal) ℓ) (ρ : Dev nD → PrngReg) (c : Dev nD)

set_option maxHeartbeats 2000000 in
/-- Layer 3: the linear-scale region, the edge sum on the host, the combine region. -/
theorem layer3 (Hp : Fin 100000 → Fin 128 → EReal)
    (hX : ∀ n k, ((W7 m ρ c (Proc.devRef .tc main_v39)) : S100000x128.Idx → EReal) (ix2 n k) = Hp n k)
    (n : Fin 100000) (j : Fin 128) :
    ((W10 m ρ c (Proc.devRef .tc main_v53)) : S100000x128.Idx → EReal) (ix2 n j) = preScaledLayer (graphOf (m ((c : Thread nD τ).loc main_arg1))) id Hp (mat (m ((c : Thread nD τ).loc main_arg6))) (vec (m ((c : Thread nD τ).loc main_arg7))) n j := by
  have hW : ∀ k j, ((W7 m ρ c (Proc.devRef .tc main_arg6)) : S128x128.Idx → EReal) (ix2 k j) = (mat (m ((c : Thread nD τ).loc main_arg6))) k j := fun k j => by
    rw [keep_main_arg6_7_0 m ρ c]; rfl
  have hBsrc : ∀ j, ((W8 m ρ c (Proc.devRef .tc main_arg7)) : S128.Idx → EReal) (ix1 j) = (vec (m ((c : Thread nD τ).loc main_arg7))) j := fun j => by
    rw [keep_main_arg7_8_0 m ρ c]; rfl
  have hD : ∀ p, ((W7 m ρ c (Proc.devRef .tc main_v11)) : S100000x1.Idx → EReal) (ix2 p (0 : Fin 1)) = (graphOf (m ((c : Thread nD τ).loc main_arg1))).dinv p := fun p => by
    rw [keep_main_v11_7_6 m ρ c, keep_main_v11_6_4 m ρ c, keep_main_v11_4_3 m ρ c, keep_main_v11_3_1 m ρ c]
    exact dinv_W1 m ρ c p 0
  have hD2 : ∀ p, ((W9 m ρ c (Proc.devRef .tc main_v11)) : S100000x1.Idx → EReal) (ix2 p (0 : Fin 1)) = (graphOf (m ((c : Thread nD τ).loc main_arg1))).dinv p := fun p => by
    rw [keep_main_v11_9_7 m ρ c, keep_main_v11_7_6 m ρ c, keep_main_v11_6_4 m ρ c, keep_main_v11_4_3 m ρ c, keep_main_v11_3_1 m ρ c]
    exact dinv_W1 m ρ c p 0
  have hsrc : ∀ e : Fin 1600000, ((W8 m ρ c (Proc.devRef .tc main_v1)) : S1600000.Idx → BitVec 32) (ix1 e) = (m ((c : Thread nD τ).loc main_arg1)) (ix2 (0 : Fin 2) e) := fun e => by
    rw [keep_main_v1_8_5 m ρ c, keep_main_v1_5_2 m ρ c, keep_main_v1_2_1 m ρ c]
    exact src_W1 m ρ c e
  have hdst : ∀ e : Fin 1600000, ((W8 m ρ c (Proc.devRef .tc main_v3)) : S1600000.Idx → BitVec 32) (ix1 e) = (m ((c : Thread nD τ).loc main_arg1)) (ix2 (1 : Fin 2) e) := fun e => by
    rw [keep_main_v3_8_5 m ρ c, keep_main_v3_5_2 m ρ c, keep_main_v3_2_1 m ρ c]
    exact dst_W1 m ρ c e
  -- the linear-scale region's two outputs
  have e32 : ((W8 m ρ c (Proc.devRef .tc main_v40_0)) : S100000x128.Idx → EReal) = ((dat4 (F := Ideal) (V7 m ρ) c).arrAt 3 cfg4.N : S100000x128.Idx → EReal) := W8_arr m ρ c 3
  have e16 : ((W8 m ρ c (Proc.devRef .tc main_v40_1)) : S100000x128.Idx → EReal) = ((dat4 (F := Ideal) (V7 m ρ) c).arrAt 4 cfg4.N : S100000x128.Idx → EReal) := W8_arr m ρ c 4
  have hs32 : ∀ p q, ((W8 m ρ c (Proc.devRef .tc main_v40_0)) : S100000x128.Idx → EReal) (ix2 p q) = scaled (graphOf (m ((c : Thread nD τ).loc main_arg1))) Hp (mat (m ((c : Thread nD τ).loc main_arg6))) p q := fun p q => by
    rw [e32]
    exact (RegionValue.out4_3_apply (V7 m ρ) c p q).trans (LayerRead.scaled_of (graphOf (m ((c : Thread nD τ).loc main_arg1))) _ _ _ Hp (mat (m ((c : Thread nD τ).loc main_arg6))) hX hW hD p q)
  have hs16 : ∀ p q, ((W8 m ρ c (Proc.devRef .tc main_v40_1)) : S100000x128.Idx → EReal) (ix2 p q) = scaled (graphOf (m ((c : Thread nD τ).loc main_arg1))) Hp (mat (m ((c : Thread nD τ).loc main_arg6))) p q := fun p q => by
    rw [e16]
    exact (RegionValue.out4_4_apply (V7 m ρ) c p q).trans (LayerRead.scaled_of (graphOf (m ((c : Thread nD τ).loc main_arg1))) _ _ _ Hp (mat (m ((c : Thread nD τ).loc main_arg6))) hX hW hD p q)
  have hs32' : ∀ p q, ((W9 m ρ c (Proc.devRef .tc main_v40_0)) : S100000x128.Idx → EReal) (ix2 p q) = scaled (graphOf (m ((c : Thread nD τ).loc main_arg1))) Hp (mat (m ((c : Thread nD τ).loc main_arg6))) p q := fun p q => by
    rw [keep_main_v40_0_9_8 m ρ c]; exact hs32 p q
  -- the edge sum
  have hagg : ∀ p q, ((W9 m ρ c (Proc.devRef .tc main_v51)) : S100000x128.Idx → EReal) (ix2 p q) = gathered (graphOf (m ((c : Thread nD τ).loc main_arg1))) Hp (mat (m ((c : Thread nD τ).loc main_arg6))) p q := fun p q => by
    have h : ((W9 m ρ c (Proc.devRef .tc main_v51)) : S100000x128.Idx → EReal)
        = Host.scatterAdd (F := Ideal) scatter_S100000x128_S1600000x1_S1600000x128_1_0_0_1
            (broadcastInDim S100000x128 ![] Facts₀.bcast_S_S100000x128 (constant (F := Ideal) S_ .f32 0x00000000#32))
            (broadcastInDim S1600000x1 ![0] Facts₀.bcast_S1600000_S1600000x1_0 ((W8 m ρ c (Proc.devRef .tc main_v3)) : S1600000.Idx → BitVec 32))
            (extf (F := Ideal) .f32 (Host.gather gather_S100000x128_S1600000x1_S1600000x128_1_0_n_n_0_1_1128
              ((W8 m ρ c (Proc.devRef .tc main_v40_1)) : FVec Ideal S100000x128 .bf16)
              (broadcastInDim S1600000x1 ![0] Facts₀.bcast_S1600000_S1600000x1_0
                (select (cmpi .slt ((W8 m ρ c (Proc.devRef .tc main_v1)) : S1600000.Idx → BitVec 32) (broadcastInDim S1600000 ![] Facts₀.bcast_S_S1600000 (constantI S_ 32 0#32)))
                  (addi ((W8 m ρ c (Proc.devRef .tc main_v1)) : S1600000.Idx → BitVec 32) (broadcastInDim S1600000 ![] Facts₀.bcast_S_S1600000 (constantI S_ 32 100000#32)))
                  ((W8 m ρ c (Proc.devRef .tc main_v1)) : S1600000.Idx → BitVec 32)))) Facts₀.bitsLt_bf16_f32) := by
      show StableHlo.after hostOps5 (W8 m ρ c) (Proc.devRef .tc main_v51) = _
      after_results
      try rfl
    rw [h]
    exact (HostRead.edgeSum_apply Facts₀.bitsLt_bf16_f32 Facts₀.gather_S100000x128_S1600000x1_S1600000x128_1_0_n_n_0_1_1128_wf
        Facts₀.scatter_S100000x128_S1600000x1_S1600000x128_1_0_0_1_wf Facts₀.bcast_S1600000_S1600000x1_0 Facts₀.bcast_S_S100000x128 Facts₀.bcast_S_S1600000
        _ _ _ p q).trans
      (LayerRead.gathered_of (m ((c : Thread nD τ).loc main_arg1)) _ _ _ Hp (mat (m ((c : Thread nD τ).loc main_arg6))) hsrc hdst hs16 p q)
  -- the bias row
  have hB : ∀ q, ((W9 m ρ c (Proc.devRef .tc main_v52)) : S1x128.Idx → EReal) (ix2 (0 : Fin 1) q) = (vec (m ((c : Thread nD τ).loc main_arg7))) q := fun q => by
    have h : ((W9 m ρ c (Proc.devRef .tc main_v52)) : S1x128.Idx → EReal) = shapeCast S1x128 ((W8 m ρ c (Proc.devRef .tc main_arg7)) : S128.Idx → EReal) Facts₀.shapeCasts_S128_S1x128 := by
      show StableHlo.after hostOps5 (W8 m ρ c) (Proc.devRef .tc main_v52) = _
      after_results
      try rfl
    rw [h, shapeCast_a_1a_apply]
    exact hBsrc q
  -- the combine region
  have eo : ((W10 m ρ c (Proc.devRef .tc main_v53)) : S100000x128.Idx → EReal) = ((dat5 (F := Ideal) (V9 m ρ) c).arrAt 4 cfg5.N : S100000x128.Idx → EReal) := W10_arr m ρ c 4
  rw [eo]
  exact (RegionValue.out5_4_apply (V9 m ρ) c n j).trans
    (LayerRead.layer_of (graphOf (m ((c : Thread nD τ).loc main_arg1))) id _ _ _ _ Hp (mat (m ((c : Thread nD τ).loc main_arg6))) (vec (m ((c : Thread nD τ).loc main_arg7))) hagg hs32' hD2 hB n j)

end Cert.KernelIdeal.Chain

end
-- ==== Proof.RegionValue6.lean ====
import proofs.«108103_j9363028705695_2_alg».proof.Proof.Gen.KernelIdeal.Frame
import proofs.«108103_j9363028705695_2_alg».proof.Proof.RegionBody
import Idealize.ShloMosaic.Lib.Pipeline.Value
import Idealize.ShloMosaic.Lib.ValueIdx

/-!
# Region 6: linear, then scale by a column

The region runs over 50 row blocks of 2000 rows. At point `t` it reads rows `2000 t … 2000 t + 1999` of
the [100000,128] array `X` and of the [100000,1] column `D`, and the whole [128,128] matrix `W`, and
writes the same rows of its two outputs: `(X · W)` with each row scaled by its entry of `D`, once as
f32 and once rounded to bf16, which on the extended reals is the same value. Every row lies in exactly
the block of point `row / 2000`, so after the region each output array is that function of the arrays
the region found at entry, entry by entry.
-/

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The three arrays the region reads, as it finds them. -/
abbrev arrX6 (c : Dev nD) : S100000x128.Idx → EReal := V c (Pipeline.arrRef spec6 0)
abbrev arrW6 (c : Dev nD) : S128x128.Idx → EReal := V c (Pipeline.arrRef spec6 1)
abbrev arrD6 (c : Dev nD) : S100000x1.Idx → EReal := V c (Pipeline.arrRef spec6 2)

/-- The printed index maps, decided over the 50 points: the row-tiled windows are at block `(t, 0)`, the
    matrix at block `(0, 0)`. -/
theorem idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-! ## The input blocks are rows of the arrays -/

/-- Window 0's block at point `t`: row `p` of the block is row `2000 t + p` of `X`. -/
theorem iblk6_0_at (c : Dev nD) (t : Fin cfg6.N) (p : Fin 2000) (k : Fin 128) (n : Fin 100000) (hn : n.val = t.val * 2000 + p.val) :
    (iblk6 V c 0 t : S2000x128.Idx → EReal) (ix2 p k) = arrX6 V c (ix2 n k) := by
  obtain ⟨e0, e1, -⟩ := idx6 t
  unfold iblk6
  rw [View.read_apply]
  show V c (Pipeline.arrRef spec6 0) _ = V c (Pipeline.arrRef spec6 0) _
  refine congrArg (V c (Pipeline.arrRef spec6 0)) (funext fun a => Fin.ext ?_)
  match a with
  | ⟨0, _⟩ => show win6_0.index t (0 : Fin 2) * 2000 + 1 * p.val = n.val; rw [e0, hn]; omega
  | ⟨1, _⟩ => show win6_0.index t (1 : Fin 2) * 128 + 1 * k.val = k.val; rw [e1]; omega

/-- Window 1's block at every point is the whole matrix `W`. -/
theorem iblk6_1_at (c : Dev nD) (t : Fin cfg6.N) (k q : Fin 128) :
    (iblk6 V c 1 t : S128x128.Idx → EReal) (ix2 k q) = arrW6 V c (ix2 k q) := by
  obtain ⟨_, _, e0, e1, -⟩ := idx6 t
  unfold iblk6
  rw [View.read_apply]
  show V c (Pipeline.arrRef spec6 1) _ = V c (Pipeline.arrRef spec6 1) _
  refine congrArg (V c (Pipeline.arrRef spec6 1)) (funext fun a => Fin.ext ?_)
  match a with
  | ⟨0, _⟩ => show win6_1.index t (0 : Fin 2) * 128 + 1 * k.val = k.val; rw [e0]; omega
  | ⟨1, _⟩ => show win6_1.index t (1 : Fin 2) * 128 + 1 * q.val = q.val; rw [e1]; omega

/-- Window 2's block at point `t`: entry `p` of the block is entry `2000 t + p` of the column `D`. -/
theorem iblk6_2_at (c : Dev nD) (t : Fin cfg6.N) (p : Fin 2000) (n : Fin 100000) (hn : n.val = t.val * 2000 + p.val) :
    (iblk6 V c 2 t : S2000x1.Idx → EReal) (ix2 p (0 : Fin 1)) = arrD6 V c (ix2 n (0 : Fin 1)) := by
  obtain ⟨_, _, _, _, e0, e1, -⟩ := idx6 t
  unfold iblk6
  rw [View.read_apply]
  show V c (Pipeline.arrRef spec6 2) _ = V c (Pipeline.arrRef spec6 2) _
  refine congrArg (V c (Pipeline.arrRef spec6 2)) (funext fun a => Fin.ext ?_)
  match a with
  | ⟨0, _⟩ => show win6_2.index t (0 : Fin 2) * 2000 + 1 * p.val = n.val; rw [e0, hn]; omega
  | ⟨1, _⟩ => show win6_2.index t (1 : Fin 2) * 1 + 1 * 0 = 0; rw [e1]

/-! ## Output window 3 -/

/-- Point `t`'s block of window 3, element `(p, q)`, sits in the array at row `2000 t + p`, lane `q`. -/
theorem emb6_3 (t : Fin cfg6.N) (p : Fin 2000) (q : Fin 128) :
    ((((cfg6.win 3).blk t).view.emb (ix2 p q)) 0).val = t.val * 2000 + p.val
      ∧ ((((cfg6.win 3).blk t).view.emb (ix2 p q)) 1).val = q.val := by
  obtain ⟨_, _, _, _, _, _, e30, e31, e40, e41⟩ := idx6 t
  constructor
  · show win6_3.index t (0 : Fin 2) * 2000 + 1 * p.val = _
    rw [e30]; omega
  · show win6_3.index t (1 : Fin 2) * 128 + 1 * q.val = _
    rw [e31]; omega

/-- What point `t` writes back to window 3 is its block of the region's array. -/
theorem flushed6_3_eq (c : Dev nD) (t : Fin cfg6.N) :
    (dat6 (F := Ideal) V c).flushed 3 t
      = ((cfg6.win 3).blk t).view.read (Elt Ideal) (linScaleArr (arrX6 V c) (arrW6 V c) (arrD6 V c)) := by
  show (cfg6.win 3).cut (grid6.coords t) ((dat6 V c).after 3 t) = _
  rw [after6_3]
  unfold out6_3
  rw [View.canon_unit_zero hz]
  simp only [View.ld_unit_zero (S := S2000x128) hz, View.ld_unit_zero (S := S128x128) hz, View.ld_unit_zero (S := S2000x1) hz]
  refine funext fun (y : S2000x128.Idx) => ?_
  obtain ⟨p, q, rfl⟩ : ∃ (p : Fin 2000) (q : Fin 128), y = ix2 p q := ⟨y 0, y 1, eq_ix2 y⟩
  have hN : grid6.N = 50 := N_6
  have ht : t.val < 50 := by have h : t.val < grid6.N := t.isLt; omega
  obtain ⟨n, hn⟩ : ∃ n : Fin 100000, n.val = t.val * 2000 + p.val :=
    ⟨⟨t.val * 2000 + p.val, by have := p.isLt; omega⟩, rfl⟩
  obtain ⟨he0, he1⟩ := emb6_3 t p q
  show k6_pay1 (iblk6 V c 0 t) (iblk6 V c 1 t) (iblk6 V c 2 t) (ix2 p q)
    = linScaleArr (arrX6 V c) (arrW6 V c) (arrD6 V c) (((cfg6.win 3).blk t).view.emb (ix2 p q))
  rw [linScaleArr_at (arrX6 V c) (arrW6 V c) (arrD6 V c) _ n q (he0.trans hn.symm) he1]
  refine (k6_pay1_at (iblk6 V c 0 t) (iblk6 V c 1 t) (iblk6 V c 2 t) p q).trans ?_
  rw [iblk6_2_at V c t p n hn]
  refine congrArg (· * arrD6 V c (ix2 n (0 : Fin 1))) (Finset.sum_congr rfl fun k _ => ?_)
  rw [iblk6_0_at V c t p k n hn, iblk6_1_at V c t k q]

/-- An index of the array is in point `t`'s block iff each coordinate is in the block's range on its axis. -/
theorem mem_blk6_3 (t : Fin cfg6.N) (i : S100000x128.Idx) :
    i ∈ ((cfg6.win 3).blk t).view.set ↔ ∀ a : Fin 2, win6_3.index t a * S2000x128.size a ≤ (i a).val ∧ (i a).val < win6_3.index t a * S2000x128.size a + S2000x128.size a := by
  show i ∈ ((View.whole main_v54_0).slice (win6_3.rect t)).set ↔ _
  rw [View.set_slice_whole, Rect.mem_set_unit]
  exact Iff.rfl

/-- Row `r` of the array lies in the block of point `r / 2000`, which is written back. -/
theorem covered6_3 (i : S100000x128.Idx) :
    ∃ t : Fin cfg6.N, (cfg6.win 3).flush t = true ∧ i ∈ ((cfg6.win 3).blk t).view.set := by
  have hi0 : (i 0).val < 100000 := (i 0).isLt
  have hi1 : (i 1).val < 128 := (i 1).isLt
  have hN : grid6.N = 50 := N_6
  obtain ⟨t, ht⟩ : ∃ t : Fin cfg6.N, t.val = (i 0).val / 2000 := ⟨⟨(i 0).val / 2000, by show _ < grid6.N; omega⟩, rfl⟩
  obtain ⟨_, _, _, _, _, _, e30, e31, e40, e41⟩ := idx6 t
  refine ⟨t, flush6_3 t, ?_⟩
  rw [mem_blk6_3]
  intro a
  match a with
  | ⟨0, _⟩ =>
    show win6_3.index t (0 : Fin 2) * 2000 ≤ (i 0).val ∧ (i 0).val < win6_3.index t (0 : Fin 2) * 2000 + 2000
    rw [e30, ht]; omega
  | ⟨1, _⟩ =>
    show win6_3.index t (1 : Fin 2) * 128 ≤ (i 1).val ∧ (i 1).val < win6_3.index t (1 : Fin 2) * 128 + 128
    rw [e31]; omega

/-- So after the region window 3's array is the region's function of the arrays it found. -/
theorem final6_3 (c : Dev nD) :
    (dat6 (F := Ideal) V c).arrAt 3 cfg6.N = linScaleArr (arrX6 V c) (arrW6 V c) (arrD6 V c) :=
  (dat6 (F := Ideal) V c).arrAt_eq_of_cover 3 (linScaleArr (arrX6 V c) (arrW6 V c) (arrD6 V c))
    (fun t _ => flushed6_3_eq V c t) covered6_3

/-- Entry `(n, j)` of window 3's array after the region. -/
theorem out6_3_apply (c : Dev nD) (n : Fin 100000) (j : Fin 128) :
    ((dat6 (F := Ideal) V c).arrAt 3 cfg6.N : S100000x128.Idx → EReal) (ix2 n j)
      = (∑ k : Fin 128, arrX6 V c (ix2 n k) * arrW6 V c (ix2 k j)) * arrD6 V c (ix2 n (0 : Fin 1)) := by
  rw [final6_3 V c]
  exact linScaleArr_at (arrX6 V c) (arrW6 V c) (arrD6 V c) (ix2 n j) n j rfl rfl

/-! ## Output window 4 -/

/-- Point `t`'s block of window 4, element `(p, q)`, sits in the array at row `2000 t + p`, lane `q`. -/
theorem emb6_4 (t : Fin cfg6.N) (p : Fin 2000) (q : Fin 128) :
    ((((cfg6.win 4).blk t).view.emb (ix2 p q)) 0).val = t.val * 2000 + p.val
      ∧ ((((cfg6.win 4).blk t).view.emb (ix2 p q)) 1).val = q.val := by
  obtain ⟨_, _, _, _, _, _, e30, e31, e40, e41⟩ := idx6 t
  constructor
  · show win6_4.index t (0 : Fin 2) * 2000 + 1 * p.val = _
    rw [e40]; omega
  · show win6_4.index t (1 : Fin 2) * 128 + 1 * q.val = _
    rw [e41]; omega

/-- What point `t` writes back to window 4 is its block of the region's array. -/
theorem flushed6_4_eq (c : Dev nD) (t : Fin cfg6.N) :
    (dat6 (F := Ideal) V c).flushed 4 t
      = ((cfg6.win 4).blk t).view.read (Elt Ideal) (linScaleArr (arrX6 V c) (arrW6 V c) (arrD6 V c)) := by
  show (cfg6.win 4).cut (grid6.coords t) ((dat6 V c).after 4 t) = _
  rw [after6_4]
  unfold out6_4
  rw [View.canon_unit_zero hz]
  simp only [View.ld_unit_zero (S := S2000x128) hz, View.ld_unit_zero (S := S128x128) hz, View.ld_unit_zero (S := S2000x1) hz]
  refine funext fun (y : S2000x128.Idx) => ?_
  obtain ⟨p, q, rfl⟩ : ∃ (p : Fin 2000) (q : Fin 128), y = ix2 p q := ⟨y 0, y 1, eq_ix2 y⟩
  have hN : grid6.N = 50 := N_6
  have ht : t.val < 50 := by have h : t.val < grid6.N := t.isLt; omega
  obtain ⟨n, hn⟩ : ∃ n : Fin 100000, n.val = t.val * 2000 + p.val :=
    ⟨⟨t.val * 2000 + p.val, by have := p.isLt; omega⟩, rfl⟩
  obtain ⟨he0, he1⟩ := emb6_4 t p q
  show k6_pay2 (iblk6 V c 0 t) (iblk6 V c 1 t) (iblk6 V c 2 t) (ix2 p q)
    = linScaleArr (arrX6 V c) (arrW6 V c) (arrD6 V c) (((cfg6.win 4).blk t).view.emb (ix2 p q))
  rw [linScaleArr_at (arrX6 V c) (arrW6 V c) (arrD6 V c) _ n q (he0.trans hn.symm) he1]
  refine (k6_pay2_at (iblk6 V c 0 t) (iblk6 V c 1 t) (iblk6 V c 2 t) p q).trans ?_
  rw [iblk6_2_at V c t p n hn]
  refine congrArg (· * arrD6 V c (ix2 n (0 : Fin 1))) (Finset.sum_congr rfl fun k _ => ?_)
  rw [iblk6_0_at V c t p k n hn, iblk6_1_at V c t k q]

/-- An index of the array is in point `t`'s block iff each coordinate is in the block's range on its axis. -/
theorem mem_blk6_4 (t : Fin cfg6.N) (i : S100000x128.Idx) :
    i ∈ ((cfg6.win 4).blk t).view.set ↔ ∀ a : Fin 2, win6_4.index t a * S2000x128.size a ≤ (i a).val ∧ (i a).val < win6_4.index t a * S2000x128.size a + S2000x128.size a := by
  show i ∈ ((View.whole main_v54_1).slice (win6_4.rect t)).set ↔ _
  rw [View.set_slice_whole, Rect.mem_set_unit]
  exact Iff.rfl

/-- Row `r` of the array lies in the block of point `r / 2000`, which is written back. -/
theorem covered6_4 (i : S100000x128.Idx) :
    ∃ t : Fin cfg6.N, (cfg6.win 4).flush t = true ∧ i ∈ ((cfg6.win 4).blk t).view.set := by
  have hi0 : (i 0).val < 100000 := (i 0).isLt
  have hi1 : (i 1).val < 128 := (i 1).isLt
  have hN : grid6.N = 50 := N_6
  obtain ⟨t, ht⟩ : ∃ t : Fin cfg6.N, t.val = (i 0).val / 2000 := ⟨⟨(i 0).val / 2000, by show _ < grid6.N; omega⟩, rfl⟩
  obtain ⟨_, _, _, _, _, _, e30, e31, e40, e41⟩ := idx6 t
  refine ⟨t, flush6_4 t, ?_⟩
  rw [mem_blk6_4]
  intro a
  match a with
  | ⟨0, _⟩ =>
    show win6_4.index t (0 : Fin 2) * 2000 ≤ (i 0).val ∧ (i 0).val < win6_4.index t (0 : Fin 2) * 2000 + 2000
    rw [e40, ht]; omega
  | ⟨1, _⟩ =>
    show win6_4.index t (1 : Fin 2) * 128 ≤ (i 1).val ∧ (i 1).val < win6_4.index t (1 : Fin 2) * 128 + 128
    rw [e41]; omega

/-- So after the region window 4's array is the region's function of the arrays it found. -/
theorem final6_4 (c : Dev nD) :
    (dat6 (F := Ideal) V c).arrAt 4 cfg6.N = linScaleArr (arrX6 V c) (arrW6 V c) (arrD6 V c) :=
  (dat6 (F := Ideal) V c).arrAt_eq_of_cover 4 (linScaleArr (arrX6 V c) (arrW6 V c) (arrD6 V c))
    (fun t _ => flushed6_4_eq V c t) covered6_4

/-- Entry `(n, j)` of window 4's array after the region. -/
theorem out6_4_apply (c : Dev nD) (n : Fin 100000) (j : Fin 128) :
    ((dat6 (F := Ideal) V c).arrAt 4 cfg6.N : S100000x128.Idx → EReal) (ix2 n j)
      = (∑ k : Fin 128, arrX6 V c (ix2 n k) * arrW6 V c (ix2 k j)) * arrD6 V c (ix2 n (0 : Fin 1)) := by
  rw [final6_4 V c]
  exact linScaleArr_at (arrX6 V c) (arrW6 V c) (arrD6 V c) (ix2 n j) n j rfl rfl

end Cert.KernelIdeal.RegionValue

end
-- ==== Proof.RegionValue7.lean ====
import proofs.«108103_j9363028705695_2_alg».proof.Proof.Gen.KernelIdeal.Frame
import proofs.«108103_j9363028705695_2_alg».proof.Proof.RegionBody
import Idealize.ShloMosaic.Lib.Pipeline.Value
import Idealize.ShloMosaic.Lib.ValueIdx

/-!
# Region 7: combine

The region runs over 50 row blocks of 2000 rows. At point `t` it reads rows `2000 t … 2000 t + 1999` of
two [100000,128] arrays `A` and `H` and of the [100000,1] column `D`, and the whole [1,128] row `B`, and
writes the same rows of its output: `D · (A + H) + B`, the column scaling each row and the row added to
every row. Every row lies in exactly the block of point `row / 2000`, so after the region
the output array is that function of the arrays the region found at entry, entry by entry.
-/

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The four arrays the region reads, as it finds them. -/
abbrev arrA7 (c : Dev nD) : S100000x128.Idx → EReal := V c (Pipeline.arrRef spec7 0)
abbrev arrH7 (c : Dev nD) : S100000x128.Idx → EReal := V c (Pipeline.arrRef spec7 1)
abbrev arrD7 (c : Dev nD) : S100000x1.Idx → EReal := V c (Pipeline.arrRef spec7 2)
abbrev arrB7 (c : Dev nD) : S1x128.Idx → EReal := V c (Pipeline.arrRef spec7 3)

/-- The printed index maps, decided over the 50 points: the row-tiled windows are at block `(t, 0)`, the
    row `B` at block `(0, 0)`. -/
theorem idx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-! ## The input blocks are rows of the arrays -/

/-- Window 0's block at point `t`: row `p` of the block is row `2000 t + p` of `A`. -/
theorem iblk7_0_at (c : Dev nD) (t : Fin cfg7.N) (p : Fin 2000) (k : Fin 128) (n : Fin 100000) (hn : n.val = t.val * 2000 + p.val) :
    (iblk7 V c 0 t : S2000x128.Idx → EReal) (ix2 p k) = arrA7 V c (ix2 n k) := by
  obtain ⟨e0, e1, -⟩ := idx7 t
  unfold iblk7
  rw [View.read_apply]
  show V c (Pipeline.arrRef spec7 0) _ = V c (Pipeline.arrRef spec7 0) _
  refine congrArg (V c (Pipeline.arrRef spec7 0)) (funext fun a => Fin.ext ?_)
  match a with
  | ⟨0, _⟩ => show win7_0.index t (0 : Fin 2) * 2000 + 1 * p.val = n.val; rw [e0, hn]; omega
  | ⟨1, _⟩ => show win7_0.index t (1 : Fin 2) * 128 + 1 * k.val = k.val; rw [e1]; omega

/-- Window 1's block at point `t`: row `p` of the block is row `2000 t + p` of `H`. -/
theorem iblk7_1_at (c : Dev nD) (t : Fin cfg7.N) (p : Fin 2000) (k : Fin 128) (n : Fin 100000) (hn : n.val = t.val * 2000 + p.val) :
    (iblk7 V c 1 t : S2000x128.Idx → EReal) (ix2 p k) = arrH7 V c (ix2 n k) := by
  obtain ⟨_, _, e0, e1, -⟩ := idx7 t
  unfold iblk7
  rw [View.read_apply]
  show V c (Pipeline.arrRef spec7 1) _ = V c (Pipeline.arrRef spec7 1) _
  refine congrArg (V c (Pipeline.arrRef spec7 1)) (funext fun a => Fin.ext ?_)
  match a with
  | ⟨0, _⟩ => show win7_1.index t (0 : Fin 2) * 2000 + 1 * p.val = n.val; rw [e0, hn]; omega
  | ⟨1, _⟩ => show win7_1.index t (1 : Fin 2) * 128 + 1 * k.val = k.val; rw [e1]; omega

/-- Window 2's block at point `t`: entry `p` of the block is entry `2000 t + p` of the column `D`. -/
theorem iblk7_2_at (c : Dev nD) (t : Fin cfg7.N) (p : Fin 2000) (n : Fin 100000) (hn : n.val = t.val * 2000 + p.val) :
    (iblk7 V c 2 t : S2000x1.Idx → EReal) (ix2 p (0 : Fin 1)) = arrD7 V c (ix2 n (0 : Fin 1)) := by
  obtain ⟨_, _, _, _, e0, e1, -⟩ := idx7 t
  unfold iblk7
  rw [View.read_apply]
  show V c (Pipeline.arrRef spec7 2) _ = V c (Pipeline.arrRef spec7 2) _
  refine congrArg (V c (Pipeline.arrRef spec7 2)) (funext fun a => Fin.ext ?_)
  match a with
  | ⟨0, _⟩ => show win7_2.index t (0 : Fin 2) * 2000 + 1 * p.val = n.val; rw [e0, hn]; omega
  | ⟨1, _⟩ => show win7_2.index t (1 : Fin 2) * 1 + 1 * 0 = 0; rw [e1]

/-- Window 3's block at every point is the whole row `B`. -/
theorem iblk7_3_at (c : Dev nD) (t : Fin cfg7.N) (q : Fin 128) :
    (iblk7 V c 3 t : S1x128.Idx → EReal) (ix2 (0 : Fin 1) q) = arrB7 V c (ix2 (0 : Fin 1) q) := by
  obtain ⟨_, _, _, _, _, _, e0, e1, -⟩ := idx7 t
  unfold iblk7
  rw [View.read_apply]
  show V c (Pipeline.arrRef spec7 3) _ = V c (Pipeline.arrRef spec7 3) _
  refine congrArg (V c (Pipeline.arrRef spec7 3)) (funext fun a => Fin.ext ?_)
  match a with
  | ⟨0, _⟩ => show win7_3.index t (0 : Fin 2) * 1 + 1 * 0 = 0; rw [e0]
  | ⟨1, _⟩ => show win7_3.index t (1 : Fin 2) * 128 + 1 * q.val = q.val; rw [e1]; omega

/-! ## Output window 4 -/

/-- Point `t`'s block of window 4, element `(p, q)`, sits in the array at row `2000 t + p`, lane `q`. -/
theorem emb7_4 (t : Fin cfg7.N) (p : Fin 2000) (q : Fin 128) :
    ((((cfg7.win 4).blk t).view.emb (ix2 p q)) 0).val = t.val * 2000 + p.val
      ∧ ((((cfg7.win 4).blk t).view.emb (ix2 p q)) 1).val = q.val := by
  obtain ⟨_, _, _, _, _, _, _, _, e40, e41⟩ := idx7 t
  constructor
  · show win7_4.index t (0 : Fin 2) * 2000 + 1 * p.val = _
    rw [e40]; omega
  · show win7_4.index t (1 : Fin 2) * 128 + 1 * q.val = _
    rw [e41]; omega

/-- What point `t` writes back to window 4 is its block of the region's array. -/
theorem flushed7_4_eq (c : Dev nD) (t : Fin cfg7.N) :
    (dat7 (F := Ideal) V c).flushed 4 t
      = ((cfg7.win 4).blk t).view.read (Elt Ideal) (combineArr (arrA7 V c) (arrH7 V c) (arrD7 V c) (arrB7 V c)) := by
  show (cfg7.win 4).cut (grid7.coords t) ((dat7 V c).after 4 t) = _
  rw [after7_4]
  unfold out7_4
  rw [View.canon_unit_zero hz]
  simp only [View.ld_unit_zero (S := S2000x128) hz, View.ld_unit_zero (S := S2000x1) hz, View.ld_unit_zero (S := S1x128) hz]
  refine funext fun (y : S2000x128.Idx) => ?_
  obtain ⟨p, q, rfl⟩ : ∃ (p : Fin 2000) (q : Fin 128), y = ix2 p q := ⟨y 0, y 1, eq_ix2 y⟩
  have hN : grid7.N = 50 := N_7
  have ht : t.val < 50 := by have h : t.val < grid7.N := t.isLt; omega
  obtain ⟨n, hn⟩ : ∃ n : Fin 100000, n.val = t.val * 2000 + p.val :=
    ⟨⟨t.val * 2000 + p.val, by have := p.isLt; omega⟩, rfl⟩
  obtain ⟨he0, he1⟩ := emb7_4 t p q
  show k7_pay1 (iblk7 V c 2 t) (iblk7 V c 0 t) (iblk7 V c 1 t) (iblk7 V c 3 t) (ix2 p q)
    = combineArr (arrA7 V c) (arrH7 V c) (arrD7 V c) (arrB7 V c) (((cfg7.win 4).blk t).view.emb (ix2 p q))
  rw [combineArr_at (arrA7 V c) (arrH7 V c) (arrD7 V c) (arrB7 V c) _ n q (he0.trans hn.symm) he1]
  refine (k7_pay1_at (iblk7 V c 2 t) (iblk7 V c 0 t) (iblk7 V c 1 t) (iblk7 V c 3 t) p q).trans ?_
  rw [iblk7_2_at V c t p n hn, iblk7_0_at V c t p q n hn, iblk7_1_at V c t p q n hn, iblk7_3_at V c t q]

/-- An index of the array is in point `t`'s block iff each coordinate is in the block's range on its axis. -/
theorem mem_blk7_4 (t : Fin cfg7.N) (i : S100000x128.Idx) :
    i ∈ ((cfg7.win 4).blk t).view.set ↔ ∀ a : Fin 2, win7_4.index t a * S2000x128.size a ≤ (i a).val ∧ (i a).val < win7_4.index t a * S2000x128.size a + S2000x128.size a := by
  show i ∈ ((View.whole main_v67).slice (win7_4.rect t)).set ↔ _
  rw [View.set_slice_whole, Rect.mem_set_unit]
  exact Iff.rfl

/-- Row `r` of the array lies in the block of point `r / 2000`, which is written back. -/
theorem covered7_4 (i : S100000x128.Idx) :
    ∃ t : Fin cfg7.N, (cfg7.win 4).flush t = true ∧ i ∈ ((cfg7.win 4).blk t).view.set := by
  have hi0 : (i 0).val < 100000 := (i 0).isLt
  have hi1 : (i 1).val < 128 := (i 1).isLt
  have hN : grid7.N = 50 := N_7
  obtain ⟨t, ht⟩ : ∃ t : Fin cfg7.N, t.val = (i 0).val / 2000 := ⟨⟨(i 0).val / 2000, by show _ < grid7.N; omega⟩, rfl⟩
  obtain ⟨_, _, _, _, _, _, _, _, e40, e41⟩ := idx7 t
  refine ⟨t, flush7_4 t, ?_⟩
  rw [mem_blk7_4]
  intro a
  match a with
  | ⟨0, _⟩ =>
    show win7_4.index t (0 : Fin 2) * 2000 ≤ (i 0).val ∧ (i 0).val < win7_4.index t (0 : Fin 2) * 2000 + 2000
    rw [e40, ht]; omega
  | ⟨1, _⟩ =>
    show win7_4.index t (1 : Fin 2) * 128 ≤ (i 1).val ∧ (i 1).val < win7_4.index t (1 : Fin 2) * 128 + 128
    rw [e41]; omega

/-- So after the region window 4's array is the region's function of the arrays it found. -/
theorem final7_4 (c : Dev nD) :
    (dat7 (F := Ideal) V c).arrAt 4 cfg7.N = combineArr (arrA7 V c) (arrH7 V c) (arrD7 V c) (arrB7 V c) :=
  (dat7 (F := Ideal) V c).arrAt_eq_of_cover 4 (combineArr (arrA7 V c) (arrH7 V c) (arrD7 V c) (arrB7 V c))
    (fun t _ => flushed7_4_eq V c t) covered7_4

/-- Entry `(n, j)` of window 4's array after the region. -/
theorem out7_4_apply (c : Dev nD) (n : Fin 100000) (j : Fin 128) :
    ((dat7 (F := Ideal) V c).arrAt 4 cfg7.N : S100000x128.Idx → EReal) (ix2 n j)
      = arrD7 V c (ix2 n (0 : Fin 1)) * (arrA7 V c (ix2 n j) + arrH7 V c (ix2 n j)) + arrB7 V c (ix2 (0 : Fin 1) j) := by
  rw [final7_4 V c]
  exact combineArr_at (arrA7 V c) (arrH7 V c) (arrD7 V c) (arrB7 V c) (ix2 n j) n j rfl rfl

end Cert.KernelIdeal.RegionValue

end
-- ==== Proof.KLayer4.lean ====
/-
  Layer 4 of the idealized kernel, read entry by entry.

  Given the activations the layer's first region finds, the region leaves the product with the weights scaled row by
  row by the degree factor (twice: in two formats, the same extended reals); the host stretch gathers those rows at
  the wrapped source words and sums them per destination node; the second region forms `dinv · (sum + own row) + bias`.
  Together: the layer of the specification with the scaling done before and after the edge sum.
-/
import proofs.«108103_j9363028705695_2_alg».proof.Proof.Gen.KernelIdeal.Frame
import proofs.«108103_j9363028705695_2_alg».proof.Proof.KWalk
import proofs.«108103_j9363028705695_2_alg».proof.Proof.KGraph
import proofs.«108103_j9363028705695_2_alg».proof.Proof.HostLemmas
import proofs.«108103_j9363028705695_2_alg».proof.Proof.LayerRead
import proofs.«108103_j9363028705695_2_alg».proof.Proof.RegionValue6
import proofs.«108103_j9363028705695_2_alg».proof.Proof.RegionValue7

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx Cert.Gcn Cert.KernelIdeal.Carried

variable (m : (ℓ : Loc nD τ sig) → Buf (Elt Ideal) ℓ) (ρ : Dev nD → PrngReg) (c : Dev nD)

set_option maxHeartbeats 2000000 in
/-- Layer 4: the linear-scale region, the edge sum on the host, the combine region. -/
theorem layer4 (Hp : Fin 100000 → Fin 128 → EReal)
    (hX : ∀ n k, ((W10 m ρ c (Proc.devRef .tc main_v53)) : S100000x128.Idx → EReal) (ix2 n k) = Hp n k)
    (n : Fin 100000) (j : Fin 128) :
    ((W13 m ρ c (Proc.devRef .tc main_v67)) : S100000x128.Idx → EReal) (ix2 n j) = preScaledLayer (graphOf (m ((c : Thread nD τ).loc main_arg1))) id Hp (mat (m ((c : Thread nD τ).loc main_arg8))) (vec (m ((c : Thread nD τ).loc main_arg9))) n j := by
  have hW : ∀ k j, ((W10 m ρ c (Proc.devRef .tc main_arg8)) : S128x128.Idx → EReal) (ix2 k j) = (mat (m ((c : Thread nD τ).loc main_arg8))) k j := fun k j => by
    rw [keep_main_arg8_10_0 m ρ c]; rfl
  have hBsrc : ∀ j, ((W11 m ρ c (Proc.devRef .tc main_arg9)) : S128.Idx → EReal) (ix1 j) = (vec (m ((c : Thread nD τ).loc main_arg9))) j := fun j => by
    rw [keep_main_arg9_11_0 m ρ c]; rfl
  have hD : ∀ p, ((W10 m ρ c (Proc.devRef .tc main_v11)) : S100000x1.Idx → EReal) (ix2 p (0 : Fin 1)) = (graphOf (m ((c : Thread nD τ).loc main_arg1))).dinv p := fun p => by
    rw [keep_main_v11_10_9 m ρ c, keep_main_v11_9_7 m ρ c, keep_main_v11_7_6 m ρ c, keep_main_v11_6_4 m ρ c, keep_main_v11_4_3 m ρ c, keep_main_v11_3_1 m ρ c]
    exact dinv_W1 m ρ c p 0
  have hD2 : ∀ p, ((W12 m ρ c (Proc.devRef .tc main_v11)) : S100000x1.Idx → EReal) (ix2 p (0 : Fin 1)) = (graphOf (m ((c : Thread nD τ).loc main_arg1))).dinv p := fun p => by
    rw [keep_main_v11_12_10 m ρ c, keep_main_v11_10_9 m ρ c, keep_main_v11_9_7 m ρ c, keep_main_v11_7_6 m ρ c, keep_main_v11_6_4 m ρ c, keep_main_v11_4_3 m ρ c, keep_main_v11_3_1 m ρ c]
    exact dinv_W1 m ρ c p 0
  have hsrc : ∀ e : Fin 1600000, ((W11 m ρ c (Proc.devRef .tc main_v1)) : S1600000.Idx → BitVec 32) (ix1 e) = (m ((c : Thread nD τ).loc main_arg1)) (ix2 (0 : Fin 2) e) := fun e => by
    rw [keep_main_v1_11_8 m ρ c, keep_main_v1_8_5 m ρ c, keep_main_v1_5_2 m ρ c, keep_main_v1_2_1 m ρ c]
    exact src_W1 m ρ c e
  have hdst : ∀ e : Fin 1600000, ((W11 m ρ c (Proc.devRef .tc main_v3)) : S1600000.Idx → BitVec 32) (ix1 e) = (m ((c : Thread nD τ).loc main_arg1)) (ix2 (1 : Fin 2) e) := fun e => by
    rw [keep_main_v3_11_8 m ρ c, keep_main_v3_8_5 m ρ c, keep_main_v3_5_2 m ρ c, keep_main_v3_2_1 m ρ c]
    exact dst_W1 m ρ c e
  -- the linear-scale region's two outputs
  have e32 : ((W11 m ρ c (Proc.devRef .tc main_v54_0)) : S100000x128.Idx → EReal) = ((dat6 (F := Ideal) (V10 m ρ) c).arrAt 3 cfg6.N : S100000x128.Idx → EReal) := W11_arr m ρ c 3
  have e16 : ((W11 m ρ c (Proc.devRef .tc main_v54_1)) : S100000x128.Idx → EReal) = ((dat6 (F := Ideal) (V10 m ρ) c).arrAt 4 cfg6.N : S100000x128.Idx → EReal) := W11_arr m ρ c 4
  have hs32 : ∀ p q, ((W11 m ρ c (Proc.devRef .tc main_v54_0)) : S100000x128.Idx → EReal) (ix2 p q) = scaled (graphOf (m ((c : Thread nD τ).loc main_arg1))) Hp (mat (m ((c : Thread nD τ).loc main_arg8))) p q := fun p q => by
    rw [e32]
    exact (RegionValue.out6_3_apply (V10 m ρ) c p q).trans (LayerRead.scaled_of (graphOf (m ((c : Thread nD τ).loc main_arg1))) _ _ _ Hp (mat (m ((c : Thread nD τ).loc main_arg8))) hX hW hD p q)
  have hs16 : ∀ p q, ((W11 m ρ c (Proc.devRef .tc main_v54_1)) : S100000x128.Idx → EReal) (ix2 p q) = scaled (graphOf (m ((c : Thread nD τ).loc main_arg1))) Hp (mat (m ((c : Thread nD τ).loc main_arg8))) p q := fun p q => by
    rw [e16]
    exact (RegionValue.out6_4_apply (V10 m ρ) c p q).trans (LayerRead.scaled_of (graphOf (m ((c : Thread nD τ).loc main_arg1))) _ _ _ Hp (mat (m ((c : Thread nD τ).loc main_arg8))) hX hW hD p q)
  have hs32' : ∀ p q, ((W12 m ρ c (Proc.devRef .tc main_v54_0)) : S100000x128.Idx → EReal) (ix2 p q) = scaled (graphOf (m ((c : Thread nD τ).loc main_arg1))) Hp (mat (m ((c : Thread nD τ).loc main_arg8))) p q := fun p q => by
    rw [keep_main_v54_0_12_11 m ρ c]; exact hs32 p q
  -- the edge sum
  have hagg : ∀ p q, ((W12 m ρ c (Proc.devRef .tc main_v65)) : S100000x128.Idx → EReal) (ix2 p q) = gathered (graphOf (m ((c : Thread nD τ).loc main_arg1))) Hp (mat (m ((c : Thread nD τ).loc main_arg8))) p q := fun p q => by
    have h : ((W12 m ρ c (Proc.devRef .tc main_v65)) : S100000x128.Idx → EReal)
        = Host.scatterAdd (F := Ideal) scatter_S100000x128_S1600000x1_S1600000x128_1_0_0_1
            (broadcastInDim S100000x128 ![] Facts₀.bcast_S_S100000x128 (constant (F := Ideal) S_ .f32 0x00000000#32))
            (broadcastInDim S1600000x1 ![0] Facts₀.bcast_S1600000_S1600000x1_0 ((W11 m ρ c (Proc.devRef .tc main_v3)) : S1600000.Idx → BitVec 32))
            (extf (F := Ideal) .f32 (Host.gather gather_S100000x128_S1600000x1_S1600000x128_1_0_n_n_0_1_1128
              ((W11 m ρ c (Proc.devRef .tc main_v54_1)) : FVec Ideal S100000x128 .bf16)
              (broadcastInDim S1600000x1 ![0] Facts₀.bcast_S1600000_S1600000x1_0
                (select (cmpi .slt ((W11 m ρ c (Proc.devRef .tc main_v1)) : S1600000.Idx → BitVec 32) (broadcastInDim S1600000 ![] Facts₀.bcast_S_S1600000 (constantI S_ 32 0#32)))
                  (addi ((W11 m ρ c (Proc.devRef .tc main_v1)) : S1600000.Idx → BitVec 32) (broadcastInDim S1600000 ![] Facts₀.bcast_S_S1600000 (constantI S_ 32 100000#32)))
                  ((W11 m ρ c (Proc.devRef .tc main_v1)) : S1600000.Idx → BitVec 32)))) Facts₀.bitsLt_bf16_f32) := by
      show StableHlo.after hostOps7 (W11 m ρ c) (Proc.devRef .tc main_v65) = _
      after_results
      try rfl
    rw [h]
    exact (HostRead.edgeSum_apply Facts₀.bitsLt_bf16_f32 Facts₀.gather_S100000x128_S1600000x1_S1600000x128_1_0_n_n_0_1_1128_wf
        Facts₀.scatter_S100000x128_S1600000x1_S1600000x128_1_0_0_1_wf Facts₀.bcast_S1600000_S1600000x1_0 Facts₀.bcast_S_S100000x128 Facts₀.bcast_S_S1600000
        _ _ _ p q).trans
      (LayerRead.gathered_of (m ((c : Thread nD τ).loc main_arg1)) _ _ _ Hp (mat (m ((c : Thread nD τ).loc main_arg8))) hsrc hdst hs16 p q)
  -- the bias row
  have hB : ∀ q, ((W12 m ρ c (Proc.devRef .tc main_v66)) : S1x128.Idx → EReal) (ix2 (0 : Fin 1) q) = (vec (m ((c : Thread nD τ).loc main_arg9))) q := fun q => by
    have h : ((W12 m ρ c (Proc.devRef .tc main_v66)) : S1x128.Idx → EReal) = shapeCast S1x128 ((W11 m ρ c (Proc.devRef .tc main_arg9)) : S128.Idx → EReal) Facts₀.shapeCasts_S128_S1x128 := by
      show StableHlo.after hostOps7 (W11 m ρ c) (Proc.devRef .tc main_v66) = _
      after_results
      try rfl
    rw [h, shapeCast_a_1a_apply]
    exact hBsrc q
  -- the combine region
  have eo : ((W13 m ρ c (Proc.devRef .tc main_v67)) : S100000x128.Idx → EReal) = ((dat7 (F := Ideal) (V12 m ρ) c).arrAt 4 cfg7.N : S100000x128.Idx → EReal) := W13_arr m ρ c 4
  rw [eo]
  exact (RegionValue.out7_4_apply (V12 m ρ) c n j).trans
    (LayerRead.layer_of (graphOf (m ((c : Thread nD τ).loc main_arg1))) id _ _ _ _ Hp (mat (m ((c : Thread nD τ).loc main_arg8))) (vec (m ((c : Thread nD τ).loc main_arg9))) hagg hs32' hD2 hB n j)

end Cert.KernelIdeal.Chain

end
-- ==== Proof.RegionValue8.lean ====
import proofs.«108103_j9363028705695_2_alg».proof.Proof.Gen.KernelIdeal.Frame
import proofs.«108103_j9363028705695_2_alg».proof.Proof.RegionBody
import Idealize.ShloMosaic.Lib.Pipeline.Value
import Idealize.ShloMosaic.Lib.ValueIdx

/-!
# Region 8: linear, then scale by a column

The region runs over 50 row blocks of 2000 rows. At point `t` it reads rows `2000 t … 2000 t + 1999` of
the [100000,128] array `X` and of the [100000,1] column `D`, and the whole [128,128] matrix `W`, and
writes the same rows of its two outputs: `(X · W)` with each row scaled by its entry of `D`, once as
f32 and once rounded to bf16, which on the extended reals is the same value. Every row lies in exactly
the block of point `row / 2000`, so after the region each output array is that function of the arrays
the region found at entry, entry by entry.
-/

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The three arrays the region reads, as it finds them. -/
abbrev arrX8 (c : Dev nD) : S100000x128.Idx → EReal := V c (Pipeline.arrRef spec8 0)
abbrev arrW8 (c : Dev nD) : S128x128.Idx → EReal := V c (Pipeline.arrRef spec8 1)
abbrev arrD8 (c : Dev nD) : S100000x1.Idx → EReal := V c (Pipeline.arrRef spec8 2)

/-- The printed index maps, decided over the 50 points: the row-tiled windows are at block `(t, 0)`, the
    matrix at block `(0, 0)`. -/
theorem idx8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0
    ∧ win8_4.index t (0 : Fin 2) = t.val ∧ win8_4.index t (1 : Fin 2) = 0 :=
  (by decide +kernel : ∀ t : Fin grid8.N, _)

/-! ## The input blocks are rows of the arrays -/

/-- Window 0's block at point `t`: row `p` of the block is row `2000 t + p` of `X`. -/
theorem iblk8_0_at (c : Dev nD) (t : Fin cfg8.N) (p : Fin 2000) (k : Fin 128) (n : Fin 100000) (hn : n.val = t.val * 2000 + p.val) :
    (iblk8 V c 0 t : S2000x128.Idx → EReal) (ix2 p k) = arrX8 V c (ix2 n k) := by
  obtain ⟨e0, e1, -⟩ := idx8 t
  unfold iblk8
  rw [View.read_apply]
  show V c (Pipeline.arrRef spec8 0) _ = V c (Pipeline.arrRef spec8 0) _
  refine congrArg (V c (Pipeline.arrRef spec8 0)) (funext fun a => Fin.ext ?_)
  match a with
  | ⟨0, _⟩ => show win8_0.index t (0 : Fin 2) * 2000 + 1 * p.val = n.val; rw [e0, hn]; omega
  | ⟨1, _⟩ => show win8_0.index t (1 : Fin 2) * 128 + 1 * k.val = k.val; rw [e1]; omega

/-- Window 1's block at every point is the whole matrix `W`. -/
theorem iblk8_1_at (c : Dev nD) (t : Fin cfg8.N) (k q : Fin 128) :
    (iblk8 V c 1 t : S128x128.Idx → EReal) (ix2 k q) = arrW8 V c (ix2 k q) := by
  obtain ⟨_, _, e0, e1, -⟩ := idx8 t
  unfold iblk8
  rw [View.read_apply]
  show V c (Pipeline.arrRef spec8 1) _ = V c (Pipeline.arrRef spec8 1) _
  refine congrArg (V c (Pipeline.arrRef spec8 1)) (funext fun a => Fin.ext ?_)
  match a with
  | ⟨0, _⟩ => show win8_1.index t (0 : Fin 2) * 128 + 1 * k.val = k.val; rw [e0]; omega
  | ⟨1, _⟩ => show win8_1.index t (1 : Fin 2) * 128 + 1 * q.val = q.val; rw [e1]; omega

/-- Window 2's block at point `t`: entry `p` of the block is entry `2000 t + p` of the column `D`. -/
theorem iblk8_2_at (c : Dev nD) (t : Fin cfg8.N) (p : Fin 2000) (n : Fin 100000) (hn : n.val = t.val * 2000 + p.val) :
    (iblk8 V c 2 t : S2000x1.Idx → EReal) (ix2 p (0 : Fin 1)) = arrD8 V c (ix2 n (0 : Fin 1)) := by
  obtain ⟨_, _, _, _, e0, e1, -⟩ := idx8 t
  unfold iblk8
  rw [View.read_apply]
  show V c (Pipeline.arrRef spec8 2) _ = V c (Pipeline.arrRef spec8 2) _
  refine congrArg (V c (Pipeline.arrRef spec8 2)) (funext fun a => Fin.ext ?_)
  match a with
  | ⟨0, _⟩ => show win8_2.index t (0 : Fin 2) * 2000 + 1 * p.val = n.val; rw [e0, hn]; omega
  | ⟨1, _⟩ => show win8_2.index t (1 : Fin 2) * 1 + 1 * 0 = 0; rw [e1]

/-! ## Output window 3 -/

/-- Point `t`'s block of window 3, element `(p, q)`, sits in the array at row `2000 t + p`, lane `q`. -/
theorem emb8_3 (t : Fin cfg8.N) (p : Fin 2000) (q : Fin 128) :
    ((((cfg8.win 3).blk t).view.emb (ix2 p q)) 0).val = t.val * 2000 + p.val
      ∧ ((((cfg8.win 3).blk t).view.emb (ix2 p q)) 1).val = q.val := by
  obtain ⟨_, _, _, _, _, _, e30, e31, e40, e41⟩ := idx8 t
  constructor
  · show win8_3.index t (0 : Fin 2) * 2000 + 1 * p.val = _
    rw [e30]; omega
  · show win8_3.index t (1 : Fin 2) * 128 + 1 * q.val = _
    rw [e31]; omega

/-- What point `t` writes back to window 3 is its block of the region's array. -/
theorem flushed8_3_eq (c : Dev nD) (t : Fin cfg8.N) :
    (dat8 (F := Ideal) V c).flushed 3 t
      = ((cfg8.win 3).blk t).view.read (Elt Ideal) (linScaleArr (arrX8 V c) (arrW8 V c) (arrD8 V c)) := by
  show (cfg8.win 3).cut (grid8.coords t) ((dat8 V c).after 3 t) = _
  rw [after8_3]
  unfold out8_3
  rw [View.canon_unit_zero hz]
  simp only [View.ld_unit_zero (S := S2000x128) hz, View.ld_unit_zero (S := S128x128) hz, View.ld_unit_zero (S := S2000x1) hz]
  refine funext fun (y : S2000x128.Idx) => ?_
  obtain ⟨p, q, rfl⟩ : ∃ (p : Fin 2000) (q : Fin 128), y = ix2 p q := ⟨y 0, y 1, eq_ix2 y⟩
  have hN : grid8.N = 50 := N_8
  have ht : t.val < 50 := by have h : t.val < grid8.N := t.isLt; omega
  obtain ⟨n, hn⟩ : ∃ n : Fin 100000, n.val = t.val * 2000 + p.val :=
    ⟨⟨t.val * 2000 + p.val, by have := p.isLt; omega⟩, rfl⟩
  obtain ⟨he0, he1⟩ := emb8_3 t p q
  show k8_pay1 (iblk8 V c 0 t) (iblk8 V c 1 t) (iblk8 V c 2 t) (ix2 p q)
    = linScaleArr (arrX8 V c) (arrW8 V c) (arrD8 V c) (((cfg8.win 3).blk t).view.emb (ix2 p q))
  rw [linScaleArr_at (arrX8 V c) (arrW8 V c) (arrD8 V c) _ n q (he0.trans hn.symm) he1]
  refine (k8_pay1_at (iblk8 V c 0 t) (iblk8 V c 1 t) (iblk8 V c 2 t) p q).trans ?_
  rw [iblk8_2_at V c t p n hn]
  refine congrArg (· * arrD8 V c (ix2 n (0 : Fin 1))) (Finset.sum_congr rfl fun k _ => ?_)
  rw [iblk8_0_at V c t p k n hn, iblk8_1_at V c t k q]

/-- An index of the array is in point `t`'s block iff each coordinate is in the block's range on its axis. -/
theorem mem_blk8_3 (t : Fin cfg8.N) (i : S100000x128.Idx) :
    i ∈ ((cfg8.win 3).blk t).view.set ↔ ∀ a : Fin 2, win8_3.index t a * S2000x128.size a ≤ (i a).val ∧ (i a).val < win8_3.index t a * S2000x128.size a + S2000x128.size a := by
  show i ∈ ((View.whole main_v72_0).slice (win8_3.rect t)).set ↔ _
  rw [View.set_slice_whole, Rect.mem_set_unit]
  exact Iff.rfl

/-- Row `r` of the array lies in the block of point `r / 2000`, which is written back. -/
theorem covered8_3 (i : S100000x128.Idx) :
    ∃ t : Fin cfg8.N, (cfg8.win 3).flush t = true ∧ i ∈ ((cfg8.win 3).blk t).view.set := by
  have hi0 : (i 0).val < 100000 := (i 0).isLt
  have hi1 : (i 1).val < 128 := (i 1).isLt
  have hN : grid8.N = 50 := N_8
  obtain ⟨t, ht⟩ : ∃ t : Fin cfg8.N, t.val = (i 0).val / 2000 := ⟨⟨(i 0).val / 2000, by show _ < grid8.N; omega⟩, rfl⟩
  obtain ⟨_, _, _, _, _, _, e30, e31, e40, e41⟩ := idx8 t
  refine ⟨t, flush8_3 t, ?_⟩
  rw [mem_blk8_3]
  intro a
  match a with
  | ⟨0, _⟩ =>
    show win8_3.index t (0 : Fin 2) * 2000 ≤ (i 0).val ∧ (i 0).val < win8_3.index t (0 : Fin 2) * 2000 + 2000
    rw [e30, ht]; omega
  | ⟨1, _⟩ =>
    show win8_3.index t (1 : Fin 2) * 128 ≤ (i 1).val ∧ (i 1).val < win8_3.index t (1 : Fin 2) * 128 + 128
    rw [e31]; omega

/-- So after the region window 3's array is the region's function of the arrays it found. -/
theorem final8_3 (c : Dev nD) :
    (dat8 (F := Ideal) V c).arrAt 3 cfg8.N = linScaleArr (arrX8 V c) (arrW8 V c) (arrD8 V c) :=
  (dat8 (F := Ideal) V c).arrAt_eq_of_cover 3 (linScaleArr (arrX8 V c) (arrW8 V c) (arrD8 V c))
    (fun t _ => flushed8_3_eq V c t) covered8_3

/-- Entry `(n, j)` of window 3's array after the region. -/
theorem out8_3_apply (c : Dev nD) (n : Fin 100000) (j : Fin 128) :
    ((dat8 (F := Ideal) V c).arrAt 3 cfg8.N : S100000x128.Idx → EReal) (ix2 n j)
      = (∑ k : Fin 128, arrX8 V c (ix2 n k) * arrW8 V c (ix2 k j)) * arrD8 V c (ix2 n (0 : Fin 1)) := by
  rw [final8_3 V c]
  exact linScaleArr_at (arrX8 V c) (arrW8 V c) (arrD8 V c) (ix2 n j) n j rfl rfl

/-! ## Output window 4 -/

/-- Point `t`'s block of window 4, element `(p, q)`, sits in the array at row `2000 t + p`, lane `q`. -/
theorem emb8_4 (t : Fin cfg8.N) (p : Fin 2000) (q : Fin 128) :
    ((((cfg8.win 4).blk t).view.emb (ix2 p q)) 0).val = t.val * 2000 + p.val
      ∧ ((((cfg8.win 4).blk t).view.emb (ix2 p q)) 1).val = q.val := by
  obtain ⟨_, _, _, _, _, _, e30, e31, e40, e41⟩ := idx8 t
  constructor
  · show win8_4.index t (0 : Fin 2) * 2000 + 1 * p.val = _
    rw [e40]; omega
  · show win8_4.index t (1 : Fin 2) * 128 + 1 * q.val = _
    rw [e41]; omega

/-- What point `t` writes back to window 4 is its block of the region's array. -/
theorem flushed8_4_eq (c : Dev nD) (t : Fin cfg8.N) :
    (dat8 (F := Ideal) V c).flushed 4 t
      = ((cfg8.win 4).blk t).view.read (Elt Ideal) (linScaleArr (arrX8 V c) (arrW8 V c) (arrD8 V c)) := by
  show (cfg8.win 4).cut (grid8.coords t) ((dat8 V c).after 4 t) = _
  rw [after8_4]
  unfold out8_4
  rw [View.canon_unit_zero hz]
  simp only [View.ld_unit_zero (S := S2000x128) hz, View.ld_unit_zero (S := S128x128) hz, View.ld_unit_zero (S := S2000x1) hz]
  refine funext fun (y : S2000x128.Idx) => ?_
  obtain ⟨p, q, rfl⟩ : ∃ (p : Fin 2000) (q : Fin 128), y = ix2 p q := ⟨y 0, y 1, eq_ix2 y⟩
  have hN : grid8.N = 50 := N_8
  have ht : t.val < 50 := by have h : t.val < grid8.N := t.isLt; omega
  obtain ⟨n, hn⟩ : ∃ n : Fin 100000, n.val = t.val * 2000 + p.val :=
    ⟨⟨t.val * 2000 + p.val, by have := p.isLt; omega⟩, rfl⟩
  obtain ⟨he0, he1⟩ := emb8_4 t p q
  show k8_pay2 (iblk8 V c 0 t) (iblk8 V c 1 t) (iblk8 V c 2 t) (ix2 p q)
    = linScaleArr (arrX8 V c) (arrW8 V c) (arrD8 V c) (((cfg8.win 4).blk t).view.emb (ix2 p q))
  rw [linScaleArr_at (arrX8 V c) (arrW8 V c) (arrD8 V c) _ n q (he0.trans hn.symm) he1]
  refine (k8_pay2_at (iblk8 V c 0 t) (iblk8 V c 1 t) (iblk8 V c 2 t) p q).trans ?_
  rw [iblk8_2_at V c t p n hn]
  refine congrArg (· * arrD8 V c (ix2 n (0 : Fin 1))) (Finset.sum_congr rfl fun k _ => ?_)
  rw [iblk8_0_at V c t p k n hn, iblk8_1_at V c t k q]

/-- An index of the array is in point `t`'s block iff each coordinate is in the block's range on its axis. -/
theorem mem_blk8_4 (t : Fin cfg8.N) (i : S100000x128.Idx) :
    i ∈ ((cfg8.win 4).blk t).view.set ↔ ∀ a : Fin 2, win8_4.index t a * S2000x128.size a ≤ (i a).val ∧ (i a).val < win8_4.index t a * S2000x128.size a + S2000x128.size a := by
  show i ∈ ((View.whole main_v72_1).slice (win8_4.rect t)).set ↔ _
  rw [View.set_slice_whole, Rect.mem_set_unit]
  exact Iff.rfl

/-- Row `r` of the array lies in the block of point `r / 2000`, which is written back. -/
theorem covered8_4 (i : S100000x128.Idx) :
    ∃ t : Fin cfg8.N, (cfg8.win 4).flush t = true ∧ i ∈ ((cfg8.win 4).blk t).view.set := by
  have hi0 : (i 0).val < 100000 := (i 0).isLt
  have hi1 : (i 1).val < 128 := (i 1).isLt
  have hN : grid8.N = 50 := N_8
  obtain ⟨t, ht⟩ : ∃ t : Fin cfg8.N, t.val = (i 0).val / 2000 := ⟨⟨(i 0).val / 2000, by show _ < grid8.N; omega⟩, rfl⟩
  obtain ⟨_, _, _, _, _, _, e30, e31, e40, e41⟩ := idx8 t
  refine ⟨t, flush8_4 t, ?_⟩
  rw [mem_blk8_4]
  intro a
  match a with
  | ⟨0, _⟩ =>
    show win8_4.index t (0 : Fin 2) * 2000 ≤ (i 0).val ∧ (i 0).val < win8_4.index t (0 : Fin 2) * 2000 + 2000
    rw [e40, ht]; omega
  | ⟨1, _⟩ =>
    show win8_4.index t (1 : Fin 2) * 128 ≤ (i 1).val ∧ (i 1).val < win8_4.index t (1 : Fin 2) * 128 + 128
    rw [e41]; omega

/-- So after the region window 4's array is the region's function of the arrays it found. -/
theorem final8_4 (c : Dev nD) :
    (dat8 (F := Ideal) V c).arrAt 4 cfg8.N = linScaleArr (arrX8 V c) (arrW8 V c) (arrD8 V c) :=
  (dat8 (F := Ideal) V c).arrAt_eq_of_cover 4 (linScaleArr (arrX8 V c) (arrW8 V c) (arrD8 V c))
    (fun t _ => flushed8_4_eq V c t) covered8_4

/-- Entry `(n, j)` of window 4's array after the region. -/
theorem out8_4_apply (c : Dev nD) (n : Fin 100000) (j : Fin 128) :
    ((dat8 (F := Ideal) V c).arrAt 4 cfg8.N : S100000x128.Idx → EReal) (ix2 n j)
      = (∑ k : Fin 128, arrX8 V c (ix2 n k) * arrW8 V c (ix2 k j)) * arrD8 V c (ix2 n (0 : Fin 1)) := by
  rw [final8_4 V c]
  exact linScaleArr_at (arrX8 V c) (arrW8 V c) (arrD8 V c) (ix2 n j) n j rfl rfl

end Cert.KernelIdeal.RegionValue

end
-- ==== Proof.RegionValue9.lean ====
import proofs.«108103_j9363028705695_2_alg».proof.Proof.Gen.KernelIdeal.Frame
import proofs.«108103_j9363028705695_2_alg».proof.Proof.RegionBody
import Idealize.ShloMosaic.Lib.Pipeline.Value
import Idealize.ShloMosaic.Lib.ValueIdx

/-!
# Region 9: combine

The region runs over 50 row blocks of 2000 rows. At point `t` it reads rows `2000 t … 2000 t + 1999` of
two [100000,128] arrays `A` and `H` and of the [100000,1] column `D`, and the whole [1,128] row `B`, and
writes the same rows of its output: `D · (A + H) + B`, the column scaling each row and the row added to
every row. Every row lies in exactly the block of point `row / 2000`, so after the region
the output array is that function of the arrays the region found at entry, entry by entry.
-/

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The four arrays the region reads, as it finds them. -/
abbrev arrA9 (c : Dev nD) : S100000x128.Idx → EReal := V c (Pipeline.arrRef spec9 0)
abbrev arrH9 (c : Dev nD) : S100000x128.Idx → EReal := V c (Pipeline.arrRef spec9 1)
abbrev arrD9 (c : Dev nD) : S100000x1.Idx → EReal := V c (Pipeline.arrRef spec9 2)
abbrev arrB9 (c : Dev nD) : S1x128.Idx → EReal := V c (Pipeline.arrRef spec9 3)

/-- The printed index maps, decided over the 50 points: the row-tiled windows are at block `(t, 0)`, the
    row `B` at block `(0, 0)`. -/
theorem idx9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 :=
  (by decide +kernel : ∀ t : Fin grid9.N, _)

/-! ## The input blocks are rows of the arrays -/

/-- Window 0's block at point `t`: row `p` of the block is row `2000 t + p` of `A`. -/
theorem iblk9_0_at (c : Dev nD) (t : Fin cfg9.N) (p : Fin 2000) (k : Fin 128) (n : Fin 100000) (hn : n.val = t.val * 2000 + p.val) :
    (iblk9 V c 0 t : S2000x128.Idx → EReal) (ix2 p k) = arrA9 V c (ix2 n k) := by
  obtain ⟨e0, e1, -⟩ := idx9 t
  unfold iblk9
  rw [View.read_apply]
  show V c (Pipeline.arrRef spec9 0) _ = V c (Pipeline.arrRef spec9 0) _
  refine congrArg (V c (Pipeline.arrRef spec9 0)) (funext fun a => Fin.ext ?_)
  match a with
  | ⟨0, _⟩ => show win9_0.index t (0 : Fin 2) * 2000 + 1 * p.val = n.val; rw [e0, hn]; omega
  | ⟨1, _⟩ => show win9_0.index t (1 : Fin 2) * 128 + 1 * k.val = k.val; rw [e1]; omega

/-- Window 1's block at point `t`: row `p` of the block is row `2000 t + p` of `H`. -/
theorem iblk9_1_at (c : Dev nD) (t : Fin cfg9.N) (p : Fin 2000) (k : Fin 128) (n : Fin 100000) (hn : n.val = t.val * 2000 + p.val) :
    (iblk9 V c 1 t : S2000x128.Idx → EReal) (ix2 p k) = arrH9 V c (ix2 n k) := by
  obtain ⟨_, _, e0, e1, -⟩ := idx9 t
  unfold iblk9
  rw [View.read_apply]
  show V c (Pipeline.arrRef spec9 1) _ = V c (Pipeline.arrRef spec9 1) _
  refine congrArg (V c (Pipeline.arrRef spec9 1)) (funext fun a => Fin.ext ?_)
  match a with
  | ⟨0, _⟩ => show win9_1.index t (0 : Fin 2) * 2000 + 1 * p.val = n.val; rw [e0, hn]; omega
  | ⟨1, _⟩ => show win9_1.index t (1 : Fin 2) * 128 + 1 * k.val = k.val; rw [e1]; omega

/-- Window 2's block at point `t`: entry `p` of the block is entry `2000 t + p` of the column `D`. -/
theorem iblk9_2_at (c : Dev nD) (t : Fin cfg9.N) (p : Fin 2000) (n : Fin 100000) (hn : n.val = t.val * 2000 + p.val) :
    (iblk9 V c 2 t : S2000x1.Idx → EReal) (ix2 p (0 : Fin 1)) = arrD9 V c (ix2 n (0 : Fin 1)) := by
  obtain ⟨_, _, _, _, e0, e1, -⟩ := idx9 t
  unfold iblk9
  rw [View.read_apply]
  show V c (Pipeline.arrRef spec9 2) _ = V c (Pipeline.arrRef spec9 2) _
  refine congrArg (V c (Pipeline.arrRef spec9 2)) (funext fun a => Fin.ext ?_)
  match a with
  | ⟨0, _⟩ => show win9_2.index t (0 : Fin 2) * 2000 + 1 * p.val = n.val; rw [e0, hn]; omega
  | ⟨1, _⟩ => show win9_2.index t (1 : Fin 2) * 1 + 1 * 0 = 0; rw [e1]

/-- Window 3's block at every point is the whole row `B`. -/
theorem iblk9_3_at (c : Dev nD) (t : Fin cfg9.N) (q : Fin 128) :
    (iblk9 V c 3 t : S1x128.Idx → EReal) (ix2 (0 : Fin 1) q) = arrB9 V c (ix2 (0 : Fin 1) q) := by
  obtain ⟨_, _, _, _, _, _, e0, e1, -⟩ := idx9 t
  unfold iblk9
  rw [View.read_apply]
  show V c (Pipeline.arrRef spec9 3) _ = V c (Pipeline.arrRef spec9 3) _
  refine congrArg (V c (Pipeline.arrRef spec9 3)) (funext fun a => Fin.ext ?_)
  match a with
  | ⟨0, _⟩ => show win9_3.index t (0 : Fin 2) * 1 + 1 * 0 = 0; rw [e0]
  | ⟨1, _⟩ => show win9_3.index t (1 : Fin 2) * 128 + 1 * q.val = q.val; rw [e1]; omega

/-! ## Output window 4 -/

/-- Point `t`'s block of window 4, element `(p, q)`, sits in the array at row `2000 t + p`, lane `q`. -/
theorem emb9_4 (t : Fin cfg9.N) (p : Fin 2000) (q : Fin 128) :
    ((((cfg9.win 4).blk t).view.emb (ix2 p q)) 0).val = t.val * 2000 + p.val
      ∧ ((((cfg9.win 4).blk t).view.emb (ix2 p q)) 1).val = q.val := by
  obtain ⟨_, _, _, _, _, _, _, _, e40, e41⟩ := idx9 t
  constructor
  · show win9_4.index t (0 : Fin 2) * 2000 + 1 * p.val = _
    rw [e40]; omega
  · show win9_4.index t (1 : Fin 2) * 128 + 1 * q.val = _
    rw [e41]; omega

/-- What point `t` writes back to window 4 is its block of the region's array. -/
theorem flushed9_4_eq (c : Dev nD) (t : Fin cfg9.N) :
    (dat9 (F := Ideal) V c).flushed 4 t
      = ((cfg9.win 4).blk t).view.read (Elt Ideal) (combineArr (arrA9 V c) (arrH9 V c) (arrD9 V c) (arrB9 V c)) := by
  show (cfg9.win 4).cut (grid9.coords t) ((dat9 V c).after 4 t) = _
  rw [after9_4]
  unfold out9_4
  rw [View.canon_unit_zero hz]
  simp only [View.ld_unit_zero (S := S2000x128) hz, View.ld_unit_zero (S := S2000x1) hz, View.ld_unit_zero (S := S1x128) hz]
  refine funext fun (y : S2000x128.Idx) => ?_
  obtain ⟨p, q, rfl⟩ : ∃ (p : Fin 2000) (q : Fin 128), y = ix2 p q := ⟨y 0, y 1, eq_ix2 y⟩
  have hN : grid9.N = 50 := N_9
  have ht : t.val < 50 := by have h : t.val < grid9.N := t.isLt; omega
  obtain ⟨n, hn⟩ : ∃ n : Fin 100000, n.val = t.val * 2000 + p.val :=
    ⟨⟨t.val * 2000 + p.val, by have := p.isLt; omega⟩, rfl⟩
  obtain ⟨he0, he1⟩ := emb9_4 t p q
  show k9_pay1 (iblk9 V c 2 t) (iblk9 V c 0 t) (iblk9 V c 1 t) (iblk9 V c 3 t) (ix2 p q)
    = combineArr (arrA9 V c) (arrH9 V c) (arrD9 V c) (arrB9 V c) (((cfg9.win 4).blk t).view.emb (ix2 p q))
  rw [combineArr_at (arrA9 V c) (arrH9 V c) (arrD9 V c) (arrB9 V c) _ n q (he0.trans hn.symm) he1]
  refine (k9_pay1_at (iblk9 V c 2 t) (iblk9 V c 0 t) (iblk9 V c 1 t) (iblk9 V c 3 t) p q).trans ?_
  rw [iblk9_2_at V c t p n hn, iblk9_0_at V c t p q n hn, iblk9_1_at V c t p q n hn, iblk9_3_at V c t q]

/-- An index of the array is in point `t`'s block iff each coordinate is in the block's range on its axis. -/
theorem mem_blk9_4 (t : Fin cfg9.N) (i : S100000x128.Idx) :
    i ∈ ((cfg9.win 4).blk t).view.set ↔ ∀ a : Fin 2, win9_4.index t a * S2000x128.size a ≤ (i a).val ∧ (i a).val < win9_4.index t a * S2000x128.size a + S2000x128.size a := by
  show i ∈ ((View.whole main_v85).slice (win9_4.rect t)).set ↔ _
  rw [View.set_slice_whole, Rect.mem_set_unit]
  exact Iff.rfl

/-- Row `r` of the array lies in the block of point `r / 2000`, which is written back. -/
theorem covered9_4 (i : S100000x128.Idx) :
    ∃ t : Fin cfg9.N, (cfg9.win 4).flush t = true ∧ i ∈ ((cfg9.win 4).blk t).view.set := by
  have hi0 : (i 0).val < 100000 := (i 0).isLt
  have hi1 : (i 1).val < 128 := (i 1).isLt
  have hN : grid9.N = 50 := N_9
  obtain ⟨t, ht⟩ : ∃ t : Fin cfg9.N, t.val = (i 0).val / 2000 := ⟨⟨(i 0).val / 2000, by show _ < grid9.N; omega⟩, rfl⟩
  obtain ⟨_, _, _, _, _, _, _, _, e40, e41⟩ := idx9 t
  refine ⟨t, flush9_4 t, ?_⟩
  rw [mem_blk9_4]
  intro a
  match a with
  | ⟨0, _⟩ =>
    show win9_4.index t (0 : Fin 2) * 2000 ≤ (i 0).val ∧ (i 0).val < win9_4.index t (0 : Fin 2) * 2000 + 2000
    rw [e40, ht]; omega
  | ⟨1, _⟩ =>
    show win9_4.index t (1 : Fin 2) * 128 ≤ (i 1).val ∧ (i 1).val < win9_4.index t (1 : Fin 2) * 128 + 128
    rw [e41]; omega

/-- So after the region window 4's array is the region's function of the arrays it found. -/
theorem final9_4 (c : Dev nD) :
    (dat9 (F := Ideal) V c).arrAt 4 cfg9.N = combineArr (arrA9 V c) (arrH9 V c) (arrD9 V c) (arrB9 V c) :=
  (dat9 (F := Ideal) V c).arrAt_eq_of_cover 4 (combineArr (arrA9 V c) (arrH9 V c) (arrD9 V c) (arrB9 V c))
    (fun t _ => flushed9_4_eq V c t) covered9_4

/-- Entry `(n, j)` of window 4's array after the region. -/
theorem out9_4_apply (c : Dev nD) (n : Fin 100000) (j : Fin 128) :
    ((dat9 (F := Ideal) V c).arrAt 4 cfg9.N : S100000x128.Idx → EReal) (ix2 n j)
      = arrD9 V c (ix2 n (0 : Fin 1)) * (arrA9 V c (ix2 n j) + arrH9 V c (ix2 n j)) + arrB9 V c (ix2 (0 : Fin 1) j) := by
  rw [final9_4 V c]
  exact combineArr_at (arrA9 V c) (arrH9 V c) (arrD9 V c) (arrB9 V c) (ix2 n j) n j rfl rfl

end Cert.KernelIdeal.RegionValue

end
-- ==== Proof.KLayer5.lean ====
/-
  Layer 5 of the idealized kernel, read entry by entry.

  Given the activations the layer's first region finds, the region leaves the product with the weights scaled row by
  row by the degree factor (twice: in two formats, the same extended reals); the host stretch gathers those rows at
  the wrapped source words and sums them per destination node; the second region forms `dinv · (sum + own row) + bias`.
  Together: the layer of the specification with the scaling done before and after the edge sum.
-/
import proofs.«108103_j9363028705695_2_alg».proof.Proof.Gen.KernelIdeal.Frame
import proofs.«108103_j9363028705695_2_alg».proof.Proof.KWalk
import proofs.«108103_j9363028705695_2_alg».proof.Proof.KGraph
import proofs.«108103_j9363028705695_2_alg».proof.Proof.HostLemmas
import proofs.«108103_j9363028705695_2_alg».proof.Proof.LayerRead
import proofs.«108103_j9363028705695_2_alg».proof.Proof.RegionValue8
import proofs.«108103_j9363028705695_2_alg».proof.Proof.RegionValue9

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx Cert.Gcn Cert.KernelIdeal.Carried

variable (m : (ℓ : Loc nD τ sig) → Buf (Elt Ideal) ℓ) (ρ : Dev nD → PrngReg) (c : Dev nD)

set_option maxHeartbeats 2000000 in
/-- Layer 5: the linear-scale region, the edge sum on the host, the combine region. -/
theorem layer5 (Hp : Fin 100000 → Fin 128 → EReal)
    (hX : ∀ n k, ((W21 m ρ c (Proc.devRef .tc main_v67)) : S100000x128.Idx → EReal) (ix2 n k) = Hp n k)
    (hW : ∀ k j, ((W21 m ρ c (Proc.devRef .tc main_v68)) : S128x128.Idx → EReal) (ix2 k j) = (padCols (mat (m ((c : Thread nD τ).loc main_arg10)))) k j)
    (hBsrc : ∀ j, ((W22 m ρ c (Proc.devRef .tc main_v69)) : S128.Idx → EReal) (ix1 j) = (padVec (vec (m ((c : Thread nD τ).loc main_arg11)))) j)
    (n : Fin 100000) (j : Fin 128) :
    ((W24 m ρ c (Proc.devRef .tc main_v85)) : S100000x128.Idx → EReal) (ix2 n j) = preScaledLayer (graphOf (m ((c : Thread nD τ).loc main_arg1))) id Hp (padCols (mat (m ((c : Thread nD τ).loc main_arg10)))) (padVec (vec (m ((c : Thread nD τ).loc main_arg11)))) n j := by
  have hD : ∀ p, ((W21 m ρ c (Proc.devRef .tc main_v11)) : S100000x1.Idx → EReal) (ix2 p (0 : Fin 1)) = (graphOf (m ((c : Thread nD τ).loc main_arg1))).dinv p := fun p => by
    rw [keep_main_v11_21_12 m ρ c, keep_main_v11_12_10 m ρ c, keep_main_v11_10_9 m ρ c, keep_main_v11_9_7 m ρ c, keep_main_v11_7_6 m ρ c, keep_main_v11_6_4 m ρ c, keep_main_v11_4_3 m ρ c, keep_main_v11_3_1 m ρ c]
    exact dinv_W1 m ρ c p 0
  have hD2 : ∀ p, ((W23 m ρ c (Proc.devRef .tc main_v11)) : S100000x1.Idx → EReal) (ix2 p (0 : Fin 1)) = (graphOf (m ((c : Thread nD τ).loc main_arg1))).dinv p := fun p => by
    rw [keep_main_v11_23_21 m ρ c, keep_main_v11_21_12 m ρ c, keep_main_v11_12_10 m ρ c, keep_main_v11_10_9 m ρ c, keep_main_v11_9_7 m ρ c, keep_main_v11_7_6 m ρ c, keep_main_v11_6_4 m ρ c, keep_main_v11_4_3 m ρ c, keep_main_v11_3_1 m ρ c]
    exact dinv_W1 m ρ c p 0
  have hsrc : ∀ e : Fin 1600000, ((W22 m ρ c (Proc.devRef .tc main_v1)) : S1600000.Idx → BitVec 32) (ix1 e) = (m ((c : Thread nD τ).loc main_arg1)) (ix2 (0 : Fin 2) e) := fun e => by
    rw [keep_main_v1_22_11 m ρ c, keep_main_v1_11_8 m ρ c, keep_main_v1_8_5 m ρ c, keep_main_v1_5_2 m ρ c, keep_main_v1_2_1 m ρ c]
    exact src_W1 m ρ c e
  have hdst : ∀ e : Fin 1600000, ((W22 m ρ c (Proc.devRef .tc main_v3)) : S1600000.Idx → BitVec 32) (ix1 e) = (m ((c : Thread nD τ).loc main_arg1)) (ix2 (1 : Fin 2) e) := fun e => by
    rw [keep_main_v3_22_11 m ρ c, keep_main_v3_11_8 m ρ c, keep_main_v3_8_5 m ρ c, keep_main_v3_5_2 m ρ c, keep_main_v3_2_1 m ρ c]
    exact dst_W1 m ρ c e
  -- the linear-scale region's two outputs
  have e32 : ((W22 m ρ c (Proc.devRef .tc main_v72_0)) : S100000x128.Idx → EReal) = ((dat8 (F := Ideal) (V21 m ρ) c).arrAt 3 cfg8.N : S100000x128.Idx → EReal) := W22_arr m ρ c 3
  have e16 : ((W22 m ρ c (Proc.devRef .tc main_v72_1)) : S100000x128.Idx → EReal) = ((dat8 (F := Ideal) (V21 m ρ) c).arrAt 4 cfg8.N : S100000x128.Idx → EReal) := W22_arr m ρ c 4
  have hs32 : ∀ p q, ((W22 m ρ c (Proc.devRef .tc main_v72_0)) : S100000x128.Idx → EReal) (ix2 p q) = scaled (graphOf (m ((c : Thread nD τ).loc main_arg1))) Hp (padCols (mat (m ((c : Thread nD τ).loc main_arg10)))) p q := fun p q => by
    rw [e32]
    exact (RegionValue.out8_3_apply (V21 m ρ) c p q).trans (LayerRead.scaled_of (graphOf (m ((c : Thread nD τ).loc main_arg1))) _ _ _ Hp (padCols (mat (m ((c : Thread nD τ).loc main_arg10)))) hX hW hD p q)
  have hs16 : ∀ p q, ((W22 m ρ c (Proc.devRef .tc main_v72_1)) : S100000x128.Idx → EReal) (ix2 p q) = scaled (graphOf (m ((c : Thread nD τ).loc main_arg1))) Hp (padCols (mat (m ((c : Thread nD τ).loc main_arg10)))) p q := fun p q => by
    rw [e16]
    exact (RegionValue.out8_4_apply (V21 m ρ) c p q).trans (LayerRead.scaled_of (graphOf (m ((c : Thread nD τ).loc main_arg1))) _ _ _ Hp (padCols (mat (m ((c : Thread nD τ).loc main_arg10)))) hX hW hD p q)
  have hs32' : ∀ p q, ((W23 m ρ c (Proc.devRef .tc main_v72_0)) : S100000x128.Idx → EReal) (ix2 p q) = scaled (graphOf (m ((c : Thread nD τ).loc main_arg1))) Hp (padCols (mat (m ((c : Thread nD τ).loc main_arg10)))) p q := fun p q => by
    rw [keep_main_v72_0_23_22 m ρ c]; exact hs32 p q
  -- the edge sum
  have hagg : ∀ p q, ((W23 m ρ c (Proc.devRef .tc main_v83)) : S100000x128.Idx → EReal) (ix2 p q) = gathered (graphOf (m ((c : Thread nD τ).loc main_arg1))) Hp (padCols (mat (m ((c : Thread nD τ).loc main_arg10)))) p q := fun p q => by
    have h : ((W23 m ρ c (Proc.devRef .tc main_v83)) : S100000x128.Idx → EReal)
        = Host.scatterAdd (F := Ideal) scatter_S100000x128_S1600000x1_S1600000x128_1_0_0_1
            (broadcastInDim S100000x128 ![] Facts₀.bcast_S_S100000x128 (constant (F := Ideal) S_ .f32 0x00000000#32))
            (broadcastInDim S1600000x1 ![0] Facts₀.bcast_S1600000_S1600000x1_0 ((W22 m ρ c (Proc.devRef .tc main_v3)) : S1600000.Idx → BitVec 32))
            (extf (F := Ideal) .f32 (Host.gather gather_S100000x128_S1600000x1_S1600000x128_1_0_n_n_0_1_1128
              ((W22 m ρ c (Proc.devRef .tc main_v72_1)) : FVec Ideal S100000x128 .bf16)
              (broadcastInDim S1600000x1 ![0] Facts₀.bcast_S1600000_S1600000x1_0
                (select (cmpi .slt ((W22 m ρ c (Proc.devRef .tc main_v1)) : S1600000.Idx → BitVec 32) (broadcastInDim S1600000 ![] Facts₀.bcast_S_S1600000 (constantI S_ 32 0#32)))
                  (addi ((W22 m ρ c (Proc.devRef .tc main_v1)) : S1600000.Idx → BitVec 32) (broadcastInDim S1600000 ![] Facts₀.bcast_S_S1600000 (constantI S_ 32 100000#32)))
                  ((W22 m ρ c (Proc.devRef .tc main_v1)) : S1600000.Idx → BitVec 32)))) Facts₀.bitsLt_bf16_f32) := by
      show StableHlo.after hostOps9 (W22 m ρ c) (Proc.devRef .tc main_v83) = _
      after_results
      try rfl
    rw [h]
    exact (HostRead.edgeSum_apply Facts₀.bitsLt_bf16_f32 Facts₀.gather_S100000x128_S1600000x1_S1600000x128_1_0_n_n_0_1_1128_wf
        Facts₀.scatter_S100000x128_S1600000x1_S1600000x128_1_0_0_1_wf Facts₀.bcast_S1600000_S1600000x1_0 Facts₀.bcast_S_S100000x128 Facts₀.bcast_S_S1600000
        _ _ _ p q).trans
      (LayerRead.gathered_of (m ((c : Thread nD τ).loc main_arg1)) _ _ _ Hp (padCols (mat (m ((c : Thread nD τ).loc main_arg10)))) hsrc hdst hs16 p q)
  -- the bias row
  have hB : ∀ q, ((W23 m ρ c (Proc.devRef .tc main_v84)) : S1x128.Idx → EReal) (ix2 (0 : Fin 1) q) = (padVec (vec (m ((c : Thread nD τ).loc main_arg11)))) q := fun q => by
    have h : ((W23 m ρ c (Proc.devRef .tc main_v84)) : S1x128.Idx → EReal) = shapeCast S1x128 ((W22 m ρ c (Proc.devRef .tc main_v69)) : S128.Idx → EReal) Facts₀.shapeCasts_S128_S1x128 := by
      show StableHlo.after hostOps9 (W22 m ρ c) (Proc.devRef .tc main_v84) = _
      after_results
      try rfl
    rw [h, shapeCast_a_1a_apply]
    exact hBsrc q
  -- the combine region
  have eo : ((W24 m ρ c (Proc.devRef .tc main_v85)) : S100000x128.Idx → EReal) = ((dat9 (F := Ideal) (V23 m ρ) c).arrAt 4 cfg9.N : S100000x128.Idx → EReal) := W24_arr m ρ c 4
  rw [eo]
  exact (RegionValue.out9_4_apply (V23 m ρ) c n j).trans
    (LayerRead.layer_of (graphOf (m ((c : Thread nD τ).loc main_arg1))) id _ _ _ _ Hp (padCols (mat (m ((c : Thread nD τ).loc main_arg10)))) (padVec (vec (m ((c : Thread nD τ).loc main_arg11)))) hagg hs32' hD2 hB n j)

end Cert.KernelIdeal.Chain

end
-- ==== Proof.RegionValue10.lean ====
import proofs.«108103_j9363028705695_2_alg».proof.Proof.Gen.KernelIdeal.Frame
import proofs.«108103_j9363028705695_2_alg».proof.Proof.RegionBody
import Idealize.ShloMosaic.Lib.Pipeline.Value
import Idealize.ShloMosaic.Lib.ValueIdx

/-!
# Region 10: linear plus a row

The region runs over 50 row blocks of 2000 rows. At point `t` it reads rows `2000 t … 2000 t + 1999` of
the [100000,128] array `X`, the whole [128,128] matrix `W` and the whole [1,128] row `B`, and writes the
same rows of its output: `X · W` with `B` added to every row. Every row lies in exactly the block of
point `row / 2000`, so after the region the output array is that function of the arrays the region
found at entry, entry by entry.
-/

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The three arrays the region reads, as it finds them. -/
abbrev arrX10 (c : Dev nD) : S100000x128.Idx → EReal := V c (Pipeline.arrRef spec10 0)
abbrev arrW10 (c : Dev nD) : S128x128.Idx → EReal := V c (Pipeline.arrRef spec10 1)
abbrev arrB10 (c : Dev nD) : S1x128.Idx → EReal := V c (Pipeline.arrRef spec10 2)

/-- The printed index maps, decided over the 50 points: the row-tiled windows are at block `(t, 0)`, the
    matrix and the row at block `(0, 0)`. -/
theorem idx10 : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

/-! ## The input blocks are rows of the arrays -/

/-- Window 0's block at point `t`: row `p` of the block is row `2000 t + p` of `X`. -/
theorem iblk10_0_at (c : Dev nD) (t : Fin cfg10.N) (p : Fin 2000) (k : Fin 128) (n : Fin 100000) (hn : n.val = t.val * 2000 + p.val) :
    (iblk10 V c 0 t : S2000x128.Idx → EReal) (ix2 p k) = arrX10 V c (ix2 n k) := by
  obtain ⟨e0, e1, -⟩ := idx10 t
  unfold iblk10
  rw [View.read_apply]
  show V c (Pipeline.arrRef spec10 0) _ = V c (Pipeline.arrRef spec10 0) _
  refine congrArg (V c (Pipeline.arrRef spec10 0)) (funext fun a => Fin.ext ?_)
  match a with
  | ⟨0, _⟩ => show win10_0.index t (0 : Fin 2) * 2000 + 1 * p.val = n.val; rw [e0, hn]; omega
  | ⟨1, _⟩ => show win10_0.index t (1 : Fin 2) * 128 + 1 * k.val = k.val; rw [e1]; omega

/-- Window 1's block at every point is the whole matrix `W`. -/
theorem iblk10_1_at (c : Dev nD) (t : Fin cfg10.N) (k q : Fin 128) :
    (iblk10 V c 1 t : S128x128.Idx → EReal) (ix2 k q) = arrW10 V c (ix2 k q) := by
  obtain ⟨_, _, e0, e1, -⟩ := idx10 t
  unfold iblk10
  rw [View.read_apply]
  show V c (Pipeline.arrRef spec10 1) _ = V c (Pipeline.arrRef spec10 1) _
  refine congrArg (V c (Pipeline.arrRef spec10 1)) (funext fun a => Fin.ext ?_)
  match a with
  | ⟨0, _⟩ => show win10_1.index t (0 : Fin 2) * 128 + 1 * k.val = k.val; rw [e0]; omega
  | ⟨1, _⟩ => show win10_1.index t (1 : Fin 2) * 128 + 1 * q.val = q.val; rw [e1]; omega

/-- Window 2's block at every point is the whole row `B`. -/
theorem iblk10_2_at (c : Dev nD) (t : Fin cfg10.N) (q : Fin 128) :
    (iblk10 V c 2 t : S1x128.Idx → EReal) (ix2 (0 : Fin 1) q) = arrB10 V c (ix2 (0 : Fin 1) q) := by
  obtain ⟨_, _, _, _, e0, e1, -⟩ := idx10 t
  unfold iblk10
  rw [View.read_apply]
  show V c (Pipeline.arrRef spec10 2) _ = V c (Pipeline.arrRef spec10 2) _
  refine congrArg (V c (Pipeline.arrRef spec10 2)) (funext fun a => Fin.ext ?_)
  match a with
  | ⟨0, _⟩ => show win10_2.index t (0 : Fin 2) * 1 + 1 * 0 = 0; rw [e0]
  | ⟨1, _⟩ => show win10_2.index t (1 : Fin 2) * 128 + 1 * q.val = q.val; rw [e1]; omega

/-! ## Output window 3 -/

/-- Point `t`'s block of window 3, element `(p, q)`, sits in the array at row `2000 t + p`, lane `q`. -/
theorem emb10_3 (t : Fin cfg10.N) (p : Fin 2000) (q : Fin 128) :
    ((((cfg10.win 3).blk t).view.emb (ix2 p q)) 0).val = t.val * 2000 + p.val
      ∧ ((((cfg10.win 3).blk t).view.emb (ix2 p q)) 1).val = q.val := by
  obtain ⟨_, _, _, _, _, _, e30, e31⟩ := idx10 t
  constructor
  · show win10_3.index t (0 : Fin 2) * 2000 + 1 * p.val = _
    rw [e30]; omega
  · show win10_3.index t (1 : Fin 2) * 128 + 1 * q.val = _
    rw [e31]; omega

/-- What point `t` writes back to window 3 is its block of the region's array. -/
theorem flushed10_3_eq (c : Dev nD) (t : Fin cfg10.N) :
    (dat10 (F := Ideal) V c).flushed 3 t
      = ((cfg10.win 3).blk t).view.read (Elt Ideal) (linBiasArr (arrX10 V c) (arrW10 V c) (arrB10 V c)) := by
  show (cfg10.win 3).cut (grid10.coords t) ((dat10 V c).after 3 t) = _
  rw [after10_3]
  unfold out10_3
  rw [View.canon_unit_zero hz]
  simp only [View.ld_unit_zero (S := S2000x128) hz, View.ld_unit_zero (S := S128x128) hz, View.ld_unit_zero (S := S1x128) hz]
  refine funext fun (y : S2000x128.Idx) => ?_
  obtain ⟨p, q, rfl⟩ : ∃ (p : Fin 2000) (q : Fin 128), y = ix2 p q := ⟨y 0, y 1, eq_ix2 y⟩
  have hN : grid10.N = 50 := N_10
  have ht : t.val < 50 := by have h : t.val < grid10.N := t.isLt; omega
  obtain ⟨n, hn⟩ : ∃ n : Fin 100000, n.val = t.val * 2000 + p.val :=
    ⟨⟨t.val * 2000 + p.val, by have := p.isLt; omega⟩, rfl⟩
  obtain ⟨he0, he1⟩ := emb10_3 t p q
  show k10_pay1 (iblk10 V c 0 t) (iblk10 V c 1 t) (iblk10 V c 2 t) (ix2 p q)
    = linBiasArr (arrX10 V c) (arrW10 V c) (arrB10 V c) (((cfg10.win 3).blk t).view.emb (ix2 p q))
  rw [linBiasArr_at (arrX10 V c) (arrW10 V c) (arrB10 V c) _ n q (he0.trans hn.symm) he1]
  refine (k10_pay1_at (iblk10 V c 0 t) (iblk10 V c 1 t) (iblk10 V c 2 t) p q).trans ?_
  rw [iblk10_2_at V c t q]
  refine congrArg (· + arrB10 V c (ix2 (0 : Fin 1) q)) (Finset.sum_congr rfl fun k _ => ?_)
  rw [iblk10_0_at V c t p k n hn, iblk10_1_at V c t k q]

/-- An index of the array is in point `t`'s block iff each coordinate is in the block's range on its axis. -/
theorem mem_blk10_3 (t : Fin cfg10.N) (i : S100000x128.Idx) :
    i ∈ ((cfg10.win 3).blk t).view.set ↔ ∀ a : Fin 2, win10_3.index t a * S2000x128.size a ≤ (i a).val ∧ (i a).val < win10_3.index t a * S2000x128.size a + S2000x128.size a := by
  show i ∈ ((View.whole main_v87).slice (win10_3.rect t)).set ↔ _
  rw [View.set_slice_whole, Rect.mem_set_unit]
  exact Iff.rfl

/-- Row `r` of the array lies in the block of point `r / 2000`, which is written back. -/
theorem covered10_3 (i : S100000x128.Idx) :
    ∃ t : Fin cfg10.N, (cfg10.win 3).flush t = true ∧ i ∈ ((cfg10.win 3).blk t).view.set := by
  have hi0 : (i 0).val < 100000 := (i 0).isLt
  have hi1 : (i 1).val < 128 := (i 1).isLt
  have hN : grid10.N = 50 := N_10
  obtain ⟨t, ht⟩ : ∃ t : Fin cfg10.N, t.val = (i 0).val / 2000 := ⟨⟨(i 0).val / 2000, by show _ < grid10.N; omega⟩, rfl⟩
  obtain ⟨_, _, _, _, _, _, e30, e31⟩ := idx10 t
  refine ⟨t, flush10_3 t, ?_⟩
  rw [mem_blk10_3]
  intro a
  match a with
  | ⟨0, _⟩ =>
    show win10_3.index t (0 : Fin 2) * 2000 ≤ (i 0).val ∧ (i 0).val < win10_3.index t (0 : Fin 2) * 2000 + 2000
    rw [e30, ht]; omega
  | ⟨1, _⟩ =>
    show win10_3.index t (1 : Fin 2) * 128 ≤ (i 1).val ∧ (i 1).val < win10_3.index t (1 : Fin 2) * 128 + 128
    rw [e31]; omega

/-- So after the region window 3's array is the region's function of the arrays it found. -/
theorem final10_3 (c : Dev nD) :
    (dat10 (F := Ideal) V c).arrAt 3 cfg10.N = linBiasArr (arrX10 V c) (arrW10 V c) (arrB10 V c) :=
  (dat10 (F := Ideal) V c).arrAt_eq_of_cover 3 (linBiasArr (arrX10 V c) (arrW10 V c) (arrB10 V c))
    (fun t _ => flushed10_3_eq V c t) covered10_3

/-- Entry `(n, j)` of window 3's array after the region. -/
theorem out10_3_apply (c : Dev nD) (n : Fin 100000) (j : Fin 128) :
    ((dat10 (F := Ideal) V c).arrAt 3 cfg10.N : S100000x128.Idx → EReal) (ix2 n j)
      = (∑ k : Fin 128, arrX10 V c (ix2 n k) * arrW10 V c (ix2 k j)) + arrB10 V c (ix2 (0 : Fin 1) j) := by
  rw [final10_3 V c]
  exact linBiasArr_at (arrX10 V c) (arrW10 V c) (arrB10 V c) (ix2 n j) n j rfl rfl

end Cert.KernelIdeal.RegionValue

end
-- ==== Proof.KFinal.lean ====
/-
  The idealized kernel's result as one function of its arguments.

  The five layers are chained (each finds the previous one's activations), the last one on the weights and bias widened
  to 128 columns; the final region forms the widened linear map; the last host operation keeps the first 100 columns.
  Entry by entry that is the widened network of the specification, whose first 100 columns are the network itself. So
  every execution of the idealized kernel ends with the result array equal to the network of the argument arrays.
-/
import proofs.«108103_j9363028705695_2_alg».proof.Proof.Gen.KernelIdeal.Frame
import proofs.«108103_j9363028705695_2_alg».proof.Proof.KRun
import proofs.«108103_j9363028705695_2_alg».proof.Proof.KWalk
import proofs.«108103_j9363028705695_2_alg».proof.Proof.KPads
import proofs.«108103_j9363028705695_2_alg».proof.Proof.KLayer1
import proofs.«108103_j9363028705695_2_alg».proof.Proof.KLayer2
import proofs.«108103_j9363028705695_2_alg».proof.Proof.KLayer3
import proofs.«108103_j9363028705695_2_alg».proof.Proof.KLayer4
import proofs.«108103_j9363028705695_2_alg».proof.Proof.KLayer5
import proofs.«108103_j9363028705695_2_alg».proof.Proof.LayerRead
import proofs.«108103_j9363028705695_2_alg».proof.Proof.PadLemmas
import proofs.«108103_j9363028705695_2_alg».proof.Proof.RegionValue10

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx Cert.Gcn Cert.KernelIdeal.Carried

variable (m : (ℓ : Loc nD τ sig) → Buf (Elt Ideal) ℓ) (ρ : Dev nD → PrngReg) (c : Dev nD)

/-- The activations after the four hidden layers. -/
theorem hidden_W13 (n : Fin 100000) (k : Fin 128) :
    ((W13 m ρ c (Proc.devRef .tc main_v67)) : S100000x128.Idx → EReal) (ix2 n k) = kerHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) n k := by
  unfold kerHidden
  exact layer4 m ρ c _ (fun n k => layer3 m ρ c _ (fun n k => layer2 m ρ c _ (fun n k => layer1 m ρ c _
    (fun n k => by rw [keep_main_arg0_1_0 m ρ c]; rfl) n k) n k) n k) n k

/-- The fifth layer, on the widened weights and bias. -/
theorem wide_W24 (n : Fin 100000) (j : Fin 128) :
    ((W24 m ρ c (Proc.devRef .tc main_v85)) : S100000x128.Idx → EReal) (ix2 n j) = kerWideLayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) n j := by
  unfold kerWideLayer
  exact layer5 m ρ c _
    (fun n k => by rw [keep_main_v67_21_13 m ρ c]; exact hidden_W13 m ρ c n k)
    (fun k j => by rw [keep_main_v68_21_15 m ρ c]; exact pad_v68 m ρ c k j)
    (fun j => by rw [keep_main_v69_22_17 m ρ c]; exact pad_v69 m ρ c j) n j

set_option maxHeartbeats 1000000 in
/-- The final region: the widened linear map. -/
theorem out_W26 (n : Fin 100000) (j : Fin 128) :
    ((W26 m ρ c (Proc.devRef .tc main_v87)) : S100000x128.Idx → EReal) (ix2 n j) = kerWide (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) n j := by
  have hX : ∀ n k, ((W25 m ρ c (Proc.devRef .tc main_v85)) : S100000x128.Idx → EReal) (ix2 n k) = kerWideLayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) n k := fun n k => by
    rw [keep_main_v85_25_24 m ρ c]; exact wide_W24 m ρ c n k
  have hW : ∀ k j, ((W25 m ρ c (Proc.devRef .tc main_v70)) : S128x128.Idx → EReal) (ix2 k j) = padBoth (mat (m ((c : Thread nD τ).loc main_arg12))) k j := fun k j => by
    rw [keep_main_v70_25_19 m ρ c]; exact pad_v70 m ρ c k j
  have hB : ∀ j, ((W25 m ρ c (Proc.devRef .tc main_v86)) : S1x128.Idx → EReal) (ix2 (0 : Fin 1) j) = padVec (vec (m ((c : Thread nD τ).loc main_arg13))) j := fun j => by
    have h : ((W25 m ρ c (Proc.devRef .tc main_v86)) : S1x128.Idx → EReal) = shapeCast S1x128 ((W24 m ρ c (Proc.devRef .tc main_v71)) : S128.Idx → EReal) Facts₀.shapeCasts_S128_S1x128 := by
      show StableHlo.after hostOps10 (W24 m ρ c) (Proc.devRef .tc main_v86) = _
      after_results
      try rfl
    rw [h, shapeCast_a_1a_apply, keep_main_v71_24_21 m ρ c]
    exact pad_v71 m ρ c j
  have eo : ((W26 m ρ c (Proc.devRef .tc main_v87)) : S100000x128.Idx → EReal) = ((dat10 (F := Ideal) (V25 m ρ) c).arrAt 3 cfg10.N : S100000x128.Idx → EReal) := W26_arr m ρ c 3
  rw [eo]
  unfold kerWide
  exact (RegionValue.out10_3_apply (V25 m ρ) c n j).trans
    (LayerRead.wideFinal_of _ _ _ (kerWideLayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (mat (m ((c : Thread nD τ).loc main_arg12))) (vec (m ((c : Thread nD τ).loc main_arg13))) hX hW hB n j)

/-- The result array, entry by entry: the network of the argument arrays. -/
theorem result_apply (n : Fin 100000) (j : Fin 100) :
    ((W27 m ρ c (Proc.devRef .tc main_v88)) : S100000x100.Idx → EReal) (ix2 n j) = refNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (ix2 n j) := by
  have h : ((W27 m ρ c (Proc.devRef .tc main_v88)) : S100000x100.Idx → EReal)
      = extractStridedSlice S100000x100 ![0, 0] ((W26 m ρ c (Proc.devRef .tc main_v87)) : S100000x128.Idx → EReal) Facts₀.slices_S100000x128_S100000x100_0_0 := by
    show StableHlo.after hostOps11 (W26 m ρ c) (Proc.devRef .tc main_v88) = _
    after_results
    try rfl
  rw [h, PadRead.firstCols_apply, out_W26 m ρ c n]
  exact kerWide_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) n j _ rfl

/-- The result array is the network of the argument arrays. -/
theorem result_W27 : ((W27 m ρ c (Proc.devRef .tc main_v88)) : S100000x100.Idx → EReal) = refNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  funext fun i => (congrArg ((W27 m ρ c (Proc.devRef .tc main_v88)) : S100000x100.Idx → EReal) (eq_ix2 i)).trans
    ((result_apply m ρ c (i 0) (i 1)).trans (congrArg (refNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (eq_ix2 i)).symm)

omit c in
/-- Every weakly fair execution of the idealized kernel terminates, nothing faulting, with the result array at the
    network of the argument arrays and the argument arrays as launched. -/
theorem run : θ_run defs (onTc (τ := τ) (main (F := Ideal))) ⟨m, fun _ => 0, ρ⟩ (fun r => ∀ c : Dev nD,
      r.2.mem ((c.tc : Thread nD τ).loc main_v88) = refNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (result_W27 m ρ c), (h c).2⟩) (Cert.KernelIdeal.ValueRun.run_main m ρ)

end Cert.KernelIdeal.Chain

end
-- ==== Proof.RefIdx.lean ====
/-
  Two indices of a rank-1 or rank-2 shape are equal when their coordinates are equal as natural numbers.
-/
import Idealize.ShloMosaic.Lib.ValueIdx

namespace Cert.ReferenceIdeal.RefValue

open Idealize.ShloMosaic

/-- Rank 1: one coordinate. -/
theorem idx1_ext {n : Nat} (i k : (⟨1, ![n]⟩ : Shape).Idx) (h : (i 0).val = (k 0).val) : i = k := by
  funext a
  match a with
  | ⟨0, _⟩ => exact Fin.ext h

/-- Rank 2: two coordinates. -/
theorem idx2_ext {a b : Nat} (i k : (⟨2, ![a, b]⟩ : Shape).Idx) (h0 : (i 0).val = (k 0).val) (h1 : (i 1).val = (k 1).val) :
    i = k := by
  funext d
  match d with
  | ⟨0, _⟩ => exact Fin.ext h0
  | ⟨1, _⟩ => exact Fin.ext h1

end Cert.ReferenceIdeal.RefValue
-- ==== Proof.RefGraph.lean ====
/-
  The reference program's graph data, read at an index.

  Everything here is a function of the edge array `x1 : [2, 1600000]` alone. Row 0 holds each edge's source word, row 1 its
  destination word. The program forms, once per layer but always by the same operations,
    • the column of source words wrapped for reading (`w + 100000` when `w` is negative), used to gather rows;
    • the column of raw destination words, under which messages are accumulated;
    • per node the factor `dinv = rsqrt((0 + Σ_{e → n} 1) + 1)`;
    • per edge the weight `dinv(src e) · dinv(dst e)`, both factors gathered at the wrapped, clamped word, and the same weight
      repeated along every column;
    • per node the weight `dinv n · dinv n` repeated along every column.
  Each is identified here with the corresponding field of the graph read off `x1`.
-/
import proofs.«108103_j9363028705695_2_alg».proof.Proof.GraphOf
import proofs.«108103_j9363028705695_2_alg».proof.Proof.LibVecScatter
import proofs.«108103_j9363028705695_2_alg».proof.Proof.Gen.ReferenceIdeal.Read
import proofs.«108103_j9363028705695_2_alg».proof.Proof.RefIdx

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.ValueIdx Cert.RowGatherScatter Cert.VecScatter Cert.Gcn

variable (x1 : (⟨S2x1600000, .i32⟩ : BufTy).Contents (Elt Ideal))

/-! ## The two rows of the edge array -/

/-- Entry `e` of the source vector is entry `(0, e)` of the edge array. -/
theorem srcWord (e : Fin 1600000) : val_main_v1 (F := Ideal) x1 (ix1 e) = x1 (ix2 (0 : Fin 2) e) := by
  rw [val_main_v1_apply, val_main_v0_apply]
  exact congrArg x1 (idx2_ext _ _ rfl (Nat.mod_eq_of_lt e.isLt))

/-- Entry `e` of the destination vector is entry `(1, e)` of the edge array. -/
theorem dstWord (e : Fin 1600000) : val_main_v3 (F := Ideal) x1 (ix1 e) = x1 (ix2 (1 : Fin 2) e) := by
  rw [val_main_v3_apply, val_main_v2_apply]
  exact congrArg x1 (idx2_ext _ _ rfl (Nat.mod_eq_of_lt e.isLt))

/-! ## The index columns -/

/-- The column of wrapped source words. -/
theorem srcCol (e : Fin 1600000) (u : Fin 1) :
    val_main_v17 (F := Ideal) x1 (ix2 e u) = wrapWord (x1 (ix2 (0 : Fin 2) e)) := by
  have hi : idx_main_v17 (ix2 e u) = ix1 e := idx1_ext _ _ rfl
  rw [val_main_v17_apply, hi, val_main_v16_apply, val_main_v13_apply, val_main_v15_apply, val_main_v12_apply,
    val_main_v14_apply, val_main_c_apply, val_main_c_2_apply, srcWord]
  rfl

/-- The column of wrapped destination words. -/
theorem dstCol (e : Fin 1600000) (u : Fin 1) :
    val_main_v31 (F := Ideal) x1 (ix2 e u) = wrapWord (x1 (ix2 (1 : Fin 2) e)) := by
  have hi : idx_main_v31 (ix2 e u) = ix1 e := idx1_ext _ _ rfl
  rw [val_main_v31_apply, hi, val_main_v30_apply, val_main_v27_apply, val_main_v29_apply, val_main_v26_apply,
    val_main_v28_apply, val_main_c_5_apply, val_main_c_6_apply, dstWord]
  rfl

/-- The column of raw destination words. -/
theorem rawDstCol (e : Fin 1600000) (u : Fin 1) :
    val_main_v38 (F := Ideal) x1 (ix2 e u) = x1 (ix2 (1 : Fin 2) e) := by
  have hi : idx_main_v38 (ix2 e u) = ix1 e := idx1_ext _ _ rfl
  rw [val_main_v38_apply, hi, dstWord]

/-- The row the wrapped source word of edge `e` selects is the graph's source row. -/
theorem srcRow_read (e : Fin 1600000) (u : Fin 1) :
    clampRow 100000 (by norm_num) (val_main_v17 (F := Ideal) x1 (ix2 e u)) = (graphOf x1).srcRow e := by
  rw [srcCol, graphOf_srcRow]
  rfl

/-- The row the wrapped destination word of edge `e` selects is the graph's destination row. -/
theorem dstRow_read (e : Fin 1600000) (u : Fin 1) :
    clampRow 100000 (by norm_num) (val_main_v31 (F := Ideal) x1 (ix2 e u)) = (graphOf x1).dstRow e := by
  rw [dstCol, graphOf_dstRow]
  rfl

/-- The edges whose raw destination word, read signed, is `n` are the graph's edges into `n`. -/
theorem inEdges_read (n : Fin 100000) :
    Finset.univ.filter (fun e : Fin 1600000 => (val_main_v38 (F := Ideal) x1 (ix2 e (0 : Fin 1))).toInt = (n.val : ℤ))
      = (graphOf x1).inEdges n := by
  rw [graphOf_inEdges]
  exact Finset.filter_congr fun e _ => by rw [rawDstCol]

/-! ## The per-node factor -/

/-- The degree count is a scatter-add of ones into zeros at the raw destination column. -/
theorem degShape : val_main_v7 (F := Ideal) x1
    = Ideal.hostScatterAdd (vecScatterDims 100000 1600000 scatter_S100000_S1600000x1_S1600000_n_0_0_1_wf)
        (val_main_v5 (F := Ideal)) (val_main_v6 (F := Ideal) x1) (val_main_v4 (F := Ideal)) := rfl

theorem degCol (e : Fin 1600000) (u : Fin 1) : val_main_v6 (F := Ideal) x1 (ix2 e u) = x1 (ix2 (1 : Fin 2) e) := by
  have hi : idx_main_v6 (ix2 e u) = ix1 e := idx1_ext _ _ rfl
  rw [val_main_v6_apply, hi, dstWord]

theorem degEdges (n : Fin 100000) :
    Finset.univ.filter (fun e : Fin 1600000 => (val_main_v6 (F := Ideal) x1 (ix2 e (0 : Fin 1))).toInt = (n.val : ℤ))
      = (graphOf x1).inEdges n := by
  rw [graphOf_inEdges]
  exact Finset.filter_congr fun e _ => by rw [degCol]

/-- The number of edges into `n`, counted from zero in ones. -/
theorem degSum (n : Fin 100000) :
    val_main_v7 (F := Ideal) x1 (ix1 n) = 0 + ∑ _e ∈ (graphOf x1).inEdges n, Ideal.ofBits .f32 0x3F800000#32 := by
  have h4 : ∀ e : Fin 1600000, val_main_v4 (F := Ideal) (ix1 e) = Ideal.ofBits .f32 0x3F800000#32 := fun e => by
    rw [val_main_v4_apply, val_main_cst_apply]; rfl
  have h5 : val_main_v5 (F := Ideal) (ix1 n) = 0 := by
    rw [val_main_v5_apply, val_main_cst_0_apply]; exact Ideal.ofBits_zero_f32
  rw [degShape, vecScatterAdd_apply, degEdges, h5]
  exact congrArg (0 + ·) (Finset.sum_congr rfl fun e _ => h4 e)

/-- `dinv` of the program is `dinv` of the graph of `x1`. -/
theorem dinv_read (n : Fin 100000) : val_main_v10 (F := Ideal) x1 (ix1 n) = (graphOf x1).dinv n := by
  have h8 : val_main_v8 (F := Ideal) (ix1 n) = Ideal.ofBits .f32 0x3F800000#32 := by
    rw [val_main_v8_apply, val_main_cst_1_apply]; rfl
  rw [val_main_v10_apply, val_main_v9_apply, degSum, h8, Ideal.hostUnary_rsqrt_def, graphOf_dinv]
  rfl

/-! ## The per-edge and per-node weights -/

theorem dinvSrcShape : val_main_v25 (F := Ideal) x1
    = Host.gather (vecGatherDims 100000 1600000 gather_S100000_S1600000x1_S1600000_n_0_n_n_0_1_1_wf)
        (val_main_v10 (F := Ideal) x1) (val_main_v17 (F := Ideal) x1) := rfl

theorem dinvDstShape : val_main_v32 (F := Ideal) x1
    = Host.gather (vecGatherDims 100000 1600000 gather_S100000_S1600000x1_S1600000_n_0_n_n_0_1_1_wf)
        (val_main_v10 (F := Ideal) x1) (val_main_v31 (F := Ideal) x1) := rfl

/-- `dinv` gathered at the wrapped source word. -/
theorem dinvSrc (e : Fin 1600000) : val_main_v25 (F := Ideal) x1 (ix1 e) = (graphOf x1).dinv ((graphOf x1).srcRow e) := by
  rw [dinvSrcShape, vecGather_apply (by norm_num), srcRow_read, dinv_read]

/-- `dinv` gathered at the wrapped destination word. -/
theorem dinvDst (e : Fin 1600000) : val_main_v32 (F := Ideal) x1 (ix1 e) = (graphOf x1).dinv ((graphOf x1).dstRow e) := by
  rw [dinvDstShape, vecGather_apply (by norm_num), dstRow_read, dinv_read]

/-- The weight of edge `e`. -/
theorem edgeWeight (e : Fin 1600000) :
    val_main_v33 (F := Ideal) x1 (ix1 e) = (graphOf x1).dinv ((graphOf x1).srcRow e) * (graphOf x1).dinv ((graphOf x1).dstRow e) := by
  rw [val_main_v33_apply, dinvSrc, dinvDst]
  rfl

/-- The weight of edge `e`, as a one-column matrix. -/
theorem edgeWeightCol (e : Fin 1600000) (u : Fin 1) :
    val_main_v34 (F := Ideal) x1 (ix2 e u) = (graphOf x1).dinv ((graphOf x1).srcRow e) * (graphOf x1).dinv ((graphOf x1).dstRow e) := by
  have hi : idx_main_v34 (ix2 e u) = ix1 e := idx1_ext _ _ rfl
  rw [val_main_v34_apply, hi, edgeWeight]

/-- The weight of edge `e` along 128 columns. -/
theorem edgeWeight128 (e : Fin 1600000) (j : Fin 128) :
    val_main_v35 (F := Ideal) x1 (ix2 e j) = (graphOf x1).dinv ((graphOf x1).srcRow e) * (graphOf x1).dinv ((graphOf x1).dstRow e) := by
  have hi : idx_main_v35 (ix2 e j) = ix2 e (0 : Fin 1) := idx2_ext _ _ rfl rfl
  rw [val_main_v35_apply, hi, edgeWeightCol]

/-- The weight of edge `e` along 100 columns. -/
theorem edgeWeight100 (e : Fin 1600000) (j : Fin 100) :
    val_main_v184 (F := Ideal) x1 (ix2 e j) = (graphOf x1).dinv ((graphOf x1).srcRow e) * (graphOf x1).dinv ((graphOf x1).dstRow e) := by
  have hi : idx_main_v184 (ix2 e j) = ix2 e (0 : Fin 1) := idx2_ext _ _ rfl rfl
  rw [val_main_v184_apply, hi, show val_main_v183 (F := Ideal) x1 = val_main_v34 (F := Ideal) x1 from rfl, edgeWeightCol]

/-- The weight of node `n` on itself, as a one-column matrix. -/
theorem selfWeightCol (n : Fin 100000) (u : Fin 1) :
    val_main_v41 (F := Ideal) x1 (ix2 n u) = (graphOf x1).dinv n * (graphOf x1).dinv n := by
  have hi : idx_main_v41 (ix2 n u) = ix1 n := idx1_ext _ _ rfl
  rw [val_main_v41_apply, hi, val_main_v40_apply, dinv_read]
  rfl

/-- The weight of node `n` on itself along 128 columns. -/
theorem selfWeight128 (n : Fin 100000) (j : Fin 128) :
    val_main_v42 (F := Ideal) x1 (ix2 n j) = (graphOf x1).dinv n * (graphOf x1).dinv n := by
  have hi : idx_main_v42 (ix2 n j) = ix2 n (0 : Fin 1) := idx2_ext _ _ rfl rfl
  rw [val_main_v42_apply, hi, selfWeightCol]

/-- The weight of node `n` on itself along 100 columns. -/
theorem selfWeight100 (n : Fin 100000) (j : Fin 100) :
    val_main_v191 (F := Ideal) x1 (ix2 n j) = (graphOf x1).dinv n * (graphOf x1).dinv n := by
  have hi : idx_main_v191 (ix2 n j) = ix2 n (0 : Fin 1) := idx2_ext _ _ rfl rfl
  rw [val_main_v191_apply, hi, show val_main_v190 (F := Ideal) x1 = val_main_v41 (F := Ideal) x1 from rfl, selfWeightCol]

end Cert.ReferenceIdeal.RefValue

end
-- ==== Proof.RefLayer.lean ====
/-
  One graph-convolution layer of the reference program, read at an index.

  A layer takes the product `P = H·W : [100000, C]` and forms
    `(scatterAdd(Z, dst, gather(P, src) ⊙ wE) + P ⊙ wN) + B`
  with `src` the column of wrapped source words, `dst` the column of raw destination words, `wE` the per-edge weight
  repeated along the columns, `Z` the all-zero array, `wN` the per-node weight repeated along the columns and `B` the bias
  repeated along the rows. Entry `(e, j)` of the gathered rows is `P(row(src e), j)`, and the scatter-add sums, into
  `(n, j)`, entry `(e, j)` of every row `e` whose destination word read signed is `n`. So entry `(n, j)` of the layer is
    `((0 + Σ_{e → n} P(src e, j) · w(e)) + P(n, j) · w(n)) + b j`,
  which is the edge-weighted layer of the graph once `P(p, q)` is the matrix product `Σ_k H(p, k) · W(k, q)`.
-/
import proofs.«108103_j9363028705695_2_alg».proof.Proof.RefGraph
import proofs.«108103_j9363028705695_2_alg».proof.Proof.Net

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.ValueIdx Cert.RowGatherScatter Cert.Gcn

/-- The layer's operations, applied to arbitrary arrays. -/
def conv {C : ℕ}
    (wfg : GatherDims.WF ⟨2, ![100000, C]⟩ ⟨2, ![1600000, 1]⟩ ⟨2, ![1600000, C]⟩ [1] [0] [] [0] [] 1 ![1, C])
    (wfs : ScatterDims.WF ⟨2, ![100000, C]⟩ ⟨2, ![1600000, 1]⟩ ⟨2, ![1600000, C]⟩ [1] [0] [0] 1)
    (P : FVec Ideal ⟨2, ![100000, C]⟩ .f32) (srcC dstC : IVec ⟨2, ![1600000, 1]⟩ 32)
    (wE : FVec Ideal ⟨2, ![1600000, C]⟩ .f32) (Z wN B : FVec Ideal ⟨2, ![100000, C]⟩ .f32) :
    FVec Ideal ⟨2, ![100000, C]⟩ .f32 :=
  addf (addf (Host.scatterAdd (rowScatterDims 100000 1600000 C wfs) Z dstC
    (mulf (Host.gather (rowGatherDims 100000 1600000 C wfg) P srcC) wE)) (mulf P wN)) B

/-- The layer read at `(n, j)`. -/
theorem conv_read {C : ℕ}
    (wfg : GatherDims.WF ⟨2, ![100000, C]⟩ ⟨2, ![1600000, 1]⟩ ⟨2, ![1600000, C]⟩ [1] [0] [] [0] [] 1 ![1, C])
    (wfs : ScatterDims.WF ⟨2, ![100000, C]⟩ ⟨2, ![1600000, 1]⟩ ⟨2, ![1600000, C]⟩ [1] [0] [0] 1)
    (P : FVec Ideal ⟨2, ![100000, C]⟩ .f32) (srcC dstC : IVec ⟨2, ![1600000, 1]⟩ 32)
    (wE : FVec Ideal ⟨2, ![1600000, C]⟩ .f32) (Z wN B : FVec Ideal ⟨2, ![100000, C]⟩ .f32)
    (n : Fin 100000) (j : Fin C) :
    conv wfg wfs P srcC dstC wE Z wN B (ix2 n j)
      = ((Z (ix2 n j) + ∑ e ∈ Finset.univ.filter (fun e : Fin 1600000 => (dstC (ix2 e (0 : Fin 1))).toInt = (n.val : Int)),
            P (ix2 (clampRow 100000 (by norm_num) (srcC (ix2 e (0 : Fin 1)))) j) * wE (ix2 e j))
          + P (ix2 n j) * wN (ix2 n j)) + B (ix2 n j) := by
  have hS := rowScatterAdd_apply wfs dstC Z (mulf (Host.gather (rowGatherDims 100000 1600000 C wfg) P srcC) wE) n j
  have hG : ∀ e : Fin 1600000, mulf (Host.gather (rowGatherDims 100000 1600000 C wfg) P srcC) wE (ix2 e j)
      = P (ix2 (clampRow 100000 (by norm_num) (srcC (ix2 e (0 : Fin 1)))) j) * wE (ix2 e j) := fun e =>
    congrArg (· * wE (ix2 e j)) (rowGather_apply (by norm_num) wfg P srcC e j)
  simp only [hG] at hS
  exact congrArg (· + B (ix2 n j)) (congrArg (· + P (ix2 n j) * wN (ix2 n j)) hS)

/-- A sum of products over a contracted axis, the operands read where the product's index maps say, is an entry of
    the matrix product. -/
theorem lin_of_sum {K C : ℕ} (A : (⟨2, ![100000, K]⟩ : Shape).Idx → EReal) (Wm : (⟨2, ![K, C]⟩ : Shape).Idx → EReal)
    (H : Fin 100000 → Fin K → EReal) (hA : ∀ p k, A (ix2 p k) = H p k)
    (li : Fin K → (⟨2, ![100000, K]⟩ : Shape).Idx) (ri : Fin K → (⟨2, ![K, C]⟩ : Shape).Idx) (p : Fin 100000) (q : Fin C)
    (hl0 : ∀ k, (li k 0).val = p.val) (hl1 : ∀ k, (li k 1).val = k.val)
    (hr0 : ∀ k, (ri k 0).val = k.val) (hr1 : ∀ k, (ri k 1).val = q.val) :
    ∑ k : Fin K, A (li k) * Wm (ri k) = lin H (mat Wm) p q := by
  unfold lin mat
  refine Finset.sum_congr rfl fun k _ => ?_
  rw [show li k = ix2 p k from idx2_ext _ _ (hl0 k) (hl1 k), show ri k = ix2 k q from idx2_ext _ _ (hr0 k) (hr1 k), hA]

/-- A layer without activation, written out. -/
theorem edgeWeightedLayer_id {C : ℕ} (g : Graph) (X : Fin 100000 → Fin 128 → EReal) (W : Fin 128 → Fin C → EReal) (b : Fin C → EReal)
    (n : Fin 100000) (j : Fin C) :
    edgeWeightedLayer g id X W b n j
      = ((0 + ∑ e ∈ g.inEdges n, lin X W (g.srcRow e) j * (g.dinv (g.srcRow e) * g.dinv (g.dstRow e)))
          + lin X W n j * (g.dinv n * g.dinv n)) + b j := by
  unfold edgeWeightedLayer
  exact id_eq _

/-- A layer followed by `max · 0` is the layer with that activation. -/
theorem edgeWeightedLayer_relu {C : ℕ} (g : Graph) (X : Fin 100000 → Fin 128 → EReal) (W : Fin 128 → Fin C → EReal) (b : Fin C → EReal)
    (n : Fin 100000) (j : Fin C) :
    edgeWeightedLayer g relu X W b n j = max (edgeWeightedLayer g id X W b n j) 0 := by
  unfold edgeWeightedLayer relu
  rw [id_eq]

variable (x1 : (⟨S2x1600000, .i32⟩ : BufTy).Contents (Elt Ideal))

/-- A layer over the program's own index columns, its other operands described entry by entry, is the edge-weighted
    layer of the graph of `x1`. -/
theorem layer_read {C : ℕ}
    (wfg : GatherDims.WF ⟨2, ![100000, C]⟩ ⟨2, ![1600000, 1]⟩ ⟨2, ![1600000, C]⟩ [1] [0] [] [0] [] 1 ![1, C])
    (wfs : ScatterDims.WF ⟨2, ![100000, C]⟩ ⟨2, ![1600000, 1]⟩ ⟨2, ![1600000, C]⟩ [1] [0] [0] 1)
    (P : FVec Ideal ⟨2, ![100000, C]⟩ .f32) (wE : FVec Ideal ⟨2, ![1600000, C]⟩ .f32) (Z wN B : FVec Ideal ⟨2, ![100000, C]⟩ .f32)
    (X : Fin 100000 → Fin 128 → EReal) (W : Fin 128 → Fin C → EReal) (b : Fin C → EReal)
    (hP : ∀ p q, P (ix2 p q) = lin X W p q)
    (hwE : ∀ e q, wE (ix2 e q) = (graphOf x1).dinv ((graphOf x1).srcRow e) * (graphOf x1).dinv ((graphOf x1).dstRow e))
    (hZ : ∀ p q, Z (ix2 p q) = 0)
    (hwN : ∀ p q, wN (ix2 p q) = (graphOf x1).dinv p * (graphOf x1).dinv p)
    (hB : ∀ p q, B (ix2 p q) = b q)
    (n : Fin 100000) (j : Fin C) :
    conv wfg wfs P (val_main_v17 (F := Ideal) x1) (val_main_v38 (F := Ideal) x1) wE Z wN B (ix2 n j)
      = edgeWeightedLayer (graphOf x1) id X W b n j := by
  have hsum : ∑ e ∈ (graphOf x1).inEdges n,
        P (ix2 (clampRow 100000 (by norm_num) (val_main_v17 (F := Ideal) x1 (ix2 e (0 : Fin 1)))) j) * wE (ix2 e j)
      = ∑ e ∈ (graphOf x1).inEdges n,
          lin X W ((graphOf x1).srcRow e) j * ((graphOf x1).dinv ((graphOf x1).srcRow e) * (graphOf x1).dinv ((graphOf x1).dstRow e)) :=
    Finset.sum_congr rfl fun e _ => by rw [srcRow_read, hP, hwE]
  rw [conv_read, inEdges_read, hsum, hZ, hP n j, hwN, hB, edgeWeightedLayer_id]

/-- The all-zero array a layer accumulates into, 128 columns. -/
theorem zeros128 (p : Fin 100000) (q : Fin 128) : val_main_v37 (F := Ideal) (ix2 p q) = 0 := by
  rw [val_main_v37_apply, val_main_cst_7_apply]; exact Ideal.ofBits_zero_f32

/-- The all-zero array a layer accumulates into, 100 columns. -/
theorem zeros100 (p : Fin 100000) (q : Fin 100) : val_main_v186 (F := Ideal) (ix2 p q) = 0 := by
  rw [val_main_v186_apply, val_main_cst_35_apply]; exact Ideal.ofBits_zero_f32

/-- A bias vector repeated along the rows, 128 columns. -/
theorem bias128 (x3 : (⟨S128, .f32⟩ : BufTy).Contents (Elt Ideal)) (p : Fin 100000) (q : Fin 128) :
    val_main_v46 (F := Ideal) x3 (ix2 p q) = vec x3 q := by
  rw [val_main_v46_apply, val_main_v45_apply]
  exact congrArg x3 (idx1_ext _ _ rfl)

/-- A bias vector repeated along the rows, 100 columns. -/
theorem bias100 (x11 : (⟨S100, .f32⟩ : BufTy).Contents (Elt Ideal)) (p : Fin 100000) (q : Fin 100) :
    val_main_v195 (F := Ideal) x11 (ix2 p q) = vec x11 q := by
  rw [val_main_v195_apply, val_main_v194_apply]
  exact congrArg x11 (idx1_ext _ _ rfl)

end Cert.ReferenceIdeal.RefValue

end
-- ==== Proof.RefStages.lean ====
/-
  The reference program's layers, one after the other.

  Each layer's product stage is the matrix product of the previous layer's result (the input array for the first) with
  the layer's weights, and each layer's last stage is the edge-weighted layer of the graph of `x1` applied to it. The first
  layer is followed by `max · 0`; the fifth has 100 columns; the result is the fifth layer's result times a 100 × 100 matrix
  plus a bias row.
-/
import proofs.«108103_j9363028705695_2_alg».proof.Proof.RefLayer

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.ValueIdx Cert.RowGatherScatter Cert.Gcn

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128x100, .f32⟩ : BufTy).Contents (Elt Ideal)) (x11 : (⟨S100, .f32⟩ : BufTy).Contents (Elt Ideal))
  (x12 : (⟨S100x100, .f32⟩ : BufTy).Contents (Elt Ideal)) (x13 : (⟨S100, .f32⟩ : BufTy).Contents (Elt Ideal))

/-! ## Layer 1 -/

theorem prod1 (p : Fin 100000) (q : Fin 128) : val_main_v11 (F := Ideal) x0 x2 (ix2 p q) = lin (mat x0) (mat x2) p q :=
  (val_main_v11_apply x0 x2 (ix2 p q)).trans
    (lin_of_sum x0 x2 (mat x0) (fun _ _ => rfl) _ _ p q (fun _ => rfl) (fun _ => rfl) (fun _ => rfl) (fun _ => rfl))

theorem shape1 : val_main_v47 (F := Ideal) x0 x1 x2 x3
    = conv gather_S100000x128_S1600000x1_S1600000x128_1_0_n_n_0_1_1128_wf scatter_S100000x128_S1600000x1_S1600000x128_1_0_0_1_wf
        (val_main_v11 (F := Ideal) x0 x2) (val_main_v17 (F := Ideal) x1) (val_main_v38 (F := Ideal) x1) (val_main_v35 (F := Ideal) x1)
        (val_main_v37 (F := Ideal)) (val_main_v42 (F := Ideal) x1) (val_main_v46 (F := Ideal) x3) := rfl

theorem stage47 (n : Fin 100000) (j : Fin 128) :
    val_main_v47 (F := Ideal) x0 x1 x2 x3 (ix2 n j) = edgeWeightedLayer (graphOf x1) id (mat x0) (mat x2) (vec x3) n j :=
  (congrFun (shape1 x0 x1 x2 x3) (ix2 n j)).trans
    (layer_read x1 _ _ _ _ _ _ _ (mat x0) (mat x2) (vec x3) (prod1 x0 x2) (edgeWeight128 x1) zeros128 (selfWeight128 x1)
      (bias128 x3) n j)

/-- The first layer with its activation. -/
theorem stage48 (n : Fin 100000) (j : Fin 128) :
    val_main_v48 (F := Ideal) x0 x1 x2 x3 (ix2 n j) = (edgeWeightedLayer (graphOf x1) relu (mat x0) (mat x2) (vec x3)) n j := by
  have hz : val_main_call0_v0 (F := Ideal) (ix2 n j) = 0 := by
    rw [val_main_call0_v0_apply, val_main_call0_cst_apply]; exact Ideal.ofBits_zero_f32
  rw [val_main_v48_apply, stage47, hz, edgeWeightedLayer_relu]
  rfl

/-! ## Layer 2 -/

theorem prod2 (p : Fin 100000) (q : Fin 128) :
    val_main_v49 (F := Ideal) x0 x1 x2 x3 x4 (ix2 p q) = lin (edgeWeightedLayer (graphOf x1) relu (mat x0) (mat x2) (vec x3)) (mat x4) p q :=
  (val_main_v49_apply x0 x1 x2 x3 x4 (ix2 p q)).trans
    (lin_of_sum (val_main_v48 (F := Ideal) x0 x1 x2 x3) x4 _ (stage48 x0 x1 x2 x3) _ _ p q (fun _ => rfl) (fun _ => rfl) (fun _ => rfl) (fun _ => rfl))

theorem shape2 : val_main_v85 (F := Ideal) x0 x1 x2 x3 x4 x5
    = conv gather_S100000x128_S1600000x1_S1600000x128_1_0_n_n_0_1_1128_wf scatter_S100000x128_S1600000x1_S1600000x128_1_0_0_1_wf
        (val_main_v49 (F := Ideal) x0 x1 x2 x3 x4) (val_main_v17 (F := Ideal) x1) (val_main_v38 (F := Ideal) x1) (val_main_v35 (F := Ideal) x1)
        (val_main_v37 (F := Ideal)) (val_main_v42 (F := Ideal) x1) (val_main_v46 (F := Ideal) x5) := rfl

theorem stage85 (n : Fin 100000) (j : Fin 128) :
    val_main_v85 (F := Ideal) x0 x1 x2 x3 x4 x5 (ix2 n j) = (edgeWeightedLayer (graphOf x1) id (edgeWeightedLayer (graphOf x1) relu (mat x0) (mat x2) (vec x3)) (mat x4) (vec x5)) n j :=
  (congrFun (shape2 x0 x1 x2 x3 x4 x5) (ix2 n j)).trans
    (layer_read x1 _ _ _ _ _ _ _ _ (mat x4) (vec x5) (prod2 x0 x1 x2 x3 x4) (edgeWeight128 x1) zeros128 (selfWeight128 x1)
      (bias128 x5) n j)

/-! ## Layer 3 -/

theorem prod3 (p : Fin 100000) (q : Fin 128) :
    val_main_v86 (F := Ideal) x0 x1 x2 x3 x4 x5 x6 (ix2 p q) = lin (edgeWeightedLayer (graphOf x1) id (edgeWeightedLayer (graphOf x1) relu (mat x0) (mat x2) (vec x3)) (mat x4) (vec x5)) (mat x6) p q :=
  (val_main_v86_apply x0 x1 x2 x3 x4 x5 x6 (ix2 p q)).trans
    (lin_of_sum (val_main_v85 (F := Ideal) x0 x1 x2 x3 x4 x5) x6 _ (stage85 x0 x1 x2 x3 x4 x5) _ _ p q (fun _ => rfl) (fun _ => rfl) (fun _ => rfl) (fun _ => rfl))

theorem shape3 : val_main_v122 (F := Ideal) x0 x1 x2 x3 x4 x5 x6 x7
    = conv gather_S100000x128_S1600000x1_S1600000x128_1_0_n_n_0_1_1128_wf scatter_S100000x128_S1600000x1_S1600000x128_1_0_0_1_wf
        (val_main_v86 (F := Ideal) x0 x1 x2 x3 x4 x5 x6) (val_main_v17 (F := Ideal) x1) (val_main_v38 (F := Ideal) x1) (val_main_v35 (F := Ideal) x1)
        (val_main_v37 (F := Ideal)) (val_main_v42 (F := Ideal) x1) (val_main_v46 (F := Ideal) x7) := rfl

theorem stage122 (n : Fin 100000) (j : Fin 128) :
    val_main_v122 (F := Ideal) x0 x1 x2 x3 x4 x5 x6 x7 (ix2 n j) = (edgeWeightedLayer (graphOf x1) id (edgeWeightedLayer (graphOf x1) id (edgeWeightedLayer (graphOf x1) relu (mat x0) (mat x2) (vec x3)) (mat x4) (vec x5)) (mat x6) (vec x7)) n j :=
  (congrFun (shape3 x0 x1 x2 x3 x4 x5 x6 x7) (ix2 n j)).trans
    (layer_read x1 _ _ _ _ _ _ _ _ (mat x6) (vec x7) (prod3 x0 x1 x2 x3 x4 x5 x6) (edgeWeight128 x1) zeros128 (selfWeight128 x1)
      (bias128 x7) n j)

/-! ## Layer 4 -/

theorem prod4 (p : Fin 100000) (q : Fin 128) :
    val_main_v123 (F := Ideal) x0 x1 x2 x3 x4 x5 x6 x7 x8 (ix2 p q) = lin (edgeWeightedLayer (graphOf x1) id (edgeWeightedLayer (graphOf x1) id (edgeWeightedLayer (graphOf x1) relu (mat x0) (mat x2) (vec x3)) (mat x4) (vec x5)) (mat x6) (vec x7)) (mat x8) p q :=
  (val_main_v123_apply x0 x1 x2 x3 x4 x5 x6 x7 x8 (ix2 p q)).trans
    (lin_of_sum (val_main_v122 (F := Ideal) x0 x1 x2 x3 x4 x5 x6 x7) x8 _ (stage122 x0 x1 x2 x3 x4 x5 x6 x7) _ _ p q (fun _ => rfl) (fun _ => rfl) (fun _ => rfl) (fun _ => rfl))

theorem shape4 : val_main_v159 (F := Ideal) x0 x1 x2 x3 x4 x5 x6 x7 x8 x9
    = conv gather_S100000x128_S1600000x1_S1600000x128_1_0_n_n_0_1_1128_wf scatter_S100000x128_S1600000x1_S1600000x128_1_0_0_1_wf
        (val_main_v123 (F := Ideal) x0 x1 x2 x3 x4 x5 x6 x7 x8) (val_main_v17 (F := Ideal) x1) (val_main_v38 (F := Ideal) x1) (val_main_v35 (F := Ideal) x1)
        (val_main_v37 (F := Ideal)) (val_main_v42 (F := Ideal) x1) (val_main_v46 (F := Ideal) x9) := rfl

/-- The four hidden layers. -/
theorem stage159 (n : Fin 100000) (j : Fin 128) :
    val_main_v159 (F := Ideal) x0 x1 x2 x3 x4 x5 x6 x7 x8 x9 (ix2 n j) = refHidden x0 x1 x2 x3 x4 x5 x6 x7 x8 x9 n j :=
  (congrFun (shape4 x0 x1 x2 x3 x4 x5 x6 x7 x8 x9) (ix2 n j)).trans
    (layer_read x1 _ _ _ _ _ _ _ _ (mat x8) (vec x9) (prod4 x0 x1 x2 x3 x4 x5 x6 x7 x8) (edgeWeight128 x1) zeros128 (selfWeight128 x1)
      (bias128 x9) n j)

/-! ## Layer 5: 100 columns -/

theorem prod5 (p : Fin 100000) (q : Fin 100) :
    val_main_v160 (F := Ideal) x0 x1 x2 x3 x4 x5 x6 x7 x8 x9 x10 (ix2 p q) = lin (refHidden x0 x1 x2 x3 x4 x5 x6 x7 x8 x9) (mat x10) p q :=
  (val_main_v160_apply x0 x1 x2 x3 x4 x5 x6 x7 x8 x9 x10 (ix2 p q)).trans
    (lin_of_sum (val_main_v159 (F := Ideal) x0 x1 x2 x3 x4 x5 x6 x7 x8 x9) x10 _ (stage159 x0 x1 x2 x3 x4 x5 x6 x7 x8 x9) _ _ p q (fun _ => rfl) (fun _ => rfl) (fun _ => rfl) (fun _ => rfl))

theorem shape5 : val_main_v196 (F := Ideal) x0 x1 x2 x3 x4 x5 x6 x7 x8 x9 x10 x11
    = conv gather_S100000x100_S1600000x1_S1600000x100_1_0_n_n_0_1_1100_wf scatter_S100000x100_S1600000x1_S1600000x100_1_0_0_1_wf
        (val_main_v160 (F := Ideal) x0 x1 x2 x3 x4 x5 x6 x7 x8 x9 x10) (val_main_v17 (F := Ideal) x1) (val_main_v38 (F := Ideal) x1) (val_main_v184 (F := Ideal) x1)
        (val_main_v186 (F := Ideal)) (val_main_v191 (F := Ideal) x1) (val_main_v195 (F := Ideal) x11) := rfl

theorem stage196 (n : Fin 100000) (j : Fin 100) :
    val_main_v196 (F := Ideal) x0 x1 x2 x3 x4 x5 x6 x7 x8 x9 x10 x11 (ix2 n j) = (edgeWeightedLayer (graphOf x1) id (refHidden x0 x1 x2 x3 x4 x5 x6 x7 x8 x9) (mat x10) (vec x11)) n j :=
  (congrFun (shape5 x0 x1 x2 x3 x4 x5 x6 x7 x8 x9 x10 x11) (ix2 n j)).trans
    (layer_read x1 _ _ _ _ _ _ _ _ (mat x10) (vec x11) (prod5 x0 x1 x2 x3 x4 x5 x6 x7 x8 x9 x10) (edgeWeight100 x1) zeros100 (selfWeight100 x1)
      (bias100 x11) n j)

/-! ## The final linear map -/

theorem stage200 (n : Fin 100000) (j : Fin 100) :
    val_main_v200 (F := Ideal) x0 x1 x2 x3 x4 x5 x6 x7 x8 x9 x10 x11 x12 x13 (ix2 n j) = final (edgeWeightedLayer (graphOf x1) id (refHidden x0 x1 x2 x3 x4 x5 x6 x7 x8 x9) (mat x10) (vec x11)) (mat x12) (vec x13) n j := by
  have hb : val_main_v199 (F := Ideal) x13 (ix2 n j) = vec x13 j := by
    rw [val_main_v199_apply, val_main_v198_apply]
    exact congrArg x13 (idx1_ext _ _ rfl)
  rw [val_main_v200_apply, hb, val_main_v197_apply]
  exact congrArg (fun s : EReal => s + vec x13 j)
    (lin_of_sum (val_main_v196 (F := Ideal) x0 x1 x2 x3 x4 x5 x6 x7 x8 x9 x10 x11) x12 _ (stage196 x0 x1 x2 x3 x4 x5 x6 x7 x8 x9 x10 x11) _ _ n j (fun _ => rfl) (fun _ => rfl) (fun _ => rfl) (fun _ => rfl))

end Cert.ReferenceIdeal.RefValue

end
-- ==== Proof.RefValue.lean ====
/-
  The reference program's result as one function of its fourteen argument arrays.

  Entry `(n, j)` of the result is the final linear map applied to the fifth edge-weighted layer over the four hidden
  layers, all over the graph read off the edge array: the network `refNet`. Every weakly fair execution of the program
  therefore ends with its result buffer holding `refNet` of the arguments' initial contents, the arguments unchanged.
-/
import proofs.«108103_j9363028705695_2_alg».proof.Proof.RefStages

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx Cert.Gcn

/-- The last stage of the program is the network. -/
theorem result_eq
    (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x100, .f32⟩ : BufTy).Contents (Elt Ideal)) (x11 : (⟨S100, .f32⟩ : BufTy).Contents (Elt Ideal))
    (x12 : (⟨S100x100, .f32⟩ : BufTy).Contents (Elt Ideal)) (x13 : (⟨S100, .f32⟩ : BufTy).Contents (Elt Ideal)) :
    val_main_v200 (F := Ideal) x0 x1 x2 x3 x4 x5 x6 x7 x8 x9 x10 x11 x12 x13 = refNet x0 x1 x2 x3 x4 x5 x6 x7 x8 x9 x10 x11 x12 x13 :=
  eq_arr2 _ _ fun n j => stage200 x0 x1 x2 x3 x4 x5 x6 x7 x8 x9 x10 x11 x12 x13 n j

/-- On every device, from any memory with zero counters: every weakly fair execution of the program terminates with
    its result the network of the arguments' initial contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v200)
        = refNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono
    (fun _ h c => ⟨(h c).1.trans ((val_main_v200_eq (F := Ideal) m c).trans (result_eq _ _ _ _ _ _ _ _ _ _ _ _ _ _)), (h c).2⟩)
    (Cert.ReferenceIdeal.Value.run (F := Ideal) m ρ)

end Cert.ReferenceIdeal.RefValue

end
-- ==== Proof.lean ====
/-
  A five-layer graph convolution network followed by a linear map: a kernel that scales the rows of `X·W` by the
  inverse square root of the node degrees BEFORE summing them over the incoming edges and once more after (in eleven
  regions, the last layer and the final map on a class axis widened from 100 to 128 by zeros), against a reference that
  puts the weight `dinv(src)·dinv(dst)` on every edge message and `dinv²` on the node's own row.

  At the exact values both compute one function of the fourteen argument arrays, `Cert.Gcn.refNet`: products commute
  and associate, the factor moved across the edge sum is nonnegative and finite (the inverse square root of a degree that
  is at least one), which is when multiplication distributes over a sum of arbitrary extended reals, and a zero column
  contributes `x · 0 = 0` whatever `x` is. No finiteness of the inputs is used.

  The three frames are the generated frame certificates of the two kernel programs and the reference's run with its
  result dropped; the idealization rewrote nothing, so the preservation claim is trivial; the algebraic claim pairs the
  kernel's run (Proof/KFinal.lean) with the reference's (Proof/RefValue.lean), both ending at `refNet` of arguments that agree.
-/
import proofs.«108103_j9363028705695_2_alg».proof.Defs
import proofs.«108103_j9363028705695_2_alg».proof.Proof.Gen.Kernel
import proofs.«108103_j9363028705695_2_alg».proof.Proof.Gen.Kernel.Skeleton
import proofs.«108103_j9363028705695_2_alg».proof.Proof.Gen.Kernel.Launch
import proofs.«108103_j9363028705695_2_alg».proof.Proof.Gen.Kernel.Points
import proofs.«108103_j9363028705695_2_alg».proof.Proof.Gen.Kernel.Frame
import proofs.«108103_j9363028705695_2_alg».proof.Proof.Gen.KernelIdeal
import proofs.«108103_j9363028705695_2_alg».proof.Proof.Gen.KernelIdeal.Skeleton
import proofs.«108103_j9363028705695_2_alg».proof.Proof.Gen.KernelIdeal.Launch
import proofs.«108103_j9363028705695_2_alg».proof.Proof.Gen.KernelIdeal.Points
import proofs.«108103_j9363028705695_2_alg».proof.Proof.Gen.KernelIdeal.Frame
import proofs.«108103_j9363028705695_2_alg».proof.Proof.Gen.ReferenceIdeal
import proofs.«108103_j9363028705695_2_alg».proof.Proof.Gen.ReferenceIdeal.Run
import proofs.«108103_j9363028705695_2_alg».proof.Proof.Gen.ReferenceIdeal.Read
import proofs.«108103_j9363028705695_2_alg».proof.Proof.Gen.Pre_finite_inputs
import proofs.«108103_j9363028705695_2_alg».proof.Proof.KFinal
import proofs.«108103_j9363028705695_2_alg».proof.Proof.RefValue
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the network of their arguments; the arguments agree. -/
theorem algebraic : Cert.algebraic_KernelIdeal_ReferenceIdeal := by
  intro m ρ m' ρ' _ hagree
  refine ⟨fun c => Cert.Gcn.refNet
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13)), Cert.KernelIdeal.Chain.run m ρ, ?_⟩
  refine (θ_run Cert.ReferenceIdeal.defs _ _).mono (fun r h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
